-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v107)) (v1 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_v105) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S100000x64 : Shape := ⟨2, ![100000, 64]⟩
abbrev S800000 : Shape := ⟨1, ![800000]⟩
abbrev S64x128 : Shape := ⟨2, ![64, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part5 {F : FTy → Type} [FloatOps F] (main_arg20 : FVec F S3 .f32) (main_arg21 : FVec F S128x3 .f32) (main_v83 : IVec S_ 1) (main_v84 : FVec F S128x3 .f32) (main_cst_32 : FVec F S_ .f32) : IVec S_ 1 :=
  let main_v85 : FVec F S128x3 .f32 := broadcastInDim S128x3 ![] bcast_S_S128x3 main_cst_32
  let main_v86 : IVec S128x3 1 := cmpf .olt main_v84 main_v85
  let main_c_33 : IVec S_ 1 := constantI S_ 1 1#1
  let main_v87 : IVec S_ 1 := (fun x v => Host.reduce IntOp.andi x v reducesTo_S128x3_S_d0_1 h_S_) main_v86 main_c_33
  let main_v88 : IVec S_ 1 := andi main_v83 main_v87
  let main_v89 : FVec F S3 .f32 := Host.absf main_arg20
  let main_cst_34 : FVec F S_ .f32 := constant S_ .f32 0x7F800000#32
  let main_v90 : FVec F S3 .f32 := broadcastInDim S3 ![] bcast_S_S3 main_cst_34
  let main_v91 : IVec S3 1 := cmpf .olt main_v89 main_v90
  let main_c_35 : IVec S_ 1 := constantI S_ 1 1#1
  let main_v92 : IVec S_ 1 := (fun x v => Host.reduce IntOp.andi x v reducesTo_S3_S_d0 h_S_) main_v91 main_c_35
  let main_v93 : IVec S_ 1 := andi main_v88 main_v92
  let main_v94 : FVec F S128x3 .f32 := Host.absf main_arg21
  let main_cst_36 : FVec F S_ .f32 := constant S_ .f32 0x7F800000#32
  let main_v95 : FVec F S128x3 .f32 := broadcastInDim S128x3 ![] bcast_S_S128x3 main_cst_36
  let main_v96 : IVec S128x3 1 := cmpf .olt main_v94 main_v95
  let main_c_37 : IVec S_ 1 := constantI S_ 1 1#1
  let main_v97 : IVec S_ 1 := (fun x v => Host.reduce IntOp.andi x v reducesTo_S128x3_S_d0_1 h_S_) main_v96 main_c_37
  let main_v98 : IVec S_ 1 := andi main_v93 main_v97
  main_v98

def fn_part4 {F : FTy → Type} [FloatOps F] (main_arg16 : FVec F S128x3 .f32) (main_arg17 : FVec F S3 .f32) (main_arg18 : FVec F S128x3 .f32) (main_arg19 : FVec F S128x3 .f32) (main_arg20 : FVec F S3 .f32) (main_arg21 : FVec F S128x3 .f32) (main_v63 : IVec S_ 1) (main_v67 : IVec S_ 1) : IVec S_ 1 :=
  let main_v68 : IVec S_ 1 := andi main_v63 main_v67
  let main_v69 : FVec F S128x3 .f32 := Host.absf main_arg16
  let main_cst_26 : FVec F S_ .f32 := constant S_ .f32 0x7F800000#32
  let main_v70 : FVec F S128x3 .f32 := broadcastInDim S128x3 ![] bcast_S_S128x3 main_cst_26
  let main_v71 : IVec S128x3 1 := cmpf .olt main_v69 main_v70
  let main_c_27 : IVec S_ 1 := constantI S_ 1 1#1
  let main_v72 : IVec S_ 1 := (fun x v => Host.reduce IntOp.andi x v reducesTo_S128x3_S_d0_1 h_S_) main_v71 main_c_27
  let main_v73 : IVec S_ 1 := andi main_v68 main_v72
  let main_v74 : FVec F S3 .f32 := Host.absf main_arg17
  let main_cst_28 : FVec F S_ .f32 := constant S_ .f32 0x7F800000#32
  let main_v75 : FVec F S3 .f32 := broadcastInDim S3 ![] bcast_S_S3 main_cst_28
  let main_v76 : IVec S3 1 := cmpf .olt main_v74 main_v75
  let main_c_29 : IVec S_ 1 := constantI S_ 1 1#1
  let main_v77 : IVec S_ 1 := (fun x v => Host.reduce IntOp.andi x v reducesTo_S3_S_d0 h_S_) main_v76 main_c_29
  let main_v78 : IVec S_ 1 := andi main_v73 main_v77
  let main_v79 : FVec F S128x3 .f32 := Host.absf main_arg18
  let main_cst_30 : FVec F S_ .f32 := constant S_ .f32 0x7F800000#32
  let main_v80 : FVec F S128x3 .f32 := broadcastInDim S128x3 ![] bcast_S_S128x3 main_cst_30
  let main_v81 : IVec S128x3 1 := cmpf .olt main_v79 main_v80
  let main_c_31 : IVec S_ 1 := constantI S_ 1 1#1
  let main_v82 : IVec S_ 1 := (fun x v => Host.reduce IntOp.andi x v reducesTo_S128x3_S_d0_1 h_S_) main_v81 main_c_31
  let main_v83 : IVec S_ 1 := andi main_v78 main_v82
  let main_v84 : FVec F S128x3 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S128x128 .f32) (main_arg14 : FVec F S128 .f32) (main_arg15 : FVec F S128x128 .f32) (main_arg16 : FVec F S128x3 .f32) (main_arg17 : FVec F S3 .f32) (main_arg18 : FVec F S128x3 .f32) (main_arg19 : FVec F S128x3 .f32) (main_arg20 : FVec F S3 .f32) (main_arg21 : FVec F S128x3 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_v63 main_v67

def fn_part2 {F : FTy → Type} [FloatOps F] (main_arg9 : FVec F S64x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x3 .f32) (main_arg17 : FVec F S3 .f32) (main_arg18 : FVec F S128x3 .f32) (main_arg19 : FVec F S128x3 .f32) (main_arg20 : FVec F S3 .f32) (main_arg21 : FVec F S128x3 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S64x128 .f32) (main_arg7 : FVec F S64x128 .f32) (main_arg8 : FVec F S128 .f32) (main_arg9 : FVec F S64x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x3 .f32) (main_arg17 : FVec F S3 .f32) (main_arg18 : FVec F S128x3 .f32) (main_arg19 : FVec F S128x3 .f32) (main_arg20 : FVec F S3 .f32) (main_arg21 : FVec F S128x3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S50000x64 .f32) (main_arg1 : FVec F S100000x64 .f32) (main_arg2 : IVec S800000 32) (main_arg3 : IVec S800000 32) (main_arg4 : FVec F S64x128 .f32) (main_arg5 : FVec F S128 .f32) (main_arg6 : FVec F S64x128 .f32) (main_arg7 : FVec F S64x128 .f32) (main_arg8 : FVec F S128 .f32) (main_arg9 : FVec F S64x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x3 .f32) (main_arg17 : FVec F S3 .f32) (main_arg18 : FVec F S128x3 .f32) (main_arg19 : FVec F S128x3 .f32) (main_arg20 : FVec F S3 .f32) (main_arg21 : FVec F S128x3 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x64 : Shape := ⟨2, ![50000, 64]⟩
abbrev S100000x64 : Shape := ⟨2, ![100000, 64]⟩
abbrev S800000 : Shape := ⟨1, ![800000]⟩
abbrev S64x128 : Shape := ⟨2, ![64, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩
abbrev S800000x1 : Shape := ⟨2, ![800000, 1]⟩
abbrev S800000x64 : Shape := ⟨2, ![800000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S50000x128 : Shape := ⟨2, ![50000, 128]⟩
abbrev S800000x128 : Shape := ⟨2, ![800000, 128]⟩
abbrev S100000x3 : Shape := ⟨2, ![100000, 3]⟩
abbrev S5000x3 : Shape := ⟨2, ![5000, 3]⟩
abbrev S50000x3 : Shape := ⟨2, ![50000, 3]⟩
abbrev S800000x3 : Shape := ⟨2, ![800000, 3]⟩
abbrev S50000x1 : Shape := ⟨2, ![50000, 1]⟩
abbrev S50000 : Shape := ⟨1, ![50000]⟩
abbrev S100000x1 : Shape := ⟨2, ![100000, 1]⟩
abbrev S100000 : Shape := ⟨1, ![100000]⟩
abbrev S1x3 : Shape := ⟨2, ![1, 3]⟩
abbrev S5000 : Shape := ⟨1, ![5000]⟩
abbrev S5000x1 : Shape := ⟨2, ![5000, 1]⟩

abbrev nBuf : Space → Nat
  | .hbm => 158
  | .vmem => 62
  | .smem => 0
  | _ => 0

abbrev hbmTy0_0 (i : Nat) : BufTy := match i % 128 with
  | 0 => ⟨S50000x64, .f32⟩
  | 1 => ⟨S100000x64, .f32⟩
  | 2 => ⟨S800000, .i32⟩
  | 3 => ⟨S800000, .i32⟩
  | 4 => ⟨S64x128, .f32⟩
  | 5 => ⟨S128, .f32⟩
  | 6 => ⟨S64x128, .f32⟩
  | 7 => ⟨S64x128, .f32⟩
  | 8 => ⟨S128, .f32⟩
  | 9 => ⟨S64x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x3, .f32⟩
  | 17 => ⟨S3, .f32⟩
  | 18 => ⟨S128x3, .f32⟩
  | 19 => ⟨S128x3, .f32⟩
  | 20 => ⟨S3, .f32⟩
  | 21 => ⟨S128x3, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S_, .f32⟩
  | 32 => ⟨S100000x64, .f32⟩
  | 33 => ⟨S800000x1, .i32⟩
  | 34 => ⟨S100000x64, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S1x128, .f32⟩
  | 49 => ⟨S100000x128, .f32⟩
  | 50 => ⟨S1x128, .f32⟩
  | 51 => ⟨S50000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S_, .f32⟩
  | 62 => ⟨S100000x128, .f32⟩
  | 63 => ⟨S800000x1, .i32⟩
  | 64 => ⟨S100000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S1x128, .f32⟩
  | 79 => ⟨S100000x128, .f32⟩
  | 80 => ⟨S100000x3, .f32⟩
  | 81 => ⟨S1x128, .f32⟩
  | 82 => ⟨S50000x128, .f32⟩
  | 83 => ⟨S50000x3, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x3, .f32⟩
  | 93 => ⟨S_, .f32⟩
  | 94 => ⟨S100000x3, .f32⟩
  | 95 => ⟨S800000x1, .i32⟩
  | 96 => ⟨S100000x3, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x3, .f32⟩
  | 106 => ⟨S_, .f32⟩
  | 107 => ⟨S50000x3, .f32⟩
  | 108 => ⟨S800000x1, .i32⟩
  | 109 => ⟨S50000x3, .f32⟩
  | 110 => ⟨S50000x1, .f32⟩
  | 111 => ⟨S50000, .f32⟩
  | 112 => ⟨S50000, .f32⟩
  | 113 => ⟨S_, .f32⟩
  | 114 => ⟨S50000, .f32⟩
  | 115 => ⟨S50000, .i1⟩
  | 116 => ⟨S50000x1, .f32⟩
  | 117 => ⟨S50000, .f32⟩
  | 118 => ⟨S50000, .f32⟩
  | 119 => ⟨S_, .f32⟩
  | 120 => ⟨S50000, .f32⟩
  | 121 => ⟨S50000, .i1⟩
  | 122 => ⟨S100000x1, .f32⟩
  | 123 => ⟨S100000, .f32⟩
  | 124 => ⟨S100000, .f32⟩
  | 125 => ⟨S_, .f32⟩
  | 126 => ⟨S100000, .f32⟩
  | 127 => ⟨S100000, .i1⟩
  | _ => ⟨S50000x64, .f32⟩

abbrev hbmTy0_1 (i : Nat) : BufTy := match i % 128 with
  | 0 => ⟨S100000x1, .f32⟩
  | 1 => ⟨S100000, .f32⟩
  | 2 => ⟨S100000, .f32⟩
  | 3 => ⟨S_, .f32⟩
  | 4 => ⟨S100000, .f32⟩
  | 5 => ⟨S100000, .i1⟩
  | 6 => ⟨S_, .i1⟩
  | 7 => ⟨S50000, .i1⟩
  | 8 => ⟨S_, .i1⟩
  | 9 => ⟨S100000, .i1⟩
  | 10 => ⟨S50000x1, .i1⟩
  | 11 => ⟨S50000x1, .i1⟩
  | 12 => ⟨S50000x1, .i1⟩
  | 13 => ⟨S50000x3, .i1⟩
  | 14 => ⟨S50000x3, .f32⟩
  | 15 => ⟨S_, .f32⟩
  | 16 => ⟨S50000x3, .f32⟩
  | 17 => ⟨S50000x3, .f32⟩
  | 18 => ⟨S100000x1, .i1⟩
  | 19 => ⟨S100000x1, .i1⟩
  | 20 => ⟨S100000x1, .i1⟩
  | 21 => ⟨S100000x3, .i1⟩
  | 22 => ⟨S100000x3, .f32⟩
  | 23 => ⟨S_, .f32⟩
  | 24 => ⟨S100000x3, .f32⟩
  | 25 => ⟨S100000x3, .f32⟩
  | 26 => ⟨S1x3, .f32⟩
  | 27 => ⟨S100000x3, .f32⟩
  | 28 => ⟨S1x3, .f32⟩
  | 29 => ⟨S50000x3, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S5000x128, .f32⟩
  | .local _ .vmem, ⟨8, _⟩ => ⟨S5000x128, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x128, .f32⟩
  | .local _ .vmem, ⟨14, _⟩ => ⟨S1x128, .f32⟩
  | .local _ .vmem, ⟨15, _⟩ => ⟨S64x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S128x3, .f32⟩
  | .local _ .vmem, ⟨26, _⟩ => ⟨S5000x128, .f32⟩
  | .local _ .vmem, ⟨27, _⟩ => ⟨S5000x128, .f32⟩
  | .local _ .vmem, ⟨28, _⟩ => ⟨S5000x3, .f32⟩
  | .local _ .vmem, ⟨29, _⟩ => ⟨S5000x3, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S128x3, .f32⟩
  | .local _ .vmem, ⟨38, _⟩ => ⟨S5000x128, .f32⟩
  | .local _ .vmem, ⟨39, _⟩ => ⟨S5000x128, .f32⟩
  | .local _ .vmem, ⟨40, _⟩ => ⟨S5000x3, .f32⟩
  | .local _ .vmem, ⟨41, _⟩ => ⟨S5000x3, .f32⟩
  | .local _ .vmem, ⟨42, _⟩ => ⟨S5000x3, .f32⟩
  | .local _ .vmem, ⟨43, _⟩ => ⟨S5000x3, .f32⟩
  | .local _ .vmem, ⟨44, _⟩ => ⟨S5000x128, .f32⟩
  | .local _ .vmem, ⟨45, _⟩ => ⟨S5000x128, .f32⟩
  | .local _ .vmem, ⟨46, _⟩ => ⟨S128x3, .f32⟩
  | .local _ .vmem, ⟨47, _⟩ => ⟨S1x3, .f32⟩
  | .local _ .vmem, ⟨48, _⟩ => ⟨S5000x3, .f32⟩
  | .local _ .vmem, ⟨49, _⟩ => ⟨S5000x3, .f32⟩
  | .local _ .vmem, ⟨50, _⟩ => ⟨S5000x3, .f32⟩
  | .local _ .vmem, ⟨51, _⟩ => ⟨S5000x3, .f32⟩
  | .local _ .vmem, ⟨52, _⟩ => ⟨S5000x3, .f32⟩
  | .local _ .vmem, ⟨53, _⟩ => ⟨S5000x3, .f32⟩
  | .local _ .vmem, ⟨54, _⟩ => ⟨S5000x128, .f32⟩
  | .local _ .vmem, ⟨55, _⟩ => ⟨S5000x128, .f32⟩
  | .local _ .vmem, ⟨56, _⟩ => ⟨S128x3, .f32⟩
  | .local _ .vmem, ⟨57, _⟩ => ⟨S1x3, .f32⟩
  | .local _ .vmem, ⟨58, _⟩ => ⟨S5000x3, .f32⟩
  | .local _ .vmem, ⟨59, _⟩ => ⟨S5000x3, .f32⟩
  | .local _ .vmem, ⟨60, _⟩ => ⟨S5000x3, .f32⟩
  | .local _ .vmem, ⟨61, _⟩ => ⟨S5000x3, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c_1 : Ref sig .tc := ⟨.hbm, 35, rfl⟩
abbrev main_v10 : Ref sig .tc := ⟨.hbm, 36, rfl⟩
abbrev main_v11 : Ref sig .tc := ⟨.hbm, 37, rfl⟩
abbrev main_c_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_4 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_6 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c_7 : Ref sig .tc := ⟨.hbm, 65, rfl⟩
abbrev main_v34 : Ref sig .tc := ⟨.hbm, 66, rfl⟩
abbrev main_v35 : Ref sig .tc := ⟨.hbm, 67, rfl⟩
abbrev main_c_8 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_9 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45_0 : Ref sig .tc := ⟨.hbm, 79, rfl⟩
abbrev main_v45_1 : Ref sig .tc := ⟨.hbm, 80, rfl⟩
abbrev main_v46 : Ref sig .tc := ⟨.hbm, 81, rfl⟩
abbrev main_v47_0 : Ref sig .tc := ⟨.hbm, 82, rfl⟩
abbrev main_v47_1 : Ref sig .tc := ⟨.hbm, 83, rfl⟩
abbrev main_c_10 : Ref sig .tc := ⟨.hbm, 84, rfl⟩
abbrev main_v48 : Ref sig .tc := ⟨.hbm, 85, rfl⟩
abbrev main_v49 : Ref sig .tc := ⟨.hbm, 86, rfl⟩
abbrev main_c_11 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_12 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_13 : Ref sig .tc := ⟨.hbm, 97, rfl⟩
abbrev main_v58 : Ref sig .tc := ⟨.hbm, 98, rfl⟩
abbrev main_v59 : Ref sig .tc := ⟨.hbm, 99, rfl⟩
abbrev main_c_14 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_15 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_16 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_17 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_18 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_19 : Ref sig .tc := ⟨.hbm, 131, rfl⟩
abbrev main_v86 : Ref sig .tc := ⟨.hbm, 132, rfl⟩
abbrev main_v87 : Ref sig .tc := ⟨.hbm, 133, rfl⟩
abbrev main_c_20 : Ref sig .tc := ⟨.hbm, 134, rfl⟩
abbrev main_v88 : Ref sig .tc := ⟨.hbm, 135, rfl⟩
abbrev main_c_21 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_22 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_23 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc3_stg7_0 : Ref sig .tc := ⟨.vmem, 40, rfl⟩
abbrev cc3_stg7_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg4_1 : Ref sig .tc := ⟨.vmem, 49, rfl⟩
abbrev cc4_stg5_0 : Ref sig .tc := ⟨.vmem, 50, rfl⟩
abbrev cc4_stg5_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg4_1 : Ref sig .tc := ⟨.vmem, 59, rfl⟩
abbrev cc5_stg5_0 : Ref sig .tc := ⟨.vmem, 60, rfl⟩
abbrev cc5_stg5_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc3_sem7_0 : DmaSem sig := 40
abbrev cc3_sem7_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem4_1 : DmaSem sig := 49
abbrev cc4_sem5_0 : DmaSem sig := 50
abbrev cc4_sem5_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem3_0 : DmaSem sig := 57
abbrev cc5_sem4_0 : DmaSem sig := 58
abbrev cc5_sem4_1 : DmaSem sig := 59
abbrev cc5_sem5_0 : DmaSem sig := 60
abbrev cc5_sem5_1 : DmaSem sig := 61

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x3 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x3 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x3 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x3 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x3 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x3 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x3 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x3 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x3 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x3 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x3 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x3 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x3 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S_S50000x64 : S_.BroadcastsInDim S50000x64 (![] : Fin 0 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x3_S128x3_0_0 : ∀ a, (![0, 0] : Fin 2 → Nat) a + S128x3.size a ≤ S128x3.size a
  h_S128x3 : 0 < S128x3.numel
  inb_S5000x3_S5000x3_0_0 : ∀ a, (![0, 0] : Fin 2 → Nat) a + S5000x3.size a ≤ S5000x3.size a
  h_S5000x3 : 0 < S5000x3.numel
  bcast_S_S100000x3 : S_.BroadcastsInDim S100000x3 (![] : Fin 0 → Fin S100000x3.rank)
  bcast_S_S50000x3 : S_.BroadcastsInDim S50000x3 (![] : Fin 0 → Fin S50000x3.rank)
  slices_S50000x64_S50000x1_0_61 : S50000x64.Slices ![0, 61] S50000x1
  shapeCasts_S50000x1_S50000 : S50000x1.ShapeCasts S50000
  bcast_S_S50000 : S_.BroadcastsInDim S50000 (![] : Fin 0 → Fin S50000.rank)
  slices_S50000x64_S50000x1_0_63 : S50000x64.Slices ![0, 63] S50000x1
  slices_S100000x64_S100000x1_0_61 : S100000x64.Slices ![0, 61] S100000x1
  shapeCasts_S100000x1_S100000 : S100000x1.ShapeCasts S100000
  bcast_S_S100000 : S_.BroadcastsInDim S100000 (![] : Fin 0 → Fin S100000.rank)
  slices_S100000x64_S100000x1_0_63 : S100000x64.Slices ![0, 63] S100000x1
  bcast_S50000_S50000x1_0 : S50000.BroadcastsInDim S50000x1 (![0] : Fin 1 → Fin S50000x1.rank)
  concatenates_S50000x1_S50000x1_S50000x1_S50000x3_d1 : Shape.Concatenates [S50000x1, S50000x1, S50000x1] S50000x3 1
  bcast_S100000_S100000x1_0 : S100000.BroadcastsInDim S100000x1 (![0] : Fin 1 → Fin S100000x1.rank)
  concatenates_S100000x1_S100000x1_S100000x1_S100000x3_d1 : Shape.Concatenates [S100000x1, S100000x1, S100000x1] S100000x3 1
  shapeCasts_S3_S1x3 : S3.ShapeCasts S1x3
  shapeCasts_S5000x3_S5000x3 : S5000x3.ShapeCasts S5000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  reduces_S5000x3_S5000 : S5000x3.Reduces [1] S5000
  shapeCasts_S5000_S5000x1 : S5000.ShapeCasts S5000x1
  broadcasts_S5000x1_S5000x3 : S5000x1.Broadcasts S5000x3
  gather_S50000x64_S800000x1_S800000x64_1_0_n_n_0_1_164_wf : GatherDims.WF S50000x64 S800000x1 S800000x64 [1] [0] [] [0] [] 1 ![1, 64]
  scatter_S100000x64_S800000x1_S800000x64_1_0_0_1_wf : ScatterDims.WF S100000x64 S800000x1 S800000x64 [1] [0] [0] 1
  gather_S100000x64_S800000x1_S800000x64_1_0_n_n_0_1_164_wf : GatherDims.WF S100000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S100000x128_S800000x1_S800000x128_1_0_0_1_wf : ScatterDims.WF S100000x128 S800000x1 S800000x128 [1] [0] [0] 1
  gather_S100000x128_S800000x1_S800000x128_1_0_n_n_0_1_1128_wf : GatherDims.WF S100000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x3_S5000x3_1_0_0_1_n_n_wf : DotDims.WF S5000x128 S128x3 S5000x3 [1] [0] [0] [1] [] []
  gather_S50000x3_S800000x1_S800000x3_1_0_n_n_0_1_13_wf : GatherDims.WF S50000x3 S800000x1 S800000x3 [1] [0] [] [0] [] 1 ![1, 3]
  scatter_S100000x3_S800000x1_S800000x3_1_0_0_1_wf : ScatterDims.WF S100000x3 S800000x1 S800000x3 [1] [0] [0] 1
  gather_S100000x3_S800000x1_S800000x3_1_0_n_n_0_1_13_wf : GatherDims.WF S100000x3 S800000x1 S800000x3 [1] [0] [] [0] [] 1 ![1, 3]
  scatter_S50000x3_S800000x1_S800000x3_1_0_0_1_wf : ScatterDims.WF S50000x3 S800000x1 S800000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x3.size a ≤ S128x3.size a
  hwx2_5 : ∀ i : grid2.Coords, EltTy.bits .f32 = 32 ∨ (Rect.block (s := S128x3) S128x3.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x3.size a ≤ S100000x3.size a
  hwx2_7 : ∀ i : grid2.Coords, EltTy.bits .f32 = 32 ∨ (Rect.block (s := S100000x3) S5000x3.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x3.size a ≤ S128x3.size a
  hwx3_5 : ∀ i : grid3.Coords, EltTy.bits .f32 = 32 ∨ (Rect.block (s := S128x3) S128x3.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x3.size a ≤ S50000x3.size a
  hwx3_7 : ∀ i : grid3.Coords, EltTy.bits .f32 = 32 ∨ (Rect.block (s := S50000x3) S5000x3.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x3.size a ≤ S100000x3.size a
  hwx4_0 : ∀ i : grid4.Coords, EltTy.bits .f32 = 32 ∨ (Rect.block (s := S100000x3) S5000x3.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x3.size a ≤ S128x3.size a
  hwx4_2 : ∀ i : grid4.Coords, EltTy.bits .f32 = 32 ∨ (Rect.block (s := S128x3) S128x3.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x3.size a ≤ S1x3.size a
  hwx4_3 : ∀ i : grid4.Coords, EltTy.bits .f32 = 32 ∨ (Rect.block (s := S1x3) S1x3.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x3.size a ≤ S100000x3.size a
  hwx4_4 : ∀ i : grid4.Coords, EltTy.bits .f32 = 32 ∨ (Rect.block (s := S100000x3) S5000x3.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x3.size a ≤ S100000x3.size a
  hwx4_5 : ∀ i : grid4.Coords, EltTy.bits .f32 = 32 ∨ (Rect.block (s := S100000x3) S5000x3.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x3.size a ≤ S50000x3.size a
  hwx5_0 : ∀ i : grid5.Coords, EltTy.bits .f32 = 32 ∨ (Rect.block (s := S50000x3) S5000x3.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x3.size a ≤ S128x3.size a
  hwx5_2 : ∀ i : grid5.Coords, EltTy.bits .f32 = 32 ∨ (Rect.block (s := S128x3) S128x3.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x3.size a ≤ S1x3.size a
  hwx5_3 : ∀ i : grid5.Coords, EltTy.bits .f32 = 32 ∨ (Rect.block (s := S1x3) S1x3.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x3.size a ≤ S50000x3.size a
  hwx5_4 : ∀ i : grid5.Coords, EltTy.bits .f32 = 32 ∨ (Rect.block (s := S50000x3) S5000x3.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x3.size a ≤ S50000x3.size a
  hwx5_5 : ∀ i : grid5.Coords, EltTy.bits .f32 = 32 ∨ (Rect.block (s := S50000x3) S5000x3.size (cc5_transform_5 i) (hinb5_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S100000x3_S800000x1_S800000x3_1_0_0_1 : ScatterDims S100000x3 S800000x1 S800000x3 where
  updateWindowDims := [1]
  insertedWindowDims := [0]
  scatterDimsToOperandDims := [0]
  indexVectorDim := 1
  wf := scatter_S100000x3_S800000x1_S800000x3_1_0_0_1_wf
def gather_S100000x3_S800000x1_S800000x3_1_0_n_n_0_1_13 : GatherDims S100000x3 S800000x1 S800000x3 where
  offsetDims := [1]
  collapsedSliceDims := [0]
  operandBatchingDims := []
  startIndicesBatchingDims := []
  startIndexMap := [0]
  indexVectorDim := 1
  sliceSizes := ![1, 3]
  wf := gather_S100000x3_S800000x1_S800000x3_1_0_n_n_0_1_13_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

abbrev win0_0 : Pipeline.Window sig grid0 :=
  Pipeline.Window.ofSpec (Memref.whole main_v9) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg19) S128x3.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v45_1) S5000x3.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v43) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg16) S128x3.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v47_0) S5000x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v47_1) S5000x3.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v57) S5000x3.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45_0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg18) S128x3.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v104) S1x3.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v103) S5000x3.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v105) S5000x3.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v67) S5000x3.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v47_0) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg21) S128x3.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v106) S1x3.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v96) S5000x3.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v107) S5000x3.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x64 : Shape := ⟨2, ![50000, 64]⟩
abbrev S100000x64 : Shape := ⟨2, ![100000, 64]⟩
abbrev S800000 : Shape := ⟨1, ![800000]⟩
abbrev S64x128 : Shape := ⟨2, ![64, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩
abbrev S800000x1 : Shape := ⟨2, ![800000, 1]⟩
abbrev S800000x64 : Shape := ⟨2, ![800000, 64]⟩
abbrev S100000x128 : Shape := ⟨2, ![100000, 128]⟩
abbrev S1x128 : Shape := ⟨2, ![1, 128]⟩
abbrev S50000x128 : Shape := ⟨2, ![50000, 128]⟩
abbrev S800000x128 : Shape := ⟨2, ![800000, 128]⟩
abbrev S100000x3 : Shape := ⟨2, ![100000, 3]⟩
abbrev S1x3 : Shape := ⟨2, ![1, 3]⟩
abbrev S50000x3 : Shape := ⟨2, ![50000, 3]⟩
abbrev S50000x1 : Shape := ⟨2, ![50000, 1]⟩
abbrev S50000 : Shape := ⟨1, ![50000]⟩
abbrev S100000x1 : Shape := ⟨2, ![100000, 1]⟩
abbrev S100000 : Shape := ⟨1, ![100000]⟩

abbrev nBuf : Space → Nat
  | .hbm => 220
  | .vmem => 0
  | .smem => 0
  | _ => 0

abbrev hbmTy0_0 (i : Nat) : BufTy := match i % 128 with
  | 0 => ⟨S50000x64, .f32⟩
  | 1 => ⟨S100000x64, .f32⟩
  | 2 => ⟨S800000, .i32⟩
  | 3 => ⟨S800000, .i32⟩
  | 4 => ⟨S64x128, .f32⟩
  | 5 => ⟨S128, .f32⟩
  | 6 => ⟨S64x128, .f32⟩
  | 7 => ⟨S64x128, .f32⟩
  | 8 => ⟨S128, .f32⟩
  | 9 => ⟨S64x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x3, .f32⟩
  | 17 => ⟨S3, .f32⟩
  | 18 => ⟨S128x3, .f32⟩
  | 19 => ⟨S128x3, .f32⟩
  | 20 => ⟨S3, .f32⟩
  | 21 => ⟨S128x3, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S_, .f32⟩
  | 32 => ⟨S100000x64, .f32⟩
  | 33 => ⟨S800000x1, .i32⟩
  | 34 => ⟨S100000x64, .f32⟩
  | 35 => ⟨S100000x128, .f32⟩
  | 36 => ⟨S1x128, .f32⟩
  | 37 => ⟨S100000x128, .f32⟩
  | 38 => ⟨S100000x128, .f32⟩
  | 39 => ⟨S100000x128, .f32⟩
  | 40 => ⟨S100000x128, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x64, .f32⟩
  | 50 => ⟨S_, .f32⟩
  | 51 => ⟨S50000x64, .f32⟩
  | 52 => ⟨S800000x1, .i32⟩
  | 53 => ⟨S50000x64, .f32⟩
  | 54 => ⟨S50000x128, .f32⟩
  | 55 => ⟨S1x128, .f32⟩
  | 56 => ⟨S50000x128, .f32⟩
  | 57 => ⟨S50000x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .f32⟩
  | 64 => ⟨S100000x128, .f32⟩
  | 65 => ⟨S100000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S_, .f32⟩
  | 76 => ⟨S100000x128, .f32⟩
  | 77 => ⟨S800000x1, .i32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S100000x128, .f32⟩
  | 84 => ⟨S100000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S_, .f32⟩
  | 108 => ⟨S100000x128, .f32⟩
  | 109 => ⟨S100000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S_, .f32⟩
  | 120 => ⟨S100000x128, .f32⟩
  | 121 => ⟨S800000x1, .i32⟩
  | 122 => ⟨S100000x128, .f32⟩
  | 123 => ⟨S100000x3, .f32⟩
  | 124 => ⟨S1x3, .f32⟩
  | 125 => ⟨S100000x3, .f32⟩
  | 126 => ⟨S100000x3, .f32⟩
  | 127 => ⟨S100000x3, .f32⟩
  | _ => ⟨S50000x64, .f32⟩

abbrev hbmTy0_1 (i : Nat) : BufTy := match i % 128 with
  | 0 => ⟨S100000x3, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S_, .f32⟩
  | 11 => ⟨S50000x128, .f32⟩
  | 12 => ⟨S800000x1, .i32⟩
  | 13 => ⟨S50000x128, .f32⟩
  | 14 => ⟨S50000x3, .f32⟩
  | 15 => ⟨S1x3, .f32⟩
  | 16 => ⟨S50000x3, .f32⟩
  | 17 => ⟨S50000x3, .f32⟩
  | 18 => ⟨S50000x3, .f32⟩
  | 19 => ⟨S50000x3, .f32⟩
  | 20 => ⟨S50000x1, .f32⟩
  | 21 => ⟨S50000, .f32⟩
  | 22 => ⟨S50000, .f32⟩
  | 23 => ⟨S_, .f32⟩
  | 24 => ⟨S50000, .f32⟩
  | 25 => ⟨S50000, .i1⟩
  | 26 => ⟨S50000x1, .f32⟩
  | 27 => ⟨S50000, .f32⟩
  | 28 => ⟨S50000, .f32⟩
  | 29 => ⟨S_, .f32⟩
  | 30 => ⟨S50000, .f32⟩
  | 31 => ⟨S50000, .i1⟩
  | 32 => ⟨S100000x1, .f32⟩
  | 33 => ⟨S100000, .f32⟩
  | 34 => ⟨S100000, .f32⟩
  | 35 => ⟨S_, .f32⟩
  | 36 => ⟨S100000, .f32⟩
  | 37 => ⟨S100000, .i1⟩
  | 38 => ⟨S100000x1, .f32⟩
  | 39 => ⟨S100000, .f32⟩
  | 40 => ⟨S100000, .f32⟩
  | 41 => ⟨S_, .f32⟩
  | 42 => ⟨S100000, .f32⟩
  | 43 => ⟨S100000, .i1⟩
  | 44 => ⟨S50000x3, .f32⟩
  | 45 => ⟨S_, .f32⟩
  | 46 => ⟨S50000, .f32⟩
  | 47 => ⟨S50000x1, .f32⟩
  | 48 => ⟨S50000x1, .f32⟩
  | 49 => ⟨S_, .f32⟩
  | 50 => ⟨S50000x1, .f32⟩
  | 51 => ⟨S50000x1, .f32⟩
  | 52 => ⟨S50000x3, .f32⟩
  | 53 => ⟨S50000x3, .f32⟩
  | 54 => ⟨S_, .f32⟩
  | 55 => ⟨S50000x3, .f32⟩
  | 56 => ⟨S50000x3, .f32⟩
  | 57 => ⟨S100000x3, .f32⟩
  | 58 => ⟨S_, .f32⟩
  | 59 => ⟨S100000, .f32⟩
  | 60 => ⟨S100000x1, .f32⟩
  | 61 => ⟨S100000x1, .f32⟩
  | 62 => ⟨S_, .f32⟩
  | 63 => ⟨S100000x1, .f32⟩
  | 64 => ⟨S100000x1, .f32⟩
  | 65 => ⟨S100000x3, .f32⟩
  | 66 => ⟨S100000x3, .f32⟩
  | 67 => ⟨S_, .f32⟩
  | 68 => ⟨S100000x3, .f32⟩
  | 69 => ⟨S100000x3, .f32⟩
  | 70 => ⟨S_, .i1⟩
  | 71 => ⟨S50000, .i1⟩
  | 72 => ⟨S_, .i1⟩
  | 73 => ⟨S100000, .i1⟩
  | 74 => ⟨S50000x1, .i1⟩
  | 75 => ⟨S50000x1, .i1⟩
  | 76 => ⟨S50000x1, .i1⟩
  | 77 => ⟨S50000x3, .i1⟩
  | 78 => ⟨S50000x3, .f32⟩
  | 79 => ⟨S_, .f32⟩
  | 80 => ⟨S50000x3, .f32⟩
  | 81 => ⟨S50000x3, .f32⟩
  | 82 => ⟨S50000x3, .f32⟩
  | 83 => ⟨S100000x1, .i1⟩
  | 84 => ⟨S100000x1, .i1⟩
  | 85 => ⟨S100000x1, .i1⟩
  | 86 => ⟨S100000x3, .i1⟩
  | 87 => ⟨S100000x3, .f32⟩
  | 88 => ⟨S_, .f32⟩
  | 89 => ⟨S100000x3, .f32⟩
  | 90 => ⟨S100000x3, .f32⟩
  | 91 => ⟨S100000x3, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c_1 : Ref sig .tc := ⟨.hbm, 41, rfl⟩
abbrev main_v16 : Ref sig .tc := ⟨.hbm, 42, rfl⟩
abbrev main_v17 : Ref sig .tc := ⟨.hbm, 43, rfl⟩
abbrev main_c_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_call0_cst : Ref sig .tc := ⟨.hbm, 60, rfl⟩
abbrev main_call0_v0 : Ref sig .tc := ⟨.hbm, 61, rfl⟩
abbrev main_v32 : Ref sig .tc := ⟨.hbm, 62, rfl⟩
abbrev main_call1_cst : Ref sig .tc := ⟨.hbm, 63, rfl⟩
abbrev main_call1_v0 : Ref sig .tc := ⟨.hbm, 64, rfl⟩
abbrev main_v33 : Ref sig .tc := ⟨.hbm, 65, rfl⟩
abbrev main_c_4 : Ref sig .tc := ⟨.hbm, 66, rfl⟩
abbrev main_v34 : Ref sig .tc := ⟨.hbm, 67, rfl⟩
abbrev main_v35 : Ref sig .tc := ⟨.hbm, 68, rfl⟩
abbrev main_c_5 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_6 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_7 : Ref sig .tc := ⟨.hbm, 85, rfl⟩
abbrev main_v50 : Ref sig .tc := ⟨.hbm, 86, rfl⟩
abbrev main_v51 : Ref sig .tc := ⟨.hbm, 87, rfl⟩
abbrev main_c_8 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_9 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_call2_cst : Ref sig .tc := ⟨.hbm, 104, rfl⟩
abbrev main_call2_v0 : Ref sig .tc := ⟨.hbm, 105, rfl⟩
abbrev main_v66 : Ref sig .tc := ⟨.hbm, 106, rfl⟩
abbrev main_call3_cst : Ref sig .tc := ⟨.hbm, 107, rfl⟩
abbrev main_call3_v0 : Ref sig .tc := ⟨.hbm, 108, rfl⟩
abbrev main_v67 : Ref sig .tc := ⟨.hbm, 109, rfl⟩
abbrev main_c_10 : Ref sig .tc := ⟨.hbm, 110, rfl⟩
abbrev main_v68 : Ref sig .tc := ⟨.hbm, 111, rfl⟩
abbrev main_v69 : Ref sig .tc := ⟨.hbm, 112, rfl⟩
abbrev main_c_11 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_12 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_c_13 : Ref sig .tc := ⟨.hbm, 129, rfl⟩
abbrev main_v84 : Ref sig .tc := ⟨.hbm, 130, rfl⟩
abbrev main_v85 : Ref sig .tc := ⟨.hbm, 131, rfl⟩
abbrev main_c_14 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_15 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_16 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_17 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_18 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_19 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_20 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_21 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_22 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_23 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_24 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_25 : Ref sig .tc := ⟨.hbm, 195, rfl⟩
abbrev main_v138 : Ref sig .tc := ⟨.hbm, 196, rfl⟩
abbrev main_v139 : Ref sig .tc := ⟨.hbm, 197, rfl⟩
abbrev main_c_26 : Ref sig .tc := ⟨.hbm, 198, rfl⟩
abbrev main_v140 : Ref sig .tc := ⟨.hbm, 199, rfl⟩
abbrev main_c_27 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_cst_28 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_cst_29 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S50000x64 : S_.BroadcastsInDim S50000x64 (![] : Fin 0 → Fin S50000x64.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S100000x128 : S_.BroadcastsInDim S100000x128 (![] : Fin 0 → Fin S100000x128.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S1x3_S50000x3_0_1 : S1x3.BroadcastsInDim S50000x3 (![0, 1] : Fin 2 → Fin S50000x3.rank)
  slices_S50000x64_S50000x1_0_61 : S50000x64.Slices ![0, 61] S50000x1
  shapeCasts_S50000x1_S50000 : S50000x1.ShapeCasts S50000
  bcast_S_S50000 : S_.BroadcastsInDim S50000 (![] : Fin 0 → Fin S50000.rank)
  slices_S50000x64_S50000x1_0_63 : S50000x64.Slices ![0, 63] S50000x1
  slices_S100000x64_S100000x1_0_61 : S100000x64.Slices ![0, 61] S100000x1
  shapeCasts_S100000x1_S100000 : S100000x1.ShapeCasts S100000
  bcast_S_S100000 : S_.BroadcastsInDim S100000 (![] : Fin 0 → Fin S100000.rank)
  slices_S100000x64_S100000x1_0_63 : S100000x64.Slices ![0, 63] S100000x1
  reducesTo_S50000x3_S50000_d1 : S50000x3.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  bcast_S_S50000x3 : S_.BroadcastsInDim S50000x3 (![] : Fin 0 → Fin S50000x3.rank)
  reducesTo_S100000x3_S100000_d1 : S100000x3.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x3_0_1 : S100000x1.BroadcastsInDim S100000x3 (![0, 1] : Fin 2 → Fin S100000x3.rank)
  bcast_S_S100000x3 : S_.BroadcastsInDim S100000x3 (![] : Fin 0 → Fin S100000x3.rank)
  concatenates_S50000x1_S50000x1_S50000x1_S50000x3_d1 : Shape.Concatenates [S50000x1, S50000x1, S50000x1] S50000x3 1
  concatenates_S100000x1_S100000x1_S100000x1_S100000x3_d1 : Shape.Concatenates [S100000x1, S100000x1, S100000x1] S100000x3 1
  gather_S50000x64_S800000x1_S800000x64_1_0_n_n_0_1_164_wf : GatherDims.WF S50000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x128_S100000x128_1_0_0_1_n_n_wf : DotDims.WF S100000x64 S64x128 S100000x128 [1] [0] [0] [1] [] []
  gather_S100000x64_S800000x1_S800000x64_1_0_n_n_0_1_164_wf : GatherDims.WF S100000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S100000x128_S128x3_S100000x3_1_0_0_1_n_n_wf : DotDims.WF S100000x128 S128x3 S100000x3 [1] [0] [0] [1] [] []
  dot_S50000x128_S128x3_S50000x3_1_0_0_1_n_n_wf : DotDims.WF S50000x128 S128x3 S50000x3 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.K.Region0.lean ====
import proofs.«171555_j63479616635263_2_alg».proof.Proof.Gen.Kernel.Launch
import proofs.«171555_j63479616635263_2_alg».proof.Proof.Gen.Kernel.Skeleton
import proofs.«171555_j63479616635263_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel launch 0: one grid point's work, and the launch's bookkeeping

At the buffer contents `V` the launch is entered with: the block of each operand a grid point sees, what the
body leaves in each result's staging buffer as a function of those blocks (one whole-block store per result), the
body's Hoare triple, and the per-point record (arrays, buffers after the body, invariant) the launch theorem consumes.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, whether or not it was fetched there (an unfetched
    block's index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, whether or not it was fetched there (an unfetched
    block's index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, whether or not it was fetched there (an unfetched
    block's index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, whether or not it was fetched there (an unfetched
    block's index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, whether or not it was fetched there (an unfetched
    block's index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev rc0_S5000x64 : Rect S5000x64 := (Rect.unit (s := S5000x64) ![0, 0] S5000x64.size inb_S5000x64_S5000x64_0_0)
abbrev rc0_S64x128 : Rect S64x128 := (Rect.unit (s := S64x128) ![0, 0] S64x128.size inb_S64x128_S64x128_0_0)
abbrev rc0_S1x128 : Rect S1x128 := (Rect.unit (s := S1x128) ![0, 0] S1x128.size inb_S1x128_S1x128_0_0)
abbrev rc0_S5000x128 : Rect S5000x128 := (Rect.unit (s := S5000x128) ![0, 0] S5000x128.size inb_S5000x128_S5000x128_0_0)

/-- Result window 5's staging buffer after the body, from the operand blocks: its one whole-block store. -/
def out0_5 (x0 : Vec F S5000x64 .f32) (x1 : Vec F S5000x64 .f32) (x2 : Vec F S64x128 .f32) (x3 : Vec F S1x128 .f32) (x4 : Vec F S64x128 .f32) : Vec F S5000x128 .f32 :=
  View.canon [⟨rc0_S5000x128, k0_pay1 (View.ld x0 rc0_S5000x64) (View.ld x1 rc0_S5000x64) (View.ld x2 rc0_S64x128) (View.ld x4 rc0_S64x128) (View.ld x3 rc0_S1x128)⟩]

/-- The one store covers the buffer. -/
theorem cover0_5 (p0 : Vec F S5000x128 .f32) (y : S5000x128.Idx) :
    ∃ pc ∈ ([⟨rc0_S5000x128, p0⟩] : List (View.Piece (Elt F) S5000x128 .f32)), y ∈ pc.1.set :=
  View.cover_of_tiled [⟨rc0_S5000x128, p0⟩] S5000x128.size (by rfl) y

set_option maxHeartbeats 4000000 in
/-- The body on whole staging buffers, the operands' at contents `x…` and the results' at anything, runs to the
    continuation with the operands' as they were and each result's at `out0_…` of the operands'. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S64x128 .f32) (harg5 : arg5.IsWhole) (arg6 : Memref sig .tc .vmem S5000x128 .f32) (harg6 : arg6.IsWhole)
    (x0 : Vec F S5000x64 .f32) (x1 : Vec F S5000x64 .f32) (x2 : Vec F S64x128 .f32) (x3 : Vec F S1x128 .f32) (x4 : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__gc_kernel i arg1 harg1 arg2 harg2 arg3 harg3 arg4 harg4 arg5 harg5 arg6 harg6) K := by
  simp only [cc0__gc_kernel_eq_skeleton]; unfold cc0__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The launch's per-point record on core `c`: the arrays as the launch finds them; after the body at point `t` each
    operand's buffer at its block and each result's at `out0_…` of the operand blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the operands' buffers hold their blocks, so `sound_kernel0` applies; the invariant
    passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch theorem's obligation on the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
import proofs.«171555_j63479616635263_2_alg».proof.Proof.Gen.Kernel.Launch
import proofs.«171555_j63479616635263_2_alg».proof.Proof.Gen.Kernel.Skeleton
import proofs.«171555_j63479616635263_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel launch 1: one grid point's work, and the launch's bookkeeping

At the buffer contents `V` the launch is entered with: the block of each operand a grid point sees, what the
body leaves in each result's staging buffer as a function of those blocks (one whole-block store per result), the
body's Hoare triple, and the per-point record (arrays, buffers after the body, invariant) the launch theorem consumes.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, whether or not it was fetched there (an unfetched
    block's index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input's current staging buffer holds its block at every point, whether or not it was fetched there (an unfetched
    block's index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input's current staging buffer holds its block at every point, whether or not it was fetched there (an unfetched
    block's index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input's current staging buffer holds its block at every point, whether or not it was fetched there (an unfetched
    block's index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input's current staging buffer holds its block at every point, whether or not it was fetched there (an unfetched
    block's index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rc1_S5000x64 : Rect S5000x64 := (Rect.unit (s := S5000x64) ![0, 0] S5000x64.size inb_S5000x64_S5000x64_0_0)
abbrev rc1_S64x128 : Rect S64x128 := (Rect.unit (s := S64x128) ![0, 0] S64x128.size inb_S64x128_S64x128_0_0)
abbrev rc1_S1x128 : Rect S1x128 := (Rect.unit (s := S1x128) ![0, 0] S1x128.size inb_S1x128_S1x128_0_0)
abbrev rc1_S5000x128 : Rect S5000x128 := (Rect.unit (s := S5000x128) ![0, 0] S5000x128.size inb_S5000x128_S5000x128_0_0)

/-- Result window 5's staging buffer after the body, from the operand blocks: its one whole-block store. -/
def out1_5 (x0 : Vec F S5000x64 .f32) (x1 : Vec F S5000x64 .f32) (x2 : Vec F S64x128 .f32) (x3 : Vec F S1x128 .f32) (x4 : Vec F S64x128 .f32) : Vec F S5000x128 .f32 :=
  View.canon [⟨rc1_S5000x128, k1_pay1 (View.ld x0 rc1_S5000x64) (View.ld x1 rc1_S5000x64) (View.ld x2 rc1_S64x128) (View.ld x4 rc1_S64x128) (View.ld x3 rc1_S1x128)⟩]

/-- The one store covers the buffer. -/
theorem cover1_5 (p0 : Vec F S5000x128 .f32) (y : S5000x128.Idx) :
    ∃ pc ∈ ([⟨rc1_S5000x128, p0⟩] : List (View.Piece (Elt F) S5000x128 .f32)), y ∈ pc.1.set :=
  View.cover_of_tiled [⟨rc1_S5000x128, p0⟩] S5000x128.size (by rfl) y

set_option maxHeartbeats 4000000 in
/-- The body on whole staging buffers, the operands' at contents `x…` and the results' at anything, runs to the
    continuation with the operands' as they were and each result's at `out1_…` of the operands'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S64x128 .f32) (harg5 : arg5.IsWhole) (arg6 : Memref sig .tc .vmem S5000x128 .f32) (harg6 : arg6.IsWhole)
    (x0 : Vec F S5000x64 .f32) (x1 : Vec F S5000x64 .f32) (x2 : Vec F S64x128 .f32) (x3 : Vec F S1x128 .f32) (x4 : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__gc_kernel i arg1 harg1 arg2 harg2 arg3 harg3 arg4 harg4 arg5 harg5 arg6 harg6) K := by
  simp only [cc1__gc_kernel_eq_skeleton]; unfold cc1__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The launch's per-point record on core `c`: the arrays as the launch finds them; after the body at point `t` each
    operand's buffer at its block and each result's at `out1_…` of the operand blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point: the operands' buffers hold their blocks, so `sound_kernel1` applies; the invariant
    passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch theorem's obligation on the body, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
import proofs.«171555_j63479616635263_2_alg».proof.Proof.Gen.Kernel.Launch
import proofs.«171555_j63479616635263_2_alg».proof.Proof.Gen.Kernel.Skeleton
import proofs.«171555_j63479616635263_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel launch 2: one grid point's work, and the launch's bookkeeping

At the buffer contents `V` the launch is entered with: the block of each operand a grid point sees, what the
body leaves in each result's staging buffer as a function of those blocks (one whole-block store per result), the
body's Hoare triple, and the per-point record (arrays, buffers after the body, invariant) the launch theorem consumes.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's current staging buffer holds its block at every point, whether or not it was fetched there (an unfetched
    block's index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input's current staging buffer holds its block at every point, whether or not it was fetched there (an unfetched
    block's index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input's current staging buffer holds its block at every point, whether or not it was fetched there (an unfetched
    block's index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input's current staging buffer holds its block at every point, whether or not it was fetched there (an unfetched
    block's index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input's current staging buffer holds its block at every point, whether or not it was fetched there (an unfetched
    block's index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- An input's current staging buffer holds its block at every point, whether or not it was fetched there (an unfetched
    block's index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev rc2_S5000x128 : Rect S5000x128 := (Rect.unit (s := S5000x128) ![0, 0] S5000x128.size inb_S5000x128_S5000x128_0_0)
abbrev rc2_S128x128 : Rect S128x128 := (Rect.unit (s := S128x128) ![0, 0] S128x128.size inb_S128x128_S128x128_0_0)
abbrev rc2_S1x128 : Rect S1x128 := (Rect.unit (s := S1x128) ![0, 0] S1x128.size inb_S1x128_S1x128_0_0)
abbrev rc2_S128x3 : Rect S128x3 := (Rect.unit (s := S128x3) ![0, 0] S128x3.size inb_S128x3_S128x3_0_0)
abbrev rc2_S5000x3 : Rect S5000x3 := (Rect.unit (s := S5000x3) ![0, 0] S5000x3.size inb_S5000x3_S5000x3_0_0)

/-- Result window 6's staging buffer after the body, from the operand blocks: its one whole-block store. -/
def out2_6 (x0 : Vec F S5000x128 .f32) (x1 : Vec F S5000x128 .f32) (x2 : Vec F S128x128 .f32) (x3 : Vec F S1x128 .f32) (x4 : Vec F S128x128 .f32) (x5 : Vec F S128x3 .f32) : Vec F S5000x128 .f32 :=
  View.canon [⟨rc2_S5000x128, k2_pay1 (View.ld x0 rc2_S5000x128) (View.ld x1 rc2_S5000x128) (View.ld x2 rc2_S128x128) (View.ld x4 rc2_S128x128) (View.ld x3 rc2_S1x128)⟩]

/-- The one store covers the buffer. -/
theorem cover2_6 (p0 : Vec F S5000x128 .f32) (y : S5000x128.Idx) :
    ∃ pc ∈ ([⟨rc2_S5000x128, p0⟩] : List (View.Piece (Elt F) S5000x128 .f32)), y ∈ pc.1.set :=
  View.cover_of_tiled [⟨rc2_S5000x128, p0⟩] S5000x128.size (by rfl) y

/-- Result window 7's staging buffer after the body, from the operand blocks: its one whole-block store. -/
def out2_7 (x0 : Vec F S5000x128 .f32) (x1 : Vec F S5000x128 .f32) (x2 : Vec F S128x128 .f32) (x3 : Vec F S1x128 .f32) (x4 : Vec F S128x128 .f32) (x5 : Vec F S128x3 .f32) : Vec F S5000x3 .f32 :=
  View.canon [⟨rc2_S5000x3, k2_pay2 (View.ld x0 rc2_S5000x128) (View.ld x1 rc2_S5000x128) (View.ld x2 rc2_S128x128) (View.ld x4 rc2_S128x128) (View.ld x5 rc2_S128x3) (View.ld x3 rc2_S1x128)⟩]

/-- The one store covers the buffer. -/
theorem cover2_7 (p0 : Vec F S5000x3 .f32) (y : S5000x3.Idx) :
    ∃ pc ∈ ([⟨rc2_S5000x3, p0⟩] : List (View.Piece (Elt F) S5000x3 .f32)), y ∈ pc.1.set :=
  View.cover_of_tiled [⟨rc2_S5000x3, p0⟩] S5000x3.size (by rfl) y

set_option maxHeartbeats 4000000 in
/-- The body on whole staging buffers, the operands' at contents `x…` and the results' at anything, runs to the
    continuation with the operands' as they were and each result's at `out2_…` of the operands'. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x3 .f32) (harg6 : arg6.IsWhole) (arg7 : Memref sig .tc .vmem S5000x128 .f32) (harg7 : arg7.IsWhole) (arg8 : Memref sig .tc .vmem S5000x3 .f32) (harg8 : arg8.IsWhole)
    (x0 : Vec F S5000x128 .f32) (x1 : Vec F S5000x128 .f32) (x2 : Vec F S128x128 .f32) (x3 : Vec F S1x128 .f32) (x4 : Vec F S128x128 .f32) (x5 : Vec F S128x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__gc_proj_kernel i arg1 harg1 arg2 harg2 arg3 harg3 arg4 harg4 arg5 harg5 arg6 harg6 arg7 harg7 arg8 harg8) K := by
  simp only [cc2__gc_proj_kernel_eq_skeleton]; unfold cc2__gc_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-- The launch's per-point record on core `c`: the arrays as the launch finds them; after the body at point `t` each
    operand's buffer at its block and each result's at `out2_…` of the operand blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4000000 in
/-- The body at any point: the operands' buffers hold their blocks, so `sound_kernel2` applies; the invariant
    passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's obligation on the body, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
import proofs.«171555_j63479616635263_2_alg».proof.Proof.Gen.Kernel.Launch
import proofs.«171555_j63479616635263_2_alg».proof.Proof.Gen.Kernel.Skeleton
import proofs.«171555_j63479616635263_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel launch 3: one grid point's work, and the launch's bookkeeping

At the buffer contents `V` the launch is entered with: the block of each operand a grid point sees, what the
body leaves in each result's staging buffer as a function of those blocks (one whole-block store per result), the
body's Hoare triple, and the per-point record (arrays, buffers after the body, invariant) the launch theorem consumes.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's current staging buffer holds its block at every point, whether or not it was fetched there (an unfetched
    block's index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input's current staging buffer holds its block at every point, whether or not it was fetched there (an unfetched
    block's index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input's current staging buffer holds its block at every point, whether or not it was fetched there (an unfetched
    block's index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input's current staging buffer holds its block at every point, whether or not it was fetched there (an unfetched
    block's index has not moved). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input's current staging buffer holds its block at every point, whether or not it was fetched there (an unfetched
    block's index has not moved). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- An input's current staging buffer holds its block at every point, whether or not it was fetched there (an unfetched
    block's index has not moved). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

abbrev rc3_S5000x128 : Rect S5000x128 := (Rect.unit (s := S5000x128) ![0, 0] S5000x128.size inb_S5000x128_S5000x128_0_0)
abbrev rc3_S128x128 : Rect S128x128 := (Rect.unit (s := S128x128) ![0, 0] S128x128.size inb_S128x128_S128x128_0_0)
abbrev rc3_S1x128 : Rect S1x128 := (Rect.unit (s := S1x128) ![0, 0] S1x128.size inb_S1x128_S1x128_0_0)
abbrev rc3_S128x3 : Rect S128x3 := (Rect.unit (s := S128x3) ![0, 0] S128x3.size inb_S128x3_S128x3_0_0)
abbrev rc3_S5000x3 : Rect S5000x3 := (Rect.unit (s := S5000x3) ![0, 0] S5000x3.size inb_S5000x3_S5000x3_0_0)

/-- Result window 6's staging buffer after the body, from the operand blocks: its one whole-block store. -/
def out3_6 (x0 : Vec F S5000x128 .f32) (x1 : Vec F S5000x128 .f32) (x2 : Vec F S128x128 .f32) (x3 : Vec F S1x128 .f32) (x4 : Vec F S128x128 .f32) (x5 : Vec F S128x3 .f32) : Vec F S5000x128 .f32 :=
  View.canon [⟨rc3_S5000x128, k3_pay1 (View.ld x0 rc3_S5000x128) (View.ld x1 rc3_S5000x128) (View.ld x2 rc3_S128x128) (View.ld x4 rc3_S128x128) (View.ld x3 rc3_S1x128)⟩]

/-- The one store covers the buffer. -/
theorem cover3_6 (p0 : Vec F S5000x128 .f32) (y : S5000x128.Idx) :
    ∃ pc ∈ ([⟨rc3_S5000x128, p0⟩] : List (View.Piece (Elt F) S5000x128 .f32)), y ∈ pc.1.set :=
  View.cover_of_tiled [⟨rc3_S5000x128, p0⟩] S5000x128.size (by rfl) y

/-- Result window 7's staging buffer after the body, from the operand blocks: its one whole-block store. -/
def out3_7 (x0 : Vec F S5000x128 .f32) (x1 : Vec F S5000x128 .f32) (x2 : Vec F S128x128 .f32) (x3 : Vec F S1x128 .f32) (x4 : Vec F S128x128 .f32) (x5 : Vec F S128x3 .f32) : Vec F S5000x3 .f32 :=
  View.canon [⟨rc3_S5000x3, k3_pay2 (View.ld x0 rc3_S5000x128) (View.ld x1 rc3_S5000x128) (View.ld x2 rc3_S128x128) (View.ld x4 rc3_S128x128) (View.ld x5 rc3_S128x3) (View.ld x3 rc3_S1x128)⟩]

/-- The one store covers the buffer. -/
theorem cover3_7 (p0 : Vec F S5000x3 .f32) (y : S5000x3.Idx) :
    ∃ pc ∈ ([⟨rc3_S5000x3, p0⟩] : List (View.Piece (Elt F) S5000x3 .f32)), y ∈ pc.1.set :=
  View.cover_of_tiled [⟨rc3_S5000x3, p0⟩] S5000x3.size (by rfl) y

set_option maxHeartbeats 4000000 in
/-- The body on whole staging buffers, the operands' at contents `x…` and the results' at anything, runs to the
    continuation with the operands' as they were and each result's at `out3_…` of the operands'. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x3 .f32) (harg6 : arg6.IsWhole) (arg7 : Memref sig .tc .vmem S5000x128 .f32) (harg7 : arg7.IsWhole) (arg8 : Memref sig .tc .vmem S5000x3 .f32) (harg8 : arg8.IsWhole)
    (x0 : Vec F S5000x128 .f32) (x1 : Vec F S5000x128 .f32) (x2 : Vec F S128x128 .f32) (x3 : Vec F S1x128 .f32) (x4 : Vec F S128x128 .f32) (x5 : Vec F S128x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5) ∗ owns (c : Thread nD τ) arg8 fullShare (out3_7 x0 x1 x2 x3 x4 x5)) -∗ K ⟨⟩))
      ⊢ wp frame (wpE (defs₀ (F := F)) Variants.none c none) E (cc3__gc_proj_kernel i arg1 harg1 arg2 harg2 arg3 harg3 arg4 harg4 arg5 harg5 arg6 harg6 arg7 harg7 arg8 harg8) K := by
  simp only [cc3__gc_proj_kernel_eq_skeleton]; unfold cc3__gc_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover3_6 _)
  iexists _; isplitr
  swap; · iexact H7
  ipureintro
  exact View.read_writes_eq_canon _ _ _ (cover3_7 _)

/-- The launch's per-point record on core `c`: the arrays as the launch finds them; after the body at point `t` each
    operand's buffer at its block and each result's at `out3_…` of the operand blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 4000000 in
/-- The body at any point: the operands' buffers hold their blocks, so `sound_kernel3` applies; the invariant
    passes through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's obligation on the body, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Region4.lean ====
import proofs.«171555_j63479616635263_2_alg».proof.Proof.Gen.Kernel.Launch
import proofs.«171555_j63479616635263_2_alg».proof.Proof.Gen.Kernel.Skeleton
import proofs.«171555_j63479616635263_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel launch 4: one grid point's work, and the launch's bookkeeping

At the buffer contents `V` the launch is entered with: the block of each operand a grid point sees, what the
body leaves in each result's staging buffer as a function of those blocks (one whole-block store per result), the
body's Hoare triple, and the per-point record (arrays, buffers after the body, invariant) the launch theorem consumes.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input's current staging buffer holds its block at every point, whether or not it was fetched there (an unfetched
    block's index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input's current staging buffer holds its block at every point, whether or not it was fetched there (an unfetched
    block's index has not moved). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input's current staging buffer holds its block at every point, whether or not it was fetched there (an unfetched
    block's index has not moved). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- An input's current staging buffer holds its block at every point, whether or not it was fetched there (an unfetched
    block's index has not moved). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- An input's current staging buffer holds its block at every point, whether or not it was fetched there (an unfetched
    block's index has not moved). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev rc4_S5000x3 : Rect S5000x3 := (Rect.unit (s := S5000x3) ![0, 0] S5000x3.size inb_S5000x3_S5000x3_0_0)
abbrev rc4_S5000x128 : Rect S5000x128 := (Rect.unit (s := S5000x128) ![0, 0] S5000x128.size inb_S5000x128_S5000x128_0_0)
abbrev rc4_S128x3 : Rect S128x3 := (Rect.unit (s := S128x3) ![0, 0] S128x3.size inb_S128x3_S128x3_0_0)
abbrev rc4_S1x3 : Rect S1x3 := (Rect.unit (s := S1x3) ![0, 0] S1x3.size inb_S1x3_S1x3_0_0)

/-- Result window 5's staging buffer after the body, from the operand blocks: its one whole-block store. -/
def out4_5 (x0 : Vec F S5000x3 .f32) (x1 : Vec F S5000x128 .f32) (x2 : Vec F S128x3 .f32) (x3 : Vec F S1x3 .f32) (x4 : Vec F S5000x3 .f32) : Vec F S5000x3 .f32 :=
  View.canon [⟨rc4_S5000x3, k4_pay1 (View.ld x1 rc4_S5000x128) (View.ld x2 rc4_S128x3) (View.ld x0 rc4_S5000x3) (View.ld x3 rc4_S1x3) (View.ld x4 rc4_S5000x3)⟩]

/-- The one store covers the buffer. -/
theorem cover4_5 (p0 : Vec F S5000x3 .f32) (y : S5000x3.Idx) :
    ∃ pc ∈ ([⟨rc4_S5000x3, p0⟩] : List (View.Piece (Elt F) S5000x3 .f32)), y ∈ pc.1.set :=
  View.cover_of_tiled [⟨rc4_S5000x3, p0⟩] S5000x3.size (by rfl) y

set_option maxHeartbeats 4000000 in
/-- The body on whole staging buffers, the operands' at contents `x…` and the results' at anything, runs to the
    continuation with the operands' as they were and each result's at `out4_…` of the operands'. -/
theorem sound_kernel4 (c : Dev nD) (E : Set ℕ) (i : grid4.Coords) (arg1 : Memref sig .tc .vmem S5000x3 .f32) (harg1 : arg1.IsWhole) (arg2 : Memref sig .tc .vmem S5000x128 .f32) (harg2 : arg2.IsWhole) (arg3 : Memref sig .tc .vmem S128x3 .f32) (harg3 : arg3.IsWhole) (arg4 : Memref sig .tc .vmem S1x3 .f32) (harg4 : arg4.IsWhole) (arg5 : Memref sig .tc .vmem S5000x3 .f32) (harg5 : arg5.IsWhole) (arg6 : Memref sig .tc .vmem S5000x3 .f32) (harg6 : arg6.IsWhole)
    (x0 : Vec F S5000x3 .f32) (x1 : Vec F S5000x128 .f32) (x2 : Vec F S128x3 .f32) (x3 : Vec F S1x3 .f32) (x4 : Vec F S5000x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__gc_know_kernel i arg1 harg1 arg2 harg2 arg3 harg3 arg4 harg4 arg5 harg5 arg6 harg6) K := by
  simp only [cc4__gc_know_kernel_eq_skeleton]; unfold cc4__gc_know_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The launch's per-point record on core `c`: the arrays as the launch finds them; after the body at point `t` each
    operand's buffer at its block and each result's at `out4_…` of the operand blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 4000000 in
/-- The body at any point: the operands' buffers hold their blocks, so `sound_kernel4` applies; the invariant
    passes through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch theorem's obligation on the body, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Region5.lean ====
import proofs.«171555_j63479616635263_2_alg».proof.Proof.Gen.Kernel.Launch
import proofs.«171555_j63479616635263_2_alg».proof.Proof.Gen.Kernel.Skeleton
import proofs.«171555_j63479616635263_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel launch 5: one grid point's work, and the launch's bookkeeping

At the buffer contents `V` the launch is entered with: the block of each operand a grid point sees, what the
body leaves in each result's staging buffer as a function of those blocks (one whole-block store per result), the
body's Hoare triple, and the per-point record (arrays, buffers after the body, invariant) the launch theorem consumes.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the launch finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input's current staging buffer holds its block at every point, whether or not it was fetched there (an unfetched
    block's index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input's current staging buffer holds its block at every point, whether or not it was fetched there (an unfetched
    block's index has not moved). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input's current staging buffer holds its block at every point, whether or not it was fetched there (an unfetched
    block's index has not moved). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- An input's current staging buffer holds its block at every point, whether or not it was fetched there (an unfetched
    block's index has not moved). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- An input's current staging buffer holds its block at every point, whether or not it was fetched there (an unfetched
    block's index has not moved). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev rc5_S5000x3 : Rect S5000x3 := (Rect.unit (s := S5000x3) ![0, 0] S5000x3.size inb_S5000x3_S5000x3_0_0)
abbrev rc5_S5000x128 : Rect S5000x128 := (Rect.unit (s := S5000x128) ![0, 0] S5000x128.size inb_S5000x128_S5000x128_0_0)
abbrev rc5_S128x3 : Rect S128x3 := (Rect.unit (s := S128x3) ![0, 0] S128x3.size inb_S128x3_S128x3_0_0)
abbrev rc5_S1x3 : Rect S1x3 := (Rect.unit (s := S1x3) ![0, 0] S1x3.size inb_S1x3_S1x3_0_0)

/-- Result window 5's staging buffer after the body, from the operand blocks: its one whole-block store. -/
def out5_5 (x0 : Vec F S5000x3 .f32) (x1 : Vec F S5000x128 .f32) (x2 : Vec F S128x3 .f32) (x3 : Vec F S1x3 .f32) (x4 : Vec F S5000x3 .f32) : Vec F S5000x3 .f32 :=
  View.canon [⟨rc5_S5000x3, k5_pay1 (View.ld x1 rc5_S5000x128) (View.ld x2 rc5_S128x3) (View.ld x0 rc5_S5000x3) (View.ld x3 rc5_S1x3) (View.ld x4 rc5_S5000x3)⟩]

/-- The one store covers the buffer. -/
theorem cover5_5 (p0 : Vec F S5000x3 .f32) (y : S5000x3.Idx) :
    ∃ pc ∈ ([⟨rc5_S5000x3, p0⟩] : List (View.Piece (Elt F) S5000x3 .f32)), y ∈ pc.1.set :=
  View.cover_of_tiled [⟨rc5_S5000x3, p0⟩] S5000x3.size (by rfl) y

set_option maxHeartbeats 4000000 in
/-- The body on whole staging buffers, the operands' at contents `x…` and the results' at anything, runs to the
    continuation with the operands' as they were and each result's at `out5_…` of the operands'. -/
theorem sound_kernel5 (c : Dev nD) (E : Set ℕ) (i : grid5.Coords) (arg1 : Memref sig .tc .vmem S5000x3 .f32) (harg1 : arg1.IsWhole) (arg2 : Memref sig .tc .vmem S5000x128 .f32) (harg2 : arg2.IsWhole) (arg3 : Memref sig .tc .vmem S128x3 .f32) (harg3 : arg3.IsWhole) (arg4 : Memref sig .tc .vmem S1x3 .f32) (harg4 : arg4.IsWhole) (arg5 : Memref sig .tc .vmem S5000x3 .f32) (harg5 : arg5.IsWhole) (arg6 : Memref sig .tc .vmem S5000x3 .f32) (harg6 : arg6.IsWhole)
    (x0 : Vec F S5000x3 .f32) (x1 : Vec F S5000x128 .f32) (x2 : Vec F S128x3 .f32) (x3 : Vec F S1x3 .f32) (x4 : Vec F S5000x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__gc_know_kernel i arg1 harg1 arg2 harg2 arg3 harg3 arg4 harg4 arg5 harg5 arg6 harg6) K := by
  simp only [cc5__gc_know_kernel_eq_skeleton]; unfold cc5__gc_know_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The launch's per-point record on core `c`: the arrays as the launch finds them; after the body at point `t` each
    operand's buffer at its block and each result's at `out5_…` of the operand blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

set_option maxHeartbeats 4000000 in
/-- The body at any point: the operands' buffers hold their blocks, so `sound_kernel5` applies; the invariant
    passes through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch theorem's obligation on the body, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.RunBounds.lean ====
import proofs.«171555_j63479616635263_2_alg».proof.Proof.K.Region0
import proofs.«171555_j63479616635263_2_alg».proof.Proof.K.Region1
import proofs.«171555_j63479616635263_2_alg».proof.Proof.K.Region2
import proofs.«171555_j63479616635263_2_alg».proof.Proof.K.Region3
import proofs.«171555_j63479616635263_2_alg».proof.Proof.K.Region4
import proofs.«171555_j63479616635263_2_alg».proof.Proof.K.Region5
import Idealize.ShloMosaic.Lib.StableHlo.Run

/-!
# The buffer contents at each boundary of @main

@main is thirteen segments: stretches of host operations and six kernel launches. `W0` is the launch memory of
a core; a host stretch takes the contents `W` to the fold of its operations over `W`; a kernel launch leaves
every buffer as entered except its own arrays, which end at what its grid points wrote back.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `main_part0_ops0`. -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
/-- At launch 0's exit: its arrays at what the launch leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `main_part0_ops1`. -/
abbrev W3 : Dev nD → Valuation τ sig (Elt F) := fun c => StableHlo.after main_part0_ops1 (W2 m ρ c)
abbrev V3 : (c : Dev nD) → (b : Ref sig .tc) → Buf (Elt F) ((c : Thread nD τ).loc b) := fun c b => W3 m ρ c b
/-- At launch 1's exit: its arrays at what the launch leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch `main_part0_ops2`. -/
abbrev W5 : Dev nD → Valuation τ sig (Elt F) := fun c => StableHlo.after main_part0_ops2 (W4 m ρ c)
abbrev V5 : (c : Dev nD) → (b : Ref sig .tc) → Buf (Elt F) ((c : Thread nD τ).loc b) := fun c b => W5 m ρ c b
/-- At launch 2's exit: its arrays at what the launch leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch `main_part0_ops3`. -/
abbrev W7 : Dev nD → Valuation τ sig (Elt F) := fun c => StableHlo.after main_part0_ops3 (W6 m ρ c)
abbrev V7 : (c : Dev nD) → (b : Ref sig .tc) → Buf (Elt F) ((c : Thread nD τ).loc b) := fun c b => W7 m ρ c b
/-- At launch 3's exit: its arrays at what the launch leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the host stretch `main_part1_ops0`. -/
abbrev W9 : Dev nD → Valuation τ sig (Elt F) := fun c => StableHlo.after main_part1_ops0 (W8 m ρ c)
abbrev V9 : (c : Dev nD) → (b : Ref sig .tc) → Buf (Elt F) ((c : Thread nD τ).loc b) := fun c b => W9 m ρ c b
/-- After the host stretch `main_part2_ops0`. -/
abbrev W10 : Dev nD → Valuation τ sig (Elt F) := fun c => StableHlo.after main_part2_ops0 (W9 m ρ c)
abbrev V10 : (c : Dev nD) → (b : Ref sig .tc) → Buf (Elt F) ((c : Thread nD τ).loc b) := fun c b => W10 m ρ c b
/-- At launch 4's exit: its arrays at what the launch leaves, every other buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
abbrev V11 : (c : Dev nD) → (b : Ref sig .tc) → Buf (Elt F) ((c : Thread nD τ).loc b) := fun c b => W11 m ρ c b
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)
/-- After the host stretch `main_part2_ops1`. -/
abbrev W12 : Dev nD → Valuation τ sig (Elt F) := fun c => StableHlo.after main_part2_ops1 (W11 m ρ c)
abbrev V12 : (c : Dev nD) → (b : Ref sig .tc) → Buf (Elt F) ((c : Thread nD τ).loc b) := fun c b => W12 m ρ c b
/-- At launch 5's exit: its arrays at what the launch leaves, every other buffer as entered. -/
def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev V13 : (c : Dev nD) → (b : Ref sig .tc) → Buf (Elt F) ((c : Thread nD τ).loc b) := fun c b => W13 m ρ c b
theorem hF5 (c : Dev nD) (w : Fin cfg5.W) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)

end Cert.Kernel.Hand

end
-- ==== Proof.K.RunArgs.lean ====
import proofs.«171555_j63479616635263_2_alg».proof.Proof.K.RunBounds

/-!
# The argument arrays end as launched

No host operation writes an argument array, and a kernel launch either reads it through an operand window (its
array then ends as entered) or does not touch it. So the contents of an argument's buffer at the last boundary
walk back, boundary by boundary, to the launch memory.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- An operation whose one written buffer is a reference of the list `W` writes within `W`. -/
theorem writes_sub_of_mem {W : List (Ref sig .tc)} {op : HloOp τ sig (Elt F)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map.mpr ⟨y, hy, rfl⟩

/-- The buffers the stretch `main_part0_ops0` writes, in order. -/
abbrev wr_main_part0_ops0 : List (Ref sig .tc) :=
  [main_c, main_v0, main_v1, main_c_0, main_v2, main_v3, main_v4, main_v5, main_v6, main_cst, main_v7, main_v8, main_v9, main_c_1, main_v10, main_v11, main_c_2, main_v12, main_v13, main_v14, main_v15, main_v16, main_cst_3, main_v17, main_v18, main_v19, main_v20]
/-- Each operation of `main_part0_ops0` writes within that list. -/
theorem main_part0_ops0_writes : (main_part0_ops0 : List (HloOp τ sig (Elt F))).Forall fun op =>
    op.writes ⊆ (wr_main_part0_ops0.map (Proc.devRef (τ := τ) .tc)).toFinset :=
  ⟨writes_sub_of_mem main_c rfl (by decide),
   writes_sub_of_mem main_v0 rfl (by decide),
   writes_sub_of_mem main_v1 rfl (by decide),
   writes_sub_of_mem main_c_0 rfl (by decide),
   writes_sub_of_mem main_v2 rfl (by decide),
   writes_sub_of_mem main_v3 rfl (by decide),
   writes_sub_of_mem main_v4 rfl (by decide),
   writes_sub_of_mem main_v5 rfl (by decide),
   writes_sub_of_mem main_v6 rfl (by decide),
   writes_sub_of_mem main_cst rfl (by decide),
   writes_sub_of_mem main_v7 rfl (by decide),
   writes_sub_of_mem main_v8 rfl (by decide),
   writes_sub_of_mem main_v9 rfl (by decide),
   writes_sub_of_mem main_c_1 rfl (by decide),
   writes_sub_of_mem main_v10 rfl (by decide),
   writes_sub_of_mem main_v11 rfl (by decide),
   writes_sub_of_mem main_c_2 rfl (by decide),
   writes_sub_of_mem main_v12 rfl (by decide),
   writes_sub_of_mem main_v13 rfl (by decide),
   writes_sub_of_mem main_v14 rfl (by decide),
   writes_sub_of_mem main_v15 rfl (by decide),
   writes_sub_of_mem main_v16 rfl (by decide),
   writes_sub_of_mem main_cst_3 rfl (by decide),
   writes_sub_of_mem main_v17 rfl (by decide),
   writes_sub_of_mem main_v18 rfl (by decide),
   writes_sub_of_mem main_v19 rfl (by decide),
   writes_sub_of_mem main_v20 rfl (by decide)⟩

/-- The buffers the stretch `main_part0_ops1` writes, in order. -/
abbrev wr_main_part0_ops1 : List (Ref sig .tc) :=
  [main_v22]
/-- Each operation of `main_part0_ops1` writes within that list. -/
theorem main_part0_ops1_writes : (main_part0_ops1 : List (HloOp τ sig (Elt F))).Forall fun op =>
    op.writes ⊆ (wr_main_part0_ops1.map (Proc.devRef (τ := τ) .tc)).toFinset :=
  writes_sub_of_mem main_v22 rfl (by decide)

/-- The buffers the stretch `main_part0_ops2` writes, in order. -/
abbrev wr_main_part0_ops2 : List (Ref sig .tc) :=
  [main_c_4, main_v24, main_v25, main_c_5, main_v26, main_v27, main_v28, main_v29, main_v30, main_cst_6, main_v31, main_v32, main_v33, main_c_7, main_v34, main_v35, main_c_8, main_v36, main_v37, main_v38, main_v39, main_v40, main_cst_9, main_v41, main_v42, main_v43, main_v44]
/-- Each operation of `main_part0_ops2` writes within that list. -/
theorem main_part0_ops2_writes : (main_part0_ops2 : List (HloOp τ sig (Elt F))).Forall fun op =>
    op.writes ⊆ (wr_main_part0_ops2.map (Proc.devRef (τ := τ) .tc)).toFinset :=
  ⟨writes_sub_of_mem main_c_4 rfl (by decide),
   writes_sub_of_mem main_v24 rfl (by decide),
   writes_sub_of_mem main_v25 rfl (by decide),
   writes_sub_of_mem main_c_5 rfl (by decide),
   writes_sub_of_mem main_v26 rfl (by decide),
   writes_sub_of_mem main_v27 rfl (by decide),
   writes_sub_of_mem main_v28 rfl (by decide),
   writes_sub_of_mem main_v29 rfl (by decide),
   writes_sub_of_mem main_v30 rfl (by decide),
   writes_sub_of_mem main_cst_6 rfl (by decide),
   writes_sub_of_mem main_v31 rfl (by decide),
   writes_sub_of_mem main_v32 rfl (by decide),
   writes_sub_of_mem main_v33 rfl (by decide),
   writes_sub_of_mem main_c_7 rfl (by decide),
   writes_sub_of_mem main_v34 rfl (by decide),
   writes_sub_of_mem main_v35 rfl (by decide),
   writes_sub_of_mem main_c_8 rfl (by decide),
   writes_sub_of_mem main_v36 rfl (by decide),
   writes_sub_of_mem main_v37 rfl (by decide),
   writes_sub_of_mem main_v38 rfl (by decide),
   writes_sub_of_mem main_v39 rfl (by decide),
   writes_sub_of_mem main_v40 rfl (by decide),
   writes_sub_of_mem main_cst_9 rfl (by decide),
   writes_sub_of_mem main_v41 rfl (by decide),
   writes_sub_of_mem main_v42 rfl (by decide),
   writes_sub_of_mem main_v43 rfl (by decide),
   writes_sub_of_mem main_v44 rfl (by decide)⟩

/-- The buffers the stretch `main_part0_ops3` writes, in order. -/
abbrev wr_main_part0_ops3 : List (Ref sig .tc) :=
  [main_v46]
/-- Each operation of `main_part0_ops3` writes within that list. -/
theorem main_part0_ops3_writes : (main_part0_ops3 : List (HloOp τ sig (Elt F))).Forall fun op =>
    op.writes ⊆ (wr_main_part0_ops3.map (Proc.devRef (τ := τ) .tc)).toFinset :=
  writes_sub_of_mem main_v46 rfl (by decide)

/-- The buffers the stretch `main_part1_ops0` writes, in order. -/
abbrev wr_main_part1_ops0 : List (Ref sig .tc) :=
  [main_c_10, main_v48, main_v49, main_c_11, main_v50, main_v51, main_v52, main_v53, main_v54, main_cst_12, main_v55, main_v56, main_v57, main_c_13, main_v58, main_v59, main_c_14, main_v60, main_v61, main_v62, main_v63, main_v64, main_cst_15, main_v65, main_v66, main_v67, main_v68, main_v69, main_v70, main_cst_16, main_v71, main_v72, main_v73, main_v74, main_v75, main_cst_17, main_v76, main_v77, main_v78, main_v79, main_v80, main_cst_18, main_v81, main_v82, main_v83, main_v84, main_v85, main_cst_19, main_v86, main_v87, main_c_20, main_v88, main_c_21, main_v89, main_v90, main_v91, main_v92, main_v93, main_v94, main_cst_22]
/-- Each operation of `main_part1_ops0` writes within that list. -/
theorem main_part1_ops0_writes : (main_part1_ops0 : List (HloOp τ sig (Elt F))).Forall fun op =>
    op.writes ⊆ (wr_main_part1_ops0.map (Proc.devRef (τ := τ) .tc)).toFinset :=
  ⟨writes_sub_of_mem main_c_10 rfl (by decide),
   writes_sub_of_mem main_v48 rfl (by decide),
   writes_sub_of_mem main_v49 rfl (by decide),
   writes_sub_of_mem main_c_11 rfl (by decide),
   writes_sub_of_mem main_v50 rfl (by decide),
   writes_sub_of_mem main_v51 rfl (by decide),
   writes_sub_of_mem main_v52 rfl (by decide),
   writes_sub_of_mem main_v53 rfl (by decide),
   writes_sub_of_mem main_v54 rfl (by decide),
   writes_sub_of_mem main_cst_12 rfl (by decide),
   writes_sub_of_mem main_v55 rfl (by decide),
   writes_sub_of_mem main_v56 rfl (by decide),
   writes_sub_of_mem main_v57 rfl (by decide),
   writes_sub_of_mem main_c_13 rfl (by decide),
   writes_sub_of_mem main_v58 rfl (by decide),
   writes_sub_of_mem main_v59 rfl (by decide),
   writes_sub_of_mem main_c_14 rfl (by decide),
   writes_sub_of_mem main_v60 rfl (by decide),
   writes_sub_of_mem main_v61 rfl (by decide),
   writes_sub_of_mem main_v62 rfl (by decide),
   writes_sub_of_mem main_v63 rfl (by decide),
   writes_sub_of_mem main_v64 rfl (by decide),
   writes_sub_of_mem main_cst_15 rfl (by decide),
   writes_sub_of_mem main_v65 rfl (by decide),
   writes_sub_of_mem main_v66 rfl (by decide),
   writes_sub_of_mem main_v67 rfl (by decide),
   writes_sub_of_mem main_v68 rfl (by decide),
   writes_sub_of_mem main_v69 rfl (by decide),
   writes_sub_of_mem main_v70 rfl (by decide),
   writes_sub_of_mem main_cst_16 rfl (by decide),
   writes_sub_of_mem main_v71 rfl (by decide),
   writes_sub_of_mem main_v72 rfl (by decide),
   writes_sub_of_mem main_v73 rfl (by decide),
   writes_sub_of_mem main_v74 rfl (by decide),
   writes_sub_of_mem main_v75 rfl (by decide),
   writes_sub_of_mem main_cst_17 rfl (by decide),
   writes_sub_of_mem main_v76 rfl (by decide),
   writes_sub_of_mem main_v77 rfl (by decide),
   writes_sub_of_mem main_v78 rfl (by decide),
   writes_sub_of_mem main_v79 rfl (by decide),
   writes_sub_of_mem main_v80 rfl (by decide),
   writes_sub_of_mem main_cst_18 rfl (by decide),
   writes_sub_of_mem main_v81 rfl (by decide),
   writes_sub_of_mem main_v82 rfl (by decide),
   writes_sub_of_mem main_v83 rfl (by decide),
   writes_sub_of_mem main_v84 rfl (by decide),
   writes_sub_of_mem main_v85 rfl (by decide),
   writes_sub_of_mem main_cst_19 rfl (by decide),
   writes_sub_of_mem main_v86 rfl (by decide),
   writes_sub_of_mem main_v87 rfl (by decide),
   writes_sub_of_mem main_c_20 rfl (by decide),
   writes_sub_of_mem main_v88 rfl (by decide),
   writes_sub_of_mem main_c_21 rfl (by decide),
   writes_sub_of_mem main_v89 rfl (by decide),
   writes_sub_of_mem main_v90 rfl (by decide),
   writes_sub_of_mem main_v91 rfl (by decide),
   writes_sub_of_mem main_v92 rfl (by decide),
   writes_sub_of_mem main_v93 rfl (by decide),
   writes_sub_of_mem main_v94 rfl (by decide),
   writes_sub_of_mem main_cst_22 rfl (by decide)⟩

/-- The buffers the stretch `main_part2_ops0` writes, in order. -/
abbrev wr_main_part2_ops0 : List (Ref sig .tc) :=
  [main_v95, main_v96, main_v97, main_v98, main_v99, main_v100, main_v101, main_cst_23, main_v102, main_v103, main_v104]
/-- Each operation of `main_part2_ops0` writes within that list. -/
theorem main_part2_ops0_writes : (main_part2_ops0 : List (HloOp τ sig (Elt F))).Forall fun op =>
    op.writes ⊆ (wr_main_part2_ops0.map (Proc.devRef (τ := τ) .tc)).toFinset :=
  ⟨writes_sub_of_mem main_v95 rfl (by decide),
   writes_sub_of_mem main_v96 rfl (by decide),
   writes_sub_of_mem main_v97 rfl (by decide),
   writes_sub_of_mem main_v98 rfl (by decide),
   writes_sub_of_mem main_v99 rfl (by decide),
   writes_sub_of_mem main_v100 rfl (by decide),
   writes_sub_of_mem main_v101 rfl (by decide),
   writes_sub_of_mem main_cst_23 rfl (by decide),
   writes_sub_of_mem main_v102 rfl (by decide),
   writes_sub_of_mem main_v103 rfl (by decide),
   writes_sub_of_mem main_v104 rfl (by decide)⟩

/-- The buffers the stretch `main_part2_ops1` writes, in order. -/
abbrev wr_main_part2_ops1 : List (Ref sig .tc) :=
  [main_v106]
/-- Each operation of `main_part2_ops1` writes within that list. -/
theorem main_part2_ops1_writes : (main_part2_ops1 : List (HloOp τ sig (Elt F))).Forall fun op =>
    op.writes ⊆ (wr_main_part2_ops1.map (Proc.devRef (τ := τ) .tc)).toFinset :=
  writes_sub_of_mem main_v106 rfl (by decide)

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_of_ne m ρ c main_arg0 (by decide)
    _ = W11 m ρ c (Proc.devRef .tc main_arg0) := StableHlo.after_of_writes_sub (r := main_arg0) main_part2_ops1 (W11 m ρ c) main_part2_ops1_writes (by decide)
    _ = W10 m ρ c (Proc.devRef .tc main_arg0) := W11_of_ne m ρ c main_arg0 (by decide)
    _ = W9 m ρ c (Proc.devRef .tc main_arg0) := StableHlo.after_of_writes_sub (r := main_arg0) main_part2_ops0 (W9 m ρ c) main_part2_ops0_writes (by decide)
    _ = W8 m ρ c (Proc.devRef .tc main_arg0) := StableHlo.after_of_writes_sub (r := main_arg0) main_part1_ops0 (W8 m ρ c) main_part1_ops0_writes (by decide)
    _ = W7 m ρ c (Proc.devRef .tc main_arg0) := W8_of_ne m ρ c main_arg0 (by decide)
    _ = W6 m ρ c (Proc.devRef .tc main_arg0) := StableHlo.after_of_writes_sub (r := main_arg0) main_part0_ops3 (W6 m ρ c) main_part0_ops3_writes (by decide)
    _ = W5 m ρ c (Proc.devRef .tc main_arg0) := W6_of_ne m ρ c main_arg0 (by decide)
    _ = W4 m ρ c (Proc.devRef .tc main_arg0) := StableHlo.after_of_writes_sub (r := main_arg0) main_part0_ops2 (W4 m ρ c) main_part0_ops2_writes (by decide)
    _ = W3 m ρ c (Proc.devRef .tc main_arg0) := (W4_arr m ρ c 1).trans (((dat1 (V3 m ρ) c).arrAt_in 1 rfl _).trans (A_eq1 (V3 m ρ) c 1))
    _ = W2 m ρ c (Proc.devRef .tc main_arg0) := StableHlo.after_of_writes_sub (r := main_arg0) main_part0_ops1 (W2 m ρ c) main_part0_ops1_writes (by decide)
    _ = W1 m ρ c (Proc.devRef .tc main_arg0) := W2_of_ne m ρ c main_arg0 (by decide)
    _ = W0 m ρ c (Proc.devRef .tc main_arg0) := StableHlo.after_of_writes_sub (r := main_arg0) main_part0_ops0 (W0 m ρ c) main_part0_ops0_writes (by decide)
    _ = m ((c : Thread nD τ).loc main_arg0) := rfl

theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := W13_of_ne m ρ c main_arg1 (by decide)
    _ = W11 m ρ c (Proc.devRef .tc main_arg1) := StableHlo.after_of_writes_sub (r := main_arg1) main_part2_ops1 (W11 m ρ c) main_part2_ops1_writes (by decide)
    _ = W10 m ρ c (Proc.devRef .tc main_arg1) := W11_of_ne m ρ c main_arg1 (by decide)
    _ = W9 m ρ c (Proc.devRef .tc main_arg1) := StableHlo.after_of_writes_sub (r := main_arg1) main_part2_ops0 (W9 m ρ c) main_part2_ops0_writes (by decide)
    _ = W8 m ρ c (Proc.devRef .tc main_arg1) := StableHlo.after_of_writes_sub (r := main_arg1) main_part1_ops0 (W8 m ρ c) main_part1_ops0_writes (by decide)
    _ = W7 m ρ c (Proc.devRef .tc main_arg1) := W8_of_ne m ρ c main_arg1 (by decide)
    _ = W6 m ρ c (Proc.devRef .tc main_arg1) := StableHlo.after_of_writes_sub (r := main_arg1) main_part0_ops3 (W6 m ρ c) main_part0_ops3_writes (by decide)
    _ = W5 m ρ c (Proc.devRef .tc main_arg1) := W6_of_ne m ρ c main_arg1 (by decide)
    _ = W4 m ρ c (Proc.devRef .tc main_arg1) := StableHlo.after_of_writes_sub (r := main_arg1) main_part0_ops2 (W4 m ρ c) main_part0_ops2_writes (by decide)
    _ = W3 m ρ c (Proc.devRef .tc main_arg1) := W4_of_ne m ρ c main_arg1 (by decide)
    _ = W2 m ρ c (Proc.devRef .tc main_arg1) := StableHlo.after_of_writes_sub (r := main_arg1) main_part0_ops1 (W2 m ρ c) main_part0_ops1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub (r := main_arg1) main_part0_ops0 (W0 m ρ c) main_part0_ops0_writes (by decide)
    _ = m ((c : Thread nD τ).loc main_arg1) := rfl

theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := W13_of_ne m ρ c main_arg2 (by decide)
    _ = W11 m ρ c (Proc.devRef .tc main_arg2) := StableHlo.after_of_writes_sub (r := main_arg2) main_part2_ops1 (W11 m ρ c) main_part2_ops1_writes (by decide)
    _ = W10 m ρ c (Proc.devRef .tc main_arg2) := W11_of_ne m ρ c main_arg2 (by decide)
    _ = W9 m ρ c (Proc.devRef .tc main_arg2) := StableHlo.after_of_writes_sub (r := main_arg2) main_part2_ops0 (W9 m ρ c) main_part2_ops0_writes (by decide)
    _ = W8 m ρ c (Proc.devRef .tc main_arg2) := StableHlo.after_of_writes_sub (r := main_arg2) main_part1_ops0 (W8 m ρ c) main_part1_ops0_writes (by decide)
    _ = W7 m ρ c (Proc.devRef .tc main_arg2) := W8_of_ne m ρ c main_arg2 (by decide)
    _ = W6 m ρ c (Proc.devRef .tc main_arg2) := StableHlo.after_of_writes_sub (r := main_arg2) main_part0_ops3 (W6 m ρ c) main_part0_ops3_writes (by decide)
    _ = W5 m ρ c (Proc.devRef .tc main_arg2) := W6_of_ne m ρ c main_arg2 (by decide)
    _ = W4 m ρ c (Proc.devRef .tc main_arg2) := StableHlo.after_of_writes_sub (r := main_arg2) main_part0_ops2 (W4 m ρ c) main_part0_ops2_writes (by decide)
    _ = W3 m ρ c (Proc.devRef .tc main_arg2) := W4_of_ne m ρ c main_arg2 (by decide)
    _ = W2 m ρ c (Proc.devRef .tc main_arg2) := StableHlo.after_of_writes_sub (r := main_arg2) main_part0_ops1 (W2 m ρ c) main_part0_ops1_writes (by decide)
    _ = W1 m ρ c (Proc.devRef .tc main_arg2) := W2_of_ne m ρ c main_arg2 (by decide)
    _ = W0 m ρ c (Proc.devRef .tc main_arg2) := StableHlo.after_of_writes_sub (r := main_arg2) main_part0_ops0 (W0 m ρ c) main_part0_ops0_writes (by decide)
    _ = m ((c : Thread nD τ).loc main_arg2) := rfl

theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := W13_of_ne m ρ c main_arg3 (by decide)
    _ = W11 m ρ c (Proc.devRef .tc main_arg3) := StableHlo.after_of_writes_sub (r := main_arg3) main_part2_ops1 (W11 m ρ c) main_part2_ops1_writes (by decide)
    _ = W10 m ρ c (Proc.devRef .tc main_arg3) := W11_of_ne m ρ c main_arg3 (by decide)
    _ = W9 m ρ c (Proc.devRef .tc main_arg3) := StableHlo.after_of_writes_sub (r := main_arg3) main_part2_ops0 (W9 m ρ c) main_part2_ops0_writes (by decide)
    _ = W8 m ρ c (Proc.devRef .tc main_arg3) := StableHlo.after_of_writes_sub (r := main_arg3) main_part1_ops0 (W8 m ρ c) main_part1_ops0_writes (by decide)
    _ = W7 m ρ c (Proc.devRef .tc main_arg3) := W8_of_ne m ρ c main_arg3 (by decide)
    _ = W6 m ρ c (Proc.devRef .tc main_arg3) := StableHlo.after_of_writes_sub (r := main_arg3) main_part0_ops3 (W6 m ρ c) main_part0_ops3_writes (by decide)
    _ = W5 m ρ c (Proc.devRef .tc main_arg3) := W6_of_ne m ρ c main_arg3 (by decide)
    _ = W4 m ρ c (Proc.devRef .tc main_arg3) := StableHlo.after_of_writes_sub (r := main_arg3) main_part0_ops2 (W4 m ρ c) main_part0_ops2_writes (by decide)
    _ = W3 m ρ c (Proc.devRef .tc main_arg3) := W4_of_ne m ρ c main_arg3 (by decide)
    _ = W2 m ρ c (Proc.devRef .tc main_arg3) := StableHlo.after_of_writes_sub (r := main_arg3) main_part0_ops1 (W2 m ρ c) main_part0_ops1_writes (by decide)
    _ = W1 m ρ c (Proc.devRef .tc main_arg3) := W2_of_ne m ρ c main_arg3 (by decide)
    _ = W0 m ρ c (Proc.devRef .tc main_arg3) := StableHlo.after_of_writes_sub (r := main_arg3) main_part0_ops0 (W0 m ρ c) main_part0_ops0_writes (by decide)
    _ = m ((c : Thread nD τ).loc main_arg3) := rfl

theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := W13_of_ne m ρ c main_arg4 (by decide)
    _ = W11 m ρ c (Proc.devRef .tc main_arg4) := StableHlo.after_of_writes_sub (r := main_arg4) main_part2_ops1 (W11 m ρ c) main_part2_ops1_writes (by decide)
    _ = W10 m ρ c (Proc.devRef .tc main_arg4) := W11_of_ne m ρ c main_arg4 (by decide)
    _ = W9 m ρ c (Proc.devRef .tc main_arg4) := StableHlo.after_of_writes_sub (r := main_arg4) main_part2_ops0 (W9 m ρ c) main_part2_ops0_writes (by decide)
    _ = W8 m ρ c (Proc.devRef .tc main_arg4) := StableHlo.after_of_writes_sub (r := main_arg4) main_part1_ops0 (W8 m ρ c) main_part1_ops0_writes (by decide)
    _ = W7 m ρ c (Proc.devRef .tc main_arg4) := W8_of_ne m ρ c main_arg4 (by decide)
    _ = W6 m ρ c (Proc.devRef .tc main_arg4) := StableHlo.after_of_writes_sub (r := main_arg4) main_part0_ops3 (W6 m ρ c) main_part0_ops3_writes (by decide)
    _ = W5 m ρ c (Proc.devRef .tc main_arg4) := W6_of_ne m ρ c main_arg4 (by decide)
    _ = W4 m ρ c (Proc.devRef .tc main_arg4) := StableHlo.after_of_writes_sub (r := main_arg4) main_part0_ops2 (W4 m ρ c) main_part0_ops2_writes (by decide)
    _ = W3 m ρ c (Proc.devRef .tc main_arg4) := W4_of_ne m ρ c main_arg4 (by decide)
    _ = W2 m ρ c (Proc.devRef .tc main_arg4) := StableHlo.after_of_writes_sub (r := main_arg4) main_part0_ops1 (W2 m ρ c) main_part0_ops1_writes (by decide)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := StableHlo.after_of_writes_sub (r := main_arg4) main_part0_ops0 (W0 m ρ c) main_part0_ops0_writes (by decide)
    _ = m ((c : Thread nD τ).loc main_arg4) := rfl

theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := W13_of_ne m ρ c main_arg5 (by decide)
    _ = W11 m ρ c (Proc.devRef .tc main_arg5) := StableHlo.after_of_writes_sub (r := main_arg5) main_part2_ops1 (W11 m ρ c) main_part2_ops1_writes (by decide)
    _ = W10 m ρ c (Proc.devRef .tc main_arg5) := W11_of_ne m ρ c main_arg5 (by decide)
    _ = W9 m ρ c (Proc.devRef .tc main_arg5) := StableHlo.after_of_writes_sub (r := main_arg5) main_part2_ops0 (W9 m ρ c) main_part2_ops0_writes (by decide)
    _ = W8 m ρ c (Proc.devRef .tc main_arg5) := StableHlo.after_of_writes_sub (r := main_arg5) main_part1_ops0 (W8 m ρ c) main_part1_ops0_writes (by decide)
    _ = W7 m ρ c (Proc.devRef .tc main_arg5) := W8_of_ne m ρ c main_arg5 (by decide)
    _ = W6 m ρ c (Proc.devRef .tc main_arg5) := StableHlo.after_of_writes_sub (r := main_arg5) main_part0_ops3 (W6 m ρ c) main_part0_ops3_writes (by decide)
    _ = W5 m ρ c (Proc.devRef .tc main_arg5) := W6_of_ne m ρ c main_arg5 (by decide)
    _ = W4 m ρ c (Proc.devRef .tc main_arg5) := StableHlo.after_of_writes_sub (r := main_arg5) main_part0_ops2 (W4 m ρ c) main_part0_ops2_writes (by decide)
    _ = W3 m ρ c (Proc.devRef .tc main_arg5) := W4_of_ne m ρ c main_arg5 (by decide)
    _ = W2 m ρ c (Proc.devRef .tc main_arg5) := StableHlo.after_of_writes_sub (r := main_arg5) main_part0_ops1 (W2 m ρ c) main_part0_ops1_writes (by decide)
    _ = W1 m ρ c (Proc.devRef .tc main_arg5) := W2_of_ne m ρ c main_arg5 (by decide)
    _ = W0 m ρ c (Proc.devRef .tc main_arg5) := StableHlo.after_of_writes_sub (r := main_arg5) main_part0_ops0 (W0 m ρ c) main_part0_ops0_writes (by decide)
    _ = m ((c : Thread nD τ).loc main_arg5) := rfl

theorem W13_main_arg6 (c : Dev nD) : W13 m ρ c (Proc.devRef .tc main_arg6) = m ((c : Thread nD τ).loc main_arg6) :=
  calc W13 m ρ c (Proc.devRef .tc main_arg6)
    _ = W12 m ρ c (Proc.devRef .tc main_arg6) := W13_of_ne m ρ c main_arg6 (by decide)
    _ = W11 m ρ c (Proc.devRef .tc main_arg6) := StableHlo.after_of_writes_sub (r := main_arg6) main_part2_ops1 (W11 m ρ c) main_part2_ops1_writes (by decide)
    _ = W10 m ρ c (Proc.devRef .tc main_arg6) := W11_of_ne m ρ c main_arg6 (by decide)
    _ = W9 m ρ c (Proc.devRef .tc main_arg6) := StableHlo.after_of_writes_sub (r := main_arg6) main_part2_ops0 (W9 m ρ c) main_part2_ops0_writes (by decide)
    _ = W8 m ρ c (Proc.devRef .tc main_arg6) := StableHlo.after_of_writes_sub (r := main_arg6) main_part1_ops0 (W8 m ρ c) main_part1_ops0_writes (by decide)
    _ = W7 m ρ c (Proc.devRef .tc main_arg6) := W8_of_ne m ρ c main_arg6 (by decide)
    _ = W6 m ρ c (Proc.devRef .tc main_arg6) := StableHlo.after_of_writes_sub (r := main_arg6) main_part0_ops3 (W6 m ρ c) main_part0_ops3_writes (by decide)
    _ = W5 m ρ c (Proc.devRef .tc main_arg6) := W6_of_ne m ρ c main_arg6 (by decide)
    _ = W4 m ρ c (Proc.devRef .tc main_arg6) := StableHlo.after_of_writes_sub (r := main_arg6) main_part0_ops2 (W4 m ρ c) main_part0_ops2_writes (by decide)
    _ = W3 m ρ c (Proc.devRef .tc main_arg6) := W4_of_ne m ρ c main_arg6 (by decide)
    _ = W2 m ρ c (Proc.devRef .tc main_arg6) := StableHlo.after_of_writes_sub (r := main_arg6) main_part0_ops1 (W2 m ρ c) main_part0_ops1_writes (by decide)
    _ = W1 m ρ c (Proc.devRef .tc main_arg6) := (W2_arr m ρ c 4).trans (((dat0 (V1 m ρ) c).arrAt_in 4 rfl _).trans (A_eq0 (V1 m ρ) c 4))
    _ = W0 m ρ c (Proc.devRef .tc main_arg6) := StableHlo.after_of_writes_sub (r := main_arg6) main_part0_ops0 (W0 m ρ c) main_part0_ops0_writes (by decide)
    _ = m ((c : Thread nD τ).loc main_arg6) := rfl

theorem W13_main_arg7 (c : Dev nD) : W13 m ρ c (Proc.devRef .tc main_arg7) = m ((c : Thread nD τ).loc main_arg7) :=
  calc W13 m ρ c (Proc.devRef .tc main_arg7)
    _ = W12 m ρ c (Proc.devRef .tc main_arg7) := W13_of_ne m ρ c main_arg7 (by decide)
    _ = W11 m ρ c (Proc.devRef .tc main_arg7) := StableHlo.after_of_writes_sub (r := main_arg7) main_part2_ops1 (W11 m ρ c) main_part2_ops1_writes (by decide)
    _ = W10 m ρ c (Proc.devRef .tc main_arg7) := W11_of_ne m ρ c main_arg7 (by decide)
    _ = W9 m ρ c (Proc.devRef .tc main_arg7) := StableHlo.after_of_writes_sub (r := main_arg7) main_part2_ops0 (W9 m ρ c) main_part2_ops0_writes (by decide)
    _ = W8 m ρ c (Proc.devRef .tc main_arg7) := StableHlo.after_of_writes_sub (r := main_arg7) main_part1_ops0 (W8 m ρ c) main_part1_ops0_writes (by decide)
    _ = W7 m ρ c (Proc.devRef .tc main_arg7) := W8_of_ne m ρ c main_arg7 (by decide)
    _ = W6 m ρ c (Proc.devRef .tc main_arg7) := StableHlo.after_of_writes_sub (r := main_arg7) main_part0_ops3 (W6 m ρ c) main_part0_ops3_writes (by decide)
    _ = W5 m ρ c (Proc.devRef .tc main_arg7) := W6_of_ne m ρ c main_arg7 (by decide)
    _ = W4 m ρ c (Proc.devRef .tc main_arg7) := StableHlo.after_of_writes_sub (r := main_arg7) main_part0_ops2 (W4 m ρ c) main_part0_ops2_writes (by decide)
    _ = W3 m ρ c (Proc.devRef .tc main_arg7) := (W4_arr m ρ c 2).trans (((dat1 (V3 m ρ) c).arrAt_in 2 rfl _).trans (A_eq1 (V3 m ρ) c 2))
    _ = W2 m ρ c (Proc.devRef .tc main_arg7) := StableHlo.after_of_writes_sub (r := main_arg7) main_part0_ops1 (W2 m ρ c) main_part0_ops1_writes (by decide)
    _ = W1 m ρ c (Proc.devRef .tc main_arg7) := W2_of_ne m ρ c main_arg7 (by decide)
    _ = W0 m ρ c (Proc.devRef .tc main_arg7) := StableHlo.after_of_writes_sub (r := main_arg7) main_part0_ops0 (W0 m ρ c) main_part0_ops0_writes (by decide)
    _ = m ((c : Thread nD τ).loc main_arg7) := rfl

theorem W13_main_arg8 (c : Dev nD) : W13 m ρ c (Proc.devRef .tc main_arg8) = m ((c : Thread nD τ).loc main_arg8) :=
  calc W13 m ρ c (Proc.devRef .tc main_arg8)
    _ = W12 m ρ c (Proc.devRef .tc main_arg8) := W13_of_ne m ρ c main_arg8 (by decide)
    _ = W11 m ρ c (Proc.devRef .tc main_arg8) := StableHlo.after_of_writes_sub (r := main_arg8) main_part2_ops1 (W11 m ρ c) main_part2_ops1_writes (by decide)
    _ = W10 m ρ c (Proc.devRef .tc main_arg8) := W11_of_ne m ρ c main_arg8 (by decide)
    _ = W9 m ρ c (Proc.devRef .tc main_arg8) := StableHlo.after_of_writes_sub (r := main_arg8) main_part2_ops0 (W9 m ρ c) main_part2_ops0_writes (by decide)
    _ = W8 m ρ c (Proc.devRef .tc main_arg8) := StableHlo.after_of_writes_sub (r := main_arg8) main_part1_ops0 (W8 m ρ c) main_part1_ops0_writes (by decide)
    _ = W7 m ρ c (Proc.devRef .tc main_arg8) := W8_of_ne m ρ c main_arg8 (by decide)
    _ = W6 m ρ c (Proc.devRef .tc main_arg8) := StableHlo.after_of_writes_sub (r := main_arg8) main_part0_ops3 (W6 m ρ c) main_part0_ops3_writes (by decide)
    _ = W5 m ρ c (Proc.devRef .tc main_arg8) := W6_of_ne m ρ c main_arg8 (by decide)
    _ = W4 m ρ c (Proc.devRef .tc main_arg8) := StableHlo.after_of_writes_sub (r := main_arg8) main_part0_ops2 (W4 m ρ c) main_part0_ops2_writes (by decide)
    _ = W3 m ρ c (Proc.devRef .tc main_arg8) := W4_of_ne m ρ c main_arg8 (by decide)
    _ = W2 m ρ c (Proc.devRef .tc main_arg8) := StableHlo.after_of_writes_sub (r := main_arg8) main_part0_ops1 (W2 m ρ c) main_part0_ops1_writes (by decide)
    _ = W1 m ρ c (Proc.devRef .tc main_arg8) := W2_of_ne m ρ c main_arg8 (by decide)
    _ = W0 m ρ c (Proc.devRef .tc main_arg8) := StableHlo.after_of_writes_sub (r := main_arg8) main_part0_ops0 (W0 m ρ c) main_part0_ops0_writes (by decide)
    _ = m ((c : Thread nD τ).loc main_arg8) := rfl

theorem W13_main_arg9 (c : Dev nD) : W13 m ρ c (Proc.devRef .tc main_arg9) = m ((c : Thread nD τ).loc main_arg9) :=
  calc W13 m ρ c (Proc.devRef .tc main_arg9)
    _ = W12 m ρ c (Proc.devRef .tc main_arg9) := W13_of_ne m ρ c main_arg9 (by decide)
    _ = W11 m ρ c (Proc.devRef .tc main_arg9) := StableHlo.after_of_writes_sub (r := main_arg9) main_part2_ops1 (W11 m ρ c) main_part2_ops1_writes (by decide)
    _ = W10 m ρ c (Proc.devRef .tc main_arg9) := W11_of_ne m ρ c main_arg9 (by decide)
    _ = W9 m ρ c (Proc.devRef .tc main_arg9) := StableHlo.after_of_writes_sub (r := main_arg9) main_part2_ops0 (W9 m ρ c) main_part2_ops0_writes (by decide)
    _ = W8 m ρ c (Proc.devRef .tc main_arg9) := StableHlo.after_of_writes_sub (r := main_arg9) main_part1_ops0 (W8 m ρ c) main_part1_ops0_writes (by decide)
    _ = W7 m ρ c (Proc.devRef .tc main_arg9) := W8_of_ne m ρ c main_arg9 (by decide)
    _ = W6 m ρ c (Proc.devRef .tc main_arg9) := StableHlo.after_of_writes_sub (r := main_arg9) main_part0_ops3 (W6 m ρ c) main_part0_ops3_writes (by decide)
    _ = W5 m ρ c (Proc.devRef .tc main_arg9) := W6_of_ne m ρ c main_arg9 (by decide)
    _ = W4 m ρ c (Proc.devRef .tc main_arg9) := StableHlo.after_of_writes_sub (r := main_arg9) main_part0_ops2 (W4 m ρ c) main_part0_ops2_writes (by decide)
    _ = W3 m ρ c (Proc.devRef .tc main_arg9) := (W4_arr m ρ c 4).trans (((dat1 (V3 m ρ) c).arrAt_in 4 rfl _).trans (A_eq1 (V3 m ρ) c 4))
    _ = W2 m ρ c (Proc.devRef .tc main_arg9) := StableHlo.after_of_writes_sub (r := main_arg9) main_part0_ops1 (W2 m ρ c) main_part0_ops1_writes (by decide)
    _ = W1 m ρ c (Proc.devRef .tc main_arg9) := W2_of_ne m ρ c main_arg9 (by decide)
    _ = W0 m ρ c (Proc.devRef .tc main_arg9) := StableHlo.after_of_writes_sub (r := main_arg9) main_part0_ops0 (W0 m ρ c) main_part0_ops0_writes (by decide)
    _ = m ((c : Thread nD τ).loc main_arg9) := rfl

theorem W13_main_arg10 (c : Dev nD) : W13 m ρ c (Proc.devRef .tc main_arg10) = m ((c : Thread nD τ).loc main_arg10) :=
  calc W13 m ρ c (Proc.devRef .tc main_arg10)
    _ = W12 m ρ c (Proc.devRef .tc main_arg10) := W13_of_ne m ρ c main_arg10 (by decide)
    _ = W11 m ρ c (Proc.devRef .tc main_arg10) := StableHlo.after_of_writes_sub (r := main_arg10) main_part2_ops1 (W11 m ρ c) main_part2_ops1_writes (by decide)
    _ = W10 m ρ c (Proc.devRef .tc main_arg10) := W11_of_ne m ρ c main_arg10 (by decide)
    _ = W9 m ρ c (Proc.devRef .tc main_arg10) := StableHlo.after_of_writes_sub (r := main_arg10) main_part2_ops0 (W9 m ρ c) main_part2_ops0_writes (by decide)
    _ = W8 m ρ c (Proc.devRef .tc main_arg10) := StableHlo.after_of_writes_sub (r := main_arg10) main_part1_ops0 (W8 m ρ c) main_part1_ops0_writes (by decide)
    _ = W7 m ρ c (Proc.devRef .tc main_arg10) := W8_of_ne m ρ c main_arg10 (by decide)
    _ = W6 m ρ c (Proc.devRef .tc main_arg10) := StableHlo.after_of_writes_sub (r := main_arg10) main_part0_ops3 (W6 m ρ c) main_part0_ops3_writes (by decide)
    _ = W5 m ρ c (Proc.devRef .tc main_arg10) := (W6_arr m ρ c 2).trans (((dat2 (V5 m ρ) c).arrAt_in 2 rfl _).trans (A_eq2 (V5 m ρ) c 2))
    _ = W4 m ρ c (Proc.devRef .tc main_arg10) := StableHlo.after_of_writes_sub (r := main_arg10) main_part0_ops2 (W4 m ρ c) main_part0_ops2_writes (by decide)
    _ = W3 m ρ c (Proc.devRef .tc main_arg10) := W4_of_ne m ρ c main_arg10 (by decide)
    _ = W2 m ρ c (Proc.devRef .tc main_arg10) := StableHlo.after_of_writes_sub (r := main_arg10) main_part0_ops1 (W2 m ρ c) main_part0_ops1_writes (by decide)
    _ = W1 m ρ c (Proc.devRef .tc main_arg10) := W2_of_ne m ρ c main_arg10 (by decide)
    _ = W0 m ρ c (Proc.devRef .tc main_arg10) := StableHlo.after_of_writes_sub (r := main_arg10) main_part0_ops0 (W0 m ρ c) main_part0_ops0_writes (by decide)
    _ = m ((c : Thread nD τ).loc main_arg10) := rfl

theorem W13_main_arg11 (c : Dev nD) : W13 m ρ c (Proc.devRef .tc main_arg11) = m ((c : Thread nD τ).loc main_arg11) :=
  calc W13 m ρ c (Proc.devRef .tc main_arg11)
    _ = W12 m ρ c (Proc.devRef .tc main_arg11) := W13_of_ne m ρ c main_arg11 (by decide)
    _ = W11 m ρ c (Proc.devRef .tc main_arg11) := StableHlo.after_of_writes_sub (r := main_arg11) main_part2_ops1 (W11 m ρ c) main_part2_ops1_writes (by decide)
    _ = W10 m ρ c (Proc.devRef .tc main_arg11) := W11_of_ne m ρ c main_arg11 (by decide)
    _ = W9 m ρ c (Proc.devRef .tc main_arg11) := StableHlo.after_of_writes_sub (r := main_arg11) main_part2_ops0 (W9 m ρ c) main_part2_ops0_writes (by decide)
    _ = W8 m ρ c (Proc.devRef .tc main_arg11) := StableHlo.after_of_writes_sub (r := main_arg11) main_part1_ops0 (W8 m ρ c) main_part1_ops0_writes (by decide)
    _ = W7 m ρ c (Proc.devRef .tc main_arg11) := W8_of_ne m ρ c main_arg11 (by decide)
    _ = W6 m ρ c (Proc.devRef .tc main_arg11) := StableHlo.after_of_writes_sub (r := main_arg11) main_part0_ops3 (W6 m ρ c) main_part0_ops3_writes (by decide)
    _ = W5 m ρ c (Proc.devRef .tc main_arg11) := W6_of_ne m ρ c main_arg11 (by decide)
    _ = W4 m ρ c (Proc.devRef .tc main_arg11) := StableHlo.after_of_writes_sub (r := main_arg11) main_part0_ops2 (W4 m ρ c) main_part0_ops2_writes (by decide)
    _ = W3 m ρ c (Proc.devRef .tc main_arg11) := W4_of_ne m ρ c main_arg11 (by decide)
    _ = W2 m ρ c (Proc.devRef .tc main_arg11) := StableHlo.after_of_writes_sub (r := main_arg11) main_part0_ops1 (W2 m ρ c) main_part0_ops1_writes (by decide)
    _ = W1 m ρ c (Proc.devRef .tc main_arg11) := W2_of_ne m ρ c main_arg11 (by decide)
    _ = W0 m ρ c (Proc.devRef .tc main_arg11) := StableHlo.after_of_writes_sub (r := main_arg11) main_part0_ops0 (W0 m ρ c) main_part0_ops0_writes (by decide)
    _ = m ((c : Thread nD τ).loc main_arg11) := rfl

theorem W13_main_arg12 (c : Dev nD) : W13 m ρ c (Proc.devRef .tc main_arg12) = m ((c : Thread nD τ).loc main_arg12) :=
  calc W13 m ρ c (Proc.devRef .tc main_arg12)
    _ = W12 m ρ c (Proc.devRef .tc main_arg12) := W13_of_ne m ρ c main_arg12 (by decide)
    _ = W11 m ρ c (Proc.devRef .tc main_arg12) := StableHlo.after_of_writes_sub (r := main_arg12) main_part2_ops1 (W11 m ρ c) main_part2_ops1_writes (by decide)
    _ = W10 m ρ c (Proc.devRef .tc main_arg12) := W11_of_ne m ρ c main_arg12 (by decide)
    _ = W9 m ρ c (Proc.devRef .tc main_arg12) := StableHlo.after_of_writes_sub (r := main_arg12) main_part2_ops0 (W9 m ρ c) main_part2_ops0_writes (by decide)
    _ = W8 m ρ c (Proc.devRef .tc main_arg12) := StableHlo.after_of_writes_sub (r := main_arg12) main_part1_ops0 (W8 m ρ c) main_part1_ops0_writes (by decide)
    _ = W7 m ρ c (Proc.devRef .tc main_arg12) := W8_of_ne m ρ c main_arg12 (by decide)
    _ = W6 m ρ c (Proc.devRef .tc main_arg12) := StableHlo.after_of_writes_sub (r := main_arg12) main_part0_ops3 (W6 m ρ c) main_part0_ops3_writes (by decide)
    _ = W5 m ρ c (Proc.devRef .tc main_arg12) := (W6_arr m ρ c 4).trans (((dat2 (V5 m ρ) c).arrAt_in 4 rfl _).trans (A_eq2 (V5 m ρ) c 4))
    _ = W4 m ρ c (Proc.devRef .tc main_arg12) := StableHlo.after_of_writes_sub (r := main_arg12) main_part0_ops2 (W4 m ρ c) main_part0_ops2_writes (by decide)
    _ = W3 m ρ c (Proc.devRef .tc main_arg12) := W4_of_ne m ρ c main_arg12 (by decide)
    _ = W2 m ρ c (Proc.devRef .tc main_arg12) := StableHlo.after_of_writes_sub (r := main_arg12) main_part0_ops1 (W2 m ρ c) main_part0_ops1_writes (by decide)
    _ = W1 m ρ c (Proc.devRef .tc main_arg12) := W2_of_ne m ρ c main_arg12 (by decide)
    _ = W0 m ρ c (Proc.devRef .tc main_arg12) := StableHlo.after_of_writes_sub (r := main_arg12) main_part0_ops0 (W0 m ρ c) main_part0_ops0_writes (by decide)
    _ = m ((c : Thread nD τ).loc main_arg12) := rfl

theorem W13_main_arg13 (c : Dev nD) : W13 m ρ c (Proc.devRef .tc main_arg13) = m ((c : Thread nD τ).loc main_arg13) :=
  calc W13 m ρ c (Proc.devRef .tc main_arg13)
    _ = W12 m ρ c (Proc.devRef .tc main_arg13) := W13_of_ne m ρ c main_arg13 (by decide)
    _ = W11 m ρ c (Proc.devRef .tc main_arg13) := StableHlo.after_of_writes_sub (r := main_arg13) main_part2_ops1 (W11 m ρ c) main_part2_ops1_writes (by decide)
    _ = W10 m ρ c (Proc.devRef .tc main_arg13) := W11_of_ne m ρ c main_arg13 (by decide)
    _ = W9 m ρ c (Proc.devRef .tc main_arg13) := StableHlo.after_of_writes_sub (r := main_arg13) main_part2_ops0 (W9 m ρ c) main_part2_ops0_writes (by decide)
    _ = W8 m ρ c (Proc.devRef .tc main_arg13) := StableHlo.after_of_writes_sub (r := main_arg13) main_part1_ops0 (W8 m ρ c) main_part1_ops0_writes (by decide)
    _ = W7 m ρ c (Proc.devRef .tc main_arg13) := (W8_arr m ρ c 2).trans (((dat3 (V7 m ρ) c).arrAt_in 2 rfl _).trans (A_eq3 (V7 m ρ) c 2))
    _ = W6 m ρ c (Proc.devRef .tc main_arg13) := StableHlo.after_of_writes_sub (r := main_arg13) main_part0_ops3 (W6 m ρ c) main_part0_ops3_writes (by decide)
    _ = W5 m ρ c (Proc.devRef .tc main_arg13) := W6_of_ne m ρ c main_arg13 (by decide)
    _ = W4 m ρ c (Proc.devRef .tc main_arg13) := StableHlo.after_of_writes_sub (r := main_arg13) main_part0_ops2 (W4 m ρ c) main_part0_ops2_writes (by decide)
    _ = W3 m ρ c (Proc.devRef .tc main_arg13) := W4_of_ne m ρ c main_arg13 (by decide)
    _ = W2 m ρ c (Proc.devRef .tc main_arg13) := StableHlo.after_of_writes_sub (r := main_arg13) main_part0_ops1 (W2 m ρ c) main_part0_ops1_writes (by decide)
    _ = W1 m ρ c (Proc.devRef .tc main_arg13) := W2_of_ne m ρ c main_arg13 (by decide)
    _ = W0 m ρ c (Proc.devRef .tc main_arg13) := StableHlo.after_of_writes_sub (r := main_arg13) main_part0_ops0 (W0 m ρ c) main_part0_ops0_writes (by decide)
    _ = m ((c : Thread nD τ).loc main_arg13) := rfl

theorem W13_main_arg14 (c : Dev nD) : W13 m ρ c (Proc.devRef .tc main_arg14) = m ((c : Thread nD τ).loc main_arg14) :=
  calc W13 m ρ c (Proc.devRef .tc main_arg14)
    _ = W12 m ρ c (Proc.devRef .tc main_arg14) := W13_of_ne m ρ c main_arg14 (by decide)
    _ = W11 m ρ c (Proc.devRef .tc main_arg14) := StableHlo.after_of_writes_sub (r := main_arg14) main_part2_ops1 (W11 m ρ c) main_part2_ops1_writes (by decide)
    _ = W10 m ρ c (Proc.devRef .tc main_arg14) := W11_of_ne m ρ c main_arg14 (by decide)
    _ = W9 m ρ c (Proc.devRef .tc main_arg14) := StableHlo.after_of_writes_sub (r := main_arg14) main_part2_ops0 (W9 m ρ c) main_part2_ops0_writes (by decide)
    _ = W8 m ρ c (Proc.devRef .tc main_arg14) := StableHlo.after_of_writes_sub (r := main_arg14) main_part1_ops0 (W8 m ρ c) main_part1_ops0_writes (by decide)
    _ = W7 m ρ c (Proc.devRef .tc main_arg14) := W8_of_ne m ρ c main_arg14 (by decide)
    _ = W6 m ρ c (Proc.devRef .tc main_arg14) := StableHlo.after_of_writes_sub (r := main_arg14) main_part0_ops3 (W6 m ρ c) main_part0_ops3_writes (by decide)
    _ = W5 m ρ c (Proc.devRef .tc main_arg14) := W6_of_ne m ρ c main_arg14 (by decide)
    _ = W4 m ρ c (Proc.devRef .tc main_arg14) := StableHlo.after_of_writes_sub (r := main_arg14) main_part0_ops2 (W4 m ρ c) main_part0_ops2_writes (by decide)
    _ = W3 m ρ c (Proc.devRef .tc main_arg14) := W4_of_ne m ρ c main_arg14 (by decide)
    _ = W2 m ρ c (Proc.devRef .tc main_arg14) := StableHlo.after_of_writes_sub (r := main_arg14) main_part0_ops1 (W2 m ρ c) main_part0_ops1_writes (by decide)
    _ = W1 m ρ c (Proc.devRef .tc main_arg14) := W2_of_ne m ρ c main_arg14 (by decide)
    _ = W0 m ρ c (Proc.devRef .tc main_arg14) := StableHlo.after_of_writes_sub (r := main_arg14) main_part0_ops0 (W0 m ρ c) main_part0_ops0_writes (by decide)
    _ = m ((c : Thread nD τ).loc main_arg14) := rfl

theorem W13_main_arg15 (c : Dev nD) : W13 m ρ c (Proc.devRef .tc main_arg15) = m ((c : Thread nD τ).loc main_arg15) :=
  calc W13 m ρ c (Proc.devRef .tc main_arg15)
    _ = W12 m ρ c (Proc.devRef .tc main_arg15) := W13_of_ne m ρ c main_arg15 (by decide)
    _ = W11 m ρ c (Proc.devRef .tc main_arg15) := StableHlo.after_of_writes_sub (r := main_arg15) main_part2_ops1 (W11 m ρ c) main_part2_ops1_writes (by decide)
    _ = W10 m ρ c (Proc.devRef .tc main_arg15) := W11_of_ne m ρ c main_arg15 (by decide)
    _ = W9 m ρ c (Proc.devRef .tc main_arg15) := StableHlo.after_of_writes_sub (r := main_arg15) main_part2_ops0 (W9 m ρ c) main_part2_ops0_writes (by decide)
    _ = W8 m ρ c (Proc.devRef .tc main_arg15) := StableHlo.after_of_writes_sub (r := main_arg15) main_part1_ops0 (W8 m ρ c) main_part1_ops0_writes (by decide)
    _ = W7 m ρ c (Proc.devRef .tc main_arg15) := (W8_arr m ρ c 4).trans (((dat3 (V7 m ρ) c).arrAt_in 4 rfl _).trans (A_eq3 (V7 m ρ) c 4))
    _ = W6 m ρ c (Proc.devRef .tc main_arg15) := StableHlo.after_of_writes_sub (r := main_arg15) main_part0_ops3 (W6 m ρ c) main_part0_ops3_writes (by decide)
    _ = W5 m ρ c (Proc.devRef .tc main_arg15) := W6_of_ne m ρ c main_arg15 (by decide)
    _ = W4 m ρ c (Proc.devRef .tc main_arg15) := StableHlo.after_of_writes_sub (r := main_arg15) main_part0_ops2 (W4 m ρ c) main_part0_ops2_writes (by decide)
    _ = W3 m ρ c (Proc.devRef .tc main_arg15) := W4_of_ne m ρ c main_arg15 (by decide)
    _ = W2 m ρ c (Proc.devRef .tc main_arg15) := StableHlo.after_of_writes_sub (r := main_arg15) main_part0_ops1 (W2 m ρ c) main_part0_ops1_writes (by decide)
    _ = W1 m ρ c (Proc.devRef .tc main_arg15) := W2_of_ne m ρ c main_arg15 (by decide)
    _ = W0 m ρ c (Proc.devRef .tc main_arg15) := StableHlo.after_of_writes_sub (r := main_arg15) main_part0_ops0 (W0 m ρ c) main_part0_ops0_writes (by decide)
    _ = m ((c : Thread nD τ).loc main_arg15) := rfl

theorem W13_main_arg16 (c : Dev nD) : W13 m ρ c (Proc.devRef .tc main_arg16) = m ((c : Thread nD τ).loc main_arg16) :=
  calc W13 m ρ c (Proc.devRef .tc main_arg16)
    _ = W12 m ρ c (Proc.devRef .tc main_arg16) := W13_of_ne m ρ c main_arg16 (by decide)
    _ = W11 m ρ c (Proc.devRef .tc main_arg16) := StableHlo.after_of_writes_sub (r := main_arg16) main_part2_ops1 (W11 m ρ c) main_part2_ops1_writes (by decide)
    _ = W10 m ρ c (Proc.devRef .tc main_arg16) := W11_of_ne m ρ c main_arg16 (by decide)
    _ = W9 m ρ c (Proc.devRef .tc main_arg16) := StableHlo.after_of_writes_sub (r := main_arg16) main_part2_ops0 (W9 m ρ c) main_part2_ops0_writes (by decide)
    _ = W8 m ρ c (Proc.devRef .tc main_arg16) := StableHlo.after_of_writes_sub (r := main_arg16) main_part1_ops0 (W8 m ρ c) main_part1_ops0_writes (by decide)
    _ = W7 m ρ c (Proc.devRef .tc main_arg16) := (W8_arr m ρ c 5).trans (((dat3 (V7 m ρ) c).arrAt_in 5 rfl _).trans (A_eq3 (V7 m ρ) c 5))
    _ = W6 m ρ c (Proc.devRef .tc main_arg16) := StableHlo.after_of_writes_sub (r := main_arg16) main_part0_ops3 (W6 m ρ c) main_part0_ops3_writes (by decide)
    _ = W5 m ρ c (Proc.devRef .tc main_arg16) := W6_of_ne m ρ c main_arg16 (by decide)
    _ = W4 m ρ c (Proc.devRef .tc main_arg16) := StableHlo.after_of_writes_sub (r := main_arg16) main_part0_ops2 (W4 m ρ c) main_part0_ops2_writes (by decide)
    _ = W3 m ρ c (Proc.devRef .tc main_arg16) := W4_of_ne m ρ c main_arg16 (by decide)
    _ = W2 m ρ c (Proc.devRef .tc main_arg16) := StableHlo.after_of_writes_sub (r := main_arg16) main_part0_ops1 (W2 m ρ c) main_part0_ops1_writes (by decide)
    _ = W1 m ρ c (Proc.devRef .tc main_arg16) := W2_of_ne m ρ c main_arg16 (by decide)
    _ = W0 m ρ c (Proc.devRef .tc main_arg16) := StableHlo.after_of_writes_sub (r := main_arg16) main_part0_ops0 (W0 m ρ c) main_part0_ops0_writes (by decide)
    _ = m ((c : Thread nD τ).loc main_arg16) := rfl

theorem W13_main_arg17 (c : Dev nD) : W13 m ρ c (Proc.devRef .tc main_arg17) = m ((c : Thread nD τ).loc main_arg17) :=
  calc W13 m ρ c (Proc.devRef .tc main_arg17)
    _ = W12 m ρ c (Proc.devRef .tc main_arg17) := W13_of_ne m ρ c main_arg17 (by decide)
    _ = W11 m ρ c (Proc.devRef .tc main_arg17) := StableHlo.after_of_writes_sub (r := main_arg17) main_part2_ops1 (W11 m ρ c) main_part2_ops1_writes (by decide)
    _ = W10 m ρ c (Proc.devRef .tc main_arg17) := W11_of_ne m ρ c main_arg17 (by decide)
    _ = W9 m ρ c (Proc.devRef .tc main_arg17) := StableHlo.after_of_writes_sub (r := main_arg17) main_part2_ops0 (W9 m ρ c) main_part2_ops0_writes (by decide)
    _ = W8 m ρ c (Proc.devRef .tc main_arg17) := StableHlo.after_of_writes_sub (r := main_arg17) main_part1_ops0 (W8 m ρ c) main_part1_ops0_writes (by decide)
    _ = W7 m ρ c (Proc.devRef .tc main_arg17) := W8_of_ne m ρ c main_arg17 (by decide)
    _ = W6 m ρ c (Proc.devRef .tc main_arg17) := StableHlo.after_of_writes_sub (r := main_arg17) main_part0_ops3 (W6 m ρ c) main_part0_ops3_writes (by decide)
    _ = W5 m ρ c (Proc.devRef .tc main_arg17) := W6_of_ne m ρ c main_arg17 (by decide)
    _ = W4 m ρ c (Proc.devRef .tc main_arg17) := StableHlo.after_of_writes_sub (r := main_arg17) main_part0_ops2 (W4 m ρ c) main_part0_ops2_writes (by decide)
    _ = W3 m ρ c (Proc.devRef .tc main_arg17) := W4_of_ne m ρ c main_arg17 (by decide)
    _ = W2 m ρ c (Proc.devRef .tc main_arg17) := StableHlo.after_of_writes_sub (r := main_arg17) main_part0_ops1 (W2 m ρ c) main_part0_ops1_writes (by decide)
    _ = W1 m ρ c (Proc.devRef .tc main_arg17) := W2_of_ne m ρ c main_arg17 (by decide)
    _ = W0 m ρ c (Proc.devRef .tc main_arg17) := StableHlo.after_of_writes_sub (r := main_arg17) main_part0_ops0 (W0 m ρ c) main_part0_ops0_writes (by decide)
    _ = m ((c : Thread nD τ).loc main_arg17) := rfl

theorem W13_main_arg18 (c : Dev nD) : W13 m ρ c (Proc.devRef .tc main_arg18) = m ((c : Thread nD τ).loc main_arg18) :=
  calc W13 m ρ c (Proc.devRef .tc main_arg18)
    _ = W12 m ρ c (Proc.devRef .tc main_arg18) := W13_of_ne m ρ c main_arg18 (by decide)
    _ = W11 m ρ c (Proc.devRef .tc main_arg18) := StableHlo.after_of_writes_sub (r := main_arg18) main_part2_ops1 (W11 m ρ c) main_part2_ops1_writes (by decide)
    _ = W10 m ρ c (Proc.devRef .tc main_arg18) := (W11_arr m ρ c 2).trans (((dat4 (V10 m ρ) c).arrAt_in 2 rfl _).trans (A_eq4 (V10 m ρ) c 2))
    _ = W9 m ρ c (Proc.devRef .tc main_arg18) := StableHlo.after_of_writes_sub (r := main_arg18) main_part2_ops0 (W9 m ρ c) main_part2_ops0_writes (by decide)
    _ = W8 m ρ c (Proc.devRef .tc main_arg18) := StableHlo.after_of_writes_sub (r := main_arg18) main_part1_ops0 (W8 m ρ c) main_part1_ops0_writes (by decide)
    _ = W7 m ρ c (Proc.devRef .tc main_arg18) := W8_of_ne m ρ c main_arg18 (by decide)
    _ = W6 m ρ c (Proc.devRef .tc main_arg18) := StableHlo.after_of_writes_sub (r := main_arg18) main_part0_ops3 (W6 m ρ c) main_part0_ops3_writes (by decide)
    _ = W5 m ρ c (Proc.devRef .tc main_arg18) := W6_of_ne m ρ c main_arg18 (by decide)
    _ = W4 m ρ c (Proc.devRef .tc main_arg18) := StableHlo.after_of_writes_sub (r := main_arg18) main_part0_ops2 (W4 m ρ c) main_part0_ops2_writes (by decide)
    _ = W3 m ρ c (Proc.devRef .tc main_arg18) := W4_of_ne m ρ c main_arg18 (by decide)
    _ = W2 m ρ c (Proc.devRef .tc main_arg18) := StableHlo.after_of_writes_sub (r := main_arg18) main_part0_ops1 (W2 m ρ c) main_part0_ops1_writes (by decide)
    _ = W1 m ρ c (Proc.devRef .tc main_arg18) := W2_of_ne m ρ c main_arg18 (by decide)
    _ = W0 m ρ c (Proc.devRef .tc main_arg18) := StableHlo.after_of_writes_sub (r := main_arg18) main_part0_ops0 (W0 m ρ c) main_part0_ops0_writes (by decide)
    _ = m ((c : Thread nD τ).loc main_arg18) := rfl

theorem W13_main_arg19 (c : Dev nD) : W13 m ρ c (Proc.devRef .tc main_arg19) = m ((c : Thread nD τ).loc main_arg19) :=
  calc W13 m ρ c (Proc.devRef .tc main_arg19)
    _ = W12 m ρ c (Proc.devRef .tc main_arg19) := W13_of_ne m ρ c main_arg19 (by decide)
    _ = W11 m ρ c (Proc.devRef .tc main_arg19) := StableHlo.after_of_writes_sub (r := main_arg19) main_part2_ops1 (W11 m ρ c) main_part2_ops1_writes (by decide)
    _ = W10 m ρ c (Proc.devRef .tc main_arg19) := W11_of_ne m ρ c main_arg19 (by decide)
    _ = W9 m ρ c (Proc.devRef .tc main_arg19) := StableHlo.after_of_writes_sub (r := main_arg19) main_part2_ops0 (W9 m ρ c) main_part2_ops0_writes (by decide)
    _ = W8 m ρ c (Proc.devRef .tc main_arg19) := StableHlo.after_of_writes_sub (r := main_arg19) main_part1_ops0 (W8 m ρ c) main_part1_ops0_writes (by decide)
    _ = W7 m ρ c (Proc.devRef .tc main_arg19) := W8_of_ne m ρ c main_arg19 (by decide)
    _ = W6 m ρ c (Proc.devRef .tc main_arg19) := StableHlo.after_of_writes_sub (r := main_arg19) main_part0_ops3 (W6 m ρ c) main_part0_ops3_writes (by decide)
    _ = W5 m ρ c (Proc.devRef .tc main_arg19) := (W6_arr m ρ c 5).trans (((dat2 (V5 m ρ) c).arrAt_in 5 rfl _).trans (A_eq2 (V5 m ρ) c 5))
    _ = W4 m ρ c (Proc.devRef .tc main_arg19) := StableHlo.after_of_writes_sub (r := main_arg19) main_part0_ops2 (W4 m ρ c) main_part0_ops2_writes (by decide)
    _ = W3 m ρ c (Proc.devRef .tc main_arg19) := W4_of_ne m ρ c main_arg19 (by decide)
    _ = W2 m ρ c (Proc.devRef .tc main_arg19) := StableHlo.after_of_writes_sub (r := main_arg19) main_part0_ops1 (W2 m ρ c) main_part0_ops1_writes (by decide)
    _ = W1 m ρ c (Proc.devRef .tc main_arg19) := W2_of_ne m ρ c main_arg19 (by decide)
    _ = W0 m ρ c (Proc.devRef .tc main_arg19) := StableHlo.after_of_writes_sub (r := main_arg19) main_part0_ops0 (W0 m ρ c) main_part0_ops0_writes (by decide)
    _ = m ((c : Thread nD τ).loc main_arg19) := rfl

theorem W13_main_arg20 (c : Dev nD) : W13 m ρ c (Proc.devRef .tc main_arg20) = m ((c : Thread nD τ).loc main_arg20) :=
  calc W13 m ρ c (Proc.devRef .tc main_arg20)
    _ = W12 m ρ c (Proc.devRef .tc main_arg20) := W13_of_ne m ρ c main_arg20 (by decide)
    _ = W11 m ρ c (Proc.devRef .tc main_arg20) := StableHlo.after_of_writes_sub (r := main_arg20) main_part2_ops1 (W11 m ρ c) main_part2_ops1_writes (by decide)
    _ = W10 m ρ c (Proc.devRef .tc main_arg20) := W11_of_ne m ρ c main_arg20 (by decide)
    _ = W9 m ρ c (Proc.devRef .tc main_arg20) := StableHlo.after_of_writes_sub (r := main_arg20) main_part2_ops0 (W9 m ρ c) main_part2_ops0_writes (by decide)
    _ = W8 m ρ c (Proc.devRef .tc main_arg20) := StableHlo.after_of_writes_sub (r := main_arg20) main_part1_ops0 (W8 m ρ c) main_part1_ops0_writes (by decide)
    _ = W7 m ρ c (Proc.devRef .tc main_arg20) := W8_of_ne m ρ c main_arg20 (by decide)
    _ = W6 m ρ c (Proc.devRef .tc main_arg20) := StableHlo.after_of_writes_sub (r := main_arg20) main_part0_ops3 (W6 m ρ c) main_part0_ops3_writes (by decide)
    _ = W5 m ρ c (Proc.devRef .tc main_arg20) := W6_of_ne m ρ c main_arg20 (by decide)
    _ = W4 m ρ c (Proc.devRef .tc main_arg20) := StableHlo.after_of_writes_sub (r := main_arg20) main_part0_ops2 (W4 m ρ c) main_part0_ops2_writes (by decide)
    _ = W3 m ρ c (Proc.devRef .tc main_arg20) := W4_of_ne m ρ c main_arg20 (by decide)
    _ = W2 m ρ c (Proc.devRef .tc main_arg20) := StableHlo.after_of_writes_sub (r := main_arg20) main_part0_ops1 (W2 m ρ c) main_part0_ops1_writes (by decide)
    _ = W1 m ρ c (Proc.devRef .tc main_arg20) := W2_of_ne m ρ c main_arg20 (by decide)
    _ = W0 m ρ c (Proc.devRef .tc main_arg20) := StableHlo.after_of_writes_sub (r := main_arg20) main_part0_ops0 (W0 m ρ c) main_part0_ops0_writes (by decide)
    _ = m ((c : Thread nD τ).loc main_arg20) := rfl

theorem W13_main_arg21 (c : Dev nD) : W13 m ρ c (Proc.devRef .tc main_arg21) = m ((c : Thread nD τ).loc main_arg21) :=
  calc W13 m ρ c (Proc.devRef .tc main_arg21)
    _ = W12 m ρ c (Proc.devRef .tc main_arg21) := (W13_arr m ρ c 2).trans (((dat5 (V12 m ρ) c).arrAt_in 2 rfl _).trans (A_eq5 (V12 m ρ) c 2))
    _ = W11 m ρ c (Proc.devRef .tc main_arg21) := StableHlo.after_of_writes_sub (r := main_arg21) main_part2_ops1 (W11 m ρ c) main_part2_ops1_writes (by decide)
    _ = W10 m ρ c (Proc.devRef .tc main_arg21) := W11_of_ne m ρ c main_arg21 (by decide)
    _ = W9 m ρ c (Proc.devRef .tc main_arg21) := StableHlo.after_of_writes_sub (r := main_arg21) main_part2_ops0 (W9 m ρ c) main_part2_ops0_writes (by decide)
    _ = W8 m ρ c (Proc.devRef .tc main_arg21) := StableHlo.after_of_writes_sub (r := main_arg21) main_part1_ops0 (W8 m ρ c) main_part1_ops0_writes (by decide)
    _ = W7 m ρ c (Proc.devRef .tc main_arg21) := W8_of_ne m ρ c main_arg21 (by decide)
    _ = W6 m ρ c (Proc.devRef .tc main_arg21) := StableHlo.after_of_writes_sub (r := main_arg21) main_part0_ops3 (W6 m ρ c) main_part0_ops3_writes (by decide)
    _ = W5 m ρ c (Proc.devRef .tc main_arg21) := W6_of_ne m ρ c main_arg21 (by decide)
    _ = W4 m ρ c (Proc.devRef .tc main_arg21) := StableHlo.after_of_writes_sub (r := main_arg21) main_part0_ops2 (W4 m ρ c) main_part0_ops2_writes (by decide)
    _ = W3 m ρ c (Proc.devRef .tc main_arg21) := W4_of_ne m ρ c main_arg21 (by decide)
    _ = W2 m ρ c (Proc.devRef .tc main_arg21) := StableHlo.after_of_writes_sub (r := main_arg21) main_part0_ops1 (W2 m ρ c) main_part0_ops1_writes (by decide)
    _ = W1 m ρ c (Proc.devRef .tc main_arg21) := W2_of_ne m ρ c main_arg21 (by decide)
    _ = W0 m ρ c (Proc.devRef .tc main_arg21) := StableHlo.after_of_writes_sub (r := main_arg21) main_part0_ops0 (W0 m ρ c) main_part0_ops0_writes (by decide)
    _ = m ((c : Thread nD τ).loc main_arg21) := rfl

end Cert.Kernel.Hand

end
-- ==== Proof.K.RunDefs.lean ====
import proofs.«171555_j63479616635263_2_alg».proof.Proof.K.RunBounds

/-!
# The per-launch records as one family, and what a core holds between segments

Every launch's per-point record is taken at the buffer contents its launch is entered with; between segments a core
holds every unscoped buffer at the boundary's contents, its generator register at some state, and owes nothing.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No launch has a prefetched table. -/
abbrev adm : (p : Fin 6) → (pcfgs (F := F) p).Adm := fun p => (cfgs p).toPCfg_adm
/-- Every launch's per-point record, each at its launch's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V10 m ρ) c
  | ⟨5, _⟩ => fun c => dat5 (V12 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the fold of its operations over `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `main_part0_ops0` allocates a buffer. -/
theorem main_part0_ops0_fresh : (main_part0_ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- No operation of `main_part0_ops1` allocates a buffer. -/
theorem main_part0_ops1_fresh : (main_part0_ops1 : List (HloOp τ sig (Elt F))).Forall fun op => op.fresh = ∅ :=
  rfl
/-- No operation of `main_part0_ops2` allocates a buffer. -/
theorem main_part0_ops2_fresh : (main_part0_ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- No operation of `main_part0_ops3` allocates a buffer. -/
theorem main_part0_ops3_fresh : (main_part0_ops3 : List (HloOp τ sig (Elt F))).Forall fun op => op.fresh = ∅ :=
  rfl
/-- No operation of `main_part1_ops0` allocates a buffer. -/
theorem main_part1_ops0_fresh : (main_part1_ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- No operation of `main_part2_ops0` allocates a buffer. -/
theorem main_part2_ops0_fresh : (main_part2_ops0 : List (HloOp τ sig (Elt F))).Forall fun op => op.fresh = ∅ :=
  ⟨rfl, rfl, rfl, rfl, rfl, rfl, rfl, rfl, rfl, rfl, rfl⟩
/-- No operation of `main_part2_ops1` allocates a buffer. -/
theorem main_part2_ops1_fresh : (main_part2_ops1 : List (HloOp τ sig (Elt F))).Forall fun op => op.fresh = ∅ :=
  rfl

/-- An unscoped TensorCore reference is among those a core holds between segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds after the last segment, without its debts: every unscoped buffer at the last boundary's
    contents `W13`, the generator register at some state. -/
abbrev Tₙ (c : Dev nD) : sProp 𝕄 := iprop(StableHlo.held (c : Thread nD τ) (Pipeline.ucRefs τ sig) (W13 m ρ c) ∗ ∃ r, prngReg c r)

end Cert.Kernel.Hand

end
-- ==== Proof.K.RunReg0.lean ====
import proofs.«171555_j63479616635263_2_alg».proof.Proof.K.RunDefs

/-!
# Kernel launch 0 as a segment of @main

Entered with every unscoped buffer at the contents `W1`, left with them at `W2`: the launch's arrays are split out
of the unscoped buffers on entry and put back at what the launch leaves on exit; the generator register passes
into the launch's invariant and out again; nothing is owed, and the kernel has no semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 0 over what a core holds between segments. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunReg1.lean ====
import proofs.«171555_j63479616635263_2_alg».proof.Proof.K.RunDefs

/-!
# Kernel launch 1 as a segment of @main

Entered with every unscoped buffer at the contents `W3`, left with them at `W4`: the launch's arrays are split out
of the unscoped buffers on entry and put back at what the launch leaves on exit; the generator register passes
into the launch's invariant and out again; nothing is owed, and the kernel has no semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 1 over what a core holds between segments. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunReg2.lean ====
import proofs.«171555_j63479616635263_2_alg».proof.Proof.K.RunDefs

/-!
# Kernel launch 2 as a segment of @main

Entered with every unscoped buffer at the contents `W5`, left with them at `W6`: the launch's arrays are split out
of the unscoped buffers on entry and put back at what the launch leaves on exit; the generator register passes
into the launch's invariant and out again; nothing is owed, and the kernel has no semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 2 over what a core holds between segments. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunReg3.lean ====
import proofs.«171555_j63479616635263_2_alg».proof.Proof.K.RunDefs

/-!
# Kernel launch 3 as a segment of @main

Entered with every unscoped buffer at the contents `W7`, left with them at `W8`: the launch's arrays are split out
of the unscoped buffers on entry and put back at what the launch leaves on exit; the generator register passes
into the launch's invariant and out again; nothing is owed, and the kernel has no semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 3 over what a core holds between segments. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunReg4.lean ====
import proofs.«171555_j63479616635263_2_alg».proof.Proof.K.RunDefs

/-!
# Kernel launch 4 as a segment of @main

Entered with every unscoped buffer at the contents `W10`, left with them at `W11`: the launch's arrays are split out
of the unscoped buffers on entry and put back at what the launch leaves on exit; the generator register passes
into the launch's invariant and out again; nothing is owed, and the kernel has no semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 4 over what a core holds between segments. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunReg5.lean ====
import proofs.«171555_j63479616635263_2_alg».proof.Proof.K.RunDefs

/-!
# Kernel launch 5 as a segment of @main

Entered with every unscoped buffer at the contents `W12`, left with them at `W13`: the launch's arrays are split out
of the unscoped buffers on entry and put back at what the launch leaves on exit; the generator register passes
into the launch's invariant and out again; nothing is owed, and the kernel has no semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 5 over what a core holds between segments. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.K.Run.lean ====
import proofs.«171555_j63479616635263_2_alg».proof.Proof.K.RunArgs
import proofs.«171555_j63479616635263_2_alg».proof.Proof.K.RunReg0
import proofs.«171555_j63479616635263_2_alg».proof.Proof.K.RunReg1
import proofs.«171555_j63479616635263_2_alg».proof.Proof.K.RunReg2
import proofs.«171555_j63479616635263_2_alg».proof.Proof.K.RunReg3
import proofs.«171555_j63479616635263_2_alg».proof.Proof.K.RunReg4
import proofs.«171555_j63479616635263_2_alg».proof.Proof.K.RunReg5

/-!
# @main as thirteen segments, and the launch

@main is the run of its segments in order, each host stretch entered at the previous boundary's contents and each
kernel launch at its own. Launched from any memory with every counter at zero, every weakly fair execution
terminates without fault and ends with every unscoped buffer at the last boundary's contents; in particular each
argument array ends as launched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 13 segments in order: a host segment per stretch from its boundary's contents, a launch per kernel call. -/
abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .region (reg1 m ρ),
    .host (hseg main_part0_ops2 main_part0_ops2_sub main_part0_ops2_fresh (W4 m ρ)),
    .region (reg2 m ρ),
    .host (hseg main_part0_ops3 main_part0_ops3_sub main_part0_ops3_fresh (W6 m ρ)),
    .region (reg3 m ρ),
    .host (hseg main_part1_ops0 main_part1_ops0_sub main_part1_ops0_fresh (W8 m ρ)),
    .host (hseg main_part2_ops0 main_part2_ops0_sub main_part2_ops0_fresh (W9 m ρ)),
    .region (reg4 m ρ),
    .host (hseg main_part2_ops1 main_part2_ops1_sub main_part2_ops1_fresh (W11 m ρ)),
    .region (reg5 m ρ) ]
/-- @main is the run of the segments. -/
theorem main_run (c : Dev nD) : main (F := F) c = Pipeline.Seg.run (segs m ρ) := (main_chain_windows c).trans (by chain_rfl)

-- the launch theorem's implicit arguments are found by unifying its conclusion with this one, which takes unfolding
-- plain definitions in a metavariable's type
set_option backward.isDefEq.respectTransparency.types false in
/-- From any memory with zero counters, every weakly fair execution of @main on the TensorCores terminates, nothing
    faulting, and every final state has every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-- The frame of the program: at the compiled mesh, from any memory with zero counters, every weakly fair execution of
    @main on the TensorCores terminates, nothing faulting, and every final state has the 22 argument arrays as
    launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c),
     (h c _ (mem_uc main_arg12 (by decide))).trans (W13_main_arg12 m ρ c),
     (h c _ (mem_uc main_arg13 (by decide))).trans (W13_main_arg13 m ρ c),
     (h c _ (mem_uc main_arg14 (by decide))).trans (W13_main_arg14 m ρ c),
     (h c _ (mem_uc main_arg15 (by decide))).trans (W13_main_arg15 m ρ c),
     (h c _ (mem_uc main_arg16 (by decide))).trans (W13_main_arg16 m ρ c),
     (h c _ (mem_uc main_arg17 (by decide))).trans (W13_main_arg17 m ρ c),
     (h c _ (mem_uc main_arg18 (by decide))).trans (W13_main_arg18 m ρ c),
     (h c _ (mem_uc main_arg19 (by decide))).trans (W13_main_arg19 m ρ c),
     (h c _ (mem_uc main_arg20 (by decide))).trans (W13_main_arg20 m ρ c),
     (h c _ (mem_uc main_arg21 (by decide))).trans (W13_main_arg21 m ρ c)⟩)
    (run_main m ρ)

end Cert.Kernel.Hand

end
-- ==== Proof.KI.Region0.lean ====
import proofs.«171555_j63479616635263_2_alg».proof.Proof.Gen.KernelIdeal.Launch
import proofs.«171555_j63479616635263_2_alg».proof.Proof.Gen.KernelIdeal.Skeleton
import proofs.«171555_j63479616635263_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel launch 0: one grid point's work, and the launch's bookkeeping

At the buffer contents `V` the launch is entered with: the block of each operand a grid point sees, what the
body leaves in each result's staging buffer as a function of those blocks (one whole-block store per result), the
body's Hoare triple, and the per-point record (arrays, buffers after the body, invariant) the launch theorem consumes.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, whether or not it was fetched there (an unfetched
    block's index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, whether or not it was fetched there (an unfetched
    block's index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, whether or not it was fetched there (an unfetched
    block's index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, whether or not it was fetched there (an unfetched
    block's index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input's current staging buffer holds its block at every point, whether or not it was fetched there (an unfetched
    block's index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev rc0_S5000x64 : Rect S5000x64 := (Rect.unit (s := S5000x64) ![0, 0] S5000x64.size inb_S5000x64_S5000x64_0_0)
abbrev rc0_S64x128 : Rect S64x128 := (Rect.unit (s := S64x128) ![0, 0] S64x128.size inb_S64x128_S64x128_0_0)
abbrev rc0_S1x128 : Rect S1x128 := (Rect.unit (s := S1x128) ![0, 0] S1x128.size inb_S1x128_S1x128_0_0)
abbrev rc0_S5000x128 : Rect S5000x128 := (Rect.unit (s := S5000x128) ![0, 0] S5000x128.size inb_S5000x128_S5000x128_0_0)

/-- Result window 5's staging buffer after the body, from the operand blocks: its one whole-block store. -/
def out0_5 (x0 : Vec F S5000x64 .f32) (x1 : Vec F S5000x64 .f32) (x2 : Vec F S64x128 .f32) (x3 : Vec F S1x128 .f32) (x4 : Vec F S64x128 .f32) : Vec F S5000x128 .f32 :=
  View.canon [⟨rc0_S5000x128, k0_pay1 (View.ld x0 rc0_S5000x64) (View.ld x1 rc0_S5000x64) (View.ld x2 rc0_S64x128) (View.ld x4 rc0_S64x128) (View.ld x3 rc0_S1x128)⟩]

/-- The one store covers the buffer. -/
theorem cover0_5 (p0 : Vec F S5000x128 .f32) (y : S5000x128.Idx) :
    ∃ pc ∈ ([⟨rc0_S5000x128, p0⟩] : List (View.Piece (Elt F) S5000x128 .f32)), y ∈ pc.1.set :=
  View.cover_of_tiled [⟨rc0_S5000x128, p0⟩] S5000x128.size (by rfl) y

set_option maxHeartbeats 4000000 in
/-- The body on whole staging buffers, the operands' at contents `x…` and the results' at anything, runs to the
    continuation with the operands' as they were and each result's at `out0_…` of the operands'. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S64x128 .f32) (harg5 : arg5.IsWhole) (arg6 : Memref sig .tc .vmem S5000x128 .f32) (harg6 : arg6.IsWhole)
    (x0 : Vec F S5000x64 .f32) (x1 : Vec F S5000x64 .f32) (x2 : Vec F S64x128 .f32) (x3 : Vec F S1x128 .f32) (x4 : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__gc_kernel i arg1 harg1 arg2 harg2 arg3 harg3 arg4 harg4 arg5 harg5 arg6 harg6) K := by
  simp only [cc0__gc_kernel_eq_skeleton]; unfold cc0__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The launch's per-point record on core `c`: the arrays as the launch finds them; after the body at point `t` each
    operand's buffer at its block and each result's at `out0_…` of the operand blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the operands' buffers hold their blocks, so `sound_kernel0` applies; the invariant
    passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch theorem's obligation on the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«171555_j63479616635263_2_alg».proof.Proof.Gen.KernelIdeal.Launch
import proofs.«171555_j63479616635263_2_alg».proof.Proof.Gen.KernelIdeal.Skeleton
import proofs.«171555_j63479616635263_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel launch 1: one grid point's work, and the launch's bookkeeping

At the buffer contents `V` the launch is entered with: the block of each operand a grid point sees, what the
body leaves in each result's staging buffer as a function of those blocks (one whole-block store per result), the
body's Hoare triple, and the per-point record (arrays, buffers after the body, invariant) the launch theorem consumes.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, whether or not it was fetched there (an unfetched
    block's index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input's current staging buffer holds its block at every point, whether or not it was fetched there (an unfetched
    block's index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input's current staging buffer holds its block at every point, whether or not it was fetched there (an unfetched
    block's index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input's current staging buffer holds its block at every point, whether or not it was fetched there (an unfetched
    block's index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input's current staging buffer holds its block at every point, whether or not it was fetched there (an unfetched
    block's index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rc1_S5000x64 : Rect S5000x64 := (Rect.unit (s := S5000x64) ![0, 0] S5000x64.size inb_S5000x64_S5000x64_0_0)
abbrev rc1_S64x128 : Rect S64x128 := (Rect.unit (s := S64x128) ![0, 0] S64x128.size inb_S64x128_S64x128_0_0)
abbrev rc1_S1x128 : Rect S1x128 := (Rect.unit (s := S1x128) ![0, 0] S1x128.size inb_S1x128_S1x128_0_0)
abbrev rc1_S5000x128 : Rect S5000x128 := (Rect.unit (s := S5000x128) ![0, 0] S5000x128.size inb_S5000x128_S5000x128_0_0)

/-- Result window 5's staging buffer after the body, from the operand blocks: its one whole-block store. -/
def out1_5 (x0 : Vec F S5000x64 .f32) (x1 : Vec F S5000x64 .f32) (x2 : Vec F S64x128 .f32) (x3 : Vec F S1x128 .f32) (x4 : Vec F S64x128 .f32) : Vec F S5000x128 .f32 :=
  View.canon [⟨rc1_S5000x128, k1_pay1 (View.ld x0 rc1_S5000x64) (View.ld x1 rc1_S5000x64) (View.ld x2 rc1_S64x128) (View.ld x4 rc1_S64x128) (View.ld x3 rc1_S1x128)⟩]

/-- The one store covers the buffer. -/
theorem cover1_5 (p0 : Vec F S5000x128 .f32) (y : S5000x128.Idx) :
    ∃ pc ∈ ([⟨rc1_S5000x128, p0⟩] : List (View.Piece (Elt F) S5000x128 .f32)), y ∈ pc.1.set :=
  View.cover_of_tiled [⟨rc1_S5000x128, p0⟩] S5000x128.size (by rfl) y

set_option maxHeartbeats 4000000 in
/-- The body on whole staging buffers, the operands' at contents `x…` and the results' at anything, runs to the
    continuation with the operands' as they were and each result's at `out1_…` of the operands'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S64x128 .f32) (harg5 : arg5.IsWhole) (arg6 : Memref sig .tc .vmem S5000x128 .f32) (harg6 : arg6.IsWhole)
    (x0 : Vec F S5000x64 .f32) (x1 : Vec F S5000x64 .f32) (x2 : Vec F S64x128 .f32) (x3 : Vec F S1x128 .f32) (x4 : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__gc_kernel i arg1 harg1 arg2 harg2 arg3 harg3 arg4 harg4 arg5 harg5 arg6 harg6) K := by
  simp only [cc1__gc_kernel_eq_skeleton]; unfold cc1__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The launch's per-point record on core `c`: the arrays as the launch finds them; after the body at point `t` each
    operand's buffer at its block and each result's at `out1_…` of the operand blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point: the operands' buffers hold their blocks, so `sound_kernel1` applies; the invariant
    passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch theorem's obligation on the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«171555_j63479616635263_2_alg».proof.Proof.Gen.KernelIdeal.Launch
import proofs.«171555_j63479616635263_2_alg».proof.Proof.Gen.KernelIdeal.Skeleton
import proofs.«171555_j63479616635263_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel launch 2: one grid point's work, and the launch's bookkeeping

At the buffer contents `V` the launch is entered with: the block of each operand a grid point sees, what the
body leaves in each result's staging buffer as a function of those blocks (one whole-block store per result), the
body's Hoare triple, and the per-point record (arrays, buffers after the body, invariant) the launch theorem consumes.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's current staging buffer holds its block at every point, whether or not it was fetched there (an unfetched
    block's index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input's current staging buffer holds its block at every point, whether or not it was fetched there (an unfetched
    block's index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input's current staging buffer holds its block at every point, whether or not it was fetched there (an unfetched
    block's index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input's current staging buffer holds its block at every point, whether or not it was fetched there (an unfetched
    block's index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input's current staging buffer holds its block at every point, whether or not it was fetched there (an unfetched
    block's index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- An input's current staging buffer holds its block at every point, whether or not it was fetched there (an unfetched
    block's index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev rc2_S5000x128 : Rect S5000x128 := (Rect.unit (s := S5000x128) ![0, 0] S5000x128.size inb_S5000x128_S5000x128_0_0)
abbrev rc2_S128x128 : Rect S128x128 := (Rect.unit (s := S128x128) ![0, 0] S128x128.size inb_S128x128_S128x128_0_0)
abbrev rc2_S1x128 : Rect S1x128 := (Rect.unit (s := S1x128) ![0, 0] S1x128.size inb_S1x128_S1x128_0_0)
abbrev rc2_S128x3 : Rect S128x3 := (Rect.unit (s := S128x3) ![0, 0] S128x3.size inb_S128x3_S128x3_0_0)
abbrev rc2_S5000x3 : Rect S5000x3 := (Rect.unit (s := S5000x3) ![0, 0] S5000x3.size inb_S5000x3_S5000x3_0_0)

/-- Result window 6's staging buffer after the body, from the operand blocks: its one whole-block store. -/
def out2_6 (x0 : Vec F S5000x128 .f32) (x1 : Vec F S5000x128 .f32) (x2 : Vec F S128x128 .f32) (x3 : Vec F S1x128 .f32) (x4 : Vec F S128x128 .f32) (x5 : Vec F S128x3 .f32) : Vec F S5000x128 .f32 :=
  View.canon [⟨rc2_S5000x128, k2_pay1 (View.ld x0 rc2_S5000x128) (View.ld x1 rc2_S5000x128) (View.ld x2 rc2_S128x128) (View.ld x4 rc2_S128x128) (View.ld x3 rc2_S1x128)⟩]

/-- The one store covers the buffer. -/
theorem cover2_6 (p0 : Vec F S5000x128 .f32) (y : S5000x128.Idx) :
    ∃ pc ∈ ([⟨rc2_S5000x128, p0⟩] : List (View.Piece (Elt F) S5000x128 .f32)), y ∈ pc.1.set :=
  View.cover_of_tiled [⟨rc2_S5000x128, p0⟩] S5000x128.size (by rfl) y

/-- Result window 7's staging buffer after the body, from the operand blocks: its one whole-block store. -/
def out2_7 (x0 : Vec F S5000x128 .f32) (x1 : Vec F S5000x128 .f32) (x2 : Vec F S128x128 .f32) (x3 : Vec F S1x128 .f32) (x4 : Vec F S128x128 .f32) (x5 : Vec F S128x3 .f32) : Vec F S5000x3 .f32 :=
  View.canon [⟨rc2_S5000x3, k2_pay2 (View.ld x0 rc2_S5000x128) (View.ld x1 rc2_S5000x128) (View.ld x2 rc2_S128x128) (View.ld x4 rc2_S128x128) (View.ld x5 rc2_S128x3) (View.ld x3 rc2_S1x128)⟩]

/-- The one store covers the buffer. -/
theorem cover2_7 (p0 : Vec F S5000x3 .f32) (y : S5000x3.Idx) :
    ∃ pc ∈ ([⟨rc2_S5000x3, p0⟩] : List (View.Piece (Elt F) S5000x3 .f32)), y ∈ pc.1.set :=
  View.cover_of_tiled [⟨rc2_S5000x3, p0⟩] S5000x3.size (by rfl) y

set_option maxHeartbeats 4000000 in
/-- The body on whole staging buffers, the operands' at contents `x…` and the results' at anything, runs to the
    continuation with the operands' as they were and each result's at `out2_…` of the operands'. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x3 .f32) (harg6 : arg6.IsWhole) (arg7 : Memref sig .tc .vmem S5000x128 .f32) (harg7 : arg7.IsWhole) (arg8 : Memref sig .tc .vmem S5000x3 .f32) (harg8 : arg8.IsWhole)
    (x0 : Vec F S5000x128 .f32) (x1 : Vec F S5000x128 .f32) (x2 : Vec F S128x128 .f32) (x3 : Vec F S1x128 .f32) (x4 : Vec F S128x128 .f32) (x5 : Vec F S128x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__gc_proj_kernel i arg1 harg1 arg2 harg2 arg3 harg3 arg4 harg4 arg5 harg5 arg6 harg6 arg7 harg7 arg8 harg8) K := by
  simp only [cc2__gc_proj_kernel_eq_skeleton]; unfold cc2__gc_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-- The launch's per-point record on core `c`: the arrays as the launch finds them; after the body at point `t` each
    operand's buffer at its block and each result's at `out2_…` of the operand blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4000000 in
/-- The body at any point: the operands' buffers hold their blocks, so `sound_kernel2` applies; the invariant
    passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's obligation on the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
import proofs.«171555_j63479616635263_2_alg».proof.Proof.Gen.KernelIdeal.Launch
import proofs.«171555_j63479616635263_2_alg».proof.Proof.Gen.KernelIdeal.Skeleton
import proofs.«171555_j63479616635263_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel launch 3: one grid point's work, and the launch's bookkeeping

At the buffer contents `V` the launch is entered with: the block of each operand a grid point sees, what the
body leaves in each result's staging buffer as a function of those blocks (one whole-block store per result), the
body's Hoare triple, and the per-point record (arrays, buffers after the body, invariant) the launch theorem consumes.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's current staging buffer holds its block at every point, whether or not it was fetched there (an unfetched
    block's index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input's current staging buffer holds its block at every point, whether or not it was fetched there (an unfetched
    block's index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input's current staging buffer holds its block at every point, whether or not it was fetched there (an unfetched
    block's index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input's current staging buffer holds its block at every point, whether or not it was fetched there (an unfetched
    block's index has not moved). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input's current staging buffer holds its block at every point, whether or not it was fetched there (an unfetched
    block's index has not moved). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- An input's current staging buffer holds its block at every point, whether or not it was fetched there (an unfetched
    block's index has not moved). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

abbrev rc3_S5000x128 : Rect S5000x128 := (Rect.unit (s := S5000x128) ![0, 0] S5000x128.size inb_S5000x128_S5000x128_0_0)
abbrev rc3_S128x128 : Rect S128x128 := (Rect.unit (s := S128x128) ![0, 0] S128x128.size inb_S128x128_S128x128_0_0)
abbrev rc3_S1x128 : Rect S1x128 := (Rect.unit (s := S1x128) ![0, 0] S1x128.size inb_S1x128_S1x128_0_0)
abbrev rc3_S128x3 : Rect S128x3 := (Rect.unit (s := S128x3) ![0, 0] S128x3.size inb_S128x3_S128x3_0_0)
abbrev rc3_S5000x3 : Rect S5000x3 := (Rect.unit (s := S5000x3) ![0, 0] S5000x3.size inb_S5000x3_S5000x3_0_0)

/-- Result window 6's staging buffer after the body, from the operand blocks: its one whole-block store. -/
def out3_6 (x0 : Vec F S5000x128 .f32) (x1 : Vec F S5000x128 .f32) (x2 : Vec F S128x128 .f32) (x3 : Vec F S1x128 .f32) (x4 : Vec F S128x128 .f32) (x5 : Vec F S128x3 .f32) : Vec F S5000x128 .f32 :=
  View.canon [⟨rc3_S5000x128, k3_pay1 (View.ld x0 rc3_S5000x128) (View.ld x1 rc3_S5000x128) (View.ld x2 rc3_S128x128) (View.ld x4 rc3_S128x128) (View.ld x3 rc3_S1x128)⟩]

/-- The one store covers the buffer. -/
theorem cover3_6 (p0 : Vec F S5000x128 .f32) (y : S5000x128.Idx) :
    ∃ pc ∈ ([⟨rc3_S5000x128, p0⟩] : List (View.Piece (Elt F) S5000x128 .f32)), y ∈ pc.1.set :=
  View.cover_of_tiled [⟨rc3_S5000x128, p0⟩] S5000x128.size (by rfl) y

/-- Result window 7's staging buffer after the body, from the operand blocks: its one whole-block store. -/
def out3_7 (x0 : Vec F S5000x128 .f32) (x1 : Vec F S5000x128 .f32) (x2 : Vec F S128x128 .f32) (x3 : Vec F S1x128 .f32) (x4 : Vec F S128x128 .f32) (x5 : Vec F S128x3 .f32) : Vec F S5000x3 .f32 :=
  View.canon [⟨rc3_S5000x3, k3_pay2 (View.ld x0 rc3_S5000x128) (View.ld x1 rc3_S5000x128) (View.ld x2 rc3_S128x128) (View.ld x4 rc3_S128x128) (View.ld x5 rc3_S128x3) (View.ld x3 rc3_S1x128)⟩]

/-- The one store covers the buffer. -/
theorem cover3_7 (p0 : Vec F S5000x3 .f32) (y : S5000x3.Idx) :
    ∃ pc ∈ ([⟨rc3_S5000x3, p0⟩] : List (View.Piece (Elt F) S5000x3 .f32)), y ∈ pc.1.set :=
  View.cover_of_tiled [⟨rc3_S5000x3, p0⟩] S5000x3.size (by rfl) y

set_option maxHeartbeats 4000000 in
/-- The body on whole staging buffers, the operands' at contents `x…` and the results' at anything, runs to the
    continuation with the operands' as they were and each result's at `out3_…` of the operands'. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x3 .f32) (harg6 : arg6.IsWhole) (arg7 : Memref sig .tc .vmem S5000x128 .f32) (harg7 : arg7.IsWhole) (arg8 : Memref sig .tc .vmem S5000x3 .f32) (harg8 : arg8.IsWhole)
    (x0 : Vec F S5000x128 .f32) (x1 : Vec F S5000x128 .f32) (x2 : Vec F S128x128 .f32) (x3 : Vec F S1x128 .f32) (x4 : Vec F S128x128 .f32) (x5 : Vec F S128x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5) ∗ owns (c : Thread nD τ) arg8 fullShare (out3_7 x0 x1 x2 x3 x4 x5)) -∗ K ⟨⟩))
      ⊢ wp frame (wpE (defs₀ (F := F)) Variants.none c none) E (cc3__gc_proj_kernel i arg1 harg1 arg2 harg2 arg3 harg3 arg4 harg4 arg5 harg5 arg6 harg6 arg7 harg7 arg8 harg8) K := by
  simp only [cc3__gc_proj_kernel_eq_skeleton]; unfold cc3__gc_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover3_6 _)
  iexists _; isplitr
  swap; · iexact H7
  ipureintro
  exact View.read_writes_eq_canon _ _ _ (cover3_7 _)

/-- The launch's per-point record on core `c`: the arrays as the launch finds them; after the body at point `t` each
    operand's buffer at its block and each result's at `out3_…` of the operand blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 4000000 in
/-- The body at any point: the operands' buffers hold their blocks, so `sound_kernel3` applies; the invariant
    passes through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's obligation on the body, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Region4.lean ====
import proofs.«171555_j63479616635263_2_alg».proof.Proof.Gen.KernelIdeal.Launch
import proofs.«171555_j63479616635263_2_alg».proof.Proof.Gen.KernelIdeal.Skeleton
import proofs.«171555_j63479616635263_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel launch 4: one grid point's work, and the launch's bookkeeping

At the buffer contents `V` the launch is entered with: the block of each operand a grid point sees, what the
body leaves in each result's staging buffer as a function of those blocks (one whole-block store per result), the
body's Hoare triple, and the per-point record (arrays, buffers after the body, invariant) the launch theorem consumes.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input's current staging buffer holds its block at every point, whether or not it was fetched there (an unfetched
    block's index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input's current staging buffer holds its block at every point, whether or not it was fetched there (an unfetched
    block's index has not moved). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input's current staging buffer holds its block at every point, whether or not it was fetched there (an unfetched
    block's index has not moved). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- An input's current staging buffer holds its block at every point, whether or not it was fetched there (an unfetched
    block's index has not moved). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- An input's current staging buffer holds its block at every point, whether or not it was fetched there (an unfetched
    block's index has not moved). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev rc4_S5000x3 : Rect S5000x3 := (Rect.unit (s := S5000x3) ![0, 0] S5000x3.size inb_S5000x3_S5000x3_0_0)
abbrev rc4_S5000x128 : Rect S5000x128 := (Rect.unit (s := S5000x128) ![0, 0] S5000x128.size inb_S5000x128_S5000x128_0_0)
abbrev rc4_S128x3 : Rect S128x3 := (Rect.unit (s := S128x3) ![0, 0] S128x3.size inb_S128x3_S128x3_0_0)
abbrev rc4_S1x3 : Rect S1x3 := (Rect.unit (s := S1x3) ![0, 0] S1x3.size inb_S1x3_S1x3_0_0)

/-- Result window 5's staging buffer after the body, from the operand blocks: its one whole-block store. -/
def out4_5 (x0 : Vec F S5000x3 .f32) (x1 : Vec F S5000x128 .f32) (x2 : Vec F S128x3 .f32) (x3 : Vec F S1x3 .f32) (x4 : Vec F S5000x3 .f32) : Vec F S5000x3 .f32 :=
  View.canon [⟨rc4_S5000x3, k4_pay1 (View.ld x1 rc4_S5000x128) (View.ld x2 rc4_S128x3) (View.ld x0 rc4_S5000x3) (View.ld x3 rc4_S1x3) (View.ld x4 rc4_S5000x3)⟩]

/-- The one store covers the buffer. -/
theorem cover4_5 (p0 : Vec F S5000x3 .f32) (y : S5000x3.Idx) :
    ∃ pc ∈ ([⟨rc4_S5000x3, p0⟩] : List (View.Piece (Elt F) S5000x3 .f32)), y ∈ pc.1.set :=
  View.cover_of_tiled [⟨rc4_S5000x3, p0⟩] S5000x3.size (by rfl) y

set_option maxHeartbeats 4000000 in
/-- The body on whole staging buffers, the operands' at contents `x…` and the results' at anything, runs to the
    continuation with the operands' as they were and each result's at `out4_…` of the operands'. -/
theorem sound_kernel4 (c : Dev nD) (E : Set ℕ) (i : grid4.Coords) (arg1 : Memref sig .tc .vmem S5000x3 .f32) (harg1 : arg1.IsWhole) (arg2 : Memref sig .tc .vmem S5000x128 .f32) (harg2 : arg2.IsWhole) (arg3 : Memref sig .tc .vmem S128x3 .f32) (harg3 : arg3.IsWhole) (arg4 : Memref sig .tc .vmem S1x3 .f32) (harg4 : arg4.IsWhole) (arg5 : Memref sig .tc .vmem S5000x3 .f32) (harg5 : arg5.IsWhole) (arg6 : Memref sig .tc .vmem S5000x3 .f32) (harg6 : arg6.IsWhole)
    (x0 : Vec F S5000x3 .f32) (x1 : Vec F S5000x128 .f32) (x2 : Vec F S128x3 .f32) (x3 : Vec F S1x3 .f32) (x4 : Vec F S5000x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__gc_know_kernel i arg1 harg1 arg2 harg2 arg3 harg3 arg4 harg4 arg5 harg5 arg6 harg6) K := by
  simp only [cc4__gc_know_kernel_eq_skeleton]; unfold cc4__gc_know_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The launch's per-point record on core `c`: the arrays as the launch finds them; after the body at point `t` each
    operand's buffer at its block and each result's at `out4_…` of the operand blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 4000000 in
/-- The body at any point: the operands' buffers hold their blocks, so `sound_kernel4` applies; the invariant
    passes through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch theorem's obligation on the body, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Region5.lean ====
import proofs.«171555_j63479616635263_2_alg».proof.Proof.Gen.KernelIdeal.Launch
import proofs.«171555_j63479616635263_2_alg».proof.Proof.Gen.KernelIdeal.Skeleton
import proofs.«171555_j63479616635263_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel launch 5: one grid point's work, and the launch's bookkeeping

At the buffer contents `V` the launch is entered with: the block of each operand a grid point sees, what the
body leaves in each result's staging buffer as a function of those blocks (one whole-block store per result), the
body's Hoare triple, and the per-point record (arrays, buffers after the body, invariant) the launch theorem consumes.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the launch finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input's current staging buffer holds its block at every point, whether or not it was fetched there (an unfetched
    block's index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input's current staging buffer holds its block at every point, whether or not it was fetched there (an unfetched
    block's index has not moved). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input's current staging buffer holds its block at every point, whether or not it was fetched there (an unfetched
    block's index has not moved). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- An input's current staging buffer holds its block at every point, whether or not it was fetched there (an unfetched
    block's index has not moved). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- An input's current staging buffer holds its block at every point, whether or not it was fetched there (an unfetched
    block's index has not moved). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev rc5_S5000x3 : Rect S5000x3 := (Rect.unit (s := S5000x3) ![0, 0] S5000x3.size inb_S5000x3_S5000x3_0_0)
abbrev rc5_S5000x128 : Rect S5000x128 := (Rect.unit (s := S5000x128) ![0, 0] S5000x128.size inb_S5000x128_S5000x128_0_0)
abbrev rc5_S128x3 : Rect S128x3 := (Rect.unit (s := S128x3) ![0, 0] S128x3.size inb_S128x3_S128x3_0_0)
abbrev rc5_S1x3 : Rect S1x3 := (Rect.unit (s := S1x3) ![0, 0] S1x3.size inb_S1x3_S1x3_0_0)

/-- Result window 5's staging buffer after the body, from the operand blocks: its one whole-block store. -/
def out5_5 (x0 : Vec F S5000x3 .f32) (x1 : Vec F S5000x128 .f32) (x2 : Vec F S128x3 .f32) (x3 : Vec F S1x3 .f32) (x4 : Vec F S5000x3 .f32) : Vec F S5000x3 .f32 :=
  View.canon [⟨rc5_S5000x3, k5_pay1 (View.ld x1 rc5_S5000x128) (View.ld x2 rc5_S128x3) (View.ld x0 rc5_S5000x3) (View.ld x3 rc5_S1x3) (View.ld x4 rc5_S5000x3)⟩]

/-- The one store covers the buffer. -/
theorem cover5_5 (p0 : Vec F S5000x3 .f32) (y : S5000x3.Idx) :
    ∃ pc ∈ ([⟨rc5_S5000x3, p0⟩] : List (View.Piece (Elt F) S5000x3 .f32)), y ∈ pc.1.set :=
  View.cover_of_tiled [⟨rc5_S5000x3, p0⟩] S5000x3.size (by rfl) y

set_option maxHeartbeats 4000000 in
/-- The body on whole staging buffers, the operands' at contents `x…` and the results' at anything, runs to the
    continuation with the operands' as they were and each result's at `out5_…` of the operands'. -/
theorem sound_kernel5 (c : Dev nD) (E : Set ℕ) (i : grid5.Coords) (arg1 : Memref sig .tc .vmem S5000x3 .f32) (harg1 : arg1.IsWhole) (arg2 : Memref sig .tc .vmem S5000x128 .f32) (harg2 : arg2.IsWhole) (arg3 : Memref sig .tc .vmem S128x3 .f32) (harg3 : arg3.IsWhole) (arg4 : Memref sig .tc .vmem S1x3 .f32) (harg4 : arg4.IsWhole) (arg5 : Memref sig .tc .vmem S5000x3 .f32) (harg5 : arg5.IsWhole) (arg6 : Memref sig .tc .vmem S5000x3 .f32) (harg6 : arg6.IsWhole)
    (x0 : Vec F S5000x3 .f32) (x1 : Vec F S5000x128 .f32) (x2 : Vec F S128x3 .f32) (x3 : Vec F S1x3 .f32) (x4 : Vec F S5000x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__gc_know_kernel i arg1 harg1 arg2 harg2 arg3 harg3 arg4 harg4 arg5 harg5 arg6 harg6) K := by
  simp only [cc5__gc_know_kernel_eq_skeleton]; unfold cc5__gc_know_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The launch's per-point record on core `c`: the arrays as the launch finds them; after the body at point `t` each
    operand's buffer at its block and each result's at `out5_…` of the operand blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

set_option maxHeartbeats 4000000 in
/-- The body at any point: the operands' buffers hold their blocks, so `sound_kernel5` applies; the invariant
    passes through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch theorem's obligation on the body, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.RunBounds.lean ====
import proofs.«171555_j63479616635263_2_alg».proof.Proof.KI.Region0
import proofs.«171555_j63479616635263_2_alg».proof.Proof.KI.Region1
import proofs.«171555_j63479616635263_2_alg».proof.Proof.KI.Region2
import proofs.«171555_j63479616635263_2_alg».proof.Proof.KI.Region3
import proofs.«171555_j63479616635263_2_alg».proof.Proof.KI.Region4
import proofs.«171555_j63479616635263_2_alg».proof.Proof.KI.Region5
import Idealize.ShloMosaic.Lib.StableHlo.Run

/-!
# The buffer contents at each boundary of @main

@main is thirteen segments: stretches of host operations and six kernel launches. `W0` is the launch memory of
a core; a host stretch takes the contents `W` to the fold of its operations over `W`; a kernel launch leaves
every buffer as entered except its own arrays, which end at what its grid points wrote back.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `main_part0_ops0`. -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
/-- At launch 0's exit: its arrays at what the launch leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `main_part0_ops1`. -/
abbrev W3 : Dev nD → Valuation τ sig (Elt F) := fun c => StableHlo.after main_part0_ops1 (W2 m ρ c)
abbrev V3 : (c : Dev nD) → (b : Ref sig .tc) → Buf (Elt F) ((c : Thread nD τ).loc b) := fun c b => W3 m ρ c b
/-- At launch 1's exit: its arrays at what the launch leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch `main_part0_ops2`. -/
abbrev W5 : Dev nD → Valuation τ sig (Elt F) := fun c => StableHlo.after main_part0_ops2 (W4 m ρ c)
abbrev V5 : (c : Dev nD) → (b : Ref sig .tc) → Buf (Elt F) ((c : Thread nD τ).loc b) := fun c b => W5 m ρ c b
/-- At launch 2's exit: its arrays at what the launch leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch `main_part0_ops3`. -/
abbrev W7 : Dev nD → Valuation τ sig (Elt F) := fun c => StableHlo.after main_part0_ops3 (W6 m ρ c)
abbrev V7 : (c : Dev nD) → (b : Ref sig .tc) → Buf (Elt F) ((c : Thread nD τ).loc b) := fun c b => W7 m ρ c b
/-- At launch 3's exit: its arrays at what the launch leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the host stretch `main_part1_ops0`. -/
abbrev W9 : Dev nD → Valuation τ sig (Elt F) := fun c => StableHlo.after main_part1_ops0 (W8 m ρ c)
abbrev V9 : (c : Dev nD) → (b : Ref sig .tc) → Buf (Elt F) ((c : Thread nD τ).loc b) := fun c b => W9 m ρ c b
/-- After the host stretch `main_part2_ops0`. -/
abbrev W10 : Dev nD → Valuation τ sig (Elt F) := fun c => StableHlo.after main_part2_ops0 (W9 m ρ c)
abbrev V10 : (c : Dev nD) → (b : Ref sig .tc) → Buf (Elt F) ((c : Thread nD τ).loc b) := fun c b => W10 m ρ c b
/-- At launch 4's exit: its arrays at what the launch leaves, every other buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
abbrev V11 : (c : Dev nD) → (b : Ref sig .tc) → Buf (Elt F) ((c : Thread nD τ).loc b) := fun c b => W11 m ρ c b
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)
/-- After the host stretch `main_part2_ops1`. -/
abbrev W12 : Dev nD → Valuation τ sig (Elt F) := fun c => StableHlo.after main_part2_ops1 (W11 m ρ c)
abbrev V12 : (c : Dev nD) → (b : Ref sig .tc) → Buf (Elt F) ((c : Thread nD τ).loc b) := fun c b => W12 m ρ c b
/-- At launch 5's exit: its arrays at what the launch leaves, every other buffer as entered. -/
def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev V13 : (c : Dev nD) → (b : Ref sig .tc) → Buf (Elt F) ((c : Thread nD τ).loc b) := fun c b => W13 m ρ c b
theorem hF5 (c : Dev nD) (w : Fin cfg5.W) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)

end Cert.KernelIdeal.Hand

end
-- ==== Proof.KI.RunArgs.lean ====
import proofs.«171555_j63479616635263_2_alg».proof.Proof.KI.RunBounds

/-!
# The argument arrays end as launched

No host operation writes an argument array, and a kernel launch either reads it through an operand window (its
array then ends as entered) or does not touch it. So the contents of an argument's buffer at the last boundary
walk back, boundary by boundary, to the launch memory.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- An operation whose one written buffer is a reference of the list `W` writes within `W`. -/
theorem writes_sub_of_mem {W : List (Ref sig .tc)} {op : HloOp τ sig (Elt F)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map.mpr ⟨y, hy, rfl⟩

/-- The buffers the stretch `main_part0_ops0` writes, in order. -/
abbrev wr_main_part0_ops0 : List (Ref sig .tc) :=
  [main_c, main_v0, main_v1, main_c_0, main_v2, main_v3, main_v4, main_v5, main_v6, main_cst, main_v7, main_v8, main_v9, main_c_1, main_v10, main_v11, main_c_2, main_v12, main_v13, main_v14, main_v15, main_v16, main_cst_3, main_v17, main_v18, main_v19, main_v20]
/-- Each operation of `main_part0_ops0` writes within that list. -/
theorem main_part0_ops0_writes : (main_part0_ops0 : List (HloOp τ sig (Elt F))).Forall fun op =>
    op.writes ⊆ (wr_main_part0_ops0.map (Proc.devRef (τ := τ) .tc)).toFinset :=
  ⟨writes_sub_of_mem main_c rfl (by decide),
   writes_sub_of_mem main_v0 rfl (by decide),
   writes_sub_of_mem main_v1 rfl (by decide),
   writes_sub_of_mem main_c_0 rfl (by decide),
   writes_sub_of_mem main_v2 rfl (by decide),
   writes_sub_of_mem main_v3 rfl (by decide),
   writes_sub_of_mem main_v4 rfl (by decide),
   writes_sub_of_mem main_v5 rfl (by decide),
   writes_sub_of_mem main_v6 rfl (by decide),
   writes_sub_of_mem main_cst rfl (by decide),
   writes_sub_of_mem main_v7 rfl (by decide),
   writes_sub_of_mem main_v8 rfl (by decide),
   writes_sub_of_mem main_v9 rfl (by decide),
   writes_sub_of_mem main_c_1 rfl (by decide),
   writes_sub_of_mem main_v10 rfl (by decide),
   writes_sub_of_mem main_v11 rfl (by decide),
   writes_sub_of_mem main_c_2 rfl (by decide),
   writes_sub_of_mem main_v12 rfl (by decide),
   writes_sub_of_mem main_v13 rfl (by decide),
   writes_sub_of_mem main_v14 rfl (by decide),
   writes_sub_of_mem main_v15 rfl (by decide),
   writes_sub_of_mem main_v16 rfl (by decide),
   writes_sub_of_mem main_cst_3 rfl (by decide),
   writes_sub_of_mem main_v17 rfl (by decide),
   writes_sub_of_mem main_v18 rfl (by decide),
   writes_sub_of_mem main_v19 rfl (by decide),
   writes_sub_of_mem main_v20 rfl (by decide)⟩

/-- The buffers the stretch `main_part0_ops1` writes, in order. -/
abbrev wr_main_part0_ops1 : List (Ref sig .tc) :=
  [main_v22]
/-- Each operation of `main_part0_ops1` writes within that list. -/
theorem main_part0_ops1_writes : (main_part0_ops1 : List (HloOp τ sig (Elt F))).Forall fun op =>
    op.writes ⊆ (wr_main_part0_ops1.map (Proc.devRef (τ := τ) .tc)).toFinset :=
  writes_sub_of_mem main_v22 rfl (by decide)

/-- The buffers the stretch `main_part0_ops2` writes, in order. -/
abbrev wr_main_part0_ops2 : List (Ref sig .tc) :=
  [main_c_4, main_v24, main_v25, main_c_5, main_v26, main_v27, main_v28, main_v29, main_v30, main_cst_6, main_v31, main_v32, main_v33, main_c_7, main_v34, main_v35, main_c_8, main_v36, main_v37, main_v38, main_v39, main_v40, main_cst_9, main_v41, main_v42, main_v43, main_v44]
/-- Each operation of `main_part0_ops2` writes within that list. -/
theorem main_part0_ops2_writes : (main_part0_ops2 : List (HloOp τ sig (Elt F))).Forall fun op =>
    op.writes ⊆ (wr_main_part0_ops2.map (Proc.devRef (τ := τ) .tc)).toFinset :=
  ⟨writes_sub_of_mem main_c_4 rfl (by decide),
   writes_sub_of_mem main_v24 rfl (by decide),
   writes_sub_of_mem main_v25 rfl (by decide),
   writes_sub_of_mem main_c_5 rfl (by decide),
   writes_sub_of_mem main_v26 rfl (by decide),
   writes_sub_of_mem main_v27 rfl (by decide),
   writes_sub_of_mem main_v28 rfl (by decide),
   writes_sub_of_mem main_v29 rfl (by decide),
   writes_sub_of_mem main_v30 rfl (by decide),
   writes_sub_of_mem main_cst_6 rfl (by decide),
   writes_sub_of_mem main_v31 rfl (by decide),
   writes_sub_of_mem main_v32 rfl (by decide),
   writes_sub_of_mem main_v33 rfl (by decide),
   writes_sub_of_mem main_c_7 rfl (by decide),
   writes_sub_of_mem main_v34 rfl (by decide),
   writes_sub_of_mem main_v35 rfl (by decide),
   writes_sub_of_mem main_c_8 rfl (by decide),
   writes_sub_of_mem main_v36 rfl (by decide),
   writes_sub_of_mem main_v37 rfl (by decide),
   writes_sub_of_mem main_v38 rfl (by decide),
   writes_sub_of_mem main_v39 rfl (by decide),
   writes_sub_of_mem main_v40 rfl (by decide),
   writes_sub_of_mem main_cst_9 rfl (by decide),
   writes_sub_of_mem main_v41 rfl (by decide),
   writes_sub_of_mem main_v42 rfl (by decide),
   writes_sub_of_mem main_v43 rfl (by decide),
   writes_sub_of_mem main_v44 rfl (by decide)⟩

/-- The buffers the stretch `main_part0_ops3` writes, in order. -/
abbrev wr_main_part0_ops3 : List (Ref sig .tc) :=
  [main_v46]
/-- Each operation of `main_part0_ops3` writes within that list. -/
theorem main_part0_ops3_writes : (main_part0_ops3 : List (HloOp τ sig (Elt F))).Forall fun op =>
    op.writes ⊆ (wr_main_part0_ops3.map (Proc.devRef (τ := τ) .tc)).toFinset :=
  writes_sub_of_mem main_v46 rfl (by decide)

/-- The buffers the stretch `main_part1_ops0` writes, in order. -/
abbrev wr_main_part1_ops0 : List (Ref sig .tc) :=
  [main_c_10, main_v48, main_v49, main_c_11, main_v50, main_v51, main_v52, main_v53, main_v54, main_cst_12, main_v55, main_v56, main_v57, main_c_13, main_v58, main_v59, main_c_14, main_v60, main_v61, main_v62, main_v63, main_v64, main_cst_15, main_v65, main_v66, main_v67, main_v68, main_v69, main_v70, main_cst_16, main_v71, main_v72, main_v73, main_v74, main_v75, main_cst_17, main_v76, main_v77, main_v78, main_v79, main_v80, main_cst_18, main_v81, main_v82, main_v83, main_v84, main_v85, main_cst_19, main_v86, main_v87, main_c_20, main_v88, main_c_21, main_v89, main_v90, main_v91, main_v92, main_v93, main_v94, main_cst_22]
/-- Each operation of `main_part1_ops0` writes within that list. -/
theorem main_part1_ops0_writes : (main_part1_ops0 : List (HloOp τ sig (Elt F))).Forall fun op =>
    op.writes ⊆ (wr_main_part1_ops0.map (Proc.devRef (τ := τ) .tc)).toFinset :=
  ⟨writes_sub_of_mem main_c_10 rfl (by decide),
   writes_sub_of_mem main_v48 rfl (by decide),
   writes_sub_of_mem main_v49 rfl (by decide),
   writes_sub_of_mem main_c_11 rfl (by decide),
   writes_sub_of_mem main_v50 rfl (by decide),
   writes_sub_of_mem main_v51 rfl (by decide),
   writes_sub_of_mem main_v52 rfl (by decide),
   writes_sub_of_mem main_v53 rfl (by decide),
   writes_sub_of_mem main_v54 rfl (by decide),
   writes_sub_of_mem main_cst_12 rfl (by decide),
   writes_sub_of_mem main_v55 rfl (by decide),
   writes_sub_of_mem main_v56 rfl (by decide),
   writes_sub_of_mem main_v57 rfl (by decide),
   writes_sub_of_mem main_c_13 rfl (by decide),
   writes_sub_of_mem main_v58 rfl (by decide),
   writes_sub_of_mem main_v59 rfl (by decide),
   writes_sub_of_mem main_c_14 rfl (by decide),
   writes_sub_of_mem main_v60 rfl (by decide),
   writes_sub_of_mem main_v61 rfl (by decide),
   writes_sub_of_mem main_v62 rfl (by decide),
   writes_sub_of_mem main_v63 rfl (by decide),
   writes_sub_of_mem main_v64 rfl (by decide),
   writes_sub_of_mem main_cst_15 rfl (by decide),
   writes_sub_of_mem main_v65 rfl (by decide),
   writes_sub_of_mem main_v66 rfl (by decide),
   writes_sub_of_mem main_v67 rfl (by decide),
   writes_sub_of_mem main_v68 rfl (by decide),
   writes_sub_of_mem main_v69 rfl (by decide),
   writes_sub_of_mem main_v70 rfl (by decide),
   writes_sub_of_mem main_cst_16 rfl (by decide),
   writes_sub_of_mem main_v71 rfl (by decide),
   writes_sub_of_mem main_v72 rfl (by decide),
   writes_sub_of_mem main_v73 rfl (by decide),
   writes_sub_of_mem main_v74 rfl (by decide),
   writes_sub_of_mem main_v75 rfl (by decide),
   writes_sub_of_mem main_cst_17 rfl (by decide),
   writes_sub_of_mem main_v76 rfl (by decide),
   writes_sub_of_mem main_v77 rfl (by decide),
   writes_sub_of_mem main_v78 rfl (by decide),
   writes_sub_of_mem main_v79 rfl (by decide),
   writes_sub_of_mem main_v80 rfl (by decide),
   writes_sub_of_mem main_cst_18 rfl (by decide),
   writes_sub_of_mem main_v81 rfl (by decide),
   writes_sub_of_mem main_v82 rfl (by decide),
   writes_sub_of_mem main_v83 rfl (by decide),
   writes_sub_of_mem main_v84 rfl (by decide),
   writes_sub_of_mem main_v85 rfl (by decide),
   writes_sub_of_mem main_cst_19 rfl (by decide),
   writes_sub_of_mem main_v86 rfl (by decide),
   writes_sub_of_mem main_v87 rfl (by decide),
   writes_sub_of_mem main_c_20 rfl (by decide),
   writes_sub_of_mem main_v88 rfl (by decide),
   writes_sub_of_mem main_c_21 rfl (by decide),
   writes_sub_of_mem main_v89 rfl (by decide),
   writes_sub_of_mem main_v90 rfl (by decide),
   writes_sub_of_mem main_v91 rfl (by decide),
   writes_sub_of_mem main_v92 rfl (by decide),
   writes_sub_of_mem main_v93 rfl (by decide),
   writes_sub_of_mem main_v94 rfl (by decide),
   writes_sub_of_mem main_cst_22 rfl (by decide)⟩

/-- The buffers the stretch `main_part2_ops0` writes, in order. -/
abbrev wr_main_part2_ops0 : List (Ref sig .tc) :=
  [main_v95, main_v96, main_v97, main_v98, main_v99, main_v100, main_v101, main_cst_23, main_v102, main_v103, main_v104]
/-- Each operation of `main_part2_ops0` writes within that list. -/
theorem main_part2_ops0_writes : (main_part2_ops0 : List (HloOp τ sig (Elt F))).Forall fun op =>
    op.writes ⊆ (wr_main_part2_ops0.map (Proc.devRef (τ := τ) .tc)).toFinset :=
  ⟨writes_sub_of_mem main_v95 rfl (by decide),
   writes_sub_of_mem main_v96 rfl (by decide),
   writes_sub_of_mem main_v97 rfl (by decide),
   writes_sub_of_mem main_v98 rfl (by decide),
   writes_sub_of_mem main_v99 rfl (by decide),
   writes_sub_of_mem main_v100 rfl (by decide),
   writes_sub_of_mem main_v101 rfl (by decide),
   writes_sub_of_mem main_cst_23 rfl (by decide),
   writes_sub_of_mem main_v102 rfl (by decide),
   writes_sub_of_mem main_v103 rfl (by decide),
   writes_sub_of_mem main_v104 rfl (by decide)⟩

/-- The buffers the stretch `main_part2_ops1` writes, in order. -/
abbrev wr_main_part2_ops1 : List (Ref sig .tc) :=
  [main_v106]
/-- Each operation of `main_part2_ops1` writes within that list. -/
theorem main_part2_ops1_writes : (main_part2_ops1 : List (HloOp τ sig (Elt F))).Forall fun op =>
    op.writes ⊆ (wr_main_part2_ops1.map (Proc.devRef (τ := τ) .tc)).toFinset :=
  writes_sub_of_mem main_v106 rfl (by decide)

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_of_ne m ρ c main_arg0 (by decide)
    _ = W11 m ρ c (Proc.devRef .tc main_arg0) := StableHlo.after_of_writes_sub (r := main_arg0) main_part2_ops1 (W11 m ρ c) main_part2_ops1_writes (by decide)
    _ = W10 m ρ c (Proc.devRef .tc main_arg0) := W11_of_ne m ρ c main_arg0 (by decide)
    _ = W9 m ρ c (Proc.devRef .tc main_arg0) := StableHlo.after_of_writes_sub (r := main_arg0) main_part2_ops0 (W9 m ρ c) main_part2_ops0_writes (by decide)
    _ = W8 m ρ c (Proc.devRef .tc main_arg0) := StableHlo.after_of_writes_sub (r := main_arg0) main_part1_ops0 (W8 m ρ c) main_part1_ops0_writes (by decide)
    _ = W7 m ρ c (Proc.devRef .tc main_arg0) := W8_of_ne m ρ c main_arg0 (by decide)
    _ = W6 m ρ c (Proc.devRef .tc main_arg0) := StableHlo.after_of_writes_sub (r := main_arg0) main_part0_ops3 (W6 m ρ c) main_part0_ops3_writes (by decide)
    _ = W5 m ρ c (Proc.devRef .tc main_arg0) := W6_of_ne m ρ c main_arg0 (by decide)
    _ = W4 m ρ c (Proc.devRef .tc main_arg0) := StableHlo.after_of_writes_sub (r := main_arg0) main_part0_ops2 (W4 m ρ c) main_part0_ops2_writes (by decide)
    _ = W3 m ρ c (Proc.devRef .tc main_arg0) := (W4_arr m ρ c 1).trans (((dat1 (V3 m ρ) c).arrAt_in 1 rfl _).trans (A_eq1 (V3 m ρ) c 1))
    _ = W2 m ρ c (Proc.devRef .tc main_arg0) := StableHlo.after_of_writes_sub (r := main_arg0) main_part0_ops1 (W2 m ρ c) main_part0_ops1_writes (by decide)
    _ = W1 m ρ c (Proc.devRef .tc main_arg0) := W2_of_ne m ρ c main_arg0 (by decide)
    _ = W0 m ρ c (Proc.devRef .tc main_arg0) := StableHlo.after_of_writes_sub (r := main_arg0) main_part0_ops0 (W0 m ρ c) main_part0_ops0_writes (by decide)
    _ = m ((c : Thread nD τ).loc main_arg0) := rfl

theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := W13_of_ne m ρ c main_arg1 (by decide)
    _ = W11 m ρ c (Proc.devRef .tc main_arg1) := StableHlo.after_of_writes_sub (r := main_arg1) main_part2_ops1 (W11 m ρ c) main_part2_ops1_writes (by decide)
    _ = W10 m ρ c (Proc.devRef .tc main_arg1) := W11_of_ne m ρ c main_arg1 (by decide)
    _ = W9 m ρ c (Proc.devRef .tc main_arg1) := StableHlo.after_of_writes_sub (r := main_arg1) main_part2_ops0 (W9 m ρ c) main_part2_ops0_writes (by decide)
    _ = W8 m ρ c (Proc.devRef .tc main_arg1) := StableHlo.after_of_writes_sub (r := main_arg1) main_part1_ops0 (W8 m ρ c) main_part1_ops0_writes (by decide)
    _ = W7 m ρ c (Proc.devRef .tc main_arg1) := W8_of_ne m ρ c main_arg1 (by decide)
    _ = W6 m ρ c (Proc.devRef .tc main_arg1) := StableHlo.after_of_writes_sub (r := main_arg1) main_part0_ops3 (W6 m ρ c) main_part0_ops3_writes (by decide)
    _ = W5 m ρ c (Proc.devRef .tc main_arg1) := W6_of_ne m ρ c main_arg1 (by decide)
    _ = W4 m ρ c (Proc.devRef .tc main_arg1) := StableHlo.after_of_writes_sub (r := main_arg1) main_part0_ops2 (W4 m ρ c) main_part0_ops2_writes (by decide)
    _ = W3 m ρ c (Proc.devRef .tc main_arg1) := W4_of_ne m ρ c main_arg1 (by decide)
    _ = W2 m ρ c (Proc.devRef .tc main_arg1) := StableHlo.after_of_writes_sub (r := main_arg1) main_part0_ops1 (W2 m ρ c) main_part0_ops1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub (r := main_arg1) main_part0_ops0 (W0 m ρ c) main_part0_ops0_writes (by decide)
    _ = m ((c : Thread nD τ).loc main_arg1) := rfl

theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := W13_of_ne m ρ c main_arg2 (by decide)
    _ = W11 m ρ c (Proc.devRef .tc main_arg2) := StableHlo.after_of_writes_sub (r := main_arg2) main_part2_ops1 (W11 m ρ c) main_part2_ops1_writes (by decide)
    _ = W10 m ρ c (Proc.devRef .tc main_arg2) := W11_of_ne m ρ c main_arg2 (by decide)
    _ = W9 m ρ c (Proc.devRef .tc main_arg2) := StableHlo.after_of_writes_sub (r := main_arg2) main_part2_ops0 (W9 m ρ c) main_part2_ops0_writes (by decide)
    _ = W8 m ρ c (Proc.devRef .tc main_arg2) := StableHlo.after_of_writes_sub (r := main_arg2) main_part1_ops0 (W8 m ρ c) main_part1_ops0_writes (by decide)
    _ = W7 m ρ c (Proc.devRef .tc main_arg2) := W8_of_ne m ρ c main_arg2 (by decide)
    _ = W6 m ρ c (Proc.devRef .tc main_arg2) := StableHlo.after_of_writes_sub (r := main_arg2) main_part0_ops3 (W6 m ρ c) main_part0_ops3_writes (by decide)
    _ = W5 m ρ c (Proc.devRef .tc main_arg2) := W6_of_ne m ρ c main_arg2 (by decide)
    _ = W4 m ρ c (Proc.devRef .tc main_arg2) := StableHlo.after_of_writes_sub (r := main_arg2) main_part0_ops2 (W4 m ρ c) main_part0_ops2_writes (by decide)
    _ = W3 m ρ c (Proc.devRef .tc main_arg2) := W4_of_ne m ρ c main_arg2 (by decide)
    _ = W2 m ρ c (Proc.devRef .tc main_arg2) := StableHlo.after_of_writes_sub (r := main_arg2) main_part0_ops1 (W2 m ρ c) main_part0_ops1_writes (by decide)
    _ = W1 m ρ c (Proc.devRef .tc main_arg2) := W2_of_ne m ρ c main_arg2 (by decide)
    _ = W0 m ρ c (Proc.devRef .tc main_arg2) := StableHlo.after_of_writes_sub (r := main_arg2) main_part0_ops0 (W0 m ρ c) main_part0_ops0_writes (by decide)
    _ = m ((c : Thread nD τ).loc main_arg2) := rfl

theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := W13_of_ne m ρ c main_arg3 (by decide)
    _ = W11 m ρ c (Proc.devRef .tc main_arg3) := StableHlo.after_of_writes_sub (r := main_arg3) main_part2_ops1 (W11 m ρ c) main_part2_ops1_writes (by decide)
    _ = W10 m ρ c (Proc.devRef .tc main_arg3) := W11_of_ne m ρ c main_arg3 (by decide)
    _ = W9 m ρ c (Proc.devRef .tc main_arg3) := StableHlo.after_of_writes_sub (r := main_arg3) main_part2_ops0 (W9 m ρ c) main_part2_ops0_writes (by decide)
    _ = W8 m ρ c (Proc.devRef .tc main_arg3) := StableHlo.after_of_writes_sub (r := main_arg3) main_part1_ops0 (W8 m ρ c) main_part1_ops0_writes (by decide)
    _ = W7 m ρ c (Proc.devRef .tc main_arg3) := W8_of_ne m ρ c main_arg3 (by decide)
    _ = W6 m ρ c (Proc.devRef .tc main_arg3) := StableHlo.after_of_writes_sub (r := main_arg3) main_part0_ops3 (W6 m ρ c) main_part0_ops3_writes (by decide)
    _ = W5 m ρ c (Proc.devRef .tc main_arg3) := W6_of_ne m ρ c main_arg3 (by decide)
    _ = W4 m ρ c (Proc.devRef .tc main_arg3) := StableHlo.after_of_writes_sub (r := main_arg3) main_part0_ops2 (W4 m ρ c) main_part0_ops2_writes (by decide)
    _ = W3 m ρ c (Proc.devRef .tc main_arg3) := W4_of_ne m ρ c main_arg3 (by decide)
    _ = W2 m ρ c (Proc.devRef .tc main_arg3) := StableHlo.after_of_writes_sub (r := main_arg3) main_part0_ops1 (W2 m ρ c) main_part0_ops1_writes (by decide)
    _ = W1 m ρ c (Proc.devRef .tc main_arg3) := W2_of_ne m ρ c main_arg3 (by decide)
    _ = W0 m ρ c (Proc.devRef .tc main_arg3) := StableHlo.after_of_writes_sub (r := main_arg3) main_part0_ops0 (W0 m ρ c) main_part0_ops0_writes (by decide)
    _ = m ((c : Thread nD τ).loc main_arg3) := rfl

theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := W13_of_ne m ρ c main_arg4 (by decide)
    _ = W11 m ρ c (Proc.devRef .tc main_arg4) := StableHlo.after_of_writes_sub (r := main_arg4) main_part2_ops1 (W11 m ρ c) main_part2_ops1_writes (by decide)
    _ = W10 m ρ c (Proc.devRef .tc main_arg4) := W11_of_ne m ρ c main_arg4 (by decide)
    _ = W9 m ρ c (Proc.devRef .tc main_arg4) := StableHlo.after_of_writes_sub (r := main_arg4) main_part2_ops0 (W9 m ρ c) main_part2_ops0_writes (by decide)
    _ = W8 m ρ c (Proc.devRef .tc main_arg4) := StableHlo.after_of_writes_sub (r := main_arg4) main_part1_ops0 (W8 m ρ c) main_part1_ops0_writes (by decide)
    _ = W7 m ρ c (Proc.devRef .tc main_arg4) := W8_of_ne m ρ c main_arg4 (by decide)
    _ = W6 m ρ c (Proc.devRef .tc main_arg4) := StableHlo.after_of_writes_sub (r := main_arg4) main_part0_ops3 (W6 m ρ c) main_part0_ops3_writes (by decide)
    _ = W5 m ρ c (Proc.devRef .tc main_arg4) := W6_of_ne m ρ c main_arg4 (by decide)
    _ = W4 m ρ c (Proc.devRef .tc main_arg4) := StableHlo.after_of_writes_sub (r := main_arg4) main_part0_ops2 (W4 m ρ c) main_part0_ops2_writes (by decide)
    _ = W3 m ρ c (Proc.devRef .tc main_arg4) := W4_of_ne m ρ c main_arg4 (by decide)
    _ = W2 m ρ c (Proc.devRef .tc main_arg4) := StableHlo.after_of_writes_sub (r := main_arg4) main_part0_ops1 (W2 m ρ c) main_part0_ops1_writes (by decide)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := StableHlo.after_of_writes_sub (r := main_arg4) main_part0_ops0 (W0 m ρ c) main_part0_ops0_writes (by decide)
    _ = m ((c : Thread nD τ).loc main_arg4) := rfl

theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := W13_of_ne m ρ c main_arg5 (by decide)
    _ = W11 m ρ c (Proc.devRef .tc main_arg5) := StableHlo.after_of_writes_sub (r := main_arg5) main_part2_ops1 (W11 m ρ c) main_part2_ops1_writes (by decide)
    _ = W10 m ρ c (Proc.devRef .tc main_arg5) := W11_of_ne m ρ c main_arg5 (by decide)
    _ = W9 m ρ c (Proc.devRef .tc main_arg5) := StableHlo.after_of_writes_sub (r := main_arg5) main_part2_ops0 (W9 m ρ c) main_part2_ops0_writes (by decide)
    _ = W8 m ρ c (Proc.devRef .tc main_arg5) := StableHlo.after_of_writes_sub (r := main_arg5) main_part1_ops0 (W8 m ρ c) main_part1_ops0_writes (by decide)
    _ = W7 m ρ c (Proc.devRef .tc main_arg5) := W8_of_ne m ρ c main_arg5 (by decide)
    _ = W6 m ρ c (Proc.devRef .tc main_arg5) := StableHlo.after_of_writes_sub (r := main_arg5) main_part0_ops3 (W6 m ρ c) main_part0_ops3_writes (by decide)
    _ = W5 m ρ c (Proc.devRef .tc main_arg5) := W6_of_ne m ρ c main_arg5 (by decide)
    _ = W4 m ρ c (Proc.devRef .tc main_arg5) := StableHlo.after_of_writes_sub (r := main_arg5) main_part0_ops2 (W4 m ρ c) main_part0_ops2_writes (by decide)
    _ = W3 m ρ c (Proc.devRef .tc main_arg5) := W4_of_ne m ρ c main_arg5 (by decide)
    _ = W2 m ρ c (Proc.devRef .tc main_arg5) := StableHlo.after_of_writes_sub (r := main_arg5) main_part0_ops1 (W2 m ρ c) main_part0_ops1_writes (by decide)
    _ = W1 m ρ c (Proc.devRef .tc main_arg5) := W2_of_ne m ρ c main_arg5 (by decide)
    _ = W0 m ρ c (Proc.devRef .tc main_arg5) := StableHlo.after_of_writes_sub (r := main_arg5) main_part0_ops0 (W0 m ρ c) main_part0_ops0_writes (by decide)
    _ = m ((c : Thread nD τ).loc main_arg5) := rfl

theorem W13_main_arg6 (c : Dev nD) : W13 m ρ c (Proc.devRef .tc main_arg6) = m ((c : Thread nD τ).loc main_arg6) :=
  calc W13 m ρ c (Proc.devRef .tc main_arg6)
    _ = W12 m ρ c (Proc.devRef .tc main_arg6) := W13_of_ne m ρ c main_arg6 (by decide)
    _ = W11 m ρ c (Proc.devRef .tc main_arg6) := StableHlo.after_of_writes_sub (r := main_arg6) main_part2_ops1 (W11 m ρ c) main_part2_ops1_writes (by decide)
    _ = W10 m ρ c (Proc.devRef .tc main_arg6) := W11_of_ne m ρ c main_arg6 (by decide)
    _ = W9 m ρ c (Proc.devRef .tc main_arg6) := StableHlo.after_of_writes_sub (r := main_arg6) main_part2_ops0 (W9 m ρ c) main_part2_ops0_writes (by decide)
    _ = W8 m ρ c (Proc.devRef .tc main_arg6) := StableHlo.after_of_writes_sub (r := main_arg6) main_part1_ops0 (W8 m ρ c) main_part1_ops0_writes (by decide)
    _ = W7 m ρ c (Proc.devRef .tc main_arg6) := W8_of_ne m ρ c main_arg6 (by decide)
    _ = W6 m ρ c (Proc.devRef .tc main_arg6) := StableHlo.after_of_writes_sub (r := main_arg6) main_part0_ops3 (W6 m ρ c) main_part0_ops3_writes (by decide)
    _ = W5 m ρ c (Proc.devRef .tc main_arg6) := W6_of_ne m ρ c main_arg6 (by decide)
    _ = W4 m ρ c (Proc.devRef .tc main_arg6) := StableHlo.after_of_writes_sub (r := main_arg6) main_part0_ops2 (W4 m ρ c) main_part0_ops2_writes (by decide)
    _ = W3 m ρ c (Proc.devRef .tc main_arg6) := W4_of_ne m ρ c main_arg6 (by decide)
    _ = W2 m ρ c (Proc.devRef .tc main_arg6) := StableHlo.after_of_writes_sub (r := main_arg6) main_part0_ops1 (W2 m ρ c) main_part0_ops1_writes (by decide)
    _ = W1 m ρ c (Proc.devRef .tc main_arg6) := (W2_arr m ρ c 4).trans (((dat0 (V1 m ρ) c).arrAt_in 4 rfl _).trans (A_eq0 (V1 m ρ) c 4))
    _ = W0 m ρ c (Proc.devRef .tc main_arg6) := StableHlo.after_of_writes_sub (r := main_arg6) main_part0_ops0 (W0 m ρ c) main_part0_ops0_writes (by decide)
    _ = m ((c : Thread nD τ).loc main_arg6) := rfl

theorem W13_main_arg7 (c : Dev nD) : W13 m ρ c (Proc.devRef .tc main_arg7) = m ((c : Thread nD τ).loc main_arg7) :=
  calc W13 m ρ c (Proc.devRef .tc main_arg7)
    _ = W12 m ρ c (Proc.devRef .tc main_arg7) := W13_of_ne m ρ c main_arg7 (by decide)
    _ = W11 m ρ c (Proc.devRef .tc main_arg7) := StableHlo.after_of_writes_sub (r := main_arg7) main_part2_ops1 (W11 m ρ c) main_part2_ops1_writes (by decide)
    _ = W10 m ρ c (Proc.devRef .tc main_arg7) := W11_of_ne m ρ c main_arg7 (by decide)
    _ = W9 m ρ c (Proc.devRef .tc main_arg7) := StableHlo.after_of_writes_sub (r := main_arg7) main_part2_ops0 (W9 m ρ c) main_part2_ops0_writes (by decide)
    _ = W8 m ρ c (Proc.devRef .tc main_arg7) := StableHlo.after_of_writes_sub (r := main_arg7) main_part1_ops0 (W8 m ρ c) main_part1_ops0_writes (by decide)
    _ = W7 m ρ c (Proc.devRef .tc main_arg7) := W8_of_ne m ρ c main_arg7 (by decide)
    _ = W6 m ρ c (Proc.devRef .tc main_arg7) := StableHlo.after_of_writes_sub (r := main_arg7) main_part0_ops3 (W6 m ρ c) main_part0_ops3_writes (by decide)
    _ = W5 m ρ c (Proc.devRef .tc main_arg7) := W6_of_ne m ρ c main_arg7 (by decide)
    _ = W4 m ρ c (Proc.devRef .tc main_arg7) := StableHlo.after_of_writes_sub (r := main_arg7) main_part0_ops2 (W4 m ρ c) main_part0_ops2_writes (by decide)
    _ = W3 m ρ c (Proc.devRef .tc main_arg7) := (W4_arr m ρ c 2).trans (((dat1 (V3 m ρ) c).arrAt_in 2 rfl _).trans (A_eq1 (V3 m ρ) c 2))
    _ = W2 m ρ c (Proc.devRef .tc main_arg7) := StableHlo.after_of_writes_sub (r := main_arg7) main_part0_ops1 (W2 m ρ c) main_part0_ops1_writes (by decide)
    _ = W1 m ρ c (Proc.devRef .tc main_arg7) := W2_of_ne m ρ c main_arg7 (by decide)
    _ = W0 m ρ c (Proc.devRef .tc main_arg7) := StableHlo.after_of_writes_sub (r := main_arg7) main_part0_ops0 (W0 m ρ c) main_part0_ops0_writes (by decide)
    _ = m ((c : Thread nD τ).loc main_arg7) := rfl

theorem W13_main_arg8 (c : Dev nD) : W13 m ρ c (Proc.devRef .tc main_arg8) = m ((c : Thread nD τ).loc main_arg8) :=
  calc W13 m ρ c (Proc.devRef .tc main_arg8)
    _ = W12 m ρ c (Proc.devRef .tc main_arg8) := W13_of_ne m ρ c main_arg8 (by decide)
    _ = W11 m ρ c (Proc.devRef .tc main_arg8) := StableHlo.after_of_writes_sub (r := main_arg8) main_part2_ops1 (W11 m ρ c) main_part2_ops1_writes (by decide)
    _ = W10 m ρ c (Proc.devRef .tc main_arg8) := W11_of_ne m ρ c main_arg8 (by decide)
    _ = W9 m ρ c (Proc.devRef .tc main_arg8) := StableHlo.after_of_writes_sub (r := main_arg8) main_part2_ops0 (W9 m ρ c) main_part2_ops0_writes (by decide)
    _ = W8 m ρ c (Proc.devRef .tc main_arg8) := StableHlo.after_of_writes_sub (r := main_arg8) main_part1_ops0 (W8 m ρ c) main_part1_ops0_writes (by decide)
    _ = W7 m ρ c (Proc.devRef .tc main_arg8) := W8_of_ne m ρ c main_arg8 (by decide)
    _ = W6 m ρ c (Proc.devRef .tc main_arg8) := StableHlo.after_of_writes_sub (r := main_arg8) main_part0_ops3 (W6 m ρ c) main_part0_ops3_writes (by decide)
    _ = W5 m ρ c (Proc.devRef .tc main_arg8) := W6_of_ne m ρ c main_arg8 (by decide)
    _ = W4 m ρ c (Proc.devRef .tc main_arg8) := StableHlo.after_of_writes_sub (r := main_arg8) main_part0_ops2 (W4 m ρ c) main_part0_ops2_writes (by decide)
    _ = W3 m ρ c (Proc.devRef .tc main_arg8) := W4_of_ne m ρ c main_arg8 (by decide)
    _ = W2 m ρ c (Proc.devRef .tc main_arg8) := StableHlo.after_of_writes_sub (r := main_arg8) main_part0_ops1 (W2 m ρ c) main_part0_ops1_writes (by decide)
    _ = W1 m ρ c (Proc.devRef .tc main_arg8) := W2_of_ne m ρ c main_arg8 (by decide)
    _ = W0 m ρ c (Proc.devRef .tc main_arg8) := StableHlo.after_of_writes_sub (r := main_arg8) main_part0_ops0 (W0 m ρ c) main_part0_ops0_writes (by decide)
    _ = m ((c : Thread nD τ).loc main_arg8) := rfl

theorem W13_main_arg9 (c : Dev nD) : W13 m ρ c (Proc.devRef .tc main_arg9) = m ((c : Thread nD τ).loc main_arg9) :=
  calc W13 m ρ c (Proc.devRef .tc main_arg9)
    _ = W12 m ρ c (Proc.devRef .tc main_arg9) := W13_of_ne m ρ c main_arg9 (by decide)
    _ = W11 m ρ c (Proc.devRef .tc main_arg9) := StableHlo.after_of_writes_sub (r := main_arg9) main_part2_ops1 (W11 m ρ c) main_part2_ops1_writes (by decide)
    _ = W10 m ρ c (Proc.devRef .tc main_arg9) := W11_of_ne m ρ c main_arg9 (by decide)
    _ = W9 m ρ c (Proc.devRef .tc main_arg9) := StableHlo.after_of_writes_sub (r := main_arg9) main_part2_ops0 (W9 m ρ c) main_part2_ops0_writes (by decide)
    _ = W8 m ρ c (Proc.devRef .tc main_arg9) := StableHlo.after_of_writes_sub (r := main_arg9) main_part1_ops0 (W8 m ρ c) main_part1_ops0_writes (by decide)
    _ = W7 m ρ c (Proc.devRef .tc main_arg9) := W8_of_ne m ρ c main_arg9 (by decide)
    _ = W6 m ρ c (Proc.devRef .tc main_arg9) := StableHlo.after_of_writes_sub (r := main_arg9) main_part0_ops3 (W6 m ρ c) main_part0_ops3_writes (by decide)
    _ = W5 m ρ c (Proc.devRef .tc main_arg9) := W6_of_ne m ρ c main_arg9 (by decide)
    _ = W4 m ρ c (Proc.devRef .tc main_arg9) := StableHlo.after_of_writes_sub (r := main_arg9) main_part0_ops2 (W4 m ρ c) main_part0_ops2_writes (by decide)
    _ = W3 m ρ c (Proc.devRef .tc main_arg9) := (W4_arr m ρ c 4).trans (((dat1 (V3 m ρ) c).arrAt_in 4 rfl _).trans (A_eq1 (V3 m ρ) c 4))
    _ = W2 m ρ c (Proc.devRef .tc main_arg9) := StableHlo.after_of_writes_sub (r := main_arg9) main_part0_ops1 (W2 m ρ c) main_part0_ops1_writes (by decide)
    _ = W1 m ρ c (Proc.devRef .tc main_arg9) := W2_of_ne m ρ c main_arg9 (by decide)
    _ = W0 m ρ c (Proc.devRef .tc main_arg9) := StableHlo.after_of_writes_sub (r := main_arg9) main_part0_ops0 (W0 m ρ c) main_part0_ops0_writes (by decide)
    _ = m ((c : Thread nD τ).loc main_arg9) := rfl

theorem W13_main_arg10 (c : Dev nD) : W13 m ρ c (Proc.devRef .tc main_arg10) = m ((c : Thread nD τ).loc main_arg10) :=
  calc W13 m ρ c (Proc.devRef .tc main_arg10)
    _ = W12 m ρ c (Proc.devRef .tc main_arg10) := W13_of_ne m ρ c main_arg10 (by decide)
    _ = W11 m ρ c (Proc.devRef .tc main_arg10) := StableHlo.after_of_writes_sub (r := main_arg10) main_part2_ops1 (W11 m ρ c) main_part2_ops1_writes (by decide)
    _ = W10 m ρ c (Proc.devRef .tc main_arg10) := W11_of_ne m ρ c main_arg10 (by decide)
    _ = W9 m ρ c (Proc.devRef .tc main_arg10) := StableHlo.after_of_writes_sub (r := main_arg10) main_part2_ops0 (W9 m ρ c) main_part2_ops0_writes (by decide)
    _ = W8 m ρ c (Proc.devRef .tc main_arg10) := StableHlo.after_of_writes_sub (r := main_arg10) main_part1_ops0 (W8 m ρ c) main_part1_ops0_writes (by decide)
    _ = W7 m ρ c (Proc.devRef .tc main_arg10) := W8_of_ne m ρ c main_arg10 (by decide)
    _ = W6 m ρ c (Proc.devRef .tc main_arg10) := StableHlo.after_of_writes_sub (r := main_arg10) main_part0_ops3 (W6 m ρ c) main_part0_ops3_writes (by decide)
    _ = W5 m ρ c (Proc.devRef .tc main_arg10) := (W6_arr m ρ c 2).trans (((dat2 (V5 m ρ) c).arrAt_in 2 rfl _).trans (A_eq2 (V5 m ρ) c 2))
    _ = W4 m ρ c (Proc.devRef .tc main_arg10) := StableHlo.after_of_writes_sub (r := main_arg10) main_part0_ops2 (W4 m ρ c) main_part0_ops2_writes (by decide)
    _ = W3 m ρ c (Proc.devRef .tc main_arg10) := W4_of_ne m ρ c main_arg10 (by decide)
    _ = W2 m ρ c (Proc.devRef .tc main_arg10) := StableHlo.after_of_writes_sub (r := main_arg10) main_part0_ops1 (W2 m ρ c) main_part0_ops1_writes (by decide)
    _ = W1 m ρ c (Proc.devRef .tc main_arg10) := W2_of_ne m ρ c main_arg10 (by decide)
    _ = W0 m ρ c (Proc.devRef .tc main_arg10) := StableHlo.after_of_writes_sub (r := main_arg10) main_part0_ops0 (W0 m ρ c) main_part0_ops0_writes (by decide)
    _ = m ((c : Thread nD τ).loc main_arg10) := rfl

theorem W13_main_arg11 (c : Dev nD) : W13 m ρ c (Proc.devRef .tc main_arg11) = m ((c : Thread nD τ).loc main_arg11) :=
  calc W13 m ρ c (Proc.devRef .tc main_arg11)
    _ = W12 m ρ c (Proc.devRef .tc main_arg11) := W13_of_ne m ρ c main_arg11 (by decide)
    _ = W11 m ρ c (Proc.devRef .tc main_arg11) := StableHlo.after_of_writes_sub (r := main_arg11) main_part2_ops1 (W11 m ρ c) main_part2_ops1_writes (by decide)
    _ = W10 m ρ c (Proc.devRef .tc main_arg11) := W11_of_ne m ρ c main_arg11 (by decide)
    _ = W9 m ρ c (Proc.devRef .tc main_arg11) := StableHlo.after_of_writes_sub (r := main_arg11) main_part2_ops0 (W9 m ρ c) main_part2_ops0_writes (by decide)
    _ = W8 m ρ c (Proc.devRef .tc main_arg11) := StableHlo.after_of_writes_sub (r := main_arg11) main_part1_ops0 (W8 m ρ c) main_part1_ops0_writes (by decide)
    _ = W7 m ρ c (Proc.devRef .tc main_arg11) := W8_of_ne m ρ c main_arg11 (by decide)
    _ = W6 m ρ c (Proc.devRef .tc main_arg11) := StableHlo.after_of_writes_sub (r := main_arg11) main_part0_ops3 (W6 m ρ c) main_part0_ops3_writes (by decide)
    _ = W5 m ρ c (Proc.devRef .tc main_arg11) := W6_of_ne m ρ c main_arg11 (by decide)
    _ = W4 m ρ c (Proc.devRef .tc main_arg11) := StableHlo.after_of_writes_sub (r := main_arg11) main_part0_ops2 (W4 m ρ c) main_part0_ops2_writes (by decide)
    _ = W3 m ρ c (Proc.devRef .tc main_arg11) := W4_of_ne m ρ c main_arg11 (by decide)
    _ = W2 m ρ c (Proc.devRef .tc main_arg11) := StableHlo.after_of_writes_sub (r := main_arg11) main_part0_ops1 (W2 m ρ c) main_part0_ops1_writes (by decide)
    _ = W1 m ρ c (Proc.devRef .tc main_arg11) := W2_of_ne m ρ c main_arg11 (by decide)
    _ = W0 m ρ c (Proc.devRef .tc main_arg11) := StableHlo.after_of_writes_sub (r := main_arg11) main_part0_ops0 (W0 m ρ c) main_part0_ops0_writes (by decide)
    _ = m ((c : Thread nD τ).loc main_arg11) := rfl

theorem W13_main_arg12 (c : Dev nD) : W13 m ρ c (Proc.devRef .tc main_arg12) = m ((c : Thread nD τ).loc main_arg12) :=
  calc W13 m ρ c (Proc.devRef .tc main_arg12)
    _ = W12 m ρ c (Proc.devRef .tc main_arg12) := W13_of_ne m ρ c main_arg12 (by decide)
    _ = W11 m ρ c (Proc.devRef .tc main_arg12) := StableHlo.after_of_writes_sub (r := main_arg12) main_part2_ops1 (W11 m ρ c) main_part2_ops1_writes (by decide)
    _ = W10 m ρ c (Proc.devRef .tc main_arg12) := W11_of_ne m ρ c main_arg12 (by decide)
    _ = W9 m ρ c (Proc.devRef .tc main_arg12) := StableHlo.after_of_writes_sub (r := main_arg12) main_part2_ops0 (W9 m ρ c) main_part2_ops0_writes (by decide)
    _ = W8 m ρ c (Proc.devRef .tc main_arg12) := StableHlo.after_of_writes_sub (r := main_arg12) main_part1_ops0 (W8 m ρ c) main_part1_ops0_writes (by decide)
    _ = W7 m ρ c (Proc.devRef .tc main_arg12) := W8_of_ne m ρ c main_arg12 (by decide)
    _ = W6 m ρ c (Proc.devRef .tc main_arg12) := StableHlo.after_of_writes_sub (r := main_arg12) main_part0_ops3 (W6 m ρ c) main_part0_ops3_writes (by decide)
    _ = W5 m ρ c (Proc.devRef .tc main_arg12) := (W6_arr m ρ c 4).trans (((dat2 (V5 m ρ) c).arrAt_in 4 rfl _).trans (A_eq2 (V5 m ρ) c 4))
    _ = W4 m ρ c (Proc.devRef .tc main_arg12) := StableHlo.after_of_writes_sub (r := main_arg12) main_part0_ops2 (W4 m ρ c) main_part0_ops2_writes (by decide)
    _ = W3 m ρ c (Proc.devRef .tc main_arg12) := W4_of_ne m ρ c main_arg12 (by decide)
    _ = W2 m ρ c (Proc.devRef .tc main_arg12) := StableHlo.after_of_writes_sub (r := main_arg12) main_part0_ops1 (W2 m ρ c) main_part0_ops1_writes (by decide)
    _ = W1 m ρ c (Proc.devRef .tc main_arg12) := W2_of_ne m ρ c main_arg12 (by decide)
    _ = W0 m ρ c (Proc.devRef .tc main_arg12) := StableHlo.after_of_writes_sub (r := main_arg12) main_part0_ops0 (W0 m ρ c) main_part0_ops0_writes (by decide)
    _ = m ((c : Thread nD τ).loc main_arg12) := rfl

theorem W13_main_arg13 (c : Dev nD) : W13 m ρ c (Proc.devRef .tc main_arg13) = m ((c : Thread nD τ).loc main_arg13) :=
  calc W13 m ρ c (Proc.devRef .tc main_arg13)
    _ = W12 m ρ c (Proc.devRef .tc main_arg13) := W13_of_ne m ρ c main_arg13 (by decide)
    _ = W11 m ρ c (Proc.devRef .tc main_arg13) := StableHlo.after_of_writes_sub (r := main_arg13) main_part2_ops1 (W11 m ρ c) main_part2_ops1_writes (by decide)
    _ = W10 m ρ c (Proc.devRef .tc main_arg13) := W11_of_ne m ρ c main_arg13 (by decide)
    _ = W9 m ρ c (Proc.devRef .tc main_arg13) := StableHlo.after_of_writes_sub (r := main_arg13) main_part2_ops0 (W9 m ρ c) main_part2_ops0_writes (by decide)
    _ = W8 m ρ c (Proc.devRef .tc main_arg13) := StableHlo.after_of_writes_sub (r := main_arg13) main_part1_ops0 (W8 m ρ c) main_part1_ops0_writes (by decide)
    _ = W7 m ρ c (Proc.devRef .tc main_arg13) := (W8_arr m ρ c 2).trans (((dat3 (V7 m ρ) c).arrAt_in 2 rfl _).trans (A_eq3 (V7 m ρ) c 2))
    _ = W6 m ρ c (Proc.devRef .tc main_arg13) := StableHlo.after_of_writes_sub (r := main_arg13) main_part0_ops3 (W6 m ρ c) main_part0_ops3_writes (by decide)
    _ = W5 m ρ c (Proc.devRef .tc main_arg13) := W6_of_ne m ρ c main_arg13 (by decide)
    _ = W4 m ρ c (Proc.devRef .tc main_arg13) := StableHlo.after_of_writes_sub (r := main_arg13) main_part0_ops2 (W4 m ρ c) main_part0_ops2_writes (by decide)
    _ = W3 m ρ c (Proc.devRef .tc main_arg13) := W4_of_ne m ρ c main_arg13 (by decide)
    _ = W2 m ρ c (Proc.devRef .tc main_arg13) := StableHlo.after_of_writes_sub (r := main_arg13) main_part0_ops1 (W2 m ρ c) main_part0_ops1_writes (by decide)
    _ = W1 m ρ c (Proc.devRef .tc main_arg13) := W2_of_ne m ρ c main_arg13 (by decide)
    _ = W0 m ρ c (Proc.devRef .tc main_arg13) := StableHlo.after_of_writes_sub (r := main_arg13) main_part0_ops0 (W0 m ρ c) main_part0_ops0_writes (by decide)
    _ = m ((c : Thread nD τ).loc main_arg13) := rfl

theorem W13_main_arg14 (c : Dev nD) : W13 m ρ c (Proc.devRef .tc main_arg14) = m ((c : Thread nD τ).loc main_arg14) :=
  calc W13 m ρ c (Proc.devRef .tc main_arg14)
    _ = W12 m ρ c (Proc.devRef .tc main_arg14) := W13_of_ne m ρ c main_arg14 (by decide)
    _ = W11 m ρ c (Proc.devRef .tc main_arg14) := StableHlo.after_of_writes_sub (r := main_arg14) main_part2_ops1 (W11 m ρ c) main_part2_ops1_writes (by decide)
    _ = W10 m ρ c (Proc.devRef .tc main_arg14) := W11_of_ne m ρ c main_arg14 (by decide)
    _ = W9 m ρ c (Proc.devRef .tc main_arg14) := StableHlo.after_of_writes_sub (r := main_arg14) main_part2_ops0 (W9 m ρ c) main_part2_ops0_writes (by decide)
    _ = W8 m ρ c (Proc.devRef .tc main_arg14) := StableHlo.after_of_writes_sub (r := main_arg14) main_part1_ops0 (W8 m ρ c) main_part1_ops0_writes (by decide)
    _ = W7 m ρ c (Proc.devRef .tc main_arg14) := W8_of_ne m ρ c main_arg14 (by decide)
    _ = W6 m ρ c (Proc.devRef .tc main_arg14) := StableHlo.after_of_writes_sub (r := main_arg14) main_part0_ops3 (W6 m ρ c) main_part0_ops3_writes (by decide)
    _ = W5 m ρ c (Proc.devRef .tc main_arg14) := W6_of_ne m ρ c main_arg14 (by decide)
    _ = W4 m ρ c (Proc.devRef .tc main_arg14) := StableHlo.after_of_writes_sub (r := main_arg14) main_part0_ops2 (W4 m ρ c) main_part0_ops2_writes (by decide)
    _ = W3 m ρ c (Proc.devRef .tc main_arg14) := W4_of_ne m ρ c main_arg14 (by decide)
    _ = W2 m ρ c (Proc.devRef .tc main_arg14) := StableHlo.after_of_writes_sub (r := main_arg14) main_part0_ops1 (W2 m ρ c) main_part0_ops1_writes (by decide)
    _ = W1 m ρ c (Proc.devRef .tc main_arg14) := W2_of_ne m ρ c main_arg14 (by decide)
    _ = W0 m ρ c (Proc.devRef .tc main_arg14) := StableHlo.after_of_writes_sub (r := main_arg14) main_part0_ops0 (W0 m ρ c) main_part0_ops0_writes (by decide)
    _ = m ((c : Thread nD τ).loc main_arg14) := rfl

theorem W13_main_arg15 (c : Dev nD) : W13 m ρ c (Proc.devRef .tc main_arg15) = m ((c : Thread nD τ).loc main_arg15) :=
  calc W13 m ρ c (Proc.devRef .tc main_arg15)
    _ = W12 m ρ c (Proc.devRef .tc main_arg15) := W13_of_ne m ρ c main_arg15 (by decide)
    _ = W11 m ρ c (Proc.devRef .tc main_arg15) := StableHlo.after_of_writes_sub (r := main_arg15) main_part2_ops1 (W11 m ρ c) main_part2_ops1_writes (by decide)
    _ = W10 m ρ c (Proc.devRef .tc main_arg15) := W11_of_ne m ρ c main_arg15 (by decide)
    _ = W9 m ρ c (Proc.devRef .tc main_arg15) := StableHlo.after_of_writes_sub (r := main_arg15) main_part2_ops0 (W9 m ρ c) main_part2_ops0_writes (by decide)
    _ = W8 m ρ c (Proc.devRef .tc main_arg15) := StableHlo.after_of_writes_sub (r := main_arg15) main_part1_ops0 (W8 m ρ c) main_part1_ops0_writes (by decide)
    _ = W7 m ρ c (Proc.devRef .tc main_arg15) := (W8_arr m ρ c 4).trans (((dat3 (V7 m ρ) c).arrAt_in 4 rfl _).trans (A_eq3 (V7 m ρ) c 4))
    _ = W6 m ρ c (Proc.devRef .tc main_arg15) := StableHlo.after_of_writes_sub (r := main_arg15) main_part0_ops3 (W6 m ρ c) main_part0_ops3_writes (by decide)
    _ = W5 m ρ c (Proc.devRef .tc main_arg15) := W6_of_ne m ρ c main_arg15 (by decide)
    _ = W4 m ρ c (Proc.devRef .tc main_arg15) := StableHlo.after_of_writes_sub (r := main_arg15) main_part0_ops2 (W4 m ρ c) main_part0_ops2_writes (by decide)
    _ = W3 m ρ c (Proc.devRef .tc main_arg15) := W4_of_ne m ρ c main_arg15 (by decide)
    _ = W2 m ρ c (Proc.devRef .tc main_arg15) := StableHlo.after_of_writes_sub (r := main_arg15) main_part0_ops1 (W2 m ρ c) main_part0_ops1_writes (by decide)
    _ = W1 m ρ c (Proc.devRef .tc main_arg15) := W2_of_ne m ρ c main_arg15 (by decide)
    _ = W0 m ρ c (Proc.devRef .tc main_arg15) := StableHlo.after_of_writes_sub (r := main_arg15) main_part0_ops0 (W0 m ρ c) main_part0_ops0_writes (by decide)
    _ = m ((c : Thread nD τ).loc main_arg15) := rfl

theorem W13_main_arg16 (c : Dev nD) : W13 m ρ c (Proc.devRef .tc main_arg16) = m ((c : Thread nD τ).loc main_arg16) :=
  calc W13 m ρ c (Proc.devRef .tc main_arg16)
    _ = W12 m ρ c (Proc.devRef .tc main_arg16) := W13_of_ne m ρ c main_arg16 (by decide)
    _ = W11 m ρ c (Proc.devRef .tc main_arg16) := StableHlo.after_of_writes_sub (r := main_arg16) main_part2_ops1 (W11 m ρ c) main_part2_ops1_writes (by decide)
    _ = W10 m ρ c (Proc.devRef .tc main_arg16) := W11_of_ne m ρ c main_arg16 (by decide)
    _ = W9 m ρ c (Proc.devRef .tc main_arg16) := StableHlo.after_of_writes_sub (r := main_arg16) main_part2_ops0 (W9 m ρ c) main_part2_ops0_writes (by decide)
    _ = W8 m ρ c (Proc.devRef .tc main_arg16) := StableHlo.after_of_writes_sub (r := main_arg16) main_part1_ops0 (W8 m ρ c) main_part1_ops0_writes (by decide)
    _ = W7 m ρ c (Proc.devRef .tc main_arg16) := (W8_arr m ρ c 5).trans (((dat3 (V7 m ρ) c).arrAt_in 5 rfl _).trans (A_eq3 (V7 m ρ) c 5))
    _ = W6 m ρ c (Proc.devRef .tc main_arg16) := StableHlo.after_of_writes_sub (r := main_arg16) main_part0_ops3 (W6 m ρ c) main_part0_ops3_writes (by decide)
    _ = W5 m ρ c (Proc.devRef .tc main_arg16) := W6_of_ne m ρ c main_arg16 (by decide)
    _ = W4 m ρ c (Proc.devRef .tc main_arg16) := StableHlo.after_of_writes_sub (r := main_arg16) main_part0_ops2 (W4 m ρ c) main_part0_ops2_writes (by decide)
    _ = W3 m ρ c (Proc.devRef .tc main_arg16) := W4_of_ne m ρ c main_arg16 (by decide)
    _ = W2 m ρ c (Proc.devRef .tc main_arg16) := StableHlo.after_of_writes_sub (r := main_arg16) main_part0_ops1 (W2 m ρ c) main_part0_ops1_writes (by decide)
    _ = W1 m ρ c (Proc.devRef .tc main_arg16) := W2_of_ne m ρ c main_arg16 (by decide)
    _ = W0 m ρ c (Proc.devRef .tc main_arg16) := StableHlo.after_of_writes_sub (r := main_arg16) main_part0_ops0 (W0 m ρ c) main_part0_ops0_writes (by decide)
    _ = m ((c : Thread nD τ).loc main_arg16) := rfl

theorem W13_main_arg17 (c : Dev nD) : W13 m ρ c (Proc.devRef .tc main_arg17) = m ((c : Thread nD τ).loc main_arg17) :=
  calc W13 m ρ c (Proc.devRef .tc main_arg17)
    _ = W12 m ρ c (Proc.devRef .tc main_arg17) := W13_of_ne m ρ c main_arg17 (by decide)
    _ = W11 m ρ c (Proc.devRef .tc main_arg17) := StableHlo.after_of_writes_sub (r := main_arg17) main_part2_ops1 (W11 m ρ c) main_part2_ops1_writes (by decide)
    _ = W10 m ρ c (Proc.devRef .tc main_arg17) := W11_of_ne m ρ c main_arg17 (by decide)
    _ = W9 m ρ c (Proc.devRef .tc main_arg17) := StableHlo.after_of_writes_sub (r := main_arg17) main_part2_ops0 (W9 m ρ c) main_part2_ops0_writes (by decide)
    _ = W8 m ρ c (Proc.devRef .tc main_arg17) := StableHlo.after_of_writes_sub (r := main_arg17) main_part1_ops0 (W8 m ρ c) main_part1_ops0_writes (by decide)
    _ = W7 m ρ c (Proc.devRef .tc main_arg17) := W8_of_ne m ρ c main_arg17 (by decide)
    _ = W6 m ρ c (Proc.devRef .tc main_arg17) := StableHlo.after_of_writes_sub (r := main_arg17) main_part0_ops3 (W6 m ρ c) main_part0_ops3_writes (by decide)
    _ = W5 m ρ c (Proc.devRef .tc main_arg17) := W6_of_ne m ρ c main_arg17 (by decide)
    _ = W4 m ρ c (Proc.devRef .tc main_arg17) := StableHlo.after_of_writes_sub (r := main_arg17) main_part0_ops2 (W4 m ρ c) main_part0_ops2_writes (by decide)
    _ = W3 m ρ c (Proc.devRef .tc main_arg17) := W4_of_ne m ρ c main_arg17 (by decide)
    _ = W2 m ρ c (Proc.devRef .tc main_arg17) := StableHlo.after_of_writes_sub (r := main_arg17) main_part0_ops1 (W2 m ρ c) main_part0_ops1_writes (by decide)
    _ = W1 m ρ c (Proc.devRef .tc main_arg17) := W2_of_ne m ρ c main_arg17 (by decide)
    _ = W0 m ρ c (Proc.devRef .tc main_arg17) := StableHlo.after_of_writes_sub (r := main_arg17) main_part0_ops0 (W0 m ρ c) main_part0_ops0_writes (by decide)
    _ = m ((c : Thread nD τ).loc main_arg17) := rfl

theorem W13_main_arg18 (c : Dev nD) : W13 m ρ c (Proc.devRef .tc main_arg18) = m ((c : Thread nD τ).loc main_arg18) :=
  calc W13 m ρ c (Proc.devRef .tc main_arg18)
    _ = W12 m ρ c (Proc.devRef .tc main_arg18) := W13_of_ne m ρ c main_arg18 (by decide)
    _ = W11 m ρ c (Proc.devRef .tc main_arg18) := StableHlo.after_of_writes_sub (r := main_arg18) main_part2_ops1 (W11 m ρ c) main_part2_ops1_writes (by decide)
    _ = W10 m ρ c (Proc.devRef .tc main_arg18) := (W11_arr m ρ c 2).trans (((dat4 (V10 m ρ) c).arrAt_in 2 rfl _).trans (A_eq4 (V10 m ρ) c 2))
    _ = W9 m ρ c (Proc.devRef .tc main_arg18) := StableHlo.after_of_writes_sub (r := main_arg18) main_part2_ops0 (W9 m ρ c) main_part2_ops0_writes (by decide)
    _ = W8 m ρ c (Proc.devRef .tc main_arg18) := StableHlo.after_of_writes_sub (r := main_arg18) main_part1_ops0 (W8 m ρ c) main_part1_ops0_writes (by decide)
    _ = W7 m ρ c (Proc.devRef .tc main_arg18) := W8_of_ne m ρ c main_arg18 (by decide)
    _ = W6 m ρ c (Proc.devRef .tc main_arg18) := StableHlo.after_of_writes_sub (r := main_arg18) main_part0_ops3 (W6 m ρ c) main_part0_ops3_writes (by decide)
    _ = W5 m ρ c (Proc.devRef .tc main_arg18) := W6_of_ne m ρ c main_arg18 (by decide)
    _ = W4 m ρ c (Proc.devRef .tc main_arg18) := StableHlo.after_of_writes_sub (r := main_arg18) main_part0_ops2 (W4 m ρ c) main_part0_ops2_writes (by decide)
    _ = W3 m ρ c (Proc.devRef .tc main_arg18) := W4_of_ne m ρ c main_arg18 (by decide)
    _ = W2 m ρ c (Proc.devRef .tc main_arg18) := StableHlo.after_of_writes_sub (r := main_arg18) main_part0_ops1 (W2 m ρ c) main_part0_ops1_writes (by decide)
    _ = W1 m ρ c (Proc.devRef .tc main_arg18) := W2_of_ne m ρ c main_arg18 (by decide)
    _ = W0 m ρ c (Proc.devRef .tc main_arg18) := StableHlo.after_of_writes_sub (r := main_arg18) main_part0_ops0 (W0 m ρ c) main_part0_ops0_writes (by decide)
    _ = m ((c : Thread nD τ).loc main_arg18) := rfl

theorem W13_main_arg19 (c : Dev nD) : W13 m ρ c (Proc.devRef .tc main_arg19) = m ((c : Thread nD τ).loc main_arg19) :=
  calc W13 m ρ c (Proc.devRef .tc main_arg19)
    _ = W12 m ρ c (Proc.devRef .tc main_arg19) := W13_of_ne m ρ c main_arg19 (by decide)
    _ = W11 m ρ c (Proc.devRef .tc main_arg19) := StableHlo.after_of_writes_sub (r := main_arg19) main_part2_ops1 (W11 m ρ c) main_part2_ops1_writes (by decide)
    _ = W10 m ρ c (Proc.devRef .tc main_arg19) := W11_of_ne m ρ c main_arg19 (by decide)
    _ = W9 m ρ c (Proc.devRef .tc main_arg19) := StableHlo.after_of_writes_sub (r := main_arg19) main_part2_ops0 (W9 m ρ c) main_part2_ops0_writes (by decide)
    _ = W8 m ρ c (Proc.devRef .tc main_arg19) := StableHlo.after_of_writes_sub (r := main_arg19) main_part1_ops0 (W8 m ρ c) main_part1_ops0_writes (by decide)
    _ = W7 m ρ c (Proc.devRef .tc main_arg19) := W8_of_ne m ρ c main_arg19 (by decide)
    _ = W6 m ρ c (Proc.devRef .tc main_arg19) := StableHlo.after_of_writes_sub (r := main_arg19) main_part0_ops3 (W6 m ρ c) main_part0_ops3_writes (by decide)
    _ = W5 m ρ c (Proc.devRef .tc main_arg19) := (W6_arr m ρ c 5).trans (((dat2 (V5 m ρ) c).arrAt_in 5 rfl _).trans (A_eq2 (V5 m ρ) c 5))
    _ = W4 m ρ c (Proc.devRef .tc main_arg19) := StableHlo.after_of_writes_sub (r := main_arg19) main_part0_ops2 (W4 m ρ c) main_part0_ops2_writes (by decide)
    _ = W3 m ρ c (Proc.devRef .tc main_arg19) := W4_of_ne m ρ c main_arg19 (by decide)
    _ = W2 m ρ c (Proc.devRef .tc main_arg19) := StableHlo.after_of_writes_sub (r := main_arg19) main_part0_ops1 (W2 m ρ c) main_part0_ops1_writes (by decide)
    _ = W1 m ρ c (Proc.devRef .tc main_arg19) := W2_of_ne m ρ c main_arg19 (by decide)
    _ = W0 m ρ c (Proc.devRef .tc main_arg19) := StableHlo.after_of_writes_sub (r := main_arg19) main_part0_ops0 (W0 m ρ c) main_part0_ops0_writes (by decide)
    _ = m ((c : Thread nD τ).loc main_arg19) := rfl

theorem W13_main_arg20 (c : Dev nD) : W13 m ρ c (Proc.devRef .tc main_arg20) = m ((c : Thread nD τ).loc main_arg20) :=
  calc W13 m ρ c (Proc.devRef .tc main_arg20)
    _ = W12 m ρ c (Proc.devRef .tc main_arg20) := W13_of_ne m ρ c main_arg20 (by decide)
    _ = W11 m ρ c (Proc.devRef .tc main_arg20) := StableHlo.after_of_writes_sub (r := main_arg20) main_part2_ops1 (W11 m ρ c) main_part2_ops1_writes (by decide)
    _ = W10 m ρ c (Proc.devRef .tc main_arg20) := W11_of_ne m ρ c main_arg20 (by decide)
    _ = W9 m ρ c (Proc.devRef .tc main_arg20) := StableHlo.after_of_writes_sub (r := main_arg20) main_part2_ops0 (W9 m ρ c) main_part2_ops0_writes (by decide)
    _ = W8 m ρ c (Proc.devRef .tc main_arg20) := StableHlo.after_of_writes_sub (r := main_arg20) main_part1_ops0 (W8 m ρ c) main_part1_ops0_writes (by decide)
    _ = W7 m ρ c (Proc.devRef .tc main_arg20) := W8_of_ne m ρ c main_arg20 (by decide)
    _ = W6 m ρ c (Proc.devRef .tc main_arg20) := StableHlo.after_of_writes_sub (r := main_arg20) main_part0_ops3 (W6 m ρ c) main_part0_ops3_writes (by decide)
    _ = W5 m ρ c (Proc.devRef .tc main_arg20) := W6_of_ne m ρ c main_arg20 (by decide)
    _ = W4 m ρ c (Proc.devRef .tc main_arg20) := StableHlo.after_of_writes_sub (r := main_arg20) main_part0_ops2 (W4 m ρ c) main_part0_ops2_writes (by decide)
    _ = W3 m ρ c (Proc.devRef .tc main_arg20) := W4_of_ne m ρ c main_arg20 (by decide)
    _ = W2 m ρ c (Proc.devRef .tc main_arg20) := StableHlo.after_of_writes_sub (r := main_arg20) main_part0_ops1 (W2 m ρ c) main_part0_ops1_writes (by decide)
    _ = W1 m ρ c (Proc.devRef .tc main_arg20) := W2_of_ne m ρ c main_arg20 (by decide)
    _ = W0 m ρ c (Proc.devRef .tc main_arg20) := StableHlo.after_of_writes_sub (r := main_arg20) main_part0_ops0 (W0 m ρ c) main_part0_ops0_writes (by decide)
    _ = m ((c : Thread nD τ).loc main_arg20) := rfl

theorem W13_main_arg21 (c : Dev nD) : W13 m ρ c (Proc.devRef .tc main_arg21) = m ((c : Thread nD τ).loc main_arg21) :=
  calc W13 m ρ c (Proc.devRef .tc main_arg21)
    _ = W12 m ρ c (Proc.devRef .tc main_arg21) := (W13_arr m ρ c 2).trans (((dat5 (V12 m ρ) c).arrAt_in 2 rfl _).trans (A_eq5 (V12 m ρ) c 2))
    _ = W11 m ρ c (Proc.devRef .tc main_arg21) := StableHlo.after_of_writes_sub (r := main_arg21) main_part2_ops1 (W11 m ρ c) main_part2_ops1_writes (by decide)
    _ = W10 m ρ c (Proc.devRef .tc main_arg21) := W11_of_ne m ρ c main_arg21 (by decide)
    _ = W9 m ρ c (Proc.devRef .tc main_arg21) := StableHlo.after_of_writes_sub (r := main_arg21) main_part2_ops0 (W9 m ρ c) main_part2_ops0_writes (by decide)
    _ = W8 m ρ c (Proc.devRef .tc main_arg21) := StableHlo.after_of_writes_sub (r := main_arg21) main_part1_ops0 (W8 m ρ c) main_part1_ops0_writes (by decide)
    _ = W7 m ρ c (Proc.devRef .tc main_arg21) := W8_of_ne m ρ c main_arg21 (by decide)
    _ = W6 m ρ c (Proc.devRef .tc main_arg21) := StableHlo.after_of_writes_sub (r := main_arg21) main_part0_ops3 (W6 m ρ c) main_part0_ops3_writes (by decide)
    _ = W5 m ρ c (Proc.devRef .tc main_arg21) := W6_of_ne m ρ c main_arg21 (by decide)
    _ = W4 m ρ c (Proc.devRef .tc main_arg21) := StableHlo.after_of_writes_sub (r := main_arg21) main_part0_ops2 (W4 m ρ c) main_part0_ops2_writes (by decide)
    _ = W3 m ρ c (Proc.devRef .tc main_arg21) := W4_of_ne m ρ c main_arg21 (by decide)
    _ = W2 m ρ c (Proc.devRef .tc main_arg21) := StableHlo.after_of_writes_sub (r := main_arg21) main_part0_ops1 (W2 m ρ c) main_part0_ops1_writes (by decide)
    _ = W1 m ρ c (Proc.devRef .tc main_arg21) := W2_of_ne m ρ c main_arg21 (by decide)
    _ = W0 m ρ c (Proc.devRef .tc main_arg21) := StableHlo.after_of_writes_sub (r := main_arg21) main_part0_ops0 (W0 m ρ c) main_part0_ops0_writes (by decide)
    _ = m ((c : Thread nD τ).loc main_arg21) := rfl

end Cert.KernelIdeal.Hand

end
-- ==== Proof.KI.RunDefs.lean ====
import proofs.«171555_j63479616635263_2_alg».proof.Proof.KI.RunBounds

/-!
# The per-launch records as one family, and what a core holds between segments

Every launch's per-point record is taken at the buffer contents its launch is entered with; between segments a core
holds every unscoped buffer at the boundary's contents, its generator register at some state, and owes nothing.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No launch has a prefetched table. -/
abbrev adm : (p : Fin 6) → (pcfgs (F := F) p).Adm := fun p => (cfgs p).toPCfg_adm
/-- Every launch's per-point record, each at its launch's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V10 m ρ) c
  | ⟨5, _⟩ => fun c => dat5 (V12 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the fold of its operations over `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `main_part0_ops0` allocates a buffer. -/
theorem main_part0_ops0_fresh : (main_part0_ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- No operation of `main_part0_ops1` allocates a buffer. -/
theorem main_part0_ops1_fresh : (main_part0_ops1 : List (HloOp τ sig (Elt F))).Forall fun op => op.fresh = ∅ :=
  rfl
/-- No operation of `main_part0_ops2` allocates a buffer. -/
theorem main_part0_ops2_fresh : (main_part0_ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- No operation of `main_part0_ops3` allocates a buffer. -/
theorem main_part0_ops3_fresh : (main_part0_ops3 : List (HloOp τ sig (Elt F))).Forall fun op => op.fresh = ∅ :=
  rfl
/-- No operation of `main_part1_ops0` allocates a buffer. -/
theorem main_part1_ops0_fresh : (main_part1_ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- No operation of `main_part2_ops0` allocates a buffer. -/
theorem main_part2_ops0_fresh : (main_part2_ops0 : List (HloOp τ sig (Elt F))).Forall fun op => op.fresh = ∅ :=
  ⟨rfl, rfl, rfl, rfl, rfl, rfl, rfl, rfl, rfl, rfl, rfl⟩
/-- No operation of `main_part2_ops1` allocates a buffer. -/
theorem main_part2_ops1_fresh : (main_part2_ops1 : List (HloOp τ sig (Elt F))).Forall fun op => op.fresh = ∅ :=
  rfl

/-- An unscoped TensorCore reference is among those a core holds between segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds after the last segment, without its debts: every unscoped buffer at the last boundary's
    contents `W13`, the generator register at some state. -/
abbrev Tₙ (c : Dev nD) : sProp 𝕄 := iprop(StableHlo.held (c : Thread nD τ) (Pipeline.ucRefs τ sig) (W13 m ρ c) ∗ ∃ r, prngReg c r)

end Cert.KernelIdeal.Hand

end
-- ==== Proof.KI.RunReg0.lean ====
import proofs.«171555_j63479616635263_2_alg».proof.Proof.KI.RunDefs

/-!
# Kernel launch 0 as a segment of @main

Entered with every unscoped buffer at the contents `W1`, left with them at `W2`: the launch's arrays are split out
of the unscoped buffers on entry and put back at what the launch leaves on exit; the generator register passes
into the launch's invariant and out again; nothing is owed, and the kernel has no semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 0 over what a core holds between segments. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunReg1.lean ====
import proofs.«171555_j63479616635263_2_alg».proof.Proof.KI.RunDefs

/-!
# Kernel launch 1 as a segment of @main

Entered with every unscoped buffer at the contents `W3`, left with them at `W4`: the launch's arrays are split out
of the unscoped buffers on entry and put back at what the launch leaves on exit; the generator register passes
into the launch's invariant and out again; nothing is owed, and the kernel has no semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 1 over what a core holds between segments. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunReg2.lean ====
import proofs.«171555_j63479616635263_2_alg».proof.Proof.KI.RunDefs

/-!
# Kernel launch 2 as a segment of @main

Entered with every unscoped buffer at the contents `W5`, left with them at `W6`: the launch's arrays are split out
of the unscoped buffers on entry and put back at what the launch leaves on exit; the generator register passes
into the launch's invariant and out again; nothing is owed, and the kernel has no semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 2 over what a core holds between segments. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunReg3.lean ====
import proofs.«171555_j63479616635263_2_alg».proof.Proof.KI.RunDefs

/-!
# Kernel launch 3 as a segment of @main

Entered with every unscoped buffer at the contents `W7`, left with them at `W8`: the launch's arrays are split out
of the unscoped buffers on entry and put back at what the launch leaves on exit; the generator register passes
into the launch's invariant and out again; nothing is owed, and the kernel has no semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 3 over what a core holds between segments. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunReg4.lean ====
import proofs.«171555_j63479616635263_2_alg».proof.Proof.KI.RunDefs

/-!
# Kernel launch 4 as a segment of @main

Entered with every unscoped buffer at the contents `W10`, left with them at `W11`: the launch's arrays are split out
of the unscoped buffers on entry and put back at what the launch leaves on exit; the generator register passes
into the launch's invariant and out again; nothing is owed, and the kernel has no semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 4 over what a core holds between segments. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunReg5.lean ====
import proofs.«171555_j63479616635263_2_alg».proof.Proof.KI.RunDefs

/-!
# Kernel launch 5 as a segment of @main

Entered with every unscoped buffer at the contents `W12`, left with them at `W13`: the launch's arrays are split out
of the unscoped buffers on entry and put back at what the launch leaves on exit; the generator register passes
into the launch's invariant and out again; nothing is owed, and the kernel has no semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 5 over what a core holds between segments. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.lean ====
import proofs.«171555_j63479616635263_2_alg».proof.Proof.KI.RunArgs
import proofs.«171555_j63479616635263_2_alg».proof.Proof.KI.RunReg0
import proofs.«171555_j63479616635263_2_alg».proof.Proof.KI.RunReg1
import proofs.«171555_j63479616635263_2_alg».proof.Proof.KI.RunReg2
import proofs.«171555_j63479616635263_2_alg».proof.Proof.KI.RunReg3
import proofs.«171555_j63479616635263_2_alg».proof.Proof.KI.RunReg4
import proofs.«171555_j63479616635263_2_alg».proof.Proof.KI.RunReg5

/-!
# @main as thirteen segments, and the launch

@main is the run of its segments in order, each host stretch entered at the previous boundary's contents and each
kernel launch at its own. Launched from any memory with every counter at zero, every weakly fair execution
terminates without fault and ends with every unscoped buffer at the last boundary's contents; in particular each
argument array ends as launched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 13 segments in order: a host segment per stretch from its boundary's contents, a launch per kernel call. -/
abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .region (reg1 m ρ),
    .host (hseg main_part0_ops2 main_part0_ops2_sub main_part0_ops2_fresh (W4 m ρ)),
    .region (reg2 m ρ),
    .host (hseg main_part0_ops3 main_part0_ops3_sub main_part0_ops3_fresh (W6 m ρ)),
    .region (reg3 m ρ),
    .host (hseg main_part1_ops0 main_part1_ops0_sub main_part1_ops0_fresh (W8 m ρ)),
    .host (hseg main_part2_ops0 main_part2_ops0_sub main_part2_ops0_fresh (W9 m ρ)),
    .region (reg4 m ρ),
    .host (hseg main_part2_ops1 main_part2_ops1_sub main_part2_ops1_fresh (W11 m ρ)),
    .region (reg5 m ρ) ]
/-- @main is the run of the segments. -/
theorem main_run (c : Dev nD) : main (F := F) c = Pipeline.Seg.run (segs m ρ) := (main_chain_windows c).trans (by chain_rfl)

-- the launch theorem's implicit arguments are found by unifying its conclusion with this one, which takes unfolding
-- plain definitions in a metavariable's type
set_option backward.isDefEq.respectTransparency.types false in
/-- From any memory with zero counters, every weakly fair execution of @main on the TensorCores terminates, nothing
    faulting, and every final state has every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-- The frame of the program: at the compiled mesh, from any memory with zero counters, every weakly fair execution of
    @main on the TensorCores terminates, nothing faulting, and every final state has the 22 argument arrays as
    launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c),
     (h c _ (mem_uc main_arg12 (by decide))).trans (W13_main_arg12 m ρ c),
     (h c _ (mem_uc main_arg13 (by decide))).trans (W13_main_arg13 m ρ c),
     (h c _ (mem_uc main_arg14 (by decide))).trans (W13_main_arg14 m ρ c),
     (h c _ (mem_uc main_arg15 (by decide))).trans (W13_main_arg15 m ρ c),
     (h c _ (mem_uc main_arg16 (by decide))).trans (W13_main_arg16 m ρ c),
     (h c _ (mem_uc main_arg17 (by decide))).trans (W13_main_arg17 m ρ c),
     (h c _ (mem_uc main_arg18 (by decide))).trans (W13_main_arg18 m ρ c),
     (h c _ (mem_uc main_arg19 (by decide))).trans (W13_main_arg19 m ρ c),
     (h c _ (mem_uc main_arg20 (by decide))).trans (W13_main_arg20 m ρ c),
     (h c _ (mem_uc main_arg21 (by decide))).trans (W13_main_arg21 m ρ c)⟩)
    (run_main m ρ)

end Cert.KernelIdeal.Hand

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«171555_j63479616635263_2_alg».proof.Proof.LibPlainMatmul
import proofs.«171555_j63479616635263_2_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.KernelSpec.lean ====
import proofs.«171555_j63479616635263_2_alg».proof.KernelIdeal
import proofs.«171555_j63479616635263_2_alg».proof.Proof.LibMatrixProduct

/-!
# What the kernel program computes, as whole-array functions over the extended reals

A three-layer bipartite graph convolution. Each layer sends every node the sum of its neighbours' rows
(a gather along one column of edge endpoints, then a scatter-add along the other), multiplies the sums by one
weight matrix, adds the node's own row times a second weight matrix and a bias row, and (layers 1 and 2) takes
the positive part. Layer 3 is taken after the width-3 projection of layer 2's rows, so its neighbour sum runs
over rows of width 3; its rows are then scaled to length 10 (with the floor `ε` under the norm) and a 0/10
indicator array read off two input columns is subtracted.

Everything is stated index by index, the matrix products through `Cert.MatrixProduct.mm`.
-/

noncomputable section

open scoped BigOperators

namespace Cert.KernelIdeal.Spec

open Idealize.ShloMosaic Idealize.ShloMosaic.ValueIdx Cert.MatrixProduct Cert.KernelIdeal

-- the printed program's stated side conditions (its shape and dimension records are fields of this class)
variable [Facts₀]
open Facts₀

/-- The contents of a buffer of shape `S` and element type `t` at the exact instance. -/
abbrev C (S : Shape) (t : EltTy) := (⟨S, t⟩ : BufTy).Contents (Elt Ideal)

/-! ## One layer, entry by entry -/

/-- `max(A·Wrel + X·Wroot + b, 0)`: the neighbour sums `A` and the nodes' own rows `X`, each through its
    weight matrix, plus the bias row, positive part. -/
def conv {n k h : ℕ} (A X : (⟨2, ![n, k]⟩ : Shape).Idx → EReal) (Wrel Wroot : (⟨2, ![k, h]⟩ : Shape).Idx → EReal)
    (b : (⟨2, ![1, h]⟩ : Shape).Idx → EReal) : (⟨2, ![n, h]⟩ : Shape).Idx → EReal :=
  fun i => max (mm A Wrel i + mm X Wroot i + b (ix2 0 (i 1))) 0

/-- Layer 3 before scaling: `Ap + X·Wroot + b` (`Ap` the neighbour sums of the already projected rows). -/
def pre3 {n h : ℕ} (Ap : (⟨2, ![n, 3]⟩ : Shape).Idx → EReal) (X : (⟨2, ![n, h]⟩ : Shape).Idx → EReal)
    (Wroot : (⟨2, ![h, 3]⟩ : Shape).Idx → EReal) (b : (⟨2, ![1, 3]⟩ : Shape).Idx → EReal) :
    (⟨2, ![n, 3]⟩ : Shape).Idx → EReal :=
  fun i => Ap i + mm X Wroot i + b (ix2 0 (i 1))

/-- The length-10 scaling of a row of three with the floor `ε` under the norm, minus the indicator entry:
    `v(r,j)·10 / max(√(Σ_l v(r,l)²), ε) − K(r,j)`. -/
def scaled {n : ℕ} (v K : (⟨2, ![n, 3]⟩ : Shape).Idx → EReal) : (⟨2, ![n, 3]⟩ : Shape).Idx → EReal :=
  fun i => Ideal.div (v i * Ideal.ofBits .f32 0x41200000#32)
      (max (Ideal.sqrt (∑ l : Fin 3, v (ix2 (i 0) l) * v (ix2 (i 0) l))) (Ideal.ofBits .f32 0x2B8CBCCC#32)) - K i

/-! ## The host lines around the kernels, as the program spells them -/

/-- One column of edge endpoints as an 800000 × 1 array of row numbers. -/
def col (e : C S800000 .i32) : C S800000x1 .i32 := broadcastInDim S800000x1 ![0] bcast_S800000_S800000x1_0 e

/-- The same column with negative entries moved up by `n` (the gather's index convention). -/
def wrap (n : BitVec 32) (e : C S800000 .i32) : C S800000x1 .i32 :=
  col (select (cmpi .slt e (broadcastInDim S800000 ![] bcast_S_S800000 (constantI S_ 32 0#32)))
    (addi e (broadcastInDim S800000 ![] bcast_S_S800000 (constantI S_ 32 n))) e)

/-- Neighbour sums onto the 100000 right nodes of rows of the 50000 left nodes: gather along `eL`, scatter-add along `eR`. -/
def toR64 (x : C S50000x64 .f32) (eL eR : C S800000 .i32) : C S100000x64 .f32 :=
  Host.scatterAdd (F := Ideal) scatter_S100000x64_S800000x1_S800000x64_1_0_0_1
    (broadcastInDim S100000x64 ![] bcast_S_S100000x64 (constant (F := Ideal) S_ .f32 0x00000000#32)) (col eR)
    (Host.gather gather_S50000x64_S800000x1_S800000x64_1_0_n_n_0_1_164 x (wrap 50000#32 eL))
/-- Neighbour sums onto the left nodes of rows of the right nodes. -/
def toL64 (x : C S100000x64 .f32) (eL eR : C S800000 .i32) : C S50000x64 .f32 :=
  Host.scatterAdd (F := Ideal) scatter_S50000x64_S800000x1_S800000x64_1_0_0_1
    (broadcastInDim S50000x64 ![] bcast_S_S50000x64 (constant (F := Ideal) S_ .f32 0x00000000#32)) (col eL)
    (Host.gather gather_S100000x64_S800000x1_S800000x64_1_0_n_n_0_1_164 x (wrap 100000#32 eR))
def toR128 (x : C S50000x128 .f32) (eL eR : C S800000 .i32) : C S100000x128 .f32 :=
  Host.scatterAdd (F := Ideal) scatter_S100000x128_S800000x1_S800000x128_1_0_0_1
    (broadcastInDim S100000x128 ![] bcast_S_S100000x128 (constant (F := Ideal) S_ .f32 0x00000000#32)) (col eR)
    (Host.gather gather_S50000x128_S800000x1_S800000x128_1_0_n_n_0_1_1128 x (wrap 50000#32 eL))
def toL128 (x : C S100000x128 .f32) (eL eR : C S800000 .i32) : C S50000x128 .f32 :=
  Host.scatterAdd (F := Ideal) scatter_S50000x128_S800000x1_S800000x128_1_0_0_1
    (broadcastInDim S50000x128 ![] bcast_S_S50000x128 (constant (F := Ideal) S_ .f32 0x00000000#32)) (col eL)
    (Host.gather gather_S100000x128_S800000x1_S800000x128_1_0_n_n_0_1_1128 x (wrap 100000#32 eR))
def toR3 (x : C S50000x3 .f32) (eL eR : C S800000 .i32) : C S100000x3 .f32 :=
  Host.scatterAdd (F := Ideal) scatter_S100000x3_S800000x1_S800000x3_1_0_0_1
    (broadcastInDim S100000x3 ![] bcast_S_S100000x3 (constant (F := Ideal) S_ .f32 0x00000000#32)) (col eR)
    (Host.gather gather_S50000x3_S800000x1_S800000x3_1_0_n_n_0_1_13 x (wrap 50000#32 eL))
def toL3 (x : C S100000x3 .f32) (eL eR : C S800000 .i32) : C S50000x3 .f32 :=
  Host.scatterAdd (F := Ideal) scatter_S50000x3_S800000x1_S800000x3_1_0_0_1
    (broadcastInDim S50000x3 ![] bcast_S_S50000x3 (constant (F := Ideal) S_ .f32 0x00000000#32)) (col eL)
    (Host.gather gather_S100000x3_S800000x1_S800000x3_1_0_n_n_0_1_13 x (wrap 100000#32 eR))

/-- A bias vector as a one-row matrix. -/
def row128 (b : C S128 .f32) : C S1x128 .f32 := shapeCast S1x128 b shapeCasts_S128_S1x128
def row3 (b : C S3 .f32) : C S1x3 .f32 := shapeCast S1x3 b shapeCasts_S3_S1x3

/-- The 0/10 indicator array of the left nodes: 10 where column 61 (resp. 63) of `x` is non-zero, in columns 0 and 2; 0 in column 1. -/
def knowL (x : C S50000x64 .f32) : C S50000x3 .f32 :=
  mulf (broadcastInDim S50000x3 ![] bcast_S_S50000x3 (constant (F := Ideal) S_ .f32 0x41200000#32))
    (uitofp (F := Ideal) .f32 (concatenate S50000x3 1
      [⟨S50000x1, broadcastInDim S50000x1 ![0] bcast_S50000_S50000x1_0
          (cmpf (F := Ideal) .une (Host.absf (F := Ideal) (shapeCast S50000 (extractStridedSlice S50000x1 ![0, 61] x slices_S50000x64_S50000x1_0_61) shapeCasts_S50000x1_S50000))
            (broadcastInDim S50000 ![] bcast_S_S50000 (constant (F := Ideal) S_ .f32 0x00000000#32)))⟩,
       ⟨S50000x1, broadcastInDim S50000x1 ![0] bcast_S50000_S50000x1_0 (broadcastInDim S50000 ![] bcast_S_S50000 (constantI S_ 1 0#1))⟩,
       ⟨S50000x1, broadcastInDim S50000x1 ![0] bcast_S50000_S50000x1_0
          (cmpf (F := Ideal) .une (Host.absf (F := Ideal) (shapeCast S50000 (extractStridedSlice S50000x1 ![0, 63] x slices_S50000x64_S50000x1_0_63) shapeCasts_S50000x1_S50000))
            (broadcastInDim S50000 ![] bcast_S_S50000 (constant (F := Ideal) S_ .f32 0x00000000#32)))⟩]
      concatenates_S50000x1_S50000x1_S50000x1_S50000x3_d1))
/-- The same of the right nodes. -/
def knowR (x : C S100000x64 .f32) : C S100000x3 .f32 :=
  mulf (broadcastInDim S100000x3 ![] bcast_S_S100000x3 (constant (F := Ideal) S_ .f32 0x41200000#32))
    (uitofp (F := Ideal) .f32 (concatenate S100000x3 1
      [⟨S100000x1, broadcastInDim S100000x1 ![0] bcast_S100000_S100000x1_0
          (cmpf (F := Ideal) .une (Host.absf (F := Ideal) (shapeCast S100000 (extractStridedSlice S100000x1 ![0, 61] x slices_S100000x64_S100000x1_0_61) shapeCasts_S100000x1_S100000))
            (broadcastInDim S100000 ![] bcast_S_S100000 (constant (F := Ideal) S_ .f32 0x00000000#32)))⟩,
       ⟨S100000x1, broadcastInDim S100000x1 ![0] bcast_S100000_S100000x1_0 (broadcastInDim S100000 ![] bcast_S_S100000 (constantI S_ 1 0#1))⟩,
       ⟨S100000x1, broadcastInDim S100000x1 ![0] bcast_S100000_S100000x1_0
          (cmpf (F := Ideal) .une (Host.absf (F := Ideal) (shapeCast S100000 (extractStridedSlice S100000x1 ![0, 63] x slices_S100000x64_S100000x1_0_63) shapeCasts_S100000x1_S100000))
            (broadcastInDim S100000 ![] bcast_S_S100000 (constant (F := Ideal) S_ .f32 0x00000000#32)))⟩]
      concatenates_S100000x1_S100000x1_S100000x1_S100000x3_d1))

/-! ## The program, layer by layer -/

/-- The program's twenty-two argument arrays (left rows, right rows, the two columns of edge endpoints, and per layer and
    direction the neighbour weight, the bias and the own-row weight). -/
structure Args where
  x_s : C S50000x64 .f32
  x_t : C S100000x64 .f32
  eL : C S800000 .i32
  eR : C S800000 .i32
  w1lr_rel : C S64x128 .f32
  b1lr : C S128 .f32
  w1lr_root : C S64x128 .f32
  w1rl_rel : C S64x128 .f32
  b1rl : C S128 .f32
  w1rl_root : C S64x128 .f32
  w2lr_rel : C S128x128 .f32
  b2lr : C S128 .f32
  w2lr_root : C S128x128 .f32
  w2rl_rel : C S128x128 .f32
  b2rl : C S128 .f32
  w2rl_root : C S128x128 .f32
  w3lr_rel : C S128x3 .f32
  b3lr : C S3 .f32
  w3lr_root : C S128x3 .f32
  w3rl_rel : C S128x3 .f32
  b3rl : C S3 .f32
  w3rl_root : C S128x3 .f32

variable (a : Args)

/-- Every entry of every float argument is a real number (the precondition's content). -/
structure Args.Finite : Prop where
  x_s : ∀ i, ∃ r : ℝ, a.x_s i = (r : EReal)
  x_t : ∀ i, ∃ r : ℝ, a.x_t i = (r : EReal)
  w1lr_rel : ∀ i, ∃ r : ℝ, a.w1lr_rel i = (r : EReal)
  b1lr : ∀ i, ∃ r : ℝ, a.b1lr i = (r : EReal)
  w1lr_root : ∀ i, ∃ r : ℝ, a.w1lr_root i = (r : EReal)
  w1rl_rel : ∀ i, ∃ r : ℝ, a.w1rl_rel i = (r : EReal)
  b1rl : ∀ i, ∃ r : ℝ, a.b1rl i = (r : EReal)
  w1rl_root : ∀ i, ∃ r : ℝ, a.w1rl_root i = (r : EReal)
  w2lr_rel : ∀ i, ∃ r : ℝ, a.w2lr_rel i = (r : EReal)
  b2lr : ∀ i, ∃ r : ℝ, a.b2lr i = (r : EReal)
  w2lr_root : ∀ i, ∃ r : ℝ, a.w2lr_root i = (r : EReal)
  w2rl_rel : ∀ i, ∃ r : ℝ, a.w2rl_rel i = (r : EReal)
  b2rl : ∀ i, ∃ r : ℝ, a.b2rl i = (r : EReal)
  w2rl_root : ∀ i, ∃ r : ℝ, a.w2rl_root i = (r : EReal)
  w3lr_rel : ∀ i, ∃ r : ℝ, a.w3lr_rel i = (r : EReal)
  b3lr : ∀ i, ∃ r : ℝ, a.b3lr i = (r : EReal)
  w3lr_root : ∀ i, ∃ r : ℝ, a.w3lr_root i = (r : EReal)
  w3rl_rel : ∀ i, ∃ r : ℝ, a.w3rl_rel i = (r : EReal)
  b3rl : ∀ i, ∃ r : ℝ, a.b3rl i = (r : EReal)
  w3rl_root : ∀ i, ∃ r : ℝ, a.w3rl_root i = (r : EReal)

/-- Layer 1 on the right nodes, on the left nodes. -/
def r1 : C S100000x128 .f32 := conv (toR64 a.x_s a.eL a.eR) a.x_t a.w1lr_rel a.w1lr_root (row128 a.b1lr)
def l1 : C S50000x128 .f32 := conv (toL64 a.x_t a.eL a.eR) a.x_s a.w1rl_rel a.w1rl_root (row128 a.b1rl)
/-- Layer 2, and its rows projected to width 3 by the OTHER direction's layer-3 neighbour weight. -/
def r2 : C S100000x128 .f32 := conv (toR128 (l1 a) a.eL a.eR) (r1 a) a.w2lr_rel a.w2lr_root (row128 a.b2lr)
def l2 : C S50000x128 .f32 := conv (toL128 (r1 a) a.eL a.eR) (l1 a) a.w2rl_rel a.w2rl_root (row128 a.b2rl)
def pr2 : C S100000x3 .f32 := mm (r2 a) a.w3rl_rel
def pl2 : C S50000x3 .f32 := mm (l2 a) a.w3lr_rel
/-- Layer 3 with the scaling and the indicator: the program's two results. -/
def right : C S100000x3 .f32 := scaled (pre3 (toR3 (pl2 a) a.eL a.eR) (r2 a) a.w3lr_root (row3 a.b3lr)) (knowR a.x_t)
def left : C S50000x3 .f32 := scaled (pre3 (toL3 (pr2 a) a.eL a.eR) (l2 a) a.w3rl_root (row3 a.b3rl)) (knowL a.x_s)

end Cert.KernelIdeal.Spec

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KI.Pay.lean ====
import proofs.«171555_j63479616635263_2_alg».proof.Proof.Gen.KernelIdeal.Skeleton
import proofs.«171555_j63479616635263_2_alg».proof.Proof.KernelSpec
import proofs.«171555_j63479616635263_2_alg».proof.Proof.LibLaneSum
import proofs.«171555_j63479616635263_2_alg».proof.Proof.LibColumnCast
import proofs.«171555_j63479616635263_2_alg».proof.Proof.LibColumnBroadcast
import Idealize.ShloMosaic.Lib.ValueLayout
import Idealize.ShloMosaic.Lib.Pipeline.Value

/-!
# One grid point's arithmetic is the layer function on the blocks

At the exact instance a change of float format is the identity and the matrix unit's product into zeros is the
matrix product, so each kernel body's stored value, as a function of the blocks it loaded, is the layer's
whole-array function (`conv`, its projection, `scaled ∘ pre3`) applied to those blocks.
-/

noncomputable section

open scoped BigOperators

namespace Cert.KernelIdeal.Hand

open Cert.KernelIdeal Cert.KernelIdeal.Gen Cert.KernelIdeal.Spec Cert.MatrixProduct
open Idealize.ShloMosaic Idealize.ShloMosaic.ValueIdx

variable [Facts]
open Facts₀ Facts

/-- Launch 0: `max(A·Wrel + X·Wroot + b, 0)` of the loaded blocks. -/
theorem pay_gc0 (x0 x1 : FVec Ideal S5000x64 .f32) (x2 x4 : FVec Ideal S64x128 .f32) (x3 : FVec Ideal S1x128 .f32) :
    k0_pay1 (F := Ideal) x0 x1 x2 x4 x3 = conv x0 x1 x2 x4 x3 := by
  funext i
  obtain ⟨p, q, rfl⟩ : ∃ (p : Fin 5000) (q : Fin 128), i = ix2 p q := ⟨i 0, i 1, eq_ix2 i⟩
  have e1 : matmul dot_S5000x64_S64x128_S5000x128_1_0_0_1_n_n none (truncf .bf16 x0 Facts₀.bitsLt_bf16_f32 : FVec Ideal S5000x64 .bf16) (truncf .bf16 x2 Facts₀.bitsLt_bf16_f32 : FVec Ideal S64x128 .bf16) (constant (F := Ideal) S5000x128 .f32 0x00000000#32) = mm x0 x2 :=
    matmul_zero_eq_mm Facts₀.dot_S5000x64_S64x128_S5000x128_1_0_0_1_n_n_wf none _ _
  have e2 : matmul dot_S5000x64_S64x128_S5000x128_1_0_0_1_n_n none (truncf .bf16 x1 Facts₀.bitsLt_bf16_f32 : FVec Ideal S5000x64 .bf16) (truncf .bf16 x4 Facts₀.bitsLt_bf16_f32 : FVec Ideal S64x128 .bf16) (constant (F := Ideal) S5000x128 .f32 0x00000000#32) = mm x1 x4 :=
    matmul_zero_eq_mm Facts₀.dot_S5000x64_S64x128_S5000x128_1_0_0_1_n_n_wf none _ _
  unfold k0_pay1 conv
  simp only [shapeCast_self]
  rw [maximumf_apply, addf_apply, addf_apply, e1, e2, broadcast_apply, broadcastTo_1b_ab_apply, Ideal.ofBits_def, Ideal.ofBits_zero_f32]

/-- Launch 1: `max(A·Wrel + X·Wroot + b, 0)` of the loaded blocks. -/
theorem pay_gc1 (x0 x1 : FVec Ideal S5000x64 .f32) (x2 x4 : FVec Ideal S64x128 .f32) (x3 : FVec Ideal S1x128 .f32) :
    k1_pay1 (F := Ideal) x0 x1 x2 x4 x3 = conv x0 x1 x2 x4 x3 := by
  funext i
  obtain ⟨p, q, rfl⟩ : ∃ (p : Fin 5000) (q : Fin 128), i = ix2 p q := ⟨i 0, i 1, eq_ix2 i⟩
  have e1 : matmul dot_S5000x64_S64x128_S5000x128_1_0_0_1_n_n none (truncf .bf16 x0 Facts₀.bitsLt_bf16_f32 : FVec Ideal S5000x64 .bf16) (truncf .bf16 x2 Facts₀.bitsLt_bf16_f32 : FVec Ideal S64x128 .bf16) (constant (F := Ideal) S5000x128 .f32 0x00000000#32) = mm x0 x2 :=
    matmul_zero_eq_mm Facts₀.dot_S5000x64_S64x128_S5000x128_1_0_0_1_n_n_wf none _ _
  have e2 : matmul dot_S5000x64_S64x128_S5000x128_1_0_0_1_n_n none (truncf .bf16 x1 Facts₀.bitsLt_bf16_f32 : FVec Ideal S5000x64 .bf16) (truncf .bf16 x4 Facts₀.bitsLt_bf16_f32 : FVec Ideal S64x128 .bf16) (constant (F := Ideal) S5000x128 .f32 0x00000000#32) = mm x1 x4 :=
    matmul_zero_eq_mm Facts₀.dot_S5000x64_S64x128_S5000x128_1_0_0_1_n_n_wf none _ _
  unfold k1_pay1 conv
  simp only [shapeCast_self]
  rw [maximumf_apply, addf_apply, addf_apply, e1, e2, broadcast_apply, broadcastTo_1b_ab_apply, Ideal.ofBits_def, Ideal.ofBits_zero_f32]

/-- Launch 2: `max(A·Wrel + X·Wroot + b, 0)` of the loaded blocks. -/
theorem pay_proj2_1 (x0 x1 : FVec Ideal S5000x128 .f32) (x2 x4 : FVec Ideal S128x128 .f32) (x3 : FVec Ideal S1x128 .f32) :
    k2_pay1 (F := Ideal) x0 x1 x2 x4 x3 = conv x0 x1 x2 x4 x3 := by
  funext i
  obtain ⟨p, q, rfl⟩ : ∃ (p : Fin 5000) (q : Fin 128), i = ix2 p q := ⟨i 0, i 1, eq_ix2 i⟩
  have e1 : matmul dot_S5000x128_S128x128_S5000x128_1_0_0_1_n_n none (truncf .bf16 x0 Facts₀.bitsLt_bf16_f32 : FVec Ideal S5000x128 .bf16) (truncf .bf16 x2 Facts₀.bitsLt_bf16_f32 : FVec Ideal S128x128 .bf16) (constant (F := Ideal) S5000x128 .f32 0x00000000#32) = mm x0 x2 :=
    matmul_zero_eq_mm Facts₀.dot_S5000x128_S128x128_S5000x128_1_0_0_1_n_n_wf none _ _
  have e2 : matmul dot_S5000x128_S128x128_S5000x128_1_0_0_1_n_n none (truncf .bf16 x1 Facts₀.bitsLt_bf16_f32 : FVec Ideal S5000x128 .bf16) (truncf .bf16 x4 Facts₀.bitsLt_bf16_f32 : FVec Ideal S128x128 .bf16) (constant (F := Ideal) S5000x128 .f32 0x00000000#32) = mm x1 x4 :=
    matmul_zero_eq_mm Facts₀.dot_S5000x128_S128x128_S5000x128_1_0_0_1_n_n_wf none _ _
  unfold k2_pay1 conv
  simp only [shapeCast_self]
  rw [maximumf_apply, addf_apply, addf_apply, e1, e2, broadcast_apply, broadcastTo_1b_ab_apply, Ideal.ofBits_def, Ideal.ofBits_zero_f32]

/-- Launch 2's second result: the first result's block times the projection weight. -/
theorem pay_proj2_2 (x0 x1 : FVec Ideal S5000x128 .f32) (x2 x4 : FVec Ideal S128x128 .f32) (x5 : FVec Ideal S128x3 .f32) (x3 : FVec Ideal S1x128 .f32) :
    k2_pay2 (F := Ideal) x0 x1 x2 x4 x5 x3 = mm (conv x0 x1 x2 x4 x3) x5 := by
  have e : matmul dot_S5000x128_S128x3_S5000x3_1_0_0_1_n_n none (truncf .bf16 (k2_pay1 (F := Ideal) x0 x1 x2 x4 x3) Facts₀.bitsLt_bf16_f32 : FVec Ideal S5000x128 .bf16) (truncf .bf16 x5 Facts₀.bitsLt_bf16_f32 : FVec Ideal S128x3 .bf16) (constant (F := Ideal) S5000x3 .f32 0x00000000#32) = mm (k2_pay1 (F := Ideal) x0 x1 x2 x4 x3) x5 :=
    matmul_zero_eq_mm Facts₀.dot_S5000x128_S128x3_S5000x3_1_0_0_1_n_n_wf none _ _
  unfold k2_pay2
  rw [← pay_proj2_1]
  exact e

/-- Launch 3: `max(A·Wrel + X·Wroot + b, 0)` of the loaded blocks. -/
theorem pay_proj3_1 (x0 x1 : FVec Ideal S5000x128 .f32) (x2 x4 : FVec Ideal S128x128 .f32) (x3 : FVec Ideal S1x128 .f32) :
    k3_pay1 (F := Ideal) x0 x1 x2 x4 x3 = conv x0 x1 x2 x4 x3 := by
  funext i
  obtain ⟨p, q, rfl⟩ : ∃ (p : Fin 5000) (q : Fin 128), i = ix2 p q := ⟨i 0, i 1, eq_ix2 i⟩
  have e1 : matmul dot_S5000x128_S128x128_S5000x128_1_0_0_1_n_n none (truncf .bf16 x0 Facts₀.bitsLt_bf16_f32 : FVec Ideal S5000x128 .bf16) (truncf .bf16 x2 Facts₀.bitsLt_bf16_f32 : FVec Ideal S128x128 .bf16) (constant (F := Ideal) S5000x128 .f32 0x00000000#32) = mm x0 x2 :=
    matmul_zero_eq_mm Facts₀.dot_S5000x128_S128x128_S5000x128_1_0_0_1_n_n_wf none _ _
  have e2 : matmul dot_S5000x128_S128x128_S5000x128_1_0_0_1_n_n none (truncf .bf16 x1 Facts₀.bitsLt_bf16_f32 : FVec Ideal S5000x128 .bf16) (truncf .bf16 x4 Facts₀.bitsLt_bf16_f32 : FVec Ideal S128x128 .bf16) (constant (F := Ideal) S5000x128 .f32 0x00000000#32) = mm x1 x4 :=
    matmul_zero_eq_mm Facts₀.dot_S5000x128_S128x128_S5000x128_1_0_0_1_n_n_wf none _ _
  unfold k3_pay1 conv
  simp only [shapeCast_self]
  rw [maximumf_apply, addf_apply, addf_apply, e1, e2, broadcast_apply, broadcastTo_1b_ab_apply, Ideal.ofBits_def, Ideal.ofBits_zero_f32]

/-- Launch 3's second result: the first result's block times the projection weight. -/
theorem pay_proj3_2 (x0 x1 : FVec Ideal S5000x128 .f32) (x2 x4 : FVec Ideal S128x128 .f32) (x5 : FVec Ideal S128x3 .f32) (x3 : FVec Ideal S1x128 .f32) :
    k3_pay2 (F := Ideal) x0 x1 x2 x4 x5 x3 = mm (conv x0 x1 x2 x4 x3) x5 := by
  have e : matmul dot_S5000x128_S128x3_S5000x3_1_0_0_1_n_n none (truncf .bf16 (k3_pay1 (F := Ideal) x0 x1 x2 x4 x3) Facts₀.bitsLt_bf16_f32 : FVec Ideal S5000x128 .bf16) (truncf .bf16 x5 Facts₀.bitsLt_bf16_f32 : FVec Ideal S128x3 .bf16) (constant (F := Ideal) S5000x3 .f32 0x00000000#32) = mm (k3_pay1 (F := Ideal) x0 x1 x2 x4 x3) x5 :=
    matmul_zero_eq_mm Facts₀.dot_S5000x128_S128x3_S5000x3_1_0_0_1_n_n_wf none _ _
  unfold k3_pay2
  rw [← pay_proj3_1]
  exact e

/-- Launch 4: the sum `Ap + X·Wroot + b` of the loaded blocks, -/
theorem pre_know4 (x0 : FVec Ideal S5000x3 .f32) (x1 : FVec Ideal S5000x128 .f32) (x2 : FVec Ideal S128x3 .f32) (x3 : FVec Ideal S1x3 .f32) :
    addf (addf (shapeCast S5000x3 x0 Facts₀.shapeCasts_S5000x3_S5000x3)
        (matmul dot_S5000x128_S128x3_S5000x3_1_0_0_1_n_n none (truncf .bf16 (shapeCast S5000x128 x1 Facts₀.shapeCasts_S5000x128_S5000x128) Facts₀.bitsLt_bf16_f32 : FVec Ideal S5000x128 .bf16) (truncf .bf16 x2 Facts₀.bitsLt_bf16_f32 : FVec Ideal S128x3 .bf16) (constant (F := Ideal) S5000x3 .f32 0x00000000#32)))
      (broadcastTo S5000x3 (shapeCast S1x3 x3 Facts₀.shapeCasts_S1x3_S1x3) Facts₀.broadcasts_S1x3_S5000x3) = pre3 x0 x1 x2 x3 := by
  funext i
  obtain ⟨p, q, rfl⟩ : ∃ (p : Fin 5000) (q : Fin 3), i = ix2 p q := ⟨i 0, i 1, eq_ix2 i⟩
  have e1 : matmul dot_S5000x128_S128x3_S5000x3_1_0_0_1_n_n none (truncf .bf16 x1 Facts₀.bitsLt_bf16_f32 : FVec Ideal S5000x128 .bf16) (truncf .bf16 x2 Facts₀.bitsLt_bf16_f32 : FVec Ideal S128x3 .bf16) (constant (F := Ideal) S5000x3 .f32 0x00000000#32) = mm x1 x2 :=
    matmul_zero_eq_mm Facts₀.dot_S5000x128_S128x3_S5000x3_1_0_0_1_n_n_wf none _ _
  unfold pre3
  simp only [shapeCast_self]
  rw [addf_apply, addf_apply, e1, broadcastTo_1b_ab_apply]

/-- and its rows scaled to length 10 minus the indicator block. -/
theorem pay_know4 (x0 : FVec Ideal S5000x3 .f32) (x1 : FVec Ideal S5000x128 .f32) (x2 : FVec Ideal S128x3 .f32) (x3 : FVec Ideal S1x3 .f32) (x4 : FVec Ideal S5000x3 .f32) :
    k4_pay1 (F := Ideal) x1 x2 x0 x3 x4 = scaled (pre3 x0 x1 x2 x3) x4 := by
  funext i
  obtain ⟨p, q, rfl⟩ : ∃ (p : Fin 5000) (q : Fin 3), i = ix2 p q := ⟨i 0, i 1, eq_ix2 i⟩
  unfold k4_pay1
  dsimp only
  rw [pre_know4]
  unfold scaled
  simp only [shapeCast_self]
  rw [subf_apply, divf_apply, mulf_apply, broadcast_apply, broadcastTo_a1_ab_apply, maximumf_apply, broadcast_apply]
  rw [Ideal.ofBits_def, Ideal.ofBits_def]
  refine congrArg (fun z => Ideal.div (pre3 x0 x1 x2 x3 (ix2 p q) * Ideal.ofBits .f32 0x41200000#32) (max z (Ideal.ofBits .f32 0x2B8CBCCC#32)) - x4 (ix2 p q)) ?_
  show Ideal.sqrt (shapeCast S5000x1 _ _ (ix2 p (0 : Fin 1))) = _
  refine congrArg Ideal.sqrt ?_
  refine (shapeCast_a_a1_apply _ _ p 0).trans ?_
  refine (multiReduction_add_rows_apply _ _ _ _ _ p).trans ?_
  rfl

/-- Launch 5: the sum `Ap + X·Wroot + b` of the loaded blocks, -/
theorem pre_know5 (x0 : FVec Ideal S5000x3 .f32) (x1 : FVec Ideal S5000x128 .f32) (x2 : FVec Ideal S128x3 .f32) (x3 : FVec Ideal S1x3 .f32) :
    addf (addf (shapeCast S5000x3 x0 Facts₀.shapeCasts_S5000x3_S5000x3)
        (matmul dot_S5000x128_S128x3_S5000x3_1_0_0_1_n_n none (truncf .bf16 (shapeCast S5000x128 x1 Facts₀.shapeCasts_S5000x128_S5000x128) Facts₀.bitsLt_bf16_f32 : FVec Ideal S5000x128 .bf16) (truncf .bf16 x2 Facts₀.bitsLt_bf16_f32 : FVec Ideal S128x3 .bf16) (constant (F := Ideal) S5000x3 .f32 0x00000000#32)))
      (broadcastTo S5000x3 (shapeCast S1x3 x3 Facts₀.shapeCasts_S1x3_S1x3) Facts₀.broadcasts_S1x3_S5000x3) = pre3 x0 x1 x2 x3 := by
  funext i
  obtain ⟨p, q, rfl⟩ : ∃ (p : Fin 5000) (q : Fin 3), i = ix2 p q := ⟨i 0, i 1, eq_ix2 i⟩
  have e1 : matmul dot_S5000x128_S128x3_S5000x3_1_0_0_1_n_n none (truncf .bf16 x1 Facts₀.bitsLt_bf16_f32 : FVec Ideal S5000x128 .bf16) (truncf .bf16 x2 Facts₀.bitsLt_bf16_f32 : FVec Ideal S128x3 .bf16) (constant (F := Ideal) S5000x3 .f32 0x00000000#32) = mm x1 x2 :=
    matmul_zero_eq_mm Facts₀.dot_S5000x128_S128x3_S5000x3_1_0_0_1_n_n_wf none _ _
  unfold pre3
  simp only [shapeCast_self]
  rw [addf_apply, addf_apply, e1, broadcastTo_1b_ab_apply]

/-- and its rows scaled to length 10 minus the indicator block. -/
theorem pay_know5 (x0 : FVec Ideal S5000x3 .f32) (x1 : FVec Ideal S5000x128 .f32) (x2 : FVec Ideal S128x3 .f32) (x3 : FVec Ideal S1x3 .f32) (x4 : FVec Ideal S5000x3 .f32) :
    k5_pay1 (F := Ideal) x1 x2 x0 x3 x4 = scaled (pre3 x0 x1 x2 x3) x4 := by
  funext i
  obtain ⟨p, q, rfl⟩ : ∃ (p : Fin 5000) (q : Fin 3), i = ix2 p q := ⟨i 0, i 1, eq_ix2 i⟩
  unfold k5_pay1
  dsimp only
  rw [pre_know5]
  unfold scaled
  simp only [shapeCast_self]
  rw [subf_apply, divf_apply, mulf_apply, broadcast_apply, broadcastTo_a1_ab_apply, maximumf_apply, broadcast_apply]
  rw [Ideal.ofBits_def, Ideal.ofBits_def]
  refine congrArg (fun z => Ideal.div (pre3 x0 x1 x2 x3 (ix2 p q) * Ideal.ofBits .f32 0x41200000#32) (max z (Ideal.ofBits .f32 0x2B8CBCCC#32)) - x4 (ix2 p q)) ?_
  show Ideal.sqrt (shapeCast S5000x1 _ _ (ix2 p (0 : Fin 1))) = _
  refine congrArg Ideal.sqrt ?_
  refine (shapeCast_a_a1_apply _ _ p 0).trans ?_
  refine (multiReduction_add_rows_apply _ _ _ _ _ p).trans ?_
  rfl

end Cert.KernelIdeal.Hand

end
-- ==== Proof.SpecRows.lean ====
import proofs.«171555_j63479616635263_2_alg».proof.Proof.KernelSpec

/-!
# An entry of a layer depends on one row of the node arrays

Every layer function is row-wise in its node arrays: entry `(r, q)` of `conv`, of its projection and of
`scaled ∘ pre3` reads row `r` of the neighbour sums, of the nodes' own rows and of the indicator only. So the
layer applied to a block of rows is the block of the layer applied to the whole arrays.
-/

noncomputable section

open scoped BigOperators

namespace Cert.KernelIdeal.Spec

open Idealize.ShloMosaic Idealize.ShloMosaic.ValueIdx Cert.MatrixProduct

theorem conv_of_rows {N n k h : ℕ} (A X : (⟨2, ![N, k]⟩ : Shape).Idx → EReal) (a x : (⟨2, ![n, k]⟩ : Shape).Idx → EReal)
    (Wr Wo : (⟨2, ![k, h]⟩ : Shape).Idx → EReal) (b : (⟨2, ![1, h]⟩ : Shape).Idx → EReal) (p : Fin n) (r : Fin N) (q : Fin h)
    (ha : ∀ c : Fin k, a (ix2 p c) = A (ix2 r c)) (hx : ∀ c : Fin k, x (ix2 p c) = X (ix2 r c)) :
    conv a x Wr Wo b (ix2 p q) = conv A X Wr Wo b (ix2 r q) := by
  unfold conv
  rw [mm_apply, mm_apply, mm_apply, mm_apply]
  simp only [ha, hx]
  rfl

theorem proj_of_rows {N n k h : ℕ} (A X : (⟨2, ![N, k]⟩ : Shape).Idx → EReal) (a x : (⟨2, ![n, k]⟩ : Shape).Idx → EReal)
    (Wr Wo : (⟨2, ![k, h]⟩ : Shape).Idx → EReal) (b : (⟨2, ![1, h]⟩ : Shape).Idx → EReal) (Wp : (⟨2, ![h, 3]⟩ : Shape).Idx → EReal)
    (p : Fin n) (r : Fin N) (q : Fin 3)
    (ha : ∀ c : Fin k, a (ix2 p c) = A (ix2 r c)) (hx : ∀ c : Fin k, x (ix2 p c) = X (ix2 r c)) :
    mm (conv a x Wr Wo b) Wp (ix2 p q) = mm (conv A X Wr Wo b) Wp (ix2 r q) := by
  rw [mm_apply, mm_apply]
  exact Finset.sum_congr rfl fun c _ => by rw [conv_of_rows A X a x Wr Wo b p r c ha hx]

theorem pre3_of_rows {N n h : ℕ} (Ap : (⟨2, ![N, 3]⟩ : Shape).Idx → EReal) (X : (⟨2, ![N, h]⟩ : Shape).Idx → EReal)
    (ap : (⟨2, ![n, 3]⟩ : Shape).Idx → EReal) (x : (⟨2, ![n, h]⟩ : Shape).Idx → EReal)
    (Wo : (⟨2, ![h, 3]⟩ : Shape).Idx → EReal) (b : (⟨2, ![1, 3]⟩ : Shape).Idx → EReal) (p : Fin n) (r : Fin N) (q : Fin 3)
    (hap : ap (ix2 p q) = Ap (ix2 r q)) (hx : ∀ c : Fin h, x (ix2 p c) = X (ix2 r c)) :
    pre3 ap x Wo b (ix2 p q) = pre3 Ap X Wo b (ix2 r q) := by
  unfold pre3
  rw [mm_apply, mm_apply, hap]
  simp only [hx]
  rfl

theorem scaled_of_rows {N n h : ℕ} (Ap : (⟨2, ![N, 3]⟩ : Shape).Idx → EReal) (X : (⟨2, ![N, h]⟩ : Shape).Idx → EReal)
    (ap : (⟨2, ![n, 3]⟩ : Shape).Idx → EReal) (x : (⟨2, ![n, h]⟩ : Shape).Idx → EReal)
    (Wo : (⟨2, ![h, 3]⟩ : Shape).Idx → EReal) (b : (⟨2, ![1, 3]⟩ : Shape).Idx → EReal)
    (Kn : (⟨2, ![N, 3]⟩ : Shape).Idx → EReal) (kn : (⟨2, ![n, 3]⟩ : Shape).Idx → EReal) (p : Fin n) (r : Fin N) (q : Fin 3)
    (hap : ∀ l : Fin 3, ap (ix2 p l) = Ap (ix2 r l)) (hx : ∀ c : Fin h, x (ix2 p c) = X (ix2 r c))
    (hk : kn (ix2 p q) = Kn (ix2 r q)) :
    scaled (pre3 ap x Wo b) kn (ix2 p q) = scaled (pre3 Ap X Wo b) Kn (ix2 r q) := by
  have hp : ∀ l : Fin 3, pre3 ap x Wo b (ix2 p l) = pre3 Ap X Wo b (ix2 r l) :=
    fun l => pre3_of_rows Ap X ap x Wo b p r l (hap l) hx
  unfold scaled
  show Ideal.div (pre3 ap x Wo b (ix2 p q) * _) (max (Ideal.sqrt (∑ l : Fin 3, pre3 ap x Wo b (ix2 p l) * pre3 ap x Wo b (ix2 p l))) _) - kn (ix2 p q)
     = Ideal.div (pre3 Ap X Wo b (ix2 r q) * _) (max (Ideal.sqrt (∑ l : Fin 3, pre3 Ap X Wo b (ix2 r l) * pre3 Ap X Wo b (ix2 r l))) _) - Kn (ix2 r q)
  simp only [hp, hk]

end Cert.KernelIdeal.Spec

end
-- ==== Proof.KI.Final0.lean ====
import proofs.«171555_j63479616635263_2_alg».proof.Proof.KI.Region0
import proofs.«171555_j63479616635263_2_alg».proof.Proof.KI.Pay
import proofs.«171555_j63479616635263_2_alg».proof.Proof.SpecRows
import Idealize.ShloMosaic.Lib.Pipeline.Value

/-!
# Launch 0: the result array after the launch

Each grid point's block of the result is the layer function of the operand blocks, the layer function is row-wise,
and the blocks of 5000 rows tile the array: so the array ends at the layer function of the arrays the launch was
entered with.
-/

set_option maxRecDepth 16384

noncomputable section

open scoped BigOperators

namespace Cert.KernelIdeal.Hand

open Cert.KernelIdeal Cert.KernelIdeal.Gen Cert.KernelIdeal.Spec Cert.MatrixProduct
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

theorem idx_onto0 : ∀ (q0 : Fin 20), ∃ t : Fin cfg0.N, win0_5.index t (0 : Fin 2) = q0.val :=
  (by decide +kernel : ∀ (q0 : Fin 20), ∃ t : Fin grid0.N, win0_5.index t (0 : Fin 2) = q0.val)

theorem flushed0 (c : Dev nD) (t : Fin cfg0.N) :
    (dat0 (F := Ideal) V c).flushed 5 t = ((cfg0.win 5).blk t).view.read (Elt Ideal)
      (conv (V c main_v9) (V c main_arg1) (V c main_arg4) (V c main_arg6) (V c main_v20)) := by
  show (cfg0.win 5).cut (grid0.coords t) ((dat0 V c).after 5 t) = _
  rw [after0_5]
  unfold out0_5
  rw [View.canon_unit_zero hz0]
  simp only [View.ld_unit_zero (S := S5000x64) hz0, View.ld_unit_zero (S := S64x128) hz0, View.ld_unit_zero (S := S1x128) hz0]
  rw [pay_gc0]
  obtain ⟨e0, e1, e2, e3, e4, e5, e6, e7, e8, e9, e10, e11⟩ := idx_facts0 t
  have hw2 : iblk0 V c 2 t = V c main_arg4 := by
    funext y; show V c main_arg4 (((cfg0.win 2).blk t).view.emb y) = V c main_arg4 y
    refine congrArg (V c main_arg4) ?_
    funext a; apply Fin.ext
    match a with
    | ⟨0, _⟩ => show win0_2.index t (0 : Fin 2) * 64 + 1 * (y 0).val = (y 0).val; omega
    | ⟨1, _⟩ => show win0_2.index t (1 : Fin 2) * 128 + 1 * (y 1).val = (y 1).val; omega
  have hw4 : iblk0 V c 4 t = V c main_arg6 := by
    funext y; show V c main_arg6 (((cfg0.win 4).blk t).view.emb y) = V c main_arg6 y
    refine congrArg (V c main_arg6) ?_
    funext a; apply Fin.ext
    match a with
    | ⟨0, _⟩ => show win0_4.index t (0 : Fin 2) * 64 + 1 * (y 0).val = (y 0).val; omega
    | ⟨1, _⟩ => show win0_4.index t (1 : Fin 2) * 128 + 1 * (y 1).val = (y 1).val; omega
  have hw3 : iblk0 V c 3 t = V c main_v20 := by
    funext y; show V c main_v20 (((cfg0.win 3).blk t).view.emb y) = V c main_v20 y
    refine congrArg (V c main_v20) ?_
    funext a; apply Fin.ext
    match a with
    | ⟨0, _⟩ => show win0_3.index t (0 : Fin 2) * 1 + 1 * (y 0).val = (y 0).val; omega
    | ⟨1, _⟩ => show win0_3.index t (1 : Fin 2) * 128 + 1 * (y 1).val = (y 1).val; omega
  rw [hw2, hw4, hw3]
  funext j
  obtain ⟨p, q, rfl⟩ : ∃ (p : Fin 5000) (q : Fin 128), j = ix2 p q := ⟨j 0, j 1, eq_ix2 j⟩
  have hr : win0_5.index t (0 : Fin 2) * 5000 + p.val < 100000 := by omega
  have hE : ((cfg0.win 5).blk t).view.emb (ix2 p q) = ix2 (⟨win0_5.index t (0 : Fin 2) * 5000 + p.val, hr⟩ : Fin 100000) q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 128 + 1 * q.val = q.val; omega
  show conv (iblk0 V c 0 t) (iblk0 V c 1 t) (V c main_arg4) (V c main_arg6) (V c main_v20) (ix2 p q)
    = conv (V c main_v9) (V c main_arg1) (V c main_arg4) (V c main_arg6) (V c main_v20) (((cfg0.win 5).blk t).view.emb (ix2 p q))
  rw [hE]
  refine conv_of_rows (V c main_v9) (V c main_arg1) (iblk0 V c 0 t) (iblk0 V c 1 t) _ _ _ p ⟨_, hr⟩ q (fun cc => ?_) (fun cc => ?_)
  · show V c main_v9 (((cfg0.win 0).blk t).view.emb (ix2 p cc)) = V c main_v9 (ix2 ⟨_, hr⟩ cc)
    refine congrArg (V c main_v9) ?_
    funext a; apply Fin.ext
    match a with
    | ⟨0, _⟩ => show win0_0.index t (0 : Fin 2) * 5000 + 1 * p.val = win0_5.index t (0 : Fin 2) * 5000 + p.val; omega
    | ⟨1, _⟩ => show win0_0.index t (1 : Fin 2) * 64 + 1 * cc.val = cc.val; omega
  · show V c main_arg1 (((cfg0.win 1).blk t).view.emb (ix2 p cc)) = V c main_arg1 (ix2 ⟨_, hr⟩ cc)
    refine congrArg (V c main_arg1) ?_
    funext a; apply Fin.ext
    match a with
    | ⟨0, _⟩ => show win0_1.index t (0 : Fin 2) * 5000 + 1 * p.val = win0_5.index t (0 : Fin 2) * 5000 + p.val; omega
    | ⟨1, _⟩ => show win0_1.index t (1 : Fin 2) * 64 + 1 * cc.val = cc.val; omega

/-- An index of the result array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- Every row of the result is in the block of the point numbered by the row's block of 5000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto0 ⟨(i 0).val / 5000, by omega⟩
  have ht' : win0_5.index t (0 : Fin 2) = (i 0).val / 5000 := ht
  obtain ⟨e0, e1, e2, e3, e4, e5, e6, e7, e8, e9, e10, e11⟩ := idx_facts0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- Launch 0 leaves its result array at the layer function of the arrays it was entered with. -/
theorem final0 (c : Dev nD) : (dat0 (F := Ideal) V c).arrAt 5 cfg0.N
    = conv (V c main_v9) (V c main_arg1) (V c main_arg4) (V c main_arg6) (V c main_v20) :=
  (dat0 V c).arrAt_eq_of_cover 5 _ (fun t _ => flushed0 V c t) cover0

end Cert.KernelIdeal.Hand

end
-- ==== Proof.KI.Final1.lean ====
import proofs.«171555_j63479616635263_2_alg».proof.Proof.KI.Region1
import proofs.«171555_j63479616635263_2_alg».proof.Proof.KI.Pay
import proofs.«171555_j63479616635263_2_alg».proof.Proof.SpecRows
import Idealize.ShloMosaic.Lib.Pipeline.Value

/-!
# Launch 1: the result array after the launch

Each grid point's block of the result is the layer function of the operand blocks, the layer function is row-wise,
and the blocks of 5000 rows tile the array: so the array ends at the layer function of the arrays the launch was
entered with.
-/

set_option maxRecDepth 16384

noncomputable section

open scoped BigOperators

namespace Cert.KernelIdeal.Hand

open Cert.KernelIdeal Cert.KernelIdeal.Gen Cert.KernelIdeal.Spec Cert.MatrixProduct
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

theorem idx_onto1 : ∀ (q0 : Fin 10), ∃ t : Fin cfg1.N, win1_5.index t (0 : Fin 2) = q0.val :=
  (by decide +kernel : ∀ (q0 : Fin 10), ∃ t : Fin grid1.N, win1_5.index t (0 : Fin 2) = q0.val)

theorem flushed1 (c : Dev nD) (t : Fin cfg1.N) :
    (dat1 (F := Ideal) V c).flushed 5 t = ((cfg1.win 5).blk t).view.read (Elt Ideal)
      (conv (V c main_v19) (V c main_arg0) (V c main_arg7) (V c main_arg9) (V c main_v22)) := by
  show (cfg1.win 5).cut (grid1.coords t) ((dat1 V c).after 5 t) = _
  rw [after1_5]
  unfold out1_5
  rw [View.canon_unit_zero hz1]
  simp only [View.ld_unit_zero (S := S5000x64) hz1, View.ld_unit_zero (S := S64x128) hz1, View.ld_unit_zero (S := S1x128) hz1]
  rw [pay_gc1]
  obtain ⟨e0, e1, e2, e3, e4, e5, e6, e7, e8, e9, e10, e11⟩ := idx_facts1 t
  have hw2 : iblk1 V c 2 t = V c main_arg7 := by
    funext y; show V c main_arg7 (((cfg1.win 2).blk t).view.emb y) = V c main_arg7 y
    refine congrArg (V c main_arg7) ?_
    funext a; apply Fin.ext
    match a with
    | ⟨0, _⟩ => show win1_2.index t (0 : Fin 2) * 64 + 1 * (y 0).val = (y 0).val; omega
    | ⟨1, _⟩ => show win1_2.index t (1 : Fin 2) * 128 + 1 * (y 1).val = (y 1).val; omega
  have hw4 : iblk1 V c 4 t = V c main_arg9 := by
    funext y; show V c main_arg9 (((cfg1.win 4).blk t).view.emb y) = V c main_arg9 y
    refine congrArg (V c main_arg9) ?_
    funext a; apply Fin.ext
    match a with
    | ⟨0, _⟩ => show win1_4.index t (0 : Fin 2) * 64 + 1 * (y 0).val = (y 0).val; omega
    | ⟨1, _⟩ => show win1_4.index t (1 : Fin 2) * 128 + 1 * (y 1).val = (y 1).val; omega
  have hw3 : iblk1 V c 3 t = V c main_v22 := by
    funext y; show V c main_v22 (((cfg1.win 3).blk t).view.emb y) = V c main_v22 y
    refine congrArg (V c main_v22) ?_
    funext a; apply Fin.ext
    match a with
    | ⟨0, _⟩ => show win1_3.index t (0 : Fin 2) * 1 + 1 * (y 0).val = (y 0).val; omega
    | ⟨1, _⟩ => show win1_3.index t (1 : Fin 2) * 128 + 1 * (y 1).val = (y 1).val; omega
  rw [hw2, hw4, hw3]
  funext j
  obtain ⟨p, q, rfl⟩ : ∃ (p : Fin 5000) (q : Fin 128), j = ix2 p q := ⟨j 0, j 1, eq_ix2 j⟩
  have hr : win1_5.index t (0 : Fin 2) * 5000 + p.val < 50000 := by omega
  have hE : ((cfg1.win 5).blk t).view.emb (ix2 p q) = ix2 (⟨win1_5.index t (0 : Fin 2) * 5000 + p.val, hr⟩ : Fin 50000) q := by
    funext a; apply Fin.ext
    match a with
    | ⟨0, _⟩ => show win1_5.index t (0 : Fin 2) * 5000 + 1 * p.val = win1_5.index t (0 : Fin 2) * 5000 + p.val; omega
    | ⟨1, _⟩ => show win1_5.index t (1 : Fin 2) * 128 + 1 * q.val = q.val; omega
  show conv (iblk1 V c 0 t) (iblk1 V c 1 t) (V c main_arg7) (V c main_arg9) (V c main_v22) (ix2 p q)
    = conv (V c main_v19) (V c main_arg0) (V c main_arg7) (V c main_arg9) (V c main_v22) (((cfg1.win 5).blk t).view.emb (ix2 p q))
  rw [hE]
  refine conv_of_rows (V c main_v19) (V c main_arg0) (iblk1 V c 0 t) (iblk1 V c 1 t) _ _ _ p ⟨_, hr⟩ q (fun cc => ?_) (fun cc => ?_)
  · show V c main_v19 (((cfg1.win 0).blk t).view.emb (ix2 p cc)) = V c main_v19 (ix2 ⟨_, hr⟩ cc)
    refine congrArg (V c main_v19) ?_
    funext a; apply Fin.ext
    match a with
    | ⟨0, _⟩ => show win1_0.index t (0 : Fin 2) * 5000 + 1 * p.val = win1_5.index t (0 : Fin 2) * 5000 + p.val; omega
    | ⟨1, _⟩ => show win1_0.index t (1 : Fin 2) * 64 + 1 * cc.val = cc.val; omega
  · show V c main_arg0 (((cfg1.win 1).blk t).view.emb (ix2 p cc)) = V c main_arg0 (ix2 ⟨_, hr⟩ cc)
    refine congrArg (V c main_arg0) ?_
    funext a; apply Fin.ext
    match a with
    | ⟨0, _⟩ => show win1_1.index t (0 : Fin 2) * 5000 + 1 * p.val = win1_5.index t (0 : Fin 2) * 5000 + p.val; omega
    | ⟨1, _⟩ => show win1_1.index t (1 : Fin 2) * 64 + 1 * cc.val = cc.val; omega

/-- An index of the result array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v23).slice (win1_5.rect t)).set ↔ _
  rw [View.set_slice_whole, Rect.mem_set_unit]
  exact Iff.rfl

/-- Every row of the result is in the block of the point numbered by the row's block of 5000. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto1 ⟨(i 0).val / 5000, by omega⟩
  have ht' : win1_5.index t (0 : Fin 2) = (i 0).val / 5000 := ht
  obtain ⟨e0, e1, e2, e3, e4, e5, e6, e7, e8, e9, e10, e11⟩ := idx_facts1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- Launch 1 leaves its result array at the layer function of the arrays it was entered with. -/
theorem final1 (c : Dev nD) : (dat1 (F := Ideal) V c).arrAt 5 cfg1.N
    = conv (V c main_v19) (V c main_arg0) (V c main_arg7) (V c main_arg9) (V c main_v22) :=
  (dat1 V c).arrAt_eq_of_cover 5 _ (fun t _ => flushed1 V c t) cover1

end Cert.KernelIdeal.Hand

end
-- ==== Proof.KI.Final2.lean ====
import proofs.«171555_j63479616635263_2_alg».proof.Proof.KI.Region2
import proofs.«171555_j63479616635263_2_alg».proof.Proof.KI.Pay
import proofs.«171555_j63479616635263_2_alg».proof.Proof.SpecRows
import Idealize.ShloMosaic.Lib.Pipeline.Value

/-!
# Launch 2: the result arrays after the launch

Each grid point's block of a result is the layer function of the operand blocks, the layer function is row-wise,
and the blocks of 5000 rows tile the array: so each array ends at the layer function of the arrays the launch was
entered with.
-/

set_option maxRecDepth 16384

noncomputable section

open scoped BigOperators

namespace Cert.KernelIdeal.Hand

open Cert.KernelIdeal Cert.KernelIdeal.Gen Cert.KernelIdeal.Spec Cert.MatrixProduct
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

theorem idx_facts2 : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 19 ∧ win2_6.index t (1 : Fin 2) = 0
    ∧ win2_7.index t (0 : Fin 2) = win2_6.index t (0 : Fin 2) ∧ win2_7.index t (1 : Fin 2) = 0 :=
  (by decide +kernel : ∀ t : Fin grid2.N, _)

theorem idx_onto2_6 : ∀ (q0 : Fin 20), ∃ t : Fin cfg2.N, win2_6.index t (0 : Fin 2) = q0.val :=
  (by decide +kernel : ∀ (q0 : Fin 20), ∃ t : Fin grid2.N, win2_6.index t (0 : Fin 2) = q0.val)

theorem idx_onto2_7 : ∀ (q0 : Fin 20), ∃ t : Fin cfg2.N, win2_7.index t (0 : Fin 2) = q0.val :=
  (by decide +kernel : ∀ (q0 : Fin 20), ∃ t : Fin grid2.N, win2_7.index t (0 : Fin 2) = q0.val)

theorem flushed2_6 (c : Dev nD) (t : Fin cfg2.N) :
    (dat2 (F := Ideal) V c).flushed 6 t = ((cfg2.win 6).blk t).view.read (Elt Ideal)
      (conv (V c main_v33) (V c main_v21) (V c main_arg10) (V c main_arg12) (V c main_v44)) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S128x128) hz2, View.ld_unit_zero (S := S1x128) hz2]
  rw [pay_proj2_1]
  obtain ⟨e0, e1, e2, e3, e4, e5, e6, e7, e8, e9, e10, e11, e12, e13, e14, e15⟩ := idx_facts2 t
  have hw2 : iblk2 V c 2 t = V c main_arg10 := by
    funext y; show V c main_arg10 (((cfg2.win 2).blk t).view.emb y) = V c main_arg10 y
    refine congrArg (V c main_arg10) ?_
    funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega
  have hw4 : iblk2 V c 4 t = V c main_arg12 := by
    funext y; show V c main_arg12 (((cfg2.win 4).blk t).view.emb y) = V c main_arg12 y
    refine congrArg (V c main_arg12) ?_
    funext a; apply Fin.ext
    match a with
    | ⟨0, _⟩ => show win2_4.index t (0 : Fin 2) * 128 + 1 * (y 0).val = (y 0).val; omega
    | ⟨1, _⟩ => show win2_4.index t (1 : Fin 2) * 128 + 1 * (y 1).val = (y 1).val; omega
  have hw3 : iblk2 V c 3 t = V c main_v44 := by
    funext y; show V c main_v44 (((cfg2.win 3).blk t).view.emb y) = V c main_v44 y
    refine congrArg (V c main_v44) ?_
    funext a; apply Fin.ext
    match a with
    | ⟨0, _⟩ => show win2_3.index t (0 : Fin 2) * 1 + 1 * (y 0).val = (y 0).val; omega
    | ⟨1, _⟩ => show win2_3.index t (1 : Fin 2) * 128 + 1 * (y 1).val = (y 1).val; omega
  rw [hw2, hw4, hw3]
  funext j
  obtain ⟨p, q, rfl⟩ : ∃ (p : Fin 5000) (q : Fin 128), j = ix2 p q := ⟨j 0, j 1, eq_ix2 j⟩
  have hr : win2_6.index t (0 : Fin 2) * 5000 + p.val < 100000 := by omega
  have hE : ((cfg2.win 6).blk t).view.emb (ix2 p q) = ix2 (⟨win2_6.index t (0 : Fin 2) * 5000 + p.val, hr⟩ : Fin 100000) q := by
    funext a; apply Fin.ext
    match a with
    | ⟨0, _⟩ => show win2_6.index t (0 : Fin 2) * 5000 + 1 * p.val = win2_6.index t (0 : Fin 2) * 5000 + p.val; omega
    | ⟨1, _⟩ => show win2_6.index t (1 : Fin 2) * 128 + 1 * q.val = q.val; omega
  show conv (iblk2 V c 0 t) (iblk2 V c 1 t) (V c main_arg10) (V c main_arg12) (V c main_v44) (ix2 p q)
    = conv (V c main_v33) (V c main_v21) (V c main_arg10) (V c main_arg12) (V c main_v44) (((cfg2.win 6).blk t).view.emb (ix2 p q))
  rw [hE]
  refine conv_of_rows (V c main_v33) (V c main_v21) (iblk2 V c 0 t) (iblk2 V c 1 t) _ _ _ p ⟨_, hr⟩ q (fun cc => ?_) (fun cc => ?_)
  · show V c main_v33 (((cfg2.win 0).blk t).view.emb (ix2 p cc)) = V c main_v33 (ix2 ⟨_, hr⟩ cc)
    refine congrArg (V c main_v33) ?_
    funext a; apply Fin.ext
    match a with
    | ⟨0, _⟩ => show win2_0.index t (0 : Fin 2) * 5000 + 1 * p.val = win2_6.index t (0 : Fin 2) * 5000 + p.val; omega
    | ⟨1, _⟩ => show win2_0.index t (1 : Fin 2) * 128 + 1 * cc.val = cc.val; omega
  · show V c main_v21 (((cfg2.win 1).blk t).view.emb (ix2 p cc)) = V c main_v21 (ix2 ⟨_, hr⟩ cc)
    refine congrArg (V c main_v21) ?_
    funext a; apply Fin.ext
    match a with
    | ⟨0, _⟩ => show win2_1.index t (0 : Fin 2) * 5000 + 1 * p.val = win2_6.index t (0 : Fin 2) * 5000 + p.val; omega
    | ⟨1, _⟩ => show win2_1.index t (1 : Fin 2) * 128 + 1 * cc.val = cc.val; omega

/-- An index of the result array is in point `t`'s block iff each coordinate is in the block's range on its axis. -/
theorem mem_blk2_6 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v45_0).slice (win2_6.rect t)).set ↔ _
  rw [View.set_slice_whole, Rect.mem_set_unit]
  exact Iff.rfl

/-- Every row of the result is in the block of the point numbered by the row's block of 5000. -/
theorem tile2_6 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := idx_onto2_6 ⟨(i 0).val / 5000, by omega⟩
  have ht' : win2_6.index t (0 : Fin 2) = (i 0).val / 5000 := ht
  obtain ⟨e0, e1, e2, e3, e4, e5, e6, e7, e8, e9, e10, e11, e12, e13, e14, e15⟩ := idx_facts2 t
  refine ⟨t, flush2_6 t, ?_⟩
  rw [mem_blk2_6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- Launch 2 leaves this result array at the layer function of the arrays it was entered with. -/
theorem final2_6 (c : Dev nD) : (dat2 (F := Ideal) V c).arrAt 6 cfg2.N
    = conv (V c main_v33) (V c main_v21) (V c main_arg10) (V c main_arg12) (V c main_v44) :=
  (dat2 V c).arrAt_eq_of_cover 6 _ (fun t _ => flushed2_6 V c t) tile2_6

theorem flushed2_7 (c : Dev nD) (t : Fin cfg2.N) :
    (dat2 (F := Ideal) V c).flushed 7 t = ((cfg2.win 7).blk t).view.read (Elt Ideal)
      (mm (conv (V c main_v33) (V c main_v21) (V c main_arg10) (V c main_arg12) (V c main_v44)) (V c main_arg19)) := by
  show (cfg2.win 7).cut (grid2.coords t) ((dat2 V c).after 7 t) = _
  rw [after2_7]
  unfold out2_7
  rw [View.canon_unit_zero hz2]
  simp only [View.ld_unit_zero (S := S5000x128) hz2, View.ld_unit_zero (S := S128x128) hz2, View.ld_unit_zero (S := S128x3) hz2, View.ld_unit_zero (S := S1x128) hz2]
  rw [pay_proj2_2]
  obtain ⟨e0, e1, e2, e3, e4, e5, e6, e7, e8, e9, e10, e11, e12, e13, e14, e15⟩ := idx_facts2 t
  have hw2 : iblk2 V c 2 t = V c main_arg10 := by
    funext y; show V c main_arg10 (((cfg2.win 2).blk t).view.emb y) = V c main_arg10 y
    refine congrArg (V c main_arg10) ?_
    funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega
  have hw4 : iblk2 V c 4 t = V c main_arg12 := by
    funext y; show V c main_arg12 (((cfg2.win 4).blk t).view.emb y) = V c main_arg12 y
    refine congrArg (V c main_arg12) ?_
    funext a; apply Fin.ext
    match a with
    | ⟨0, _⟩ => show win2_4.index t (0 : Fin 2) * 128 + 1 * (y 0).val = (y 0).val; omega
    | ⟨1, _⟩ => show win2_4.index t (1 : Fin 2) * 128 + 1 * (y 1).val = (y 1).val; omega
  have hw3 : iblk2 V c 3 t = V c main_v44 := by
    funext y; show V c main_v44 (((cfg2.win 3).blk t).view.emb y) = V c main_v44 y
    refine congrArg (V c main_v44) ?_
    funext a; apply Fin.ext
    match a with
    | ⟨0, _⟩ => show win2_3.index t (0 : Fin 2) * 1 + 1 * (y 0).val = (y 0).val; omega
    | ⟨1, _⟩ => show win2_3.index t (1 : Fin 2) * 128 + 1 * (y 1).val = (y 1).val; omega
  have hw5 : iblk2 V c 5 t = V c main_arg19 := by
    funext y; show V c main_arg19 (((cfg2.win 5).blk t).view.emb y) = V c main_arg19 y
    refine congrArg (V c main_arg19) ?_
    funext a; apply Fin.ext
    match a with
    | ⟨0, _⟩ => show win2_5.index t (0 : Fin 2) * 128 + 1 * (y 0).val = (y 0).val; omega
    | ⟨1, _⟩ => show win2_5.index t (1 : Fin 2) * 3 + 1 * (y 1).val = (y 1).val; omega
  rw [hw2, hw4, hw3, hw5]
  funext j
  obtain ⟨p, q, rfl⟩ : ∃ (p : Fin 5000) (q : Fin 3), j = ix2 p q := ⟨j 0, j 1, eq_ix2 j⟩
  have hr : win2_7.index t (0 : Fin 2) * 5000 + p.val < 100000 := by omega
  have hE : ((cfg2.win 7).blk t).view.emb (ix2 p q) = ix2 (⟨win2_7.index t (0 : Fin 2) * 5000 + p.val, hr⟩ : Fin 100000) q := by
    funext a; apply Fin.ext
    match a with
    | ⟨0, _⟩ => show win2_7.index t (0 : Fin 2) * 5000 + 1 * p.val = win2_7.index t (0 : Fin 2) * 5000 + p.val; omega
    | ⟨1, _⟩ => show win2_7.index t (1 : Fin 2) * 3 + 1 * q.val = q.val; omega
  show mm (conv (iblk2 V c 0 t) (iblk2 V c 1 t) (V c main_arg10) (V c main_arg12) (V c main_v44)) (V c main_arg19) (ix2 p q)
    = mm (conv (V c main_v33) (V c main_v21) (V c main_arg10) (V c main_arg12) (V c main_v44)) (V c main_arg19) (((cfg2.win 7).blk t).view.emb (ix2 p q))
  rw [hE]
  refine proj_of_rows (V c main_v33) (V c main_v21) (iblk2 V c 0 t) (iblk2 V c 1 t) _ _ _ _ p ⟨_, hr⟩ q (fun cc => ?_) (fun cc => ?_)
  · show V c main_v33 (((cfg2.win 0).blk t).view.emb (ix2 p cc)) = V c main_v33 (ix2 ⟨_, hr⟩ cc)
    refine congrArg (V c main_v33) ?_
    funext a; apply Fin.ext
    match a with
    | ⟨0, _⟩ => show win2_0.index t (0 : Fin 2) * 5000 + 1 * p.val = win2_7.index t (0 : Fin 2) * 5000 + p.val; omega
    | ⟨1, _⟩ => show win2_0.index t (1 : Fin 2) * 128 + 1 * cc.val = cc.val; omega
  · show V c main_v21 (((cfg2.win 1).blk t).view.emb (ix2 p cc)) = V c main_v21 (ix2 ⟨_, hr⟩ cc)
    refine congrArg (V c main_v21) ?_
    funext a; apply Fin.ext
    match a with
    | ⟨0, _⟩ => show win2_1.index t (0 : Fin 2) * 5000 + 1 * p.val = win2_7.index t (0 : Fin 2) * 5000 + p.val; omega
    | ⟨1, _⟩ => show win2_1.index t (1 : Fin 2) * 128 + 1 * cc.val = cc.val; omega

/-- An index of the result array is in point `t`'s block iff each coordinate is in the block's range on its axis. -/
theorem mem_blk2_7 (t : Fin cfg2.N) (i : S100000x3.Idx) :
    i ∈ ((cfg2.win 7).blk t).view.set ↔ ∀ a : Fin 2, win2_7.index t a * S5000x3.size a ≤ (i a).val ∧ (i a).val < win2_7.index t a * S5000x3.size a + S5000x3.size a := by
  show i ∈ ((View.whole main_v45_1).slice (win2_7.rect t)).set ↔ _
  rw [View.set_slice_whole, Rect.mem_set_unit]
  exact Iff.rfl

/-- Every row of the result is in the block of the point numbered by the row's block of 5000. -/
theorem tile2_7 (i : S100000x3.Idx) : ∃ t : Fin cfg2.N, (cfg2.win 7).flush t = true ∧ i ∈ ((cfg2.win 7).blk t).view.set := by
  have hi0 : (i 0).val < 100000 := (i 0).isLt
  have hi1 : (i 1).val < 3 := (i 1).isLt
  obtain ⟨t, ht⟩ := idx_onto2_7 ⟨(i 0).val / 5000, by omega⟩
  have ht' : win2_7.index t (0 : Fin 2) = (i 0).val / 5000 := ht
  obtain ⟨e0, e1, e2, e3, e4, e5, e6, e7, e8, e9, e10, e11, e12, e13, e14, e15⟩ := idx_facts2 t
  refine ⟨t, flush2_7 t, ?_⟩
  rw [mem_blk2_7]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 3 ≤ (i 1).val ∧ (i 1).val < win2_7.index t (1 : Fin 2) * 3 + 3; omega

/-- Launch 2 leaves this result array at the layer function of the arrays it was entered with. -/
theorem final2_7 (c : Dev nD) : (dat2 (F := Ideal) V c).arrAt 7 cfg2.N
    = mm (conv (V c main_v33) (V c main_v21) (V c main_arg10) (V c main_arg12) (V c main_v44)) (V c main_arg19) :=
  (dat2 V c).arrAt_eq_of_cover 7 _ (fun t _ => flushed2_7 V c t) tile2_7

end Cert.KernelIdeal.Hand

end
-- ==== Proof.KI.Final3.lean ====
import proofs.«171555_j63479616635263_2_alg».proof.Proof.KI.Region3
import proofs.«171555_j63479616635263_2_alg».proof.Proof.KI.Pay
import proofs.«171555_j63479616635263_2_alg».proof.Proof.SpecRows
import Idealize.ShloMosaic.Lib.Pipeline.Value

/-!
# Launch 3: the result arrays after the launch

Each grid point's block of a result is the layer function of the operand blocks, the layer function is row-wise,
and the blocks of 5000 rows tile the array: so each array ends at the layer function of the arrays the launch was
entered with.
-/

set_option maxRecDepth 16384

noncomputable section

open scoped BigOperators

namespace Cert.KernelIdeal.Hand

open Cert.KernelIdeal Cert.KernelIdeal.Gen Cert.KernelIdeal.Spec Cert.MatrixProduct
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

theorem idx_facts3 : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) ≤ 9 ∧ win3_6.index t (1 : Fin 2) = 0
    ∧ win3_7.index t (0 : Fin 2) = win3_6.index t (0 : Fin 2) ∧ win3_7.index t (1 : Fin 2) = 0 :=
  (by decide +kernel : ∀ t : Fin grid3.N, _)

theorem idx_onto3_6 : ∀ (q0 : Fin 10), ∃ t : Fin cfg3.N, win3_6.index t (0 : Fin 2) = q0.val :=
  (by decide +kernel : ∀ (q0 : Fin 10), ∃ t : Fin grid3.N, win3_6.index t (0 : Fin 2) = q0.val)

theorem idx_onto3_7 : ∀ (q0 : Fin 10), ∃ t : Fin cfg3.N, win3_7.index t (0 : Fin 2) = q0.val :=
  (by decide +kernel : ∀ (q0 : Fin 10), ∃ t : Fin grid3.N, win3_7.index t (0 : Fin 2) = q0.val)

theorem flushed3_6 (c : Dev nD) (t : Fin cfg3.N) :
    (dat3 (F := Ideal) V c).flushed 6 t = ((cfg3.win 6).blk t).view.read (Elt Ideal)
      (conv (V c main_v43) (V c main_v23) (V c main_arg13) (V c main_arg15) (V c main_v46)) := by
  show (cfg3.win 6).cut (grid3.coords t) ((dat3 V c).after 6 t) = _
  rw [after3_6]
  unfold out3_6
  rw [View.canon_unit_zero hz3]
  simp only [View.ld_unit_zero (S := S5000x128) hz3, View.ld_unit_zero (S := S128x128) hz3, View.ld_unit_zero (S := S1x128) hz3]
  rw [pay_proj3_1]
  obtain ⟨e0, e1, e2, e3, e4, e5, e6, e7, e8, e9, e10, e11, e12, e13, e14, e15⟩ := idx_facts3 t
  have hw2 : iblk3 V c 2 t = V c main_arg13 := by
    funext y; show V c main_arg13 (((cfg3.win 2).blk t).view.emb y) = V c main_arg13 y
    refine congrArg (V c main_arg13) ?_
    funext a; apply Fin.ext
    match a with
    | ⟨0, _⟩ => show win3_2.index t (0 : Fin 2) * 128 + 1 * (y 0).val = (y 0).val; omega
    | ⟨1, _⟩ => show win3_2.index t (1 : Fin 2) * 128 + 1 * (y 1).val = (y 1).val; omega
  have hw4 : iblk3 V c 4 t = V c main_arg15 := by
    funext y; show V c main_arg15 (((cfg3.win 4).blk t).view.emb y) = V c main_arg15 y
    refine congrArg (V c main_arg15) ?_
    funext a; apply Fin.ext
    match a with
    | ⟨0, _⟩ => show win3_4.index t (0 : Fin 2) * 128 + 1 * (y 0).val = (y 0).val; omega
    | ⟨1, _⟩ => show win3_4.index t (1 : Fin 2) * 128 + 1 * (y 1).val = (y 1).val; omega
  have hw3 : iblk3 V c 3 t = V c main_v46 := by
    funext y; show V c main_v46 (((cfg3.win 3).blk t).view.emb y) = V c main_v46 y
    refine congrArg (V c main_v46) ?_
    funext a; apply Fin.ext
    match a with
    | ⟨0, _⟩ => show win3_3.index t (0 : Fin 2) * 1 + 1 * (y 0).val = (y 0).val; omega
    | ⟨1, _⟩ => show win3_3.index t (1 : Fin 2) * 128 + 1 * (y 1).val = (y 1).val; omega
  rw [hw2, hw4, hw3]
  funext j
  obtain ⟨p, q, rfl⟩ : ∃ (p : Fin 5000) (q : Fin 128), j = ix2 p q := ⟨j 0, j 1, eq_ix2 j⟩
  have hr : win3_6.index t (0 : Fin 2) * 5000 + p.val < 50000 := by omega
  have hE : ((cfg3.win 6).blk t).view.emb (ix2 p q) = ix2 (⟨win3_6.index t (0 : Fin 2) * 5000 + p.val, hr⟩ : Fin 50000) q := by
    funext a; apply Fin.ext
    match a with
    | ⟨0, _⟩ => show win3_6.index t (0 : Fin 2) * 5000 + 1 * p.val = win3_6.index t (0 : Fin 2) * 5000 + p.val; omega
    | ⟨1, _⟩ => show win3_6.index t (1 : Fin 2) * 128 + 1 * q.val = q.val; omega
  show conv (iblk3 V c 0 t) (iblk3 V c 1 t) (V c main_arg13) (V c main_arg15) (V c main_v46) (ix2 p q)
    = conv (V c main_v43) (V c main_v23) (V c main_arg13) (V c main_arg15) (V c main_v46) (((cfg3.win 6).blk t).view.emb (ix2 p q))
  rw [hE]
  refine conv_of_rows (V c main_v43) (V c main_v23) (iblk3 V c 0 t) (iblk3 V c 1 t) _ _ _ p ⟨_, hr⟩ q (fun cc => ?_) (fun cc => ?_)
  · show V c main_v43 (((cfg3.win 0).blk t).view.emb (ix2 p cc)) = V c main_v43 (ix2 ⟨_, hr⟩ cc)
    refine congrArg (V c main_v43) ?_
    funext a; apply Fin.ext
    match a with
    | ⟨0, _⟩ => show win3_0.index t (0 : Fin 2) * 5000 + 1 * p.val = win3_6.index t (0 : Fin 2) * 5000 + p.val; omega
    | ⟨1, _⟩ => show win3_0.index t (1 : Fin 2) * 128 + 1 * cc.val = cc.val; omega
  · show V c main_v23 (((cfg3.win 1).blk t).view.emb (ix2 p cc)) = V c main_v23 (ix2 ⟨_, hr⟩ cc)
    refine congrArg (V c main_v23) ?_
    funext a; apply Fin.ext
    match a with
    | ⟨0, _⟩ => show win3_1.index t (0 : Fin 2) * 5000 + 1 * p.val = win3_6.index t (0 : Fin 2) * 5000 + p.val; omega
    | ⟨1, _⟩ => show win3_1.index t (1 : Fin 2) * 128 + 1 * cc.val = cc.val; omega

/-- An index of the result array is in point `t`'s block iff each coordinate is in the block's range on its axis. -/
theorem mem_blk3_6 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v47_0).slice (win3_6.rect t)).set ↔ _
  rw [View.set_slice_whole, Rect.mem_set_unit]
  exact Iff.rfl

/-- Every row of the result is in the block of the point numbered by the row's block of 5000. -/
theorem tile3_6 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, ht⟩ := idx_onto3_6 ⟨(i 0).val / 5000, by omega⟩
  have ht' : win3_6.index t (0 : Fin 2) = (i 0).val / 5000 := ht
  obtain ⟨e0, e1, e2, e3, e4, e5, e6, e7, e8, e9, e10, e11, e12, e13, e14, e15⟩ := idx_facts3 t
  refine ⟨t, flush3_6 t, ?_⟩
  rw [mem_blk3_6]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- Launch 3 leaves this result array at the layer function of the arrays it was entered with. -/
theorem final3_6 (c : Dev nD) : (dat3 (F := Ideal) V c).arrAt 6 cfg3.N
    = conv (V c main_v43) (V c main_v23) (V c main_arg13) (V c main_arg15) (V c main_v46) :=
  (dat3 V c).arrAt_eq_of_cover 6 _ (fun t _ => flushed3_6 V c t) tile3_6

theorem flushed3_7 (c : Dev nD) (t : Fin cfg3.N) :
    (dat3 (F := Ideal) V c).flushed 7 t = ((cfg3.win 7).blk t).view.read (Elt Ideal)
      (mm (conv (V c main_v43) (V c main_v23) (V c main_arg13) (V c main_arg15) (V c main_v46)) (V c main_arg16)) := by
  show (cfg3.win 7).cut (grid3.coords t) ((dat3 V c).after 7 t) = _
  rw [after3_7]
  unfold out3_7
  rw [View.canon_unit_zero hz3]
  simp only [View.ld_unit_zero (S := S5000x128) hz3, View.ld_unit_zero (S := S128x128) hz3, View.ld_unit_zero (S := S128x3) hz3, View.ld_unit_zero (S := S1x128) hz3]
  rw [pay_proj3_2]
  obtain ⟨e0, e1, e2, e3, e4, e5, e6, e7, e8, e9, e10, e11, e12, e13, e14, e15⟩ := idx_facts3 t
  have hw2 : iblk3 V c 2 t = V c main_arg13 := by
    funext y; show V c main_arg13 (((cfg3.win 2).blk t).view.emb y) = V c main_arg13 y
    refine congrArg (V c main_arg13) ?_
    funext a; apply Fin.ext
    match a with
    | ⟨0, _⟩ => show win3_2.index t (0 : Fin 2) * 128 + 1 * (y 0).val = (y 0).val; omega
    | ⟨1, _⟩ => show win3_2.index t (1 : Fin 2) * 128 + 1 * (y 1).val = (y 1).val; omega
  have hw4 : iblk3 V c 4 t = V c main_arg15 := by
    funext y; show V c main_arg15 (((cfg3.win 4).blk t).view.emb y) = V c main_arg15 y
    refine congrArg (V c main_arg15) ?_
    funext a; apply Fin.ext
    match a with
    | ⟨0, _⟩ => show win3_4.index t (0 : Fin 2) * 128 + 1 * (y 0).val = (y 0).val; omega
    | ⟨1, _⟩ => show win3_4.index t (1 : Fin 2) * 128 + 1 * (y 1).val = (y 1).val; omega
  have hw3 : iblk3 V c 3 t = V c main_v46 := by
    funext y; show V c main_v46 (((cfg3.win 3).blk t).view.emb y) = V c main_v46 y
    refine congrArg (V c main_v46) ?_
    funext a; apply Fin.ext
    match a with
    | ⟨0, _⟩ => show win3_3.index t (0 : Fin 2) * 1 + 1 * (y 0).val = (y 0).val; omega
    | ⟨1, _⟩ => show win3_3.index t (1 : Fin 2) * 128 + 1 * (y 1).val = (y 1).val; omega
  have hw5 : iblk3 V c 5 t = V c main_arg16 := by
    funext y; show V c main_arg16 (((cfg3.win 5).blk t).view.emb y) = V c main_arg16 y
    refine congrArg (V c main_arg16) ?_
    funext a; apply Fin.ext
    match a with
    | ⟨0, _⟩ => show win3_5.index t (0 : Fin 2) * 128 + 1 * (y 0).val = (y 0).val; omega
    | ⟨1, _⟩ => show win3_5.index t (1 : Fin 2) * 3 + 1 * (y 1).val = (y 1).val; omega
  rw [hw2, hw4, hw3, hw5]
  funext j
  obtain ⟨p, q, rfl⟩ : ∃ (p : Fin 5000) (q : Fin 3), j = ix2 p q := ⟨j 0, j 1, eq_ix2 j⟩
  have hr : win3_7.index t (0 : Fin 2) * 5000 + p.val < 50000 := by omega
  have hE : ((cfg3.win 7).blk t).view.emb (ix2 p q) = ix2 (⟨win3_7.index t (0 : Fin 2) * 5000 + p.val, hr⟩ : Fin 50000) q := by
    funext a; apply Fin.ext
    match a with
    | ⟨0, _⟩ => show win3_7.index t (0 : Fin 2) * 5000 + 1 * p.val = win3_7.index t (0 : Fin 2) * 5000 + p.val; omega
    | ⟨1, _⟩ => show win3_7.index t (1 : Fin 2) * 3 + 1 * q.val = q.val; omega
  show mm (conv (iblk3 V c 0 t) (iblk3 V c 1 t) (V c main_arg13) (V c main_arg15) (V c main_v46)) (V c main_arg16) (ix2 p q)
    = mm (conv (V c main_v43) (V c main_v23) (V c main_arg13) (V c main_arg15) (V c main_v46)) (V c main_arg16) (((cfg3.win 7).blk t).view.emb (ix2 p q))
  rw [hE]
  refine proj_of_rows (V c main_v43) (V c main_v23) (iblk3 V c 0 t) (iblk3 V c 1 t) _ _ _ _ p ⟨_, hr⟩ q (fun cc => ?_) (fun cc => ?_)
  · show V c main_v43 (((cfg3.win 0).blk t).view.emb (ix2 p cc)) = V c main_v43 (ix2 ⟨_, hr⟩ cc)
    refine congrArg (V c main_v43) ?_
    funext a; apply Fin.ext
    match a with
    | ⟨0, _⟩ => show win3_0.index t (0 : Fin 2) * 5000 + 1 * p.val = win3_7.index t (0 : Fin 2) * 5000 + p.val; omega
    | ⟨1, _⟩ => show win3_0.index t (1 : Fin 2) * 128 + 1 * cc.val = cc.val; omega
  · show V c main_v23 (((cfg3.win 1).blk t).view.emb (ix2 p cc)) = V c main_v23 (ix2 ⟨_, hr⟩ cc)
    refine congrArg (V c main_v23) ?_
    funext a; apply Fin.ext
    match a with
    | ⟨0, _⟩ => show win3_1.index t (0 : Fin 2) * 5000 + 1 * p.val = win3_7.index t (0 : Fin 2) * 5000 + p.val; omega
    | ⟨1, _⟩ => show win3_1.index t (1 : Fin 2) * 128 + 1 * cc.val = cc.val; omega

/-- An index of the result array is in point `t`'s block iff each coordinate is in the block's range on its axis. -/
theorem mem_blk3_7 (t : Fin cfg3.N) (i : S50000x3.Idx) :
    i ∈ ((cfg3.win 7).blk t).view.set ↔ ∀ a : Fin 2, win3_7.index t a * S5000x3.size a ≤ (i a).val ∧ (i a).val < win3_7.index t a * S5000x3.size a + S5000x3.size a := by
  show i ∈ ((View.whole main_v47_1).slice (win3_7.rect t)).set ↔ _
  rw [View.set_slice_whole, Rect.mem_set_unit]
  exact Iff.rfl

/-- Every row of the result is in the block of the point numbered by the row's block of 5000. -/
theorem tile3_7 (i : S50000x3.Idx) : ∃ t : Fin cfg3.N, (cfg3.win 7).flush t = true ∧ i ∈ ((cfg3.win 7).blk t).view.set := by
  have hi0 : (i 0).val < 50000 := (i 0).isLt
  have hi1 : (i 1).val < 3 := (i 1).isLt
  obtain ⟨t, ht⟩ := idx_onto3_7 ⟨(i 0).val / 5000, by omega⟩
  have ht' : win3_7.index t (0 : Fin 2) = (i 0).val / 5000 := ht
  obtain ⟨e0, e1, e2, e3, e4, e5, e6, e7, e8, e9, e10, e11, e12, e13, e14, e15⟩ := idx_facts3 t
  refine ⟨t, flush3_7 t, ?_⟩
  rw [mem_blk3_7]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 3 ≤ (i 1).val ∧ (i 1).val < win3_7.index t (1 : Fin 2) * 3 + 3; omega

/-- Launch 3 leaves this result array at the layer function of the arrays it was entered with. -/
theorem final3_7 (c : Dev nD) : (dat3 (F := Ideal) V c).arrAt 7 cfg3.N
    = mm (conv (V c main_v43) (V c main_v23) (V c main_arg13) (V c main_arg15) (V c main_v46)) (V c main_arg16) :=
  (dat3 V c).arrAt_eq_of_cover 7 _ (fun t _ => flushed3_7 V c t) tile3_7

end Cert.KernelIdeal.Hand

end
-- ==== Proof.KI.Final4.lean ====
import proofs.«171555_j63479616635263_2_alg».proof.Proof.KI.Region4
import proofs.«171555_j63479616635263_2_alg».proof.Proof.KI.Pay
import proofs.«171555_j63479616635263_2_alg».proof.Proof.SpecRows
import Idealize.ShloMosaic.Lib.Pipeline.Value

/-!
# Launch 4: the result array after the launch

Each grid point's block of the result is the layer function of the operand blocks, the layer function is row-wise,
and the blocks of 5000 rows tile the array: so the array ends at the layer function of the arrays the launch was
entered with.
-/

set_option maxRecDepth 16384

noncomputable section

open scoped BigOperators

namespace Cert.KernelIdeal.Hand

open Cert.KernelIdeal Cert.KernelIdeal.Gen Cert.KernelIdeal.Spec Cert.MatrixProduct
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

theorem idx_facts4 : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = win4_5.index t (0 : Fin 2) ∧ win4_4.index t (1 : Fin 2) = 0
    ∧ win4_5.index t (0 : Fin 2) ≤ 19 ∧ win4_5.index t (1 : Fin 2) = 0 :=
  (by decide +kernel : ∀ t : Fin grid4.N, _)

theorem idx_onto4 : ∀ (q0 : Fin 20), ∃ t : Fin cfg4.N, win4_5.index t (0 : Fin 2) = q0.val :=
  (by decide +kernel : ∀ (q0 : Fin 20), ∃ t : Fin grid4.N, win4_5.index t (0 : Fin 2) = q0.val)

theorem flushed4 (c : Dev nD) (t : Fin cfg4.N) :
    (dat4 (F := Ideal) V c).flushed 5 t = ((cfg4.win 5).blk t).view.read (Elt Ideal)
      (scaled (pre3 (V c main_v57) (V c main_v45_0) (V c main_arg18) (V c main_v104)) (V c main_v103)) := by
  show (cfg4.win 5).cut (grid4.coords t) ((dat4 V c).after 5 t) = _
  rw [after4_5]
  unfold out4_5
  rw [View.canon_unit_zero hz4]
  simp only [View.ld_unit_zero (S := S5000x128) hz4, View.ld_unit_zero (S := S128x3) hz4, View.ld_unit_zero (S := S5000x3) hz4, View.ld_unit_zero (S := S1x3) hz4]
  rw [pay_know4]
  obtain ⟨e0, e1, e2, e3, e4, e5, e6, e7, e8, e9, e10, e11⟩ := idx_facts4 t
  have hw2 : iblk4 V c 2 t = V c main_arg18 := by
    funext y; show V c main_arg18 (((cfg4.win 2).blk t).view.emb y) = V c main_arg18 y
    refine congrArg (V c main_arg18) ?_
    funext a; apply Fin.ext
    match a with
    | ⟨0, _⟩ => show win4_2.index t (0 : Fin 2) * 128 + 1 * (y 0).val = (y 0).val; omega
    | ⟨1, _⟩ => show win4_2.index t (1 : Fin 2) * 3 + 1 * (y 1).val = (y 1).val; omega
  have hw3 : iblk4 V c 3 t = V c main_v104 := by
    funext y; show V c main_v104 (((cfg4.win 3).blk t).view.emb y) = V c main_v104 y
    refine congrArg (V c main_v104) ?_
    funext a; apply Fin.ext
    match a with
    | ⟨0, _⟩ => show win4_3.index t (0 : Fin 2) * 1 + 1 * (y 0).val = (y 0).val; omega
    | ⟨1, _⟩ => show win4_3.index t (1 : Fin 2) * 3 + 1 * (y 1).val = (y 1).val; omega
  rw [hw2, hw3]
  funext j
  obtain ⟨p, q, rfl⟩ : ∃ (p : Fin 5000) (q : Fin 3), j = ix2 p q := ⟨j 0, j 1, eq_ix2 j⟩
  have hr : win4_5.index t (0 : Fin 2) * 5000 + p.val < 100000 := by omega
  have hE : ((cfg4.win 5).blk t).view.emb (ix2 p q) = ix2 (⟨win4_5.index t (0 : Fin 2) * 5000 + p.val, hr⟩ : Fin 100000) q := by
    funext a; apply Fin.ext
    match a with
    | ⟨0, _⟩ => show win4_5.index t (0 : Fin 2) * 5000 + 1 * p.val = win4_5.index t (0 : Fin 2) * 5000 + p.val; omega
    | ⟨1, _⟩ => show win4_5.index t (1 : Fin 2) * 3 + 1 * q.val = q.val; omega
  show scaled (pre3 (iblk4 V c 0 t) (iblk4 V c 1 t) (V c main_arg18) (V c main_v104)) (iblk4 V c 4 t) (ix2 p q)
    = scaled (pre3 (V c main_v57) (V c main_v45_0) (V c main_arg18) (V c main_v104)) (V c main_v103) (((cfg4.win 5).blk t).view.emb (ix2 p q))
  rw [hE]
  refine scaled_of_rows (V c main_v57) (V c main_v45_0) (iblk4 V c 0 t) (iblk4 V c 1 t) _ _ (V c main_v103) (iblk4 V c 4 t) p ⟨_, hr⟩ q (fun cc => ?_) (fun cc => ?_) ?_
  · show V c main_v57 (((cfg4.win 0).blk t).view.emb (ix2 p cc)) = V c main_v57 (ix2 ⟨_, hr⟩ cc)
    refine congrArg (V c main_v57) ?_
    funext a; apply Fin.ext
    match a with
    | ⟨0, _⟩ => show win4_0.index t (0 : Fin 2) * 5000 + 1 * p.val = win4_5.index t (0 : Fin 2) * 5000 + p.val; omega
    | ⟨1, _⟩ => show win4_0.index t (1 : Fin 2) * 3 + 1 * cc.val = cc.val; omega
  · show V c main_v45_0 (((cfg4.win 1).blk t).view.emb (ix2 p cc)) = V c main_v45_0 (ix2 ⟨_, hr⟩ cc)
    refine congrArg (V c main_v45_0) ?_
    funext a; apply Fin.ext
    match a with
    | ⟨0, _⟩ => show win4_1.index t (0 : Fin 2) * 5000 + 1 * p.val = win4_5.index t (0 : Fin 2) * 5000 + p.val; omega
    | ⟨1, _⟩ => show win4_1.index t (1 : Fin 2) * 128 + 1 * cc.val = cc.val; omega
  · show V c main_v103 (((cfg4.win 4).blk t).view.emb (ix2 p q)) = V c main_v103 (ix2 ⟨_, hr⟩ q)
    refine congrArg (V c main_v103) ?_
    funext a; apply Fin.ext
    match a with
    | ⟨0, _⟩ => show win4_4.index t (0 : Fin 2) * 5000 + 1 * p.val = win4_5.index t (0 : Fin 2) * 5000 + p.val; omega
    | ⟨1, _⟩ => show win4_4.index t (1 : Fin 2) * 3 + 1 * q.val = q.val; omega

/-- An index of the result array is in point `t`'s block iff each coordinate is in the block's range on its axis. -/
theorem mem_blk4 (t : Fin cfg4.N) (i : S100000x3.Idx) :
    i ∈ ((cfg4.win 5).blk t).view.set ↔ ∀ a : Fin 2, win4_5.index t a * S5000x3.size a ≤ (i a).val ∧ (i a).val < win4_5.index t a * S5000x3.size a + S5000x3.size a := by
  show i ∈ ((View.whole main_v105).slice (win4_5.rect t)).set ↔ _
  rw [View.set_slice_whole, Rect.mem_set_unit]
  exact Iff.rfl

/-- Every row of the result is in the block of the point numbered by the row's block of 5000. -/
theorem cover4 (i : S100000x3.Idx) : ∃ t : Fin cfg4.N, (cfg4.win 5).flush t = true ∧ i ∈ ((cfg4.win 5).blk t).view.set := by
  have hi0 : (i 0).val < 100000 := (i 0).isLt
  have hi1 : (i 1).val < 3 := (i 1).isLt
  obtain ⟨t, ht⟩ := idx_onto4 ⟨(i 0).val / 5000, by omega⟩
  have ht' : win4_5.index t (0 : Fin 2) = (i 0).val / 5000 := ht
  obtain ⟨e0, e1, e2, e3, e4, e5, e6, e7, e8, e9, e10, e11⟩ := idx_facts4 t
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 3 ≤ (i 1).val ∧ (i 1).val < win4_5.index t (1 : Fin 2) * 3 + 3; omega

/-- Launch 4 leaves its result array at the layer function of the arrays it was entered with. -/
theorem final4 (c : Dev nD) : (dat4 (F := Ideal) V c).arrAt 5 cfg4.N
    = scaled (pre3 (V c main_v57) (V c main_v45_0) (V c main_arg18) (V c main_v104)) (V c main_v103) :=
  (dat4 V c).arrAt_eq_of_cover 5 _ (fun t _ => flushed4 V c t) cover4

end Cert.KernelIdeal.Hand

end
-- ==== Proof.KI.Final5.lean ====
import proofs.«171555_j63479616635263_2_alg».proof.Proof.KI.Region5
import proofs.«171555_j63479616635263_2_alg».proof.Proof.KI.Pay
import proofs.«171555_j63479616635263_2_alg».proof.Proof.SpecRows
import Idealize.ShloMosaic.Lib.Pipeline.Value

/-!
# Launch 5: the result array after the launch

Each grid point's block of the result is the layer function of the operand blocks, the layer function is row-wise,
and the blocks of 5000 rows tile the array: so the array ends at the layer function of the arrays the launch was
entered with.
-/

set_option maxRecDepth 16384

noncomputable section

open scoped BigOperators

namespace Cert.KernelIdeal.Hand

open Cert.KernelIdeal Cert.KernelIdeal.Gen Cert.KernelIdeal.Spec Cert.MatrixProduct
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

theorem idx_facts5 : ∀ t : Fin cfg5.N,
    win5_0.index t (0 : Fin 2) = win5_5.index t (0 : Fin 2) ∧ win5_0.index t (1 : Fin 2) = 0
    ∧ win5_1.index t (0 : Fin 2) = win5_5.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = win5_5.index t (0 : Fin 2) ∧ win5_4.index t (1 : Fin 2) = 0
    ∧ win5_5.index t (0 : Fin 2) ≤ 9 ∧ win5_5.index t (1 : Fin 2) = 0 :=
  (by decide +kernel : ∀ t : Fin grid5.N, _)

theorem idx_onto5 : ∀ (q0 : Fin 10), ∃ t : Fin cfg5.N, win5_5.index t (0 : Fin 2) = q0.val :=
  (by decide +kernel : ∀ (q0 : Fin 10), ∃ t : Fin grid5.N, win5_5.index t (0 : Fin 2) = q0.val)

theorem flushed5 (c : Dev nD) (t : Fin cfg5.N) :
    (dat5 (F := Ideal) V c).flushed 5 t = ((cfg5.win 5).blk t).view.read (Elt Ideal)
      (scaled (pre3 (V c main_v67) (V c main_v47_0) (V c main_arg21) (V c main_v106)) (V c main_v96)) := by
  show (cfg5.win 5).cut (grid5.coords t) ((dat5 V c).after 5 t) = _
  rw [after5_5]
  unfold out5_5
  rw [View.canon_unit_zero hz5]
  simp only [View.ld_unit_zero (S := S5000x128) hz5, View.ld_unit_zero (S := S128x3) hz5, View.ld_unit_zero (S := S5000x3) hz5, View.ld_unit_zero (S := S1x3) hz5]
  rw [pay_know5]
  obtain ⟨e0, e1, e2, e3, e4, e5, e6, e7, e8, e9, e10, e11⟩ := idx_facts5 t
  have hw2 : iblk5 V c 2 t = V c main_arg21 := by
    funext y; show V c main_arg21 (((cfg5.win 2).blk t).view.emb y) = V c main_arg21 y
    refine congrArg (V c main_arg21) ?_
    funext a; apply Fin.ext
    match a with
    | ⟨0, _⟩ => show win5_2.index t (0 : Fin 2) * 128 + 1 * (y 0).val = (y 0).val; omega
    | ⟨1, _⟩ => show win5_2.index t (1 : Fin 2) * 3 + 1 * (y 1).val = (y 1).val; omega
  have hw3 : iblk5 V c 3 t = V c main_v106 := by
    funext y; show V c main_v106 (((cfg5.win 3).blk t).view.emb y) = V c main_v106 y
    refine congrArg (V c main_v106) ?_
    funext a; apply Fin.ext
    match a with
    | ⟨0, _⟩ => show win5_3.index t (0 : Fin 2) * 1 + 1 * (y 0).val = (y 0).val; omega
    | ⟨1, _⟩ => show win5_3.index t (1 : Fin 2) * 3 + 1 * (y 1).val = (y 1).val; omega
  rw [hw2, hw3]
  funext j
  obtain ⟨p, q, rfl⟩ : ∃ (p : Fin 5000) (q : Fin 3), j = ix2 p q := ⟨j 0, j 1, eq_ix2 j⟩
  have hr : win5_5.index t (0 : Fin 2) * 5000 + p.val < 50000 := by omega
  have hE : ((cfg5.win 5).blk t).view.emb (ix2 p q) = ix2 (⟨win5_5.index t (0 : Fin 2) * 5000 + p.val, hr⟩ : Fin 50000) q := by
    funext a; apply Fin.ext
    match a with
    | ⟨0, _⟩ => show win5_5.index t (0 : Fin 2) * 5000 + 1 * p.val = win5_5.index t (0 : Fin 2) * 5000 + p.val; omega
    | ⟨1, _⟩ => show win5_5.index t (1 : Fin 2) * 3 + 1 * q.val = q.val; omega
  show scaled (pre3 (iblk5 V c 0 t) (iblk5 V c 1 t) (V c main_arg21) (V c main_v106)) (iblk5 V c 4 t) (ix2 p q)
    = scaled (pre3 (V c main_v67) (V c main_v47_0) (V c main_arg21) (V c main_v106)) (V c main_v96) (((cfg5.win 5).blk t).view.emb (ix2 p q))
  rw [hE]
  refine scaled_of_rows (V c main_v67) (V c main_v47_0) (iblk5 V c 0 t) (iblk5 V c 1 t) _ _ (V c main_v96) (iblk5 V c 4 t) p ⟨_, hr⟩ q (fun cc => ?_) (fun cc => ?_) ?_
  · show V c main_v67 (((cfg5.win 0).blk t).view.emb (ix2 p cc)) = V c main_v67 (ix2 ⟨_, hr⟩ cc)
    refine congrArg (V c main_v67) ?_
    funext a; apply Fin.ext
    match a with
    | ⟨0, _⟩ => show win5_0.index t (0 : Fin 2) * 5000 + 1 * p.val = win5_5.index t (0 : Fin 2) * 5000 + p.val; omega
    | ⟨1, _⟩ => show win5_0.index t (1 : Fin 2) * 3 + 1 * cc.val = cc.val; omega
  · show V c main_v47_0 (((cfg5.win 1).blk t).view.emb (ix2 p cc)) = V c main_v47_0 (ix2 ⟨_, hr⟩ cc)
    refine congrArg (V c main_v47_0) ?_
    funext a; apply Fin.ext
    match a with
    | ⟨0, _⟩ => show win5_1.index t (0 : Fin 2) * 5000 + 1 * p.val = win5_5.index t (0 : Fin 2) * 5000 + p.val; omega
    | ⟨1, _⟩ => show win5_1.index t (1 : Fin 2) * 128 + 1 * cc.val = cc.val; omega
  · show V c main_v96 (((cfg5.win 4).blk t).view.emb (ix2 p q)) = V c main_v96 (ix2 ⟨_, hr⟩ q)
    refine congrArg (V c main_v96) ?_
    funext a; apply Fin.ext
    match a with
    | ⟨0, _⟩ => show win5_4.index t (0 : Fin 2) * 5000 + 1 * p.val = win5_5.index t (0 : Fin 2) * 5000 + p.val; omega
    | ⟨1, _⟩ => show win5_4.index t (1 : Fin 2) * 3 + 1 * q.val = q.val; omega

/-- An index of the result array is in point `t`'s block iff each coordinate is in the block's range on its axis. -/
theorem mem_blk5 (t : Fin cfg5.N) (i : S50000x3.Idx) :
    i ∈ ((cfg5.win 5).blk t).view.set ↔ ∀ a : Fin 2, win5_5.index t a * S5000x3.size a ≤ (i a).val ∧ (i a).val < win5_5.index t a * S5000x3.size a + S5000x3.size a := by
  show i ∈ ((View.whole main_v107).slice (win5_5.rect t)).set ↔ _
  rw [View.set_slice_whole, Rect.mem_set_unit]
  exact Iff.rfl

/-- Every row of the result is in the block of the point numbered by the row's block of 5000. -/
theorem cover5 (i : S50000x3.Idx) : ∃ t : Fin cfg5.N, (cfg5.win 5).flush t = true ∧ i ∈ ((cfg5.win 5).blk t).view.set := by
  have hi0 : (i 0).val < 50000 := (i 0).isLt
  have hi1 : (i 1).val < 3 := (i 1).isLt
  obtain ⟨t, ht⟩ := idx_onto5 ⟨(i 0).val / 5000, by omega⟩
  have ht' : win5_5.index t (0 : Fin 2) = (i 0).val / 5000 := ht
  obtain ⟨e0, e1, e2, e3, e4, e5, e6, e7, e8, e9, e10, e11⟩ := idx_facts5 t
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 3 ≤ (i 1).val ∧ (i 1).val < win5_5.index t (1 : Fin 2) * 3 + 3; omega

/-- Launch 5 leaves its result array at the layer function of the arrays it was entered with. -/
theorem final5 (c : Dev nD) : (dat5 (F := Ideal) V c).arrAt 5 cfg5.N
    = scaled (pre3 (V c main_v67) (V c main_v47_0) (V c main_arg21) (V c main_v106)) (V c main_v96) :=
  (dat5 V c).arrAt_eq_of_cover 5 _ (fun t _ => flushed5 V c t) cover5

end Cert.KernelIdeal.Hand

end
-- ==== Proof.LibNaryThree.lean ====
/-
  A host line with three operands (a concatenation of three arrays), read after it has run.

  The line's result buffer holds the line's function of the three operands' contents, each read at its own buffer:
  the family of operands indexed by 0, 1, 2 is spelt out as three literal buffers, so that what each of them holds
  after the lines before can go on being rewritten, one buffer at a time.
-/
import Idealize.ShloMosaic.Lib.StableHlo.Run

namespace Idealize.ShloMosaic.StableHlo

variable {τ : Topo} {sig : RefSig} {Val : EltTy → Type} {x a b y : Ref sig .tc}

/-- `nary ![x, a, b] y f` leaves `y` at `f` of the contents of `x`, `a`, `b`, in that order. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.LibNaryThreeSimp.lean ====
/-
  A host line with three operands, read after it has run, in the form a simplifier pass can use.

  The companion statement of `nary3_result`: the same equation with the result buffer's reference kept out of the
  simplifier's index, so that one pass over a long list of host lines rewrites a three-operand line (a concatenation
  of three arrays) like the one- and two-operand lines, and goes on into the three operands.
-/
import Idealize.ShloMosaic.Lib.StableHlo.Run
import proofs.«171555_j63479616635263_2_alg».proof.Proof.LibNaryThree

namespace Idealize.ShloMosaic.StableHlo

variable {τ : Topo} {sig : RefSig} {Val : EltTy → Type} {x a b y : Ref sig .tc}

/-- `nary ![x, a, b] y f` leaves `y` at `f` of the contents of `x`, `a`, `b`, in that order. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- One simplifier pass over a list of host lines that may hold three-operand lines. -/
macro "after_results_simp3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

end Idealize.ShloMosaic.StableHlo
-- ==== Proof.LibHostLines.lean ====
/-
  Reading the operands of a host line that takes three operands.

  Such a line's value is a function of the family of its three operands, listed one after the other. The k-th member of
  a family listed that way is the k-th listed item; with these three equations a simplifier pass that has reached such a
  line goes on into each operand, reading what the lines before left in it. A concatenation's side condition mentions its list of pieces, which keeps a
  simplifier out of the list: the pieces are then compared one by one (`concat3_congr`).
-/
import proofs.«171555_j63479616635263_2_alg».proof.Proof.LibNaryThreeSimp

namespace Idealize.ShloMosaic.StableHlo

universe u

/-- The second of three listed items. -/
theorem cons3_one {α : Fin 3 → Sort u} (x : α 0) (p : ∀ i : Fin 2, α i.succ) : (Fin.cons x p : ∀ i, α i) 1 = p 0 := rfl
/-- The third of three listed items. -/
theorem cons3_two {α : Fin 3 → Sort u} (x : α 0) (p : ∀ i : Fin 2, α i.succ) : (Fin.cons x p : ∀ i, α i) 2 = p 1 := rfl
/-- The second of two listed items. -/
theorem cons2_one {α : Fin 2 → Sort u} (x : α 0) (p : ∀ i : Fin 1, α i.succ) : (Fin.cons x p : ∀ i, α i) 1 = p 0 := rfl

/-- A concatenation of three pieces whose pieces are equal one by one. -/
theorem concat3_congr {α : Type} {t : Shape} (a : Fin t.rank) {s0 s1 s2 : Shape} (x0 x0' : s0.Idx → α) (x1 x1' : s1.Idx → α)
    (x2 x2' : s2.Idx → α) (h : Shape.Concatenates [s0, s1, s2] t a) (e0 : x0 = x0') (e1 : x1 = x1') (e2 : x2 = x2') :
    concatenate t a [⟨s0, x0⟩, ⟨s1, x1⟩, ⟨s2, x2⟩] h = concatenate t a [⟨s0, x0'⟩, ⟨s1, x1'⟩, ⟨s2, x2'⟩] h := by
  subst e0 e1 e2; rfl

/-- One simplifier pass over a list of host lines that may hold three-operand lines, reading each operand of such a line. -/
macro "after_results_operands3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', Fin.cons_zero, cons3_one, cons3_two, cons2_one]))

end Idealize.ShloMosaic.StableHlo
-- ==== Proof.KI.Chain.lean ====
import proofs.«171555_j63479616635263_2_alg».proof.Proof.KI.RunArgs
import proofs.«171555_j63479616635263_2_alg».proof.Proof.KI.Final0
import proofs.«171555_j63479616635263_2_alg».proof.Proof.KI.Final1
import proofs.«171555_j63479616635263_2_alg».proof.Proof.KI.Final2
import proofs.«171555_j63479616635263_2_alg».proof.Proof.KI.Final3
import proofs.«171555_j63479616635263_2_alg».proof.Proof.KI.Final4
import proofs.«171555_j63479616635263_2_alg».proof.Proof.KI.Final5
import proofs.«171555_j63479616635263_2_alg».proof.Proof.KernelSpec
import proofs.«171555_j63479616635263_2_alg».proof.Proof.LibHostLines
import Idealize.ShloMosaic.Lib.StableHlo.Run

/-!
# The kernel program's results, boundary by boundary

Walking @main's thirteen segments from the launch memory: each host stretch's result buffers are the
specification's host pieces of what the stretch read, each kernel launch's result arrays the layer functions of the
arrays it was entered with, and every other buffer is carried along unchanged. The walk ends with the two result
buffers at `Spec.left` and `Spec.right` of the argument arrays.
-/

set_option maxRecDepth 16384

noncomputable section

open scoped BigOperators

namespace Cert.KernelIdeal.Hand

open Cert.KernelIdeal Cert.KernelIdeal.Gen Cert.KernelIdeal.Spec Cert.MatrixProduct
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The program's argument arrays on core `c`, as the specification's record. -/
def argsOf (c : Dev nD) : Spec.Args where
  x_s := m ((c : Thread nD τ).loc main_arg0)
  x_t := m ((c : Thread nD τ).loc main_arg1)
  eL := m ((c : Thread nD τ).loc main_arg2)
  eR := m ((c : Thread nD τ).loc main_arg3)
  w1lr_rel := m ((c : Thread nD τ).loc main_arg4)
  b1lr := m ((c : Thread nD τ).loc main_arg5)
  w1lr_root := m ((c : Thread nD τ).loc main_arg6)
  w1rl_rel := m ((c : Thread nD τ).loc main_arg7)
  b1rl := m ((c : Thread nD τ).loc main_arg8)
  w1rl_root := m ((c : Thread nD τ).loc main_arg9)
  w2lr_rel := m ((c : Thread nD τ).loc main_arg10)
  b2lr := m ((c : Thread nD τ).loc main_arg11)
  w2lr_root := m ((c : Thread nD τ).loc main_arg12)
  w2rl_rel := m ((c : Thread nD τ).loc main_arg13)
  b2rl := m ((c : Thread nD τ).loc main_arg14)
  w2rl_root := m ((c : Thread nD τ).loc main_arg15)
  w3lr_rel := m ((c : Thread nD τ).loc main_arg16)
  b3lr := m ((c : Thread nD τ).loc main_arg17)
  w3lr_root := m ((c : Thread nD τ).loc main_arg18)
  w3rl_rel := m ((c : Thread nD τ).loc main_arg19)
  b3rl := m ((c : Thread nD τ).loc main_arg20)
  w3rl_root := m ((c : Thread nD τ).loc main_arg21)

/-! ## A buffer a segment does not write is kept across it -/

theorem keep1 (c : Dev nD) (b : Ref sig .tc) (h : b ∉ wr_main_part0_ops0) :
    W1 m ρ c (Proc.devRef .tc b) = W0 m ρ c (Proc.devRef .tc b) :=
  StableHlo.after_of_writes_sub (r := b) main_part0_ops0 (W0 m ρ c) main_part0_ops0_writes h
theorem keep3 (c : Dev nD) (b : Ref sig .tc) (h : b ∉ wr_main_part0_ops1) :
    W3 m ρ c (Proc.devRef .tc b) = W2 m ρ c (Proc.devRef .tc b) :=
  StableHlo.after_of_writes_sub (r := b) main_part0_ops1 (W2 m ρ c) main_part0_ops1_writes h
theorem keep5 (c : Dev nD) (b : Ref sig .tc) (h : b ∉ wr_main_part0_ops2) :
    W5 m ρ c (Proc.devRef .tc b) = W4 m ρ c (Proc.devRef .tc b) :=
  StableHlo.after_of_writes_sub (r := b) main_part0_ops2 (W4 m ρ c) main_part0_ops2_writes h
theorem keep7 (c : Dev nD) (b : Ref sig .tc) (h : b ∉ wr_main_part0_ops3) :
    W7 m ρ c (Proc.devRef .tc b) = W6 m ρ c (Proc.devRef .tc b) :=
  StableHlo.after_of_writes_sub (r := b) main_part0_ops3 (W6 m ρ c) main_part0_ops3_writes h
theorem keep9 (c : Dev nD) (b : Ref sig .tc) (h : b ∉ wr_main_part1_ops0) :
    W9 m ρ c (Proc.devRef .tc b) = W8 m ρ c (Proc.devRef .tc b) :=
  StableHlo.after_of_writes_sub (r := b) main_part1_ops0 (W8 m ρ c) main_part1_ops0_writes h
theorem keep10 (c : Dev nD) (b : Ref sig .tc) (h : b ∉ wr_main_part2_ops0) :
    W10 m ρ c (Proc.devRef .tc b) = W9 m ρ c (Proc.devRef .tc b) :=
  StableHlo.after_of_writes_sub (r := b) main_part2_ops0 (W9 m ρ c) main_part2_ops0_writes h
theorem keep12 (c : Dev nD) (b : Ref sig .tc) (h : b ∉ wr_main_part2_ops1) :
    W12 m ρ c (Proc.devRef .tc b) = W11 m ρ c (Proc.devRef .tc b) :=
  StableHlo.after_of_writes_sub (r := b) main_part2_ops1 (W11 m ρ c) main_part2_ops1_writes h

/-- Launch 0 changes only its result arrays. -/
theorem keep2 (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      cases hq : (cfg0.win w).isOut
      · rfl
      · exact absurd rfl (hb w hq)
    exact (W2_arr m ρ c w).trans (((dat0 (V1 m ρ) c).arrAt_in w hw _).trans (A_eq0 (V1 m ρ) c w))
  · exact W2_of_ne m ρ c b (fun w e => h ⟨w, e⟩)
/-- Launch 1 changes only its result arrays. -/
theorem keep4 (c : Dev nD) (b : Ref sig .tc) (hb : ∀ w, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hw : (cfg1.win w).isOut = false := by
      cases hq : (cfg1.win w).isOut
      · rfl
      · exact absurd rfl (hb w hq)
    exact (W4_arr m ρ c w).trans (((dat1 (V3 m ρ) c).arrAt_in w hw _).trans (A_eq1 (V3 m ρ) c w))
  · exact W4_of_ne m ρ c b (fun w e => h ⟨w, e⟩)
/-- Launch 2 changes only its result arrays. -/
theorem keep6 (c : Dev nD) (b : Ref sig .tc) (hb : ∀ w, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hw : (cfg2.win w).isOut = false := by
      cases hq : (cfg2.win w).isOut
      · rfl
      · exact absurd rfl (hb w hq)
    exact (W6_arr m ρ c w).trans (((dat2 (V5 m ρ) c).arrAt_in w hw _).trans (A_eq2 (V5 m ρ) c w))
  · exact W6_of_ne m ρ c b (fun w e => h ⟨w, e⟩)
/-- Launch 3 changes only its result arrays. -/
theorem keep8 (c : Dev nD) (b : Ref sig .tc) (hb : ∀ w, (cfg3.win w).isOut = true → Pipeline.arrRef spec3 w ≠ b) :
    W8 m ρ c (Proc.devRef .tc b) = W7 m ρ c (Proc.devRef .tc b) := by
  by_cases h : ∃ w, Pipeline.arrRef spec3 w = b
  · obtain ⟨w, rfl⟩ := h
    have hw : (cfg3.win w).isOut = false := by
      cases hq : (cfg3.win w).isOut
      · rfl
      · exact absurd rfl (hb w hq)
    exact (W8_arr m ρ c w).trans (((dat3 (V7 m ρ) c).arrAt_in w hw _).trans (A_eq3 (V7 m ρ) c w))
  · exact W8_of_ne m ρ c b (fun w e => h ⟨w, e⟩)
/-- Launch 4 changes only its result arrays. -/
theorem keep11 (c : Dev nD) (b : Ref sig .tc) (hb : ∀ w, (cfg4.win w).isOut = true → Pipeline.arrRef spec4 w ≠ b) :
    W11 m ρ c (Proc.devRef .tc b) = W10 m ρ c (Proc.devRef .tc b) := by
  by_cases h : ∃ w, Pipeline.arrRef spec4 w = b
  · obtain ⟨w, rfl⟩ := h
    have hw : (cfg4.win w).isOut = false := by
      cases hq : (cfg4.win w).isOut
      · rfl
      · exact absurd rfl (hb w hq)
    exact (W11_arr m ρ c w).trans (((dat4 (V10 m ρ) c).arrAt_in w hw _).trans (A_eq4 (V10 m ρ) c w))
  · exact W11_of_ne m ρ c b (fun w e => h ⟨w, e⟩)
/-- Launch 5 changes only its result arrays. -/
theorem keep13 (c : Dev nD) (b : Ref sig .tc) (hb : ∀ w, (cfg5.win w).isOut = true → Pipeline.arrRef spec5 w ≠ b) :
    W13 m ρ c (Proc.devRef .tc b) = W12 m ρ c (Proc.devRef .tc b) := by
  by_cases h : ∃ w, Pipeline.arrRef spec5 w = b
  · obtain ⟨w, rfl⟩ := h
    have hw : (cfg5.win w).isOut = false := by
      cases hq : (cfg5.win w).isOut
      · rfl
      · exact absurd rfl (hb w hq)
    exact (W13_arr m ρ c w).trans (((dat5 (V12 m ρ) c).arrAt_in w hw _).trans (A_eq5 (V12 m ρ) c w))
  · exact W13_of_ne m ρ c b (fun w e => h ⟨w, e⟩)

/-! ## Every argument array, at every boundary, is as launched -/

theorem arg0_0 (c : Dev nD) : W0 m ρ c (Proc.devRef .tc main_arg0) = m ((c : Thread nD τ).loc main_arg0) := rfl
theorem arg1_0 (c : Dev nD) : W1 m ρ c (Proc.devRef .tc main_arg0) = m ((c : Thread nD τ).loc main_arg0) := (keep1 m ρ c main_arg0 (by decide)).trans (arg0_0 m ρ c)
theorem arg2_0 (c : Dev nD) : W2 m ρ c (Proc.devRef .tc main_arg0) = m ((c : Thread nD τ).loc main_arg0) := (keep2 m ρ c main_arg0 (by decide)).trans (arg1_0 m ρ c)
theorem arg3_0 (c : Dev nD) : W3 m ρ c (Proc.devRef .tc main_arg0) = m ((c : Thread nD τ).loc main_arg0) := (keep3 m ρ c main_arg0 (by decide)).trans (arg2_0 m ρ c)
theorem arg4_0 (c : Dev nD) : W4 m ρ c (Proc.devRef .tc main_arg0) = m ((c : Thread nD τ).loc main_arg0) := (keep4 m ρ c main_arg0 (by decide)).trans (arg3_0 m ρ c)
theorem arg5_0 (c : Dev nD) : W5 m ρ c (Proc.devRef .tc main_arg0) = m ((c : Thread nD τ).loc main_arg0) := (keep5 m ρ c main_arg0 (by decide)).trans (arg4_0 m ρ c)
theorem arg6_0 (c : Dev nD) : W6 m ρ c (Proc.devRef .tc main_arg0) = m ((c : Thread nD τ).loc main_arg0) := (keep6 m ρ c main_arg0 (by decide)).trans (arg5_0 m ρ c)
theorem arg7_0 (c : Dev nD) : W7 m ρ c (Proc.devRef .tc main_arg0) = m ((c : Thread nD τ).loc main_arg0) := (keep7 m ρ c main_arg0 (by decide)).trans (arg6_0 m ρ c)
theorem arg8_0 (c : Dev nD) : W8 m ρ c (Proc.devRef .tc main_arg0) = m ((c : Thread nD τ).loc main_arg0) := (keep8 m ρ c main_arg0 (by decide)).trans (arg7_0 m ρ c)
theorem arg9_0 (c : Dev nD) : W9 m ρ c (Proc.devRef .tc main_arg0) = m ((c : Thread nD τ).loc main_arg0) := (keep9 m ρ c main_arg0 (by decide)).trans (arg8_0 m ρ c)
theorem arg10_0 (c : Dev nD) : W10 m ρ c (Proc.devRef .tc main_arg0) = m ((c : Thread nD τ).loc main_arg0) := (keep10 m ρ c main_arg0 (by decide)).trans (arg9_0 m ρ c)
theorem arg11_0 (c : Dev nD) : W11 m ρ c (Proc.devRef .tc main_arg0) = m ((c : Thread nD τ).loc main_arg0) := (keep11 m ρ c main_arg0 (by decide)).trans (arg10_0 m ρ c)
theorem arg12_0 (c : Dev nD) : W12 m ρ c (Proc.devRef .tc main_arg0) = m ((c : Thread nD τ).loc main_arg0) := (keep12 m ρ c main_arg0 (by decide)).trans (arg11_0 m ρ c)
theorem arg13_0 (c : Dev nD) : W13 m ρ c (Proc.devRef .tc main_arg0) = m ((c : Thread nD τ).loc main_arg0) := (keep13 m ρ c main_arg0 (by decide)).trans (arg12_0 m ρ c)
theorem arg0_1 (c : Dev nD) : W0 m ρ c (Proc.devRef .tc main_arg1) = m ((c : Thread nD τ).loc main_arg1) := rfl
theorem arg1_1 (c : Dev nD) : W1 m ρ c (Proc.devRef .tc main_arg1) = m ((c : Thread nD τ).loc main_arg1) := (keep1 m ρ c main_arg1 (by decide)).trans (arg0_1 m ρ c)
theorem arg2_1 (c : Dev nD) : W2 m ρ c (Proc.devRef .tc main_arg1) = m ((c : Thread nD τ).loc main_arg1) := (keep2 m ρ c main_arg1 (by decide)).trans (arg1_1 m ρ c)
theorem arg3_1 (c : Dev nD) : W3 m ρ c (Proc.devRef .tc main_arg1) = m ((c : Thread nD τ).loc main_arg1) := (keep3 m ρ c main_arg1 (by decide)).trans (arg2_1 m ρ c)
theorem arg4_1 (c : Dev nD) : W4 m ρ c (Proc.devRef .tc main_arg1) = m ((c : Thread nD τ).loc main_arg1) := (keep4 m ρ c main_arg1 (by decide)).trans (arg3_1 m ρ c)
theorem arg5_1 (c : Dev nD) : W5 m ρ c (Proc.devRef .tc main_arg1) = m ((c : Thread nD τ).loc main_arg1) := (keep5 m ρ c main_arg1 (by decide)).trans (arg4_1 m ρ c)
theorem arg6_1 (c : Dev nD) : W6 m ρ c (Proc.devRef .tc main_arg1) = m ((c : Thread nD τ).loc main_arg1) := (keep6 m ρ c main_arg1 (by decide)).trans (arg5_1 m ρ c)
theorem arg7_1 (c : Dev nD) : W7 m ρ c (Proc.devRef .tc main_arg1) = m ((c : Thread nD τ).loc main_arg1) := (keep7 m ρ c main_arg1 (by decide)).trans (arg6_1 m ρ c)
theorem arg8_1 (c : Dev nD) : W8 m ρ c (Proc.devRef .tc main_arg1) = m ((c : Thread nD τ).loc main_arg1) := (keep8 m ρ c main_arg1 (by decide)).trans (arg7_1 m ρ c)
theorem arg9_1 (c : Dev nD) : W9 m ρ c (Proc.devRef .tc main_arg1) = m ((c : Thread nD τ).loc main_arg1) := (keep9 m ρ c main_arg1 (by decide)).trans (arg8_1 m ρ c)
theorem arg10_1 (c : Dev nD) : W10 m ρ c (Proc.devRef .tc main_arg1) = m ((c : Thread nD τ).loc main_arg1) := (keep10 m ρ c main_arg1 (by decide)).trans (arg9_1 m ρ c)
theorem arg11_1 (c : Dev nD) : W11 m ρ c (Proc.devRef .tc main_arg1) = m ((c : Thread nD τ).loc main_arg1) := (keep11 m ρ c main_arg1 (by decide)).trans (arg10_1 m ρ c)
theorem arg12_1 (c : Dev nD) : W12 m ρ c (Proc.devRef .tc main_arg1) = m ((c : Thread nD τ).loc main_arg1) := (keep12 m ρ c main_arg1 (by decide)).trans (arg11_1 m ρ c)
theorem arg13_1 (c : Dev nD) : W13 m ρ c (Proc.devRef .tc main_arg1) = m ((c : Thread nD τ).loc main_arg1) := (keep13 m ρ c main_arg1 (by decide)).trans (arg12_1 m ρ c)
theorem arg0_2 (c : Dev nD) : W0 m ρ c (Proc.devRef .tc main_arg2) = m ((c : Thread nD τ).loc main_arg2) := rfl
theorem arg1_2 (c : Dev nD) : W1 m ρ c (Proc.devRef .tc main_arg2) = m ((c : Thread nD τ).loc main_arg2) := (keep1 m ρ c main_arg2 (by decide)).trans (arg0_2 m ρ c)
theorem arg2_2 (c : Dev nD) : W2 m ρ c (Proc.devRef .tc main_arg2) = m ((c : Thread nD τ).loc main_arg2) := (keep2 m ρ c main_arg2 (by decide)).trans (arg1_2 m ρ c)
theorem arg3_2 (c : Dev nD) : W3 m ρ c (Proc.devRef .tc main_arg2) = m ((c : Thread nD τ).loc main_arg2) := (keep3 m ρ c main_arg2 (by decide)).trans (arg2_2 m ρ c)
theorem arg4_2 (c : Dev nD) : W4 m ρ c (Proc.devRef .tc main_arg2) = m ((c : Thread nD τ).loc main_arg2) := (keep4 m ρ c main_arg2 (by decide)).trans (arg3_2 m ρ c)
theorem arg5_2 (c : Dev nD) : W5 m ρ c (Proc.devRef .tc main_arg2) = m ((c : Thread nD τ).loc main_arg2) := (keep5 m ρ c main_arg2 (by decide)).trans (arg4_2 m ρ c)
theorem arg6_2 (c : Dev nD) : W6 m ρ c (Proc.devRef .tc main_arg2) = m ((c : Thread nD τ).loc main_arg2) := (keep6 m ρ c main_arg2 (by decide)).trans (arg5_2 m ρ c)
theorem arg7_2 (c : Dev nD) : W7 m ρ c (Proc.devRef .tc main_arg2) = m ((c : Thread nD τ).loc main_arg2) := (keep7 m ρ c main_arg2 (by decide)).trans (arg6_2 m ρ c)
theorem arg8_2 (c : Dev nD) : W8 m ρ c (Proc.devRef .tc main_arg2) = m ((c : Thread nD τ).loc main_arg2) := (keep8 m ρ c main_arg2 (by decide)).trans (arg7_2 m ρ c)
theorem arg9_2 (c : Dev nD) : W9 m ρ c (Proc.devRef .tc main_arg2) = m ((c : Thread nD τ).loc main_arg2) := (keep9 m ρ c main_arg2 (by decide)).trans (arg8_2 m ρ c)
theorem arg10_2 (c : Dev nD) : W10 m ρ c (Proc.devRef .tc main_arg2) = m ((c : Thread nD τ).loc main_arg2) := (keep10 m ρ c main_arg2 (by decide)).trans (arg9_2 m ρ c)
theorem arg11_2 (c : Dev nD) : W11 m ρ c (Proc.devRef .tc main_arg2) = m ((c : Thread nD τ).loc main_arg2) := (keep11 m ρ c main_arg2 (by decide)).trans (arg10_2 m ρ c)
theorem arg12_2 (c : Dev nD) : W12 m ρ c (Proc.devRef .tc main_arg2) = m ((c : Thread nD τ).loc main_arg2) := (keep12 m ρ c main_arg2 (by decide)).trans (arg11_2 m ρ c)
theorem arg13_2 (c : Dev nD) : W13 m ρ c (Proc.devRef .tc main_arg2) = m ((c : Thread nD τ).loc main_arg2) := (keep13 m ρ c main_arg2 (by decide)).trans (arg12_2 m ρ c)
theorem arg0_3 (c : Dev nD) : W0 m ρ c (Proc.devRef .tc main_arg3) = m ((c : Thread nD τ).loc main_arg3) := rfl
theorem arg1_3 (c : Dev nD) : W1 m ρ c (Proc.devRef .tc main_arg3) = m ((c : Thread nD τ).loc main_arg3) := (keep1 m ρ c main_arg3 (by decide)).trans (arg0_3 m ρ c)
theorem arg2_3 (c : Dev nD) : W2 m ρ c (Proc.devRef .tc main_arg3) = m ((c : Thread nD τ).loc main_arg3) := (keep2 m ρ c main_arg3 (by decide)).trans (arg1_3 m ρ c)
theorem arg3_3 (c : Dev nD) : W3 m ρ c (Proc.devRef .tc main_arg3) = m ((c : Thread nD τ).loc main_arg3) := (keep3 m ρ c main_arg3 (by decide)).trans (arg2_3 m ρ c)
theorem arg4_3 (c : Dev nD) : W4 m ρ c (Proc.devRef .tc main_arg3) = m ((c : Thread nD τ).loc main_arg3) := (keep4 m ρ c main_arg3 (by decide)).trans (arg3_3 m ρ c)
theorem arg5_3 (c : Dev nD) : W5 m ρ c (Proc.devRef .tc main_arg3) = m ((c : Thread nD τ).loc main_arg3) := (keep5 m ρ c main_arg3 (by decide)).trans (arg4_3 m ρ c)
theorem arg6_3 (c : Dev nD) : W6 m ρ c (Proc.devRef .tc main_arg3) = m ((c : Thread nD τ).loc main_arg3) := (keep6 m ρ c main_arg3 (by decide)).trans (arg5_3 m ρ c)
theorem arg7_3 (c : Dev nD) : W7 m ρ c (Proc.devRef .tc main_arg3) = m ((c : Thread nD τ).loc main_arg3) := (keep7 m ρ c main_arg3 (by decide)).trans (arg6_3 m ρ c)
theorem arg8_3 (c : Dev nD) : W8 m ρ c (Proc.devRef .tc main_arg3) = m ((c : Thread nD τ).loc main_arg3) := (keep8 m ρ c main_arg3 (by decide)).trans (arg7_3 m ρ c)
theorem arg9_3 (c : Dev nD) : W9 m ρ c (Proc.devRef .tc main_arg3) = m ((c : Thread nD τ).loc main_arg3) := (keep9 m ρ c main_arg3 (by decide)).trans (arg8_3 m ρ c)
theorem arg10_3 (c : Dev nD) : W10 m ρ c (Proc.devRef .tc main_arg3) = m ((c : Thread nD τ).loc main_arg3) := (keep10 m ρ c main_arg3 (by decide)).trans (arg9_3 m ρ c)
theorem arg11_3 (c : Dev nD) : W11 m ρ c (Proc.devRef .tc main_arg3) = m ((c : Thread nD τ).loc main_arg3) := (keep11 m ρ c main_arg3 (by decide)).trans (arg10_3 m ρ c)
theorem arg12_3 (c : Dev nD) : W12 m ρ c (Proc.devRef .tc main_arg3) = m ((c : Thread nD τ).loc main_arg3) := (keep12 m ρ c main_arg3 (by decide)).trans (arg11_3 m ρ c)
theorem arg13_3 (c : Dev nD) : W13 m ρ c (Proc.devRef .tc main_arg3) = m ((c : Thread nD τ).loc main_arg3) := (keep13 m ρ c main_arg3 (by decide)).trans (arg12_3 m ρ c)
theorem arg0_4 (c : Dev nD) : W0 m ρ c (Proc.devRef .tc main_arg4) = m ((c : Thread nD τ).loc main_arg4) := rfl
theorem arg1_4 (c : Dev nD) : W1 m ρ c (Proc.devRef .tc main_arg4) = m ((c : Thread nD τ).loc main_arg4) := (keep1 m ρ c main_arg4 (by decide)).trans (arg0_4 m ρ c)
theorem arg2_4 (c : Dev nD) : W2 m ρ c (Proc.devRef .tc main_arg4) = m ((c : Thread nD τ).loc main_arg4) := (keep2 m ρ c main_arg4 (by decide)).trans (arg1_4 m ρ c)
theorem arg3_4 (c : Dev nD) : W3 m ρ c (Proc.devRef .tc main_arg4) = m ((c : Thread nD τ).loc main_arg4) := (keep3 m ρ c main_arg4 (by decide)).trans (arg2_4 m ρ c)
theorem arg4_4 (c : Dev nD) : W4 m ρ c (Proc.devRef .tc main_arg4) = m ((c : Thread nD τ).loc main_arg4) := (keep4 m ρ c main_arg4 (by decide)).trans (arg3_4 m ρ c)
theorem arg5_4 (c : Dev nD) : W5 m ρ c (Proc.devRef .tc main_arg4) = m ((c : Thread nD τ).loc main_arg4) := (keep5 m ρ c main_arg4 (by decide)).trans (arg4_4 m ρ c)
theorem arg6_4 (c : Dev nD) : W6 m ρ c (Proc.devRef .tc main_arg4) = m ((c : Thread nD τ).loc main_arg4) := (keep6 m ρ c main_arg4 (by decide)).trans (arg5_4 m ρ c)
theorem arg7_4 (c : Dev nD) : W7 m ρ c (Proc.devRef .tc main_arg4) = m ((c : Thread nD τ).loc main_arg4) := (keep7 m ρ c main_arg4 (by decide)).trans (arg6_4 m ρ c)
theorem arg8_4 (c : Dev nD) : W8 m ρ c (Proc.devRef .tc main_arg4) = m ((c : Thread nD τ).loc main_arg4) := (keep8 m ρ c main_arg4 (by decide)).trans (arg7_4 m ρ c)
theorem arg9_4 (c : Dev nD) : W9 m ρ c (Proc.devRef .tc main_arg4) = m ((c : Thread nD τ).loc main_arg4) := (keep9 m ρ c main_arg4 (by decide)).trans (arg8_4 m ρ c)
theorem arg10_4 (c : Dev nD) : W10 m ρ c (Proc.devRef .tc main_arg4) = m ((c : Thread nD τ).loc main_arg4) := (keep10 m ρ c main_arg4 (by decide)).trans (arg9_4 m ρ c)
theorem arg11_4 (c : Dev nD) : W11 m ρ c (Proc.devRef .tc main_arg4) = m ((c : Thread nD τ).loc main_arg4) := (keep11 m ρ c main_arg4 (by decide)).trans (arg10_4 m ρ c)
theorem arg12_4 (c : Dev nD) : W12 m ρ c (Proc.devRef .tc main_arg4) = m ((c : Thread nD τ).loc main_arg4) := (keep12 m ρ c main_arg4 (by decide)).trans (arg11_4 m ρ c)
theorem arg13_4 (c : Dev nD) : W13 m ρ c (Proc.devRef .tc main_arg4) = m ((c : Thread nD τ).loc main_arg4) := (keep13 m ρ c main_arg4 (by decide)).trans (arg12_4 m ρ c)
theorem arg0_5 (c : Dev nD) : W0 m ρ c (Proc.devRef .tc main_arg5) = m ((c : Thread nD τ).loc main_arg5) := rfl
theorem arg1_5 (c : Dev nD) : W1 m ρ c (Proc.devRef .tc main_arg5) = m ((c : Thread nD τ).loc main_arg5) := (keep1 m ρ c main_arg5 (by decide)).trans (arg0_5 m ρ c)
theorem arg2_5 (c : Dev nD) : W2 m ρ c (Proc.devRef .tc main_arg5) = m ((c : Thread nD τ).loc main_arg5) := (keep2 m ρ c main_arg5 (by decide)).trans (arg1_5 m ρ c)
theorem arg3_5 (c : Dev nD) : W3 m ρ c (Proc.devRef .tc main_arg5) = m ((c : Thread nD τ).loc main_arg5) := (keep3 m ρ c main_arg5 (by decide)).trans (arg2_5 m ρ c)
theorem arg4_5 (c : Dev nD) : W4 m ρ c (Proc.devRef .tc main_arg5) = m ((c : Thread nD τ).loc main_arg5) := (keep4 m ρ c main_arg5 (by decide)).trans (arg3_5 m ρ c)
theorem arg5_5 (c : Dev nD) : W5 m ρ c (Proc.devRef .tc main_arg5) = m ((c : Thread nD τ).loc main_arg5) := (keep5 m ρ c main_arg5 (by decide)).trans (arg4_5 m ρ c)
theorem arg6_5 (c : Dev nD) : W6 m ρ c (Proc.devRef .tc main_arg5) = m ((c : Thread nD τ).loc main_arg5) := (keep6 m ρ c main_arg5 (by decide)).trans (arg5_5 m ρ c)
theorem arg7_5 (c : Dev nD) : W7 m ρ c (Proc.devRef .tc main_arg5) = m ((c : Thread nD τ).loc main_arg5) := (keep7 m ρ c main_arg5 (by decide)).trans (arg6_5 m ρ c)
theorem arg8_5 (c : Dev nD) : W8 m ρ c (Proc.devRef .tc main_arg5) = m ((c : Thread nD τ).loc main_arg5) := (keep8 m ρ c main_arg5 (by decide)).trans (arg7_5 m ρ c)
theorem arg9_5 (c : Dev nD) : W9 m ρ c (Proc.devRef .tc main_arg5) = m ((c : Thread nD τ).loc main_arg5) := (keep9 m ρ c main_arg5 (by decide)).trans (arg8_5 m ρ c)
theorem arg10_5 (c : Dev nD) : W10 m ρ c (Proc.devRef .tc main_arg5) = m ((c : Thread nD τ).loc main_arg5) := (keep10 m ρ c main_arg5 (by decide)).trans (arg9_5 m ρ c)
theorem arg11_5 (c : Dev nD) : W11 m ρ c (Proc.devRef .tc main_arg5) = m ((c : Thread nD τ).loc main_arg5) := (keep11 m ρ c main_arg5 (by decide)).trans (arg10_5 m ρ c)
theorem arg12_5 (c : Dev nD) : W12 m ρ c (Proc.devRef .tc main_arg5) = m ((c : Thread nD τ).loc main_arg5) := (keep12 m ρ c main_arg5 (by decide)).trans (arg11_5 m ρ c)
theorem arg13_5 (c : Dev nD) : W13 m ρ c (Proc.devRef .tc main_arg5) = m ((c : Thread nD τ).loc main_arg5) := (keep13 m ρ c main_arg5 (by decide)).trans (arg12_5 m ρ c)
theorem arg0_6 (c : Dev nD) : W0 m ρ c (Proc.devRef .tc main_arg6) = m ((c : Thread nD τ).loc main_arg6) := rfl
theorem arg1_6 (c : Dev nD) : W1 m ρ c (Proc.devRef .tc main_arg6) = m ((c : Thread nD τ).loc main_arg6) := (keep1 m ρ c main_arg6 (by decide)).trans (arg0_6 m ρ c)
theorem arg2_6 (c : Dev nD) : W2 m ρ c (Proc.devRef .tc main_arg6) = m ((c : Thread nD τ).loc main_arg6) := (keep2 m ρ c main_arg6 (by decide)).trans (arg1_6 m ρ c)
theorem arg3_6 (c : Dev nD) : W3 m ρ c (Proc.devRef .tc main_arg6) = m ((c : Thread nD τ).loc main_arg6) := (keep3 m ρ c main_arg6 (by decide)).trans (arg2_6 m ρ c)
theorem arg4_6 (c : Dev nD) : W4 m ρ c (Proc.devRef .tc main_arg6) = m ((c : Thread nD τ).loc main_arg6) := (keep4 m ρ c main_arg6 (by decide)).trans (arg3_6 m ρ c)
theorem arg5_6 (c : Dev nD) : W5 m ρ c (Proc.devRef .tc main_arg6) = m ((c : Thread nD τ).loc main_arg6) := (keep5 m ρ c main_arg6 (by decide)).trans (arg4_6 m ρ c)
theorem arg6_6 (c : Dev nD) : W6 m ρ c (Proc.devRef .tc main_arg6) = m ((c : Thread nD τ).loc main_arg6) := (keep6 m ρ c main_arg6 (by decide)).trans (arg5_6 m ρ c)
theorem arg7_6 (c : Dev nD) : W7 m ρ c (Proc.devRef .tc main_arg6) = m ((c : Thread nD τ).loc main_arg6) := (keep7 m ρ c main_arg6 (by decide)).trans (arg6_6 m ρ c)
theorem arg8_6 (c : Dev nD) : W8 m ρ c (Proc.devRef .tc main_arg6) = m ((c : Thread nD τ).loc main_arg6) := (keep8 m ρ c main_arg6 (by decide)).trans (arg7_6 m ρ c)
theorem arg9_6 (c : Dev nD) : W9 m ρ c (Proc.devRef .tc main_arg6) = m ((c : Thread nD τ).loc main_arg6) := (keep9 m ρ c main_arg6 (by decide)).trans (arg8_6 m ρ c)
theorem arg10_6 (c : Dev nD) : W10 m ρ c (Proc.devRef .tc main_arg6) = m ((c : Thread nD τ).loc main_arg6) := (keep10 m ρ c main_arg6 (by decide)).trans (arg9_6 m ρ c)
theorem arg11_6 (c : Dev nD) : W11 m ρ c (Proc.devRef .tc main_arg6) = m ((c : Thread nD τ).loc main_arg6) := (keep11 m ρ c main_arg6 (by decide)).trans (arg10_6 m ρ c)
theorem arg12_6 (c : Dev nD) : W12 m ρ c (Proc.devRef .tc main_arg6) = m ((c : Thread nD τ).loc main_arg6) := (keep12 m ρ c main_arg6 (by decide)).trans (arg11_6 m ρ c)
theorem arg13_6 (c : Dev nD) : W13 m ρ c (Proc.devRef .tc main_arg6) = m ((c : Thread nD τ).loc main_arg6) := (keep13 m ρ c main_arg6 (by decide)).trans (arg12_6 m ρ c)
theorem arg0_7 (c : Dev nD) : W0 m ρ c (Proc.devRef .tc main_arg7) = m ((c : Thread nD τ).loc main_arg7) := rfl
theorem arg1_7 (c : Dev nD) : W1 m ρ c (Proc.devRef .tc main_arg7) = m ((c : Thread nD τ).loc main_arg7) := (keep1 m ρ c main_arg7 (by decide)).trans (arg0_7 m ρ c)
theorem arg2_7 (c : Dev nD) : W2 m ρ c (Proc.devRef .tc main_arg7) = m ((c : Thread nD τ).loc main_arg7) := (keep2 m ρ c main_arg7 (by decide)).trans (arg1_7 m ρ c)
theorem arg3_7 (c : Dev nD) : W3 m ρ c (Proc.devRef .tc main_arg7) = m ((c : Thread nD τ).loc main_arg7) := (keep3 m ρ c main_arg7 (by decide)).trans (arg2_7 m ρ c)
theorem arg4_7 (c : Dev nD) : W4 m ρ c (Proc.devRef .tc main_arg7) = m ((c : Thread nD τ).loc main_arg7) := (keep4 m ρ c main_arg7 (by decide)).trans (arg3_7 m ρ c)
theorem arg5_7 (c : Dev nD) : W5 m ρ c (Proc.devRef .tc main_arg7) = m ((c : Thread nD τ).loc main_arg7) := (keep5 m ρ c main_arg7 (by decide)).trans (arg4_7 m ρ c)
theorem arg6_7 (c : Dev nD) : W6 m ρ c (Proc.devRef .tc main_arg7) = m ((c : Thread nD τ).loc main_arg7) := (keep6 m ρ c main_arg7 (by decide)).trans (arg5_7 m ρ c)
theorem arg7_7 (c : Dev nD) : W7 m ρ c (Proc.devRef .tc main_arg7) = m ((c : Thread nD τ).loc main_arg7) := (keep7 m ρ c main_arg7 (by decide)).trans (arg6_7 m ρ c)
theorem arg8_7 (c : Dev nD) : W8 m ρ c (Proc.devRef .tc main_arg7) = m ((c : Thread nD τ).loc main_arg7) := (keep8 m ρ c main_arg7 (by decide)).trans (arg7_7 m ρ c)
theorem arg9_7 (c : Dev nD) : W9 m ρ c (Proc.devRef .tc main_arg7) = m ((c : Thread nD τ).loc main_arg7) := (keep9 m ρ c main_arg7 (by decide)).trans (arg8_7 m ρ c)
theorem arg10_7 (c : Dev nD) : W10 m ρ c (Proc.devRef .tc main_arg7) = m ((c : Thread nD τ).loc main_arg7) := (keep10 m ρ c main_arg7 (by decide)).trans (arg9_7 m ρ c)
theorem arg11_7 (c : Dev nD) : W11 m ρ c (Proc.devRef .tc main_arg7) = m ((c : Thread nD τ).loc main_arg7) := (keep11 m ρ c main_arg7 (by decide)).trans (arg10_7 m ρ c)
theorem arg12_7 (c : Dev nD) : W12 m ρ c (Proc.devRef .tc main_arg7) = m ((c : Thread nD τ).loc main_arg7) := (keep12 m ρ c main_arg7 (by decide)).trans (arg11_7 m ρ c)
theorem arg13_7 (c : Dev nD) : W13 m ρ c (Proc.devRef .tc main_arg7) = m ((c : Thread nD τ).loc main_arg7) := (keep13 m ρ c main_arg7 (by decide)).trans (arg12_7 m ρ c)
theorem arg0_8 (c : Dev nD) : W0 m ρ c (Proc.devRef .tc main_arg8) = m ((c : Thread nD τ).loc main_arg8) := rfl
theorem arg1_8 (c : Dev nD) : W1 m ρ c (Proc.devRef .tc main_arg8) = m ((c : Thread nD τ).loc main_arg8) := (keep1 m ρ c main_arg8 (by decide)).trans (arg0_8 m ρ c)
theorem arg2_8 (c : Dev nD) : W2 m ρ c (Proc.devRef .tc main_arg8) = m ((c : Thread nD τ).loc main_arg8) := (keep2 m ρ c main_arg8 (by decide)).trans (arg1_8 m ρ c)
theorem arg3_8 (c : Dev nD) : W3 m ρ c (Proc.devRef .tc main_arg8) = m ((c : Thread nD τ).loc main_arg8) := (keep3 m ρ c main_arg8 (by decide)).trans (arg2_8 m ρ c)
theorem arg4_8 (c : Dev nD) : W4 m ρ c (Proc.devRef .tc main_arg8) = m ((c : Thread nD τ).loc main_arg8) := (keep4 m ρ c main_arg8 (by decide)).trans (arg3_8 m ρ c)
theorem arg5_8 (c : Dev nD) : W5 m ρ c (Proc.devRef .tc main_arg8) = m ((c : Thread nD τ).loc main_arg8) := (keep5 m ρ c main_arg8 (by decide)).trans (arg4_8 m ρ c)
theorem arg6_8 (c : Dev nD) : W6 m ρ c (Proc.devRef .tc main_arg8) = m ((c : Thread nD τ).loc main_arg8) := (keep6 m ρ c main_arg8 (by decide)).trans (arg5_8 m ρ c)
theorem arg7_8 (c : Dev nD) : W7 m ρ c (Proc.devRef .tc main_arg8) = m ((c : Thread nD τ).loc main_arg8) := (keep7 m ρ c main_arg8 (by decide)).trans (arg6_8 m ρ c)
theorem arg8_8 (c : Dev nD) : W8 m ρ c (Proc.devRef .tc main_arg8) = m ((c : Thread nD τ).loc main_arg8) := (keep8 m ρ c main_arg8 (by decide)).trans (arg7_8 m ρ c)
theorem arg9_8 (c : Dev nD) : W9 m ρ c (Proc.devRef .tc main_arg8) = m ((c : Thread nD τ).loc main_arg8) := (keep9 m ρ c main_arg8 (by decide)).trans (arg8_8 m ρ c)
theorem arg10_8 (c : Dev nD) : W10 m ρ c (Proc.devRef .tc main_arg8) = m ((c : Thread nD τ).loc main_arg8) := (keep10 m ρ c main_arg8 (by decide)).trans (arg9_8 m ρ c)
theorem arg11_8 (c : Dev nD) : W11 m ρ c (Proc.devRef .tc main_arg8) = m ((c : Thread nD τ).loc main_arg8) := (keep11 m ρ c main_arg8 (by decide)).trans (arg10_8 m ρ c)
theorem arg12_8 (c : Dev nD) : W12 m ρ c (Proc.devRef .tc main_arg8) = m ((c : Thread nD τ).loc main_arg8) := (keep12 m ρ c main_arg8 (by decide)).trans (arg11_8 m ρ c)
theorem arg13_8 (c : Dev nD) : W13 m ρ c (Proc.devRef .tc main_arg8) = m ((c : Thread nD τ).loc main_arg8) := (keep13 m ρ c main_arg8 (by decide)).trans (arg12_8 m ρ c)
theorem arg0_9 (c : Dev nD) : W0 m ρ c (Proc.devRef .tc main_arg9) = m ((c : Thread nD τ).loc main_arg9) := rfl
theorem arg1_9 (c : Dev nD) : W1 m ρ c (Proc.devRef .tc main_arg9) = m ((c : Thread nD τ).loc main_arg9) := (keep1 m ρ c main_arg9 (by decide)).trans (arg0_9 m ρ c)
theorem arg2_9 (c : Dev nD) : W2 m ρ c (Proc.devRef .tc main_arg9) = m ((c : Thread nD τ).loc main_arg9) := (keep2 m ρ c main_arg9 (by decide)).trans (arg1_9 m ρ c)
theorem arg3_9 (c : Dev nD) : W3 m ρ c (Proc.devRef .tc main_arg9) = m ((c : Thread nD τ).loc main_arg9) := (keep3 m ρ c main_arg9 (by decide)).trans (arg2_9 m ρ c)
theorem arg4_9 (c : Dev nD) : W4 m ρ c (Proc.devRef .tc main_arg9) = m ((c : Thread nD τ).loc main_arg9) := (keep4 m ρ c main_arg9 (by decide)).trans (arg3_9 m ρ c)
theorem arg5_9 (c : Dev nD) : W5 m ρ c (Proc.devRef .tc main_arg9) = m ((c : Thread nD τ).loc main_arg9) := (keep5 m ρ c main_arg9 (by decide)).trans (arg4_9 m ρ c)
theorem arg6_9 (c : Dev nD) : W6 m ρ c (Proc.devRef .tc main_arg9) = m ((c : Thread nD τ).loc main_arg9) := (keep6 m ρ c main_arg9 (by decide)).trans (arg5_9 m ρ c)
theorem arg7_9 (c : Dev nD) : W7 m ρ c (Proc.devRef .tc main_arg9) = m ((c : Thread nD τ).loc main_arg9) := (keep7 m ρ c main_arg9 (by decide)).trans (arg6_9 m ρ c)
theorem arg8_9 (c : Dev nD) : W8 m ρ c (Proc.devRef .tc main_arg9) = m ((c : Thread nD τ).loc main_arg9) := (keep8 m ρ c main_arg9 (by decide)).trans (arg7_9 m ρ c)
theorem arg9_9 (c : Dev nD) : W9 m ρ c (Proc.devRef .tc main_arg9) = m ((c : Thread nD τ).loc main_arg9) := (keep9 m ρ c main_arg9 (by decide)).trans (arg8_9 m ρ c)
theorem arg10_9 (c : Dev nD) : W10 m ρ c (Proc.devRef .tc main_arg9) = m ((c : Thread nD τ).loc main_arg9) := (keep10 m ρ c main_arg9 (by decide)).trans (arg9_9 m ρ c)
theorem arg11_9 (c : Dev nD) : W11 m ρ c (Proc.devRef .tc main_arg9) = m ((c : Thread nD τ).loc main_arg9) := (keep11 m ρ c main_arg9 (by decide)).trans (arg10_9 m ρ c)
theorem arg12_9 (c : Dev nD) : W12 m ρ c (Proc.devRef .tc main_arg9) = m ((c : Thread nD τ).loc main_arg9) := (keep12 m ρ c main_arg9 (by decide)).trans (arg11_9 m ρ c)
theorem arg13_9 (c : Dev nD) : W13 m ρ c (Proc.devRef .tc main_arg9) = m ((c : Thread nD τ).loc main_arg9) := (keep13 m ρ c main_arg9 (by decide)).trans (arg12_9 m ρ c)
theorem arg0_10 (c : Dev nD) : W0 m ρ c (Proc.devRef .tc main_arg10) = m ((c : Thread nD τ).loc main_arg10) := rfl
theorem arg1_10 (c : Dev nD) : W1 m ρ c (Proc.devRef .tc main_arg10) = m ((c : Thread nD τ).loc main_arg10) := (keep1 m ρ c main_arg10 (by decide)).trans (arg0_10 m ρ c)
theorem arg2_10 (c : Dev nD) : W2 m ρ c (Proc.devRef .tc main_arg10) = m ((c : Thread nD τ).loc main_arg10) := (keep2 m ρ c main_arg10 (by decide)).trans (arg1_10 m ρ c)
theorem arg3_10 (c : Dev nD) : W3 m ρ c (Proc.devRef .tc main_arg10) = m ((c : Thread nD τ).loc main_arg10) := (keep3 m ρ c main_arg10 (by decide)).trans (arg2_10 m ρ c)
theorem arg4_10 (c : Dev nD) : W4 m ρ c (Proc.devRef .tc main_arg10) = m ((c : Thread nD τ).loc main_arg10) := (keep4 m ρ c main_arg10 (by decide)).trans (arg3_10 m ρ c)
theorem arg5_10 (c : Dev nD) : W5 m ρ c (Proc.devRef .tc main_arg10) = m ((c : Thread nD τ).loc main_arg10) := (keep5 m ρ c main_arg10 (by decide)).trans (arg4_10 m ρ c)
theorem arg6_10 (c : Dev nD) : W6 m ρ c (Proc.devRef .tc main_arg10) = m ((c : Thread nD τ).loc main_arg10) := (keep6 m ρ c main_arg10 (by decide)).trans (arg5_10 m ρ c)
theorem arg7_10 (c : Dev nD) : W7 m ρ c (Proc.devRef .tc main_arg10) = m ((c : Thread nD τ).loc main_arg10) := (keep7 m ρ c main_arg10 (by decide)).trans (arg6_10 m ρ c)
theorem arg8_10 (c : Dev nD) : W8 m ρ c (Proc.devRef .tc main_arg10) = m ((c : Thread nD τ).loc main_arg10) := (keep8 m ρ c main_arg10 (by decide)).trans (arg7_10 m ρ c)
theorem arg9_10 (c : Dev nD) : W9 m ρ c (Proc.devRef .tc main_arg10) = m ((c : Thread nD τ).loc main_arg10) := (keep9 m ρ c main_arg10 (by decide)).trans (arg8_10 m ρ c)
theorem arg10_10 (c : Dev nD) : W10 m ρ c (Proc.devRef .tc main_arg10) = m ((c : Thread nD τ).loc main_arg10) := (keep10 m ρ c main_arg10 (by decide)).trans (arg9_10 m ρ c)
theorem arg11_10 (c : Dev nD) : W11 m ρ c (Proc.devRef .tc main_arg10) = m ((c : Thread nD τ).loc main_arg10) := (keep11 m ρ c main_arg10 (by decide)).trans (arg10_10 m ρ c)
theorem arg12_10 (c : Dev nD) : W12 m ρ c (Proc.devRef .tc main_arg10) = m ((c : Thread nD τ).loc main_arg10) := (keep12 m ρ c main_arg10 (by decide)).trans (arg11_10 m ρ c)
theorem arg13_10 (c : Dev nD) : W13 m ρ c (Proc.devRef .tc main_arg10) = m ((c : Thread nD τ).loc main_arg10) := (keep13 m ρ c main_arg10 (by decide)).trans (arg12_10 m ρ c)
theorem arg0_11 (c : Dev nD) : W0 m ρ c (Proc.devRef .tc main_arg11) = m ((c : Thread nD τ).loc main_arg11) := rfl
theorem arg1_11 (c : Dev nD) : W1 m ρ c (Proc.devRef .tc main_arg11) = m ((c : Thread nD τ).loc main_arg11) := (keep1 m ρ c main_arg11 (by decide)).trans (arg0_11 m ρ c)
theorem arg2_11 (c : Dev nD) : W2 m ρ c (Proc.devRef .tc main_arg11) = m ((c : Thread nD τ).loc main_arg11) := (keep2 m ρ c main_arg11 (by decide)).trans (arg1_11 m ρ c)
theorem arg3_11 (c : Dev nD) : W3 m ρ c (Proc.devRef .tc main_arg11) = m ((c : Thread nD τ).loc main_arg11) := (keep3 m ρ c main_arg11 (by decide)).trans (arg2_11 m ρ c)
theorem arg4_11 (c : Dev nD) : W4 m ρ c (Proc.devRef .tc main_arg11) = m ((c : Thread nD τ).loc main_arg11) := (keep4 m ρ c main_arg11 (by decide)).trans (arg3_11 m ρ c)
theorem arg5_11 (c : Dev nD) : W5 m ρ c (Proc.devRef .tc main_arg11) = m ((c : Thread nD τ).loc main_arg11) := (keep5 m ρ c main_arg11 (by decide)).trans (arg4_11 m ρ c)
theorem arg6_11 (c : Dev nD) : W6 m ρ c (Proc.devRef .tc main_arg11) = m ((c : Thread nD τ).loc main_arg11) := (keep6 m ρ c main_arg11 (by decide)).trans (arg5_11 m ρ c)
theorem arg7_11 (c : Dev nD) : W7 m ρ c (Proc.devRef .tc main_arg11) = m ((c : Thread nD τ).loc main_arg11) := (keep7 m ρ c main_arg11 (by decide)).trans (arg6_11 m ρ c)
theorem arg8_11 (c : Dev nD) : W8 m ρ c (Proc.devRef .tc main_arg11) = m ((c : Thread nD τ).loc main_arg11) := (keep8 m ρ c main_arg11 (by decide)).trans (arg7_11 m ρ c)
theorem arg9_11 (c : Dev nD) : W9 m ρ c (Proc.devRef .tc main_arg11) = m ((c : Thread nD τ).loc main_arg11) := (keep9 m ρ c main_arg11 (by decide)).trans (arg8_11 m ρ c)
theorem arg10_11 (c : Dev nD) : W10 m ρ c (Proc.devRef .tc main_arg11) = m ((c : Thread nD τ).loc main_arg11) := (keep10 m ρ c main_arg11 (by decide)).trans (arg9_11 m ρ c)
theorem arg11_11 (c : Dev nD) : W11 m ρ c (Proc.devRef .tc main_arg11) = m ((c : Thread nD τ).loc main_arg11) := (keep11 m ρ c main_arg11 (by decide)).trans (arg10_11 m ρ c)
theorem arg12_11 (c : Dev nD) : W12 m ρ c (Proc.devRef .tc main_arg11) = m ((c : Thread nD τ).loc main_arg11) := (keep12 m ρ c main_arg11 (by decide)).trans (arg11_11 m ρ c)
theorem arg13_11 (c : Dev nD) : W13 m ρ c (Proc.devRef .tc main_arg11) = m ((c : Thread nD τ).loc main_arg11) := (keep13 m ρ c main_arg11 (by decide)).trans (arg12_11 m ρ c)
theorem arg0_12 (c : Dev nD) : W0 m ρ c (Proc.devRef .tc main_arg12) = m ((c : Thread nD τ).loc main_arg12) := rfl
theorem arg1_12 (c : Dev nD) : W1 m ρ c (Proc.devRef .tc main_arg12) = m ((c : Thread nD τ).loc main_arg12) := (keep1 m ρ c main_arg12 (by decide)).trans (arg0_12 m ρ c)
theorem arg2_12 (c : Dev nD) : W2 m ρ c (Proc.devRef .tc main_arg12) = m ((c : Thread nD τ).loc main_arg12) := (keep2 m ρ c main_arg12 (by decide)).trans (arg1_12 m ρ c)
theorem arg3_12 (c : Dev nD) : W3 m ρ c (Proc.devRef .tc main_arg12) = m ((c : Thread nD τ).loc main_arg12) := (keep3 m ρ c main_arg12 (by decide)).trans (arg2_12 m ρ c)
theorem arg4_12 (c : Dev nD) : W4 m ρ c (Proc.devRef .tc main_arg12) = m ((c : Thread nD τ).loc main_arg12) := (keep4 m ρ c main_arg12 (by decide)).trans (arg3_12 m ρ c)
theorem arg5_12 (c : Dev nD) : W5 m ρ c (Proc.devRef .tc main_arg12) = m ((c : Thread nD τ).loc main_arg12) := (keep5 m ρ c main_arg12 (by decide)).trans (arg4_12 m ρ c)
theorem arg6_12 (c : Dev nD) : W6 m ρ c (Proc.devRef .tc main_arg12) = m ((c : Thread nD τ).loc main_arg12) := (keep6 m ρ c main_arg12 (by decide)).trans (arg5_12 m ρ c)
theorem arg7_12 (c : Dev nD) : W7 m ρ c (Proc.devRef .tc main_arg12) = m ((c : Thread nD τ).loc main_arg12) := (keep7 m ρ c main_arg12 (by decide)).trans (arg6_12 m ρ c)
theorem arg8_12 (c : Dev nD) : W8 m ρ c (Proc.devRef .tc main_arg12) = m ((c : Thread nD τ).loc main_arg12) := (keep8 m ρ c main_arg12 (by decide)).trans (arg7_12 m ρ c)
theorem arg9_12 (c : Dev nD) : W9 m ρ c (Proc.devRef .tc main_arg12) = m ((c : Thread nD τ).loc main_arg12) := (keep9 m ρ c main_arg12 (by decide)).trans (arg8_12 m ρ c)
theorem arg10_12 (c : Dev nD) : W10 m ρ c (Proc.devRef .tc main_arg12) = m ((c : Thread nD τ).loc main_arg12) := (keep10 m ρ c main_arg12 (by decide)).trans (arg9_12 m ρ c)
theorem arg11_12 (c : Dev nD) : W11 m ρ c (Proc.devRef .tc main_arg12) = m ((c : Thread nD τ).loc main_arg12) := (keep11 m ρ c main_arg12 (by decide)).trans (arg10_12 m ρ c)
theorem arg12_12 (c : Dev nD) : W12 m ρ c (Proc.devRef .tc main_arg12) = m ((c : Thread nD τ).loc main_arg12) := (keep12 m ρ c main_arg12 (by decide)).trans (arg11_12 m ρ c)
theorem arg13_12 (c : Dev nD) : W13 m ρ c (Proc.devRef .tc main_arg12) = m ((c : Thread nD τ).loc main_arg12) := (keep13 m ρ c main_arg12 (by decide)).trans (arg12_12 m ρ c)
theorem arg0_13 (c : Dev nD) : W0 m ρ c (Proc.devRef .tc main_arg13) = m ((c : Thread nD τ).loc main_arg13) := rfl
theorem arg1_13 (c : Dev nD) : W1 m ρ c (Proc.devRef .tc main_arg13) = m ((c : Thread nD τ).loc main_arg13) := (keep1 m ρ c main_arg13 (by decide)).trans (arg0_13 m ρ c)
theorem arg2_13 (c : Dev nD) : W2 m ρ c (Proc.devRef .tc main_arg13) = m ((c : Thread nD τ).loc main_arg13) := (keep2 m ρ c main_arg13 (by decide)).trans (arg1_13 m ρ c)
theorem arg3_13 (c : Dev nD) : W3 m ρ c (Proc.devRef .tc main_arg13) = m ((c : Thread nD τ).loc main_arg13) := (keep3 m ρ c main_arg13 (by decide)).trans (arg2_13 m ρ c)
theorem arg4_13 (c : Dev nD) : W4 m ρ c (Proc.devRef .tc main_arg13) = m ((c : Thread nD τ).loc main_arg13) := (keep4 m ρ c main_arg13 (by decide)).trans (arg3_13 m ρ c)
theorem arg5_13 (c : Dev nD) : W5 m ρ c (Proc.devRef .tc main_arg13) = m ((c : Thread nD τ).loc main_arg13) := (keep5 m ρ c main_arg13 (by decide)).trans (arg4_13 m ρ c)
theorem arg6_13 (c : Dev nD) : W6 m ρ c (Proc.devRef .tc main_arg13) = m ((c : Thread nD τ).loc main_arg13) := (keep6 m ρ c main_arg13 (by decide)).trans (arg5_13 m ρ c)
theorem arg7_13 (c : Dev nD) : W7 m ρ c (Proc.devRef .tc main_arg13) = m ((c : Thread nD τ).loc main_arg13) := (keep7 m ρ c main_arg13 (by decide)).trans (arg6_13 m ρ c)
theorem arg8_13 (c : Dev nD) : W8 m ρ c (Proc.devRef .tc main_arg13) = m ((c : Thread nD τ).loc main_arg13) := (keep8 m ρ c main_arg13 (by decide)).trans (arg7_13 m ρ c)
theorem arg9_13 (c : Dev nD) : W9 m ρ c (Proc.devRef .tc main_arg13) = m ((c : Thread nD τ).loc main_arg13) := (keep9 m ρ c main_arg13 (by decide)).trans (arg8_13 m ρ c)
theorem arg10_13 (c : Dev nD) : W10 m ρ c (Proc.devRef .tc main_arg13) = m ((c : Thread nD τ).loc main_arg13) := (keep10 m ρ c main_arg13 (by decide)).trans (arg9_13 m ρ c)
theorem arg11_13 (c : Dev nD) : W11 m ρ c (Proc.devRef .tc main_arg13) = m ((c : Thread nD τ).loc main_arg13) := (keep11 m ρ c main_arg13 (by decide)).trans (arg10_13 m ρ c)
theorem arg12_13 (c : Dev nD) : W12 m ρ c (Proc.devRef .tc main_arg13) = m ((c : Thread nD τ).loc main_arg13) := (keep12 m ρ c main_arg13 (by decide)).trans (arg11_13 m ρ c)
theorem arg13_13 (c : Dev nD) : W13 m ρ c (Proc.devRef .tc main_arg13) = m ((c : Thread nD τ).loc main_arg13) := (keep13 m ρ c main_arg13 (by decide)).trans (arg12_13 m ρ c)
theorem arg0_14 (c : Dev nD) : W0 m ρ c (Proc.devRef .tc main_arg14) = m ((c : Thread nD τ).loc main_arg14) := rfl
theorem arg1_14 (c : Dev nD) : W1 m ρ c (Proc.devRef .tc main_arg14) = m ((c : Thread nD τ).loc main_arg14) := (keep1 m ρ c main_arg14 (by decide)).trans (arg0_14 m ρ c)
theorem arg2_14 (c : Dev nD) : W2 m ρ c (Proc.devRef .tc main_arg14) = m ((c : Thread nD τ).loc main_arg14) := (keep2 m ρ c main_arg14 (by decide)).trans (arg1_14 m ρ c)
theorem arg3_14 (c : Dev nD) : W3 m ρ c (Proc.devRef .tc main_arg14) = m ((c : Thread nD τ).loc main_arg14) := (keep3 m ρ c main_arg14 (by decide)).trans (arg2_14 m ρ c)
theorem arg4_14 (c : Dev nD) : W4 m ρ c (Proc.devRef .tc main_arg14) = m ((c : Thread nD τ).loc main_arg14) := (keep4 m ρ c main_arg14 (by decide)).trans (arg3_14 m ρ c)
theorem arg5_14 (c : Dev nD) : W5 m ρ c (Proc.devRef .tc main_arg14) = m ((c : Thread nD τ).loc main_arg14) := (keep5 m ρ c main_arg14 (by decide)).trans (arg4_14 m ρ c)
theorem arg6_14 (c : Dev nD) : W6 m ρ c (Proc.devRef .tc main_arg14) = m ((c : Thread nD τ).loc main_arg14) := (keep6 m ρ c main_arg14 (by decide)).trans (arg5_14 m ρ c)
theorem arg7_14 (c : Dev nD) : W7 m ρ c (Proc.devRef .tc main_arg14) = m ((c : Thread nD τ).loc main_arg14) := (keep7 m ρ c main_arg14 (by decide)).trans (arg6_14 m ρ c)
theorem arg8_14 (c : Dev nD) : W8 m ρ c (Proc.devRef .tc main_arg14) = m ((c : Thread nD τ).loc main_arg14) := (keep8 m ρ c main_arg14 (by decide)).trans (arg7_14 m ρ c)
theorem arg9_14 (c : Dev nD) : W9 m ρ c (Proc.devRef .tc main_arg14) = m ((c : Thread nD τ).loc main_arg14) := (keep9 m ρ c main_arg14 (by decide)).trans (arg8_14 m ρ c)
theorem arg10_14 (c : Dev nD) : W10 m ρ c (Proc.devRef .tc main_arg14) = m ((c : Thread nD τ).loc main_arg14) := (keep10 m ρ c main_arg14 (by decide)).trans (arg9_14 m ρ c)
theorem arg11_14 (c : Dev nD) : W11 m ρ c (Proc.devRef .tc main_arg14) = m ((c : Thread nD τ).loc main_arg14) := (keep11 m ρ c main_arg14 (by decide)).trans (arg10_14 m ρ c)
theorem arg12_14 (c : Dev nD) : W12 m ρ c (Proc.devRef .tc main_arg14) = m ((c : Thread nD τ).loc main_arg14) := (keep12 m ρ c main_arg14 (by decide)).trans (arg11_14 m ρ c)
theorem arg13_14 (c : Dev nD) : W13 m ρ c (Proc.devRef .tc main_arg14) = m ((c : Thread nD τ).loc main_arg14) := (keep13 m ρ c main_arg14 (by decide)).trans (arg12_14 m ρ c)
theorem arg0_15 (c : Dev nD) : W0 m ρ c (Proc.devRef .tc main_arg15) = m ((c : Thread nD τ).loc main_arg15) := rfl
theorem arg1_15 (c : Dev nD) : W1 m ρ c (Proc.devRef .tc main_arg15) = m ((c : Thread nD τ).loc main_arg15) := (keep1 m ρ c main_arg15 (by decide)).trans (arg0_15 m ρ c)
theorem arg2_15 (c : Dev nD) : W2 m ρ c (Proc.devRef .tc main_arg15) = m ((c : Thread nD τ).loc main_arg15) := (keep2 m ρ c main_arg15 (by decide)).trans (arg1_15 m ρ c)
theorem arg3_15 (c : Dev nD) : W3 m ρ c (Proc.devRef .tc main_arg15) = m ((c : Thread nD τ).loc main_arg15) := (keep3 m ρ c main_arg15 (by decide)).trans (arg2_15 m ρ c)
theorem arg4_15 (c : Dev nD) : W4 m ρ c (Proc.devRef .tc main_arg15) = m ((c : Thread nD τ).loc main_arg15) := (keep4 m ρ c main_arg15 (by decide)).trans (arg3_15 m ρ c)
theorem arg5_15 (c : Dev nD) : W5 m ρ c (Proc.devRef .tc main_arg15) = m ((c : Thread nD τ).loc main_arg15) := (keep5 m ρ c main_arg15 (by decide)).trans (arg4_15 m ρ c)
theorem arg6_15 (c : Dev nD) : W6 m ρ c (Proc.devRef .tc main_arg15) = m ((c : Thread nD τ).loc main_arg15) := (keep6 m ρ c main_arg15 (by decide)).trans (arg5_15 m ρ c)
theorem arg7_15 (c : Dev nD) : W7 m ρ c (Proc.devRef .tc main_arg15) = m ((c : Thread nD τ).loc main_arg15) := (keep7 m ρ c main_arg15 (by decide)).trans (arg6_15 m ρ c)
theorem arg8_15 (c : Dev nD) : W8 m ρ c (Proc.devRef .tc main_arg15) = m ((c : Thread nD τ).loc main_arg15) := (keep8 m ρ c main_arg15 (by decide)).trans (arg7_15 m ρ c)
theorem arg9_15 (c : Dev nD) : W9 m ρ c (Proc.devRef .tc main_arg15) = m ((c : Thread nD τ).loc main_arg15) := (keep9 m ρ c main_arg15 (by decide)).trans (arg8_15 m ρ c)
theorem arg10_15 (c : Dev nD) : W10 m ρ c (Proc.devRef .tc main_arg15) = m ((c : Thread nD τ).loc main_arg15) := (keep10 m ρ c main_arg15 (by decide)).trans (arg9_15 m ρ c)
theorem arg11_15 (c : Dev nD) : W11 m ρ c (Proc.devRef .tc main_arg15) = m ((c : Thread nD τ).loc main_arg15) := (keep11 m ρ c main_arg15 (by decide)).trans (arg10_15 m ρ c)
theorem arg12_15 (c : Dev nD) : W12 m ρ c (Proc.devRef .tc main_arg15) = m ((c : Thread nD τ).loc main_arg15) := (keep12 m ρ c main_arg15 (by decide)).trans (arg11_15 m ρ c)
theorem arg13_15 (c : Dev nD) : W13 m ρ c (Proc.devRef .tc main_arg15) = m ((c : Thread nD τ).loc main_arg15) := (keep13 m ρ c main_arg15 (by decide)).trans (arg12_15 m ρ c)
theorem arg0_16 (c : Dev nD) : W0 m ρ c (Proc.devRef .tc main_arg16) = m ((c : Thread nD τ).loc main_arg16) := rfl
theorem arg1_16 (c : Dev nD) : W1 m ρ c (Proc.devRef .tc main_arg16) = m ((c : Thread nD τ).loc main_arg16) := (keep1 m ρ c main_arg16 (by decide)).trans (arg0_16 m ρ c)
theorem arg2_16 (c : Dev nD) : W2 m ρ c (Proc.devRef .tc main_arg16) = m ((c : Thread nD τ).loc main_arg16) := (keep2 m ρ c main_arg16 (by decide)).trans (arg1_16 m ρ c)
theorem arg3_16 (c : Dev nD) : W3 m ρ c (Proc.devRef .tc main_arg16) = m ((c : Thread nD τ).loc main_arg16) := (keep3 m ρ c main_arg16 (by decide)).trans (arg2_16 m ρ c)
theorem arg4_16 (c : Dev nD) : W4 m ρ c (Proc.devRef .tc main_arg16) = m ((c : Thread nD τ).loc main_arg16) := (keep4 m ρ c main_arg16 (by decide)).trans (arg3_16 m ρ c)
theorem arg5_16 (c : Dev nD) : W5 m ρ c (Proc.devRef .tc main_arg16) = m ((c : Thread nD τ).loc main_arg16) := (keep5 m ρ c main_arg16 (by decide)).trans (arg4_16 m ρ c)
theorem arg6_16 (c : Dev nD) : W6 m ρ c (Proc.devRef .tc main_arg16) = m ((c : Thread nD τ).loc main_arg16) := (keep6 m ρ c main_arg16 (by decide)).trans (arg5_16 m ρ c)
theorem arg7_16 (c : Dev nD) : W7 m ρ c (Proc.devRef .tc main_arg16) = m ((c : Thread nD τ).loc main_arg16) := (keep7 m ρ c main_arg16 (by decide)).trans (arg6_16 m ρ c)
theorem arg8_16 (c : Dev nD) : W8 m ρ c (Proc.devRef .tc main_arg16) = m ((c : Thread nD τ).loc main_arg16) := (keep8 m ρ c main_arg16 (by decide)).trans (arg7_16 m ρ c)
theorem arg9_16 (c : Dev nD) : W9 m ρ c (Proc.devRef .tc main_arg16) = m ((c : Thread nD τ).loc main_arg16) := (keep9 m ρ c main_arg16 (by decide)).trans (arg8_16 m ρ c)
theorem arg10_16 (c : Dev nD) : W10 m ρ c (Proc.devRef .tc main_arg16) = m ((c : Thread nD τ).loc main_arg16) := (keep10 m ρ c main_arg16 (by decide)).trans (arg9_16 m ρ c)
theorem arg11_16 (c : Dev nD) : W11 m ρ c (Proc.devRef .tc main_arg16) = m ((c : Thread nD τ).loc main_arg16) := (keep11 m ρ c main_arg16 (by decide)).trans (arg10_16 m ρ c)
theorem arg12_16 (c : Dev nD) : W12 m ρ c (Proc.devRef .tc main_arg16) = m ((c : Thread nD τ).loc main_arg16) := (keep12 m ρ c main_arg16 (by decide)).trans (arg11_16 m ρ c)
theorem arg13_16 (c : Dev nD) : W13 m ρ c (Proc.devRef .tc main_arg16) = m ((c : Thread nD τ).loc main_arg16) := (keep13 m ρ c main_arg16 (by decide)).trans (arg12_16 m ρ c)
theorem arg0_17 (c : Dev nD) : W0 m ρ c (Proc.devRef .tc main_arg17) = m ((c : Thread nD τ).loc main_arg17) := rfl
theorem arg1_17 (c : Dev nD) : W1 m ρ c (Proc.devRef .tc main_arg17) = m ((c : Thread nD τ).loc main_arg17) := (keep1 m ρ c main_arg17 (by decide)).trans (arg0_17 m ρ c)
theorem arg2_17 (c : Dev nD) : W2 m ρ c (Proc.devRef .tc main_arg17) = m ((c : Thread nD τ).loc main_arg17) := (keep2 m ρ c main_arg17 (by decide)).trans (arg1_17 m ρ c)
theorem arg3_17 (c : Dev nD) : W3 m ρ c (Proc.devRef .tc main_arg17) = m ((c : Thread nD τ).loc main_arg17) := (keep3 m ρ c main_arg17 (by decide)).trans (arg2_17 m ρ c)
theorem arg4_17 (c : Dev nD) : W4 m ρ c (Proc.devRef .tc main_arg17) = m ((c : Thread nD τ).loc main_arg17) := (keep4 m ρ c main_arg17 (by decide)).trans (arg3_17 m ρ c)
theorem arg5_17 (c : Dev nD) : W5 m ρ c (Proc.devRef .tc main_arg17) = m ((c : Thread nD τ).loc main_arg17) := (keep5 m ρ c main_arg17 (by decide)).trans (arg4_17 m ρ c)
theorem arg6_17 (c : Dev nD) : W6 m ρ c (Proc.devRef .tc main_arg17) = m ((c : Thread nD τ).loc main_arg17) := (keep6 m ρ c main_arg17 (by decide)).trans (arg5_17 m ρ c)
theorem arg7_17 (c : Dev nD) : W7 m ρ c (Proc.devRef .tc main_arg17) = m ((c : Thread nD τ).loc main_arg17) := (keep7 m ρ c main_arg17 (by decide)).trans (arg6_17 m ρ c)
theorem arg8_17 (c : Dev nD) : W8 m ρ c (Proc.devRef .tc main_arg17) = m ((c : Thread nD τ).loc main_arg17) := (keep8 m ρ c main_arg17 (by decide)).trans (arg7_17 m ρ c)
theorem arg9_17 (c : Dev nD) : W9 m ρ c (Proc.devRef .tc main_arg17) = m ((c : Thread nD τ).loc main_arg17) := (keep9 m ρ c main_arg17 (by decide)).trans (arg8_17 m ρ c)
theorem arg10_17 (c : Dev nD) : W10 m ρ c (Proc.devRef .tc main_arg17) = m ((c : Thread nD τ).loc main_arg17) := (keep10 m ρ c main_arg17 (by decide)).trans (arg9_17 m ρ c)
theorem arg11_17 (c : Dev nD) : W11 m ρ c (Proc.devRef .tc main_arg17) = m ((c : Thread nD τ).loc main_arg17) := (keep11 m ρ c main_arg17 (by decide)).trans (arg10_17 m ρ c)
theorem arg12_17 (c : Dev nD) : W12 m ρ c (Proc.devRef .tc main_arg17) = m ((c : Thread nD τ).loc main_arg17) := (keep12 m ρ c main_arg17 (by decide)).trans (arg11_17 m ρ c)
theorem arg13_17 (c : Dev nD) : W13 m ρ c (Proc.devRef .tc main_arg17) = m ((c : Thread nD τ).loc main_arg17) := (keep13 m ρ c main_arg17 (by decide)).trans (arg12_17 m ρ c)
theorem arg0_18 (c : Dev nD) : W0 m ρ c (Proc.devRef .tc main_arg18) = m ((c : Thread nD τ).loc main_arg18) := rfl
theorem arg1_18 (c : Dev nD) : W1 m ρ c (Proc.devRef .tc main_arg18) = m ((c : Thread nD τ).loc main_arg18) := (keep1 m ρ c main_arg18 (by decide)).trans (arg0_18 m ρ c)
theorem arg2_18 (c : Dev nD) : W2 m ρ c (Proc.devRef .tc main_arg18) = m ((c : Thread nD τ).loc main_arg18) := (keep2 m ρ c main_arg18 (by decide)).trans (arg1_18 m ρ c)
theorem arg3_18 (c : Dev nD) : W3 m ρ c (Proc.devRef .tc main_arg18) = m ((c : Thread nD τ).loc main_arg18) := (keep3 m ρ c main_arg18 (by decide)).trans (arg2_18 m ρ c)
theorem arg4_18 (c : Dev nD) : W4 m ρ c (Proc.devRef .tc main_arg18) = m ((c : Thread nD τ).loc main_arg18) := (keep4 m ρ c main_arg18 (by decide)).trans (arg3_18 m ρ c)
theorem arg5_18 (c : Dev nD) : W5 m ρ c (Proc.devRef .tc main_arg18) = m ((c : Thread nD τ).loc main_arg18) := (keep5 m ρ c main_arg18 (by decide)).trans (arg4_18 m ρ c)
theorem arg6_18 (c : Dev nD) : W6 m ρ c (Proc.devRef .tc main_arg18) = m ((c : Thread nD τ).loc main_arg18) := (keep6 m ρ c main_arg18 (by decide)).trans (arg5_18 m ρ c)
theorem arg7_18 (c : Dev nD) : W7 m ρ c (Proc.devRef .tc main_arg18) = m ((c : Thread nD τ).loc main_arg18) := (keep7 m ρ c main_arg18 (by decide)).trans (arg6_18 m ρ c)
theorem arg8_18 (c : Dev nD) : W8 m ρ c (Proc.devRef .tc main_arg18) = m ((c : Thread nD τ).loc main_arg18) := (keep8 m ρ c main_arg18 (by decide)).trans (arg7_18 m ρ c)
theorem arg9_18 (c : Dev nD) : W9 m ρ c (Proc.devRef .tc main_arg18) = m ((c : Thread nD τ).loc main_arg18) := (keep9 m ρ c main_arg18 (by decide)).trans (arg8_18 m ρ c)
theorem arg10_18 (c : Dev nD) : W10 m ρ c (Proc.devRef .tc main_arg18) = m ((c : Thread nD τ).loc main_arg18) := (keep10 m ρ c main_arg18 (by decide)).trans (arg9_18 m ρ c)
theorem arg11_18 (c : Dev nD) : W11 m ρ c (Proc.devRef .tc main_arg18) = m ((c : Thread nD τ).loc main_arg18) := (keep11 m ρ c main_arg18 (by decide)).trans (arg10_18 m ρ c)
theorem arg12_18 (c : Dev nD) : W12 m ρ c (Proc.devRef .tc main_arg18) = m ((c : Thread nD τ).loc main_arg18) := (keep12 m ρ c main_arg18 (by decide)).trans (arg11_18 m ρ c)
theorem arg13_18 (c : Dev nD) : W13 m ρ c (Proc.devRef .tc main_arg18) = m ((c : Thread nD τ).loc main_arg18) := (keep13 m ρ c main_arg18 (by decide)).trans (arg12_18 m ρ c)
theorem arg0_19 (c : Dev nD) : W0 m ρ c (Proc.devRef .tc main_arg19) = m ((c : Thread nD τ).loc main_arg19) := rfl
theorem arg1_19 (c : Dev nD) : W1 m ρ c (Proc.devRef .tc main_arg19) = m ((c : Thread nD τ).loc main_arg19) := (keep1 m ρ c main_arg19 (by decide)).trans (arg0_19 m ρ c)
theorem arg2_19 (c : Dev nD) : W2 m ρ c (Proc.devRef .tc main_arg19) = m ((c : Thread nD τ).loc main_arg19) := (keep2 m ρ c main_arg19 (by decide)).trans (arg1_19 m ρ c)
theorem arg3_19 (c : Dev nD) : W3 m ρ c (Proc.devRef .tc main_arg19) = m ((c : Thread nD τ).loc main_arg19) := (keep3 m ρ c main_arg19 (by decide)).trans (arg2_19 m ρ c)
theorem arg4_19 (c : Dev nD) : W4 m ρ c (Proc.devRef .tc main_arg19) = m ((c : Thread nD τ).loc main_arg19) := (keep4 m ρ c main_arg19 (by decide)).trans (arg3_19 m ρ c)
theorem arg5_19 (c : Dev nD) : W5 m ρ c (Proc.devRef .tc main_arg19) = m ((c : Thread nD τ).loc main_arg19) := (keep5 m ρ c main_arg19 (by decide)).trans (arg4_19 m ρ c)
theorem arg6_19 (c : Dev nD) : W6 m ρ c (Proc.devRef .tc main_arg19) = m ((c : Thread nD τ).loc main_arg19) := (keep6 m ρ c main_arg19 (by decide)).trans (arg5_19 m ρ c)
theorem arg7_19 (c : Dev nD) : W7 m ρ c (Proc.devRef .tc main_arg19) = m ((c : Thread nD τ).loc main_arg19) := (keep7 m ρ c main_arg19 (by decide)).trans (arg6_19 m ρ c)
theorem arg8_19 (c : Dev nD) : W8 m ρ c (Proc.devRef .tc main_arg19) = m ((c : Thread nD τ).loc main_arg19) := (keep8 m ρ c main_arg19 (by decide)).trans (arg7_19 m ρ c)
theorem arg9_19 (c : Dev nD) : W9 m ρ c (Proc.devRef .tc main_arg19) = m ((c : Thread nD τ).loc main_arg19) := (keep9 m ρ c main_arg19 (by decide)).trans (arg8_19 m ρ c)
theorem arg10_19 (c : Dev nD) : W10 m ρ c (Proc.devRef .tc main_arg19) = m ((c : Thread nD τ).loc main_arg19) := (keep10 m ρ c main_arg19 (by decide)).trans (arg9_19 m ρ c)
theorem arg11_19 (c : Dev nD) : W11 m ρ c (Proc.devRef .tc main_arg19) = m ((c : Thread nD τ).loc main_arg19) := (keep11 m ρ c main_arg19 (by decide)).trans (arg10_19 m ρ c)
theorem arg12_19 (c : Dev nD) : W12 m ρ c (Proc.devRef .tc main_arg19) = m ((c : Thread nD τ).loc main_arg19) := (keep12 m ρ c main_arg19 (by decide)).trans (arg11_19 m ρ c)
theorem arg13_19 (c : Dev nD) : W13 m ρ c (Proc.devRef .tc main_arg19) = m ((c : Thread nD τ).loc main_arg19) := (keep13 m ρ c main_arg19 (by decide)).trans (arg12_19 m ρ c)
theorem arg0_20 (c : Dev nD) : W0 m ρ c (Proc.devRef .tc main_arg20) = m ((c : Thread nD τ).loc main_arg20) := rfl
theorem arg1_20 (c : Dev nD) : W1 m ρ c (Proc.devRef .tc main_arg20) = m ((c : Thread nD τ).loc main_arg20) := (keep1 m ρ c main_arg20 (by decide)).trans (arg0_20 m ρ c)
theorem arg2_20 (c : Dev nD) : W2 m ρ c (Proc.devRef .tc main_arg20) = m ((c : Thread nD τ).loc main_arg20) := (keep2 m ρ c main_arg20 (by decide)).trans (arg1_20 m ρ c)
theorem arg3_20 (c : Dev nD) : W3 m ρ c (Proc.devRef .tc main_arg20) = m ((c : Thread nD τ).loc main_arg20) := (keep3 m ρ c main_arg20 (by decide)).trans (arg2_20 m ρ c)
theorem arg4_20 (c : Dev nD) : W4 m ρ c (Proc.devRef .tc main_arg20) = m ((c : Thread nD τ).loc main_arg20) := (keep4 m ρ c main_arg20 (by decide)).trans (arg3_20 m ρ c)
theorem arg5_20 (c : Dev nD) : W5 m ρ c (Proc.devRef .tc main_arg20) = m ((c : Thread nD τ).loc main_arg20) := (keep5 m ρ c main_arg20 (by decide)).trans (arg4_20 m ρ c)
theorem arg6_20 (c : Dev nD) : W6 m ρ c (Proc.devRef .tc main_arg20) = m ((c : Thread nD τ).loc main_arg20) := (keep6 m ρ c main_arg20 (by decide)).trans (arg5_20 m ρ c)
theorem arg7_20 (c : Dev nD) : W7 m ρ c (Proc.devRef .tc main_arg20) = m ((c : Thread nD τ).loc main_arg20) := (keep7 m ρ c main_arg20 (by decide)).trans (arg6_20 m ρ c)
theorem arg8_20 (c : Dev nD) : W8 m ρ c (Proc.devRef .tc main_arg20) = m ((c : Thread nD τ).loc main_arg20) := (keep8 m ρ c main_arg20 (by decide)).trans (arg7_20 m ρ c)
theorem arg9_20 (c : Dev nD) : W9 m ρ c (Proc.devRef .tc main_arg20) = m ((c : Thread nD τ).loc main_arg20) := (keep9 m ρ c main_arg20 (by decide)).trans (arg8_20 m ρ c)
theorem arg10_20 (c : Dev nD) : W10 m ρ c (Proc.devRef .tc main_arg20) = m ((c : Thread nD τ).loc main_arg20) := (keep10 m ρ c main_arg20 (by decide)).trans (arg9_20 m ρ c)
theorem arg11_20 (c : Dev nD) : W11 m ρ c (Proc.devRef .tc main_arg20) = m ((c : Thread nD τ).loc main_arg20) := (keep11 m ρ c main_arg20 (by decide)).trans (arg10_20 m ρ c)
theorem arg12_20 (c : Dev nD) : W12 m ρ c (Proc.devRef .tc main_arg20) = m ((c : Thread nD τ).loc main_arg20) := (keep12 m ρ c main_arg20 (by decide)).trans (arg11_20 m ρ c)
theorem arg13_20 (c : Dev nD) : W13 m ρ c (Proc.devRef .tc main_arg20) = m ((c : Thread nD τ).loc main_arg20) := (keep13 m ρ c main_arg20 (by decide)).trans (arg12_20 m ρ c)
theorem arg0_21 (c : Dev nD) : W0 m ρ c (Proc.devRef .tc main_arg21) = m ((c : Thread nD τ).loc main_arg21) := rfl
theorem arg1_21 (c : Dev nD) : W1 m ρ c (Proc.devRef .tc main_arg21) = m ((c : Thread nD τ).loc main_arg21) := (keep1 m ρ c main_arg21 (by decide)).trans (arg0_21 m ρ c)
theorem arg2_21 (c : Dev nD) : W2 m ρ c (Proc.devRef .tc main_arg21) = m ((c : Thread nD τ).loc main_arg21) := (keep2 m ρ c main_arg21 (by decide)).trans (arg1_21 m ρ c)
theorem arg3_21 (c : Dev nD) : W3 m ρ c (Proc.devRef .tc main_arg21) = m ((c : Thread nD τ).loc main_arg21) := (keep3 m ρ c main_arg21 (by decide)).trans (arg2_21 m ρ c)
theorem arg4_21 (c : Dev nD) : W4 m ρ c (Proc.devRef .tc main_arg21) = m ((c : Thread nD τ).loc main_arg21) := (keep4 m ρ c main_arg21 (by decide)).trans (arg3_21 m ρ c)
theorem arg5_21 (c : Dev nD) : W5 m ρ c (Proc.devRef .tc main_arg21) = m ((c : Thread nD τ).loc main_arg21) := (keep5 m ρ c main_arg21 (by decide)).trans (arg4_21 m ρ c)
theorem arg6_21 (c : Dev nD) : W6 m ρ c (Proc.devRef .tc main_arg21) = m ((c : Thread nD τ).loc main_arg21) := (keep6 m ρ c main_arg21 (by decide)).trans (arg5_21 m ρ c)
theorem arg7_21 (c : Dev nD) : W7 m ρ c (Proc.devRef .tc main_arg21) = m ((c : Thread nD τ).loc main_arg21) := (keep7 m ρ c main_arg21 (by decide)).trans (arg6_21 m ρ c)
theorem arg8_21 (c : Dev nD) : W8 m ρ c (Proc.devRef .tc main_arg21) = m ((c : Thread nD τ).loc main_arg21) := (keep8 m ρ c main_arg21 (by decide)).trans (arg7_21 m ρ c)
theorem arg9_21 (c : Dev nD) : W9 m ρ c (Proc.devRef .tc main_arg21) = m ((c : Thread nD τ).loc main_arg21) := (keep9 m ρ c main_arg21 (by decide)).trans (arg8_21 m ρ c)
theorem arg10_21 (c : Dev nD) : W10 m ρ c (Proc.devRef .tc main_arg21) = m ((c : Thread nD τ).loc main_arg21) := (keep10 m ρ c main_arg21 (by decide)).trans (arg9_21 m ρ c)
theorem arg11_21 (c : Dev nD) : W11 m ρ c (Proc.devRef .tc main_arg21) = m ((c : Thread nD τ).loc main_arg21) := (keep11 m ρ c main_arg21 (by decide)).trans (arg10_21 m ρ c)
theorem arg12_21 (c : Dev nD) : W12 m ρ c (Proc.devRef .tc main_arg21) = m ((c : Thread nD τ).loc main_arg21) := (keep12 m ρ c main_arg21 (by decide)).trans (arg11_21 m ρ c)
theorem arg13_21 (c : Dev nD) : W13 m ρ c (Proc.devRef .tc main_arg21) = m ((c : Thread nD τ).loc main_arg21) := (keep13 m ρ c main_arg21 (by decide)).trans (arg12_21 m ρ c)

/-! ## Layer 1 -/

theorem W1_v9 (c : Dev nD) : W1 m ρ c (Proc.devRef .tc main_v9) = toR64 (argsOf m c).x_s (argsOf m c).eL (argsOf m c).eR := by
  show StableHlo.after main_part0_ops0 (W0 m ρ c) (Proc.devRef .tc main_v9) = _
  after_results_simp
  rfl

theorem W1_v19 (c : Dev nD) : W1 m ρ c (Proc.devRef .tc main_v19) = toL64 (argsOf m c).x_t (argsOf m c).eL (argsOf m c).eR := by
  show StableHlo.after main_part0_ops0 (W0 m ρ c) (Proc.devRef .tc main_v19) = _
  after_results_simp
  rfl

theorem W1_v20 (c : Dev nD) : W1 m ρ c (Proc.devRef .tc main_v20) = row128 (argsOf m c).b1lr := by
  show StableHlo.after main_part0_ops0 (W0 m ρ c) (Proc.devRef .tc main_v20) = _
  after_results_simp
  rfl

/-- Launch 0 leaves layer 1 of the right nodes. -/
theorem W2_v21 (c : Dev nD) : W2 m ρ c (Proc.devRef .tc main_v21) = r1 (argsOf m c) := by
  refine (W2_arr m ρ c 5).trans ?_
  rw [final0]
  show conv (W1 m ρ c (Proc.devRef .tc main_v9)) (W1 m ρ c (Proc.devRef .tc main_arg1)) (W1 m ρ c (Proc.devRef .tc main_arg4)) (W1 m ρ c (Proc.devRef .tc main_arg6)) (W1 m ρ c (Proc.devRef .tc main_v20)) = _
  rw [W1_v9, W1_v20, arg1_1, arg1_4, arg1_6]
  rfl
theorem W3_v22 (c : Dev nD) : W3 m ρ c (Proc.devRef .tc main_v22) = row128 (argsOf m c).b1rl := by
  show StableHlo.after main_part0_ops1 (W2 m ρ c) (Proc.devRef .tc main_v22) = _
  after_results_simp
  rw [arg2_8]
  rfl

theorem W3_v19 (c : Dev nD) : W3 m ρ c (Proc.devRef .tc main_v19) = toL64 (argsOf m c).x_t (argsOf m c).eL (argsOf m c).eR :=
  (keep3 m ρ c main_v19 (by decide)).trans ((keep2 m ρ c main_v19 (by decide)).trans (W1_v19 m ρ c))
/-- Launch 1 leaves layer 1 of the left nodes. -/
theorem W4_v23 (c : Dev nD) : W4 m ρ c (Proc.devRef .tc main_v23) = l1 (argsOf m c) := by
  refine (W4_arr m ρ c 5).trans ?_
  rw [final1]
  show conv (W3 m ρ c (Proc.devRef .tc main_v19)) (W3 m ρ c (Proc.devRef .tc main_arg0)) (W3 m ρ c (Proc.devRef .tc main_arg7)) (W3 m ρ c (Proc.devRef .tc main_arg9)) (W3 m ρ c (Proc.devRef .tc main_v22)) = _
  rw [W3_v19, W3_v22, arg3_0, arg3_7, arg3_9]
  rfl
theorem W4_v21 (c : Dev nD) : W4 m ρ c (Proc.devRef .tc main_v21) = r1 (argsOf m c) :=
  (keep4 m ρ c main_v21 (by decide)).trans ((keep3 m ρ c main_v21 (by decide)).trans (W2_v21 m ρ c))

/-! ## Layer 2 and the width-3 projections -/

theorem W5_v33 (c : Dev nD) : W5 m ρ c (Proc.devRef .tc main_v33) = toR128 (l1 (argsOf m c)) (argsOf m c).eL (argsOf m c).eR := by
  show StableHlo.after main_part0_ops2 (W4 m ρ c) (Proc.devRef .tc main_v33) = _
  after_results_simp
  rw [W4_v23, arg4_2, arg4_3]
  rfl

theorem W5_v43 (c : Dev nD) : W5 m ρ c (Proc.devRef .tc main_v43) = toL128 (r1 (argsOf m c)) (argsOf m c).eL (argsOf m c).eR := by
  show StableHlo.after main_part0_ops2 (W4 m ρ c) (Proc.devRef .tc main_v43) = _
  after_results_simp
  rw [W4_v21, arg4_2, arg4_3]
  rfl

theorem W5_v44 (c : Dev nD) : W5 m ρ c (Proc.devRef .tc main_v44) = row128 (argsOf m c).b2lr := by
  show StableHlo.after main_part0_ops2 (W4 m ρ c) (Proc.devRef .tc main_v44) = _
  after_results_simp
  rw [arg4_11]
  rfl

theorem W5_v21 (c : Dev nD) : W5 m ρ c (Proc.devRef .tc main_v21) = r1 (argsOf m c) :=
  (keep5 m ρ c main_v21 (by decide)).trans (W4_v21 m ρ c)
theorem W5_v23 (c : Dev nD) : W5 m ρ c (Proc.devRef .tc main_v23) = l1 (argsOf m c) :=
  (keep5 m ρ c main_v23 (by decide)).trans (W4_v23 m ρ c)
/-- Launch 2 leaves layer 2 of the right nodes and its projection. -/
theorem W6_v45_0 (c : Dev nD) : W6 m ρ c (Proc.devRef .tc main_v45_0) = r2 (argsOf m c) := by
  refine (W6_arr m ρ c 6).trans ?_
  rw [final2_6]
  show conv (W5 m ρ c (Proc.devRef .tc main_v33)) (W5 m ρ c (Proc.devRef .tc main_v21)) (W5 m ρ c (Proc.devRef .tc main_arg10)) (W5 m ρ c (Proc.devRef .tc main_arg12)) (W5 m ρ c (Proc.devRef .tc main_v44)) = _
  rw [W5_v33, W5_v21, W5_v44, arg5_10, arg5_12]
  rfl
theorem W6_v45_1 (c : Dev nD) : W6 m ρ c (Proc.devRef .tc main_v45_1) = pr2 (argsOf m c) := by
  refine (W6_arr m ρ c 7).trans ?_
  rw [final2_7]
  show mm (conv (W5 m ρ c (Proc.devRef .tc main_v33)) (W5 m ρ c (Proc.devRef .tc main_v21)) (W5 m ρ c (Proc.devRef .tc main_arg10)) (W5 m ρ c (Proc.devRef .tc main_arg12)) (W5 m ρ c (Proc.devRef .tc main_v44))) (W5 m ρ c (Proc.devRef .tc main_arg19)) = _
  rw [W5_v33, W5_v21, W5_v44, arg5_10, arg5_12, arg5_19]
  rfl
theorem W7_v46 (c : Dev nD) : W7 m ρ c (Proc.devRef .tc main_v46) = row128 (argsOf m c).b2rl := by
  show StableHlo.after main_part0_ops3 (W6 m ρ c) (Proc.devRef .tc main_v46) = _
  after_results_simp
  rw [arg6_14]
  rfl

theorem W7_v43 (c : Dev nD) : W7 m ρ c (Proc.devRef .tc main_v43) = toL128 (r1 (argsOf m c)) (argsOf m c).eL (argsOf m c).eR :=
  (keep7 m ρ c main_v43 (by decide)).trans ((keep6 m ρ c main_v43 (by decide)).trans (W5_v43 m ρ c))
theorem W7_v23 (c : Dev nD) : W7 m ρ c (Proc.devRef .tc main_v23) = l1 (argsOf m c) :=
  (keep7 m ρ c main_v23 (by decide)).trans ((keep6 m ρ c main_v23 (by decide)).trans (W5_v23 m ρ c))
/-- Launch 3 leaves layer 2 of the left nodes and its projection. -/
theorem W8_v47_0 (c : Dev nD) : W8 m ρ c (Proc.devRef .tc main_v47_0) = l2 (argsOf m c) := by
  refine (W8_arr m ρ c 6).trans ?_
  rw [final3_6]
  show conv (W7 m ρ c (Proc.devRef .tc main_v43)) (W7 m ρ c (Proc.devRef .tc main_v23)) (W7 m ρ c (Proc.devRef .tc main_arg13)) (W7 m ρ c (Proc.devRef .tc main_arg15)) (W7 m ρ c (Proc.devRef .tc main_v46)) = _
  rw [W7_v43, W7_v23, W7_v46, arg7_13, arg7_15]
  rfl
theorem W8_v47_1 (c : Dev nD) : W8 m ρ c (Proc.devRef .tc main_v47_1) = pl2 (argsOf m c) := by
  refine (W8_arr m ρ c 7).trans ?_
  rw [final3_7]
  show mm (conv (W7 m ρ c (Proc.devRef .tc main_v43)) (W7 m ρ c (Proc.devRef .tc main_v23)) (W7 m ρ c (Proc.devRef .tc main_arg13)) (W7 m ρ c (Proc.devRef .tc main_arg15)) (W7 m ρ c (Proc.devRef .tc main_v46))) (W7 m ρ c (Proc.devRef .tc main_arg16)) = _
  rw [W7_v43, W7_v23, W7_v46, arg7_13, arg7_15, arg7_16]
  rfl
theorem W8_v45_0 (c : Dev nD) : W8 m ρ c (Proc.devRef .tc main_v45_0) = r2 (argsOf m c) :=
  (keep8 m ρ c main_v45_0 (by decide)).trans ((keep7 m ρ c main_v45_0 (by decide)).trans (W6_v45_0 m ρ c))
theorem W8_v45_1 (c : Dev nD) : W8 m ρ c (Proc.devRef .tc main_v45_1) = pr2 (argsOf m c) :=
  (keep8 m ρ c main_v45_1 (by decide)).trans ((keep7 m ρ c main_v45_1 (by decide)).trans (W6_v45_1 m ρ c))

/-! ## Layer 3 -/

theorem W9_v57 (c : Dev nD) : W9 m ρ c (Proc.devRef .tc main_v57) = toR3 (pl2 (argsOf m c)) (argsOf m c).eL (argsOf m c).eR := by
  show StableHlo.after main_part1_ops0 (W8 m ρ c) (Proc.devRef .tc main_v57) = _
  after_results_simp
  rw [W8_v47_1, arg8_2, arg8_3]
  rfl

theorem W9_v67 (c : Dev nD) : W9 m ρ c (Proc.devRef .tc main_v67) = toL3 (pr2 (argsOf m c)) (argsOf m c).eL (argsOf m c).eR := by
  show StableHlo.after main_part1_ops0 (W8 m ρ c) (Proc.devRef .tc main_v67) = _
  after_results_simp
  rw [W8_v45_1, arg8_2, arg8_3]
  rfl

set_option maxHeartbeats 2000000 in
/-- The two indicator arrays (their last lines sit in the next stretch). -/
theorem W10_v96 (c : Dev nD) : W10 m ρ c (Proc.devRef .tc main_v96) = knowL (argsOf m c).x_s := by
  show StableHlo.after main_part2_ops0 (StableHlo.after main_part1_ops0 (W8 m ρ c)) (Proc.devRef .tc main_v96) = _
  after_results_simp3
  unfold knowL
  refine congrArg (mulf _) (congrArg (uitofp .f32) (concat3_congr _ _ _ _ _ _ _ _ ?_ ?_ ?_))
  · after_results_operands3
    rw [arg8_0]
    rfl
  · after_results_operands3
    rfl
  · after_results_operands3
    rw [arg8_0]
    rfl
set_option maxHeartbeats 2000000 in
theorem W10_v103 (c : Dev nD) : W10 m ρ c (Proc.devRef .tc main_v103) = knowR (argsOf m c).x_t := by
  show StableHlo.after main_part2_ops0 (StableHlo.after main_part1_ops0 (W8 m ρ c)) (Proc.devRef .tc main_v103) = _
  after_results_simp3
  unfold knowR
  refine congrArg (mulf _) (congrArg (uitofp .f32) (concat3_congr _ _ _ _ _ _ _ _ ?_ ?_ ?_))
  · after_results_operands3
    rw [arg8_1]
    rfl
  · after_results_operands3
    rfl
  · after_results_operands3
    rw [arg8_1]
    rfl
theorem W10_v104 (c : Dev nD) : W10 m ρ c (Proc.devRef .tc main_v104) = row3 (argsOf m c).b3lr := by
  show StableHlo.after main_part2_ops0 (W9 m ρ c) (Proc.devRef .tc main_v104) = _
  after_results_simp
  rw [arg8_17]
  rfl

theorem W10_v57 (c : Dev nD) : W10 m ρ c (Proc.devRef .tc main_v57) = toR3 (pl2 (argsOf m c)) (argsOf m c).eL (argsOf m c).eR :=
  (keep10 m ρ c main_v57 (by decide)).trans (W9_v57 m ρ c)
theorem W10_v45_0 (c : Dev nD) : W10 m ρ c (Proc.devRef .tc main_v45_0) = r2 (argsOf m c) :=
  (keep10 m ρ c main_v45_0 (by decide)).trans ((keep9 m ρ c main_v45_0 (by decide)).trans (W8_v45_0 m ρ c))
/-- Launch 4 leaves the program's second result. -/
theorem W11_v105 (c : Dev nD) : W11 m ρ c (Proc.devRef .tc main_v105) = right (argsOf m c) := by
  refine (W11_arr m ρ c 5).trans ?_
  rw [final4]
  show scaled (pre3 (W10 m ρ c (Proc.devRef .tc main_v57)) (W10 m ρ c (Proc.devRef .tc main_v45_0)) (W10 m ρ c (Proc.devRef .tc main_arg18)) (W10 m ρ c (Proc.devRef .tc main_v104))) (W10 m ρ c (Proc.devRef .tc main_v103)) = _
  rw [W10_v57, W10_v45_0, W10_v104, W10_v103, arg10_18]
  rfl
theorem W12_v106 (c : Dev nD) : W12 m ρ c (Proc.devRef .tc main_v106) = row3 (argsOf m c).b3rl := by
  show StableHlo.after main_part2_ops1 (W11 m ρ c) (Proc.devRef .tc main_v106) = _
  after_results_simp
  rw [arg11_20]
  rfl

theorem W12_v67 (c : Dev nD) : W12 m ρ c (Proc.devRef .tc main_v67) = toL3 (pr2 (argsOf m c)) (argsOf m c).eL (argsOf m c).eR :=
  (keep12 m ρ c main_v67 (by decide)).trans ((keep11 m ρ c main_v67 (by decide)).trans ((keep10 m ρ c main_v67 (by decide)).trans (W9_v67 m ρ c)))
theorem W12_v47_0 (c : Dev nD) : W12 m ρ c (Proc.devRef .tc main_v47_0) = l2 (argsOf m c) :=
  (keep12 m ρ c main_v47_0 (by decide)).trans ((keep11 m ρ c main_v47_0 (by decide)).trans ((keep10 m ρ c main_v47_0 (by decide)).trans ((keep9 m ρ c main_v47_0 (by decide)).trans (W8_v47_0 m ρ c))))
theorem W12_v96 (c : Dev nD) : W12 m ρ c (Proc.devRef .tc main_v96) = knowL (argsOf m c).x_s :=
  (keep12 m ρ c main_v96 (by decide)).trans ((keep11 m ρ c main_v96 (by decide)).trans (W10_v96 m ρ c))
/-- Launch 5 leaves the program's first result, -/
theorem kernel_left (c : Dev nD) : W13 m ρ c (Proc.devRef .tc main_v107) = left (argsOf m c) := by
  refine (W13_arr m ρ c 5).trans ?_
  rw [final5]
  show scaled (pre3 (W12 m ρ c (Proc.devRef .tc main_v67)) (W12 m ρ c (Proc.devRef .tc main_v47_0)) (W12 m ρ c (Proc.devRef .tc main_arg21)) (W12 m ρ c (Proc.devRef .tc main_v106))) (W12 m ρ c (Proc.devRef .tc main_v96)) = _
  rw [W12_v67, W12_v47_0, W12_v106, W12_v96, arg12_21]
  rfl
/-- and does not touch the second. -/
theorem kernel_right (c : Dev nD) : W13 m ρ c (Proc.devRef .tc main_v105) = right (argsOf m c) :=
  (keep13 m ρ c main_v105 (by decide)).trans ((keep12 m ρ c main_v105 (by decide)).trans (W11_v105 m ρ c))

end Cert.KernelIdeal.Hand

end
-- ==== Proof.KI.KernelRun.lean ====
import proofs.«171555_j63479616635263_2_alg».proof.Proof.KI.Run
import proofs.«171555_j63479616635263_2_alg».proof.Proof.KI.Chain

/-!
# The idealized kernel program's run, with its two results named

Every weakly fair execution of @main from a memory with zero counters ends with the first result buffer at
`Spec.left` and the second at `Spec.right` of the argument arrays, which are unchanged: the run over @main's
segments read at the two result buffers through the boundary walk.
-/

noncomputable section

namespace Cert.KernelIdeal.Hand

open Cert.KernelIdeal Cert.KernelIdeal.Gen Cert.KernelIdeal.Spec
open Idealize.ShloMosaic Idealize.ShloMosaic.TcCoe
open Idealize.SL Idealize.SL.Sem

variable (m : (ℓ : Loc nD τ sig) → Buf (Elt Ideal) ℓ) (ρ : Dev nD → PrngReg)

theorem run_values : θ_run (defs (F := Ideal)) (onTc (τ := τ) (main (F := Ideal))) ⟨m, fun _ => 0, ρ⟩ (fun r => ∀ c : Dev nD,
      r.2.mem ((c.tc : Thread nD τ).loc main_v107) = left (argsOf m c)
      ∧ r.2.mem ((c.tc : Thread nD τ).loc main_v105) = right (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c _ (mem_uc main_v107 (by decide))).trans (kernel_left m ρ c),
     (h c _ (mem_uc main_v105 (by decide))).trans (kernel_right m ρ c),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c),
     (h c _ (mem_uc main_arg12 (by decide))).trans (W13_main_arg12 m ρ c),
     (h c _ (mem_uc main_arg13 (by decide))).trans (W13_main_arg13 m ρ c),
     (h c _ (mem_uc main_arg14 (by decide))).trans (W13_main_arg14 m ρ c),
     (h c _ (mem_uc main_arg15 (by decide))).trans (W13_main_arg15 m ρ c),
     (h c _ (mem_uc main_arg16 (by decide))).trans (W13_main_arg16 m ρ c),
     (h c _ (mem_uc main_arg17 (by decide))).trans (W13_main_arg17 m ρ c),
     (h c _ (mem_uc main_arg18 (by decide))).trans (W13_main_arg18 m ρ c),
     (h c _ (mem_uc main_arg19 (by decide))).trans (W13_main_arg19 m ρ c),
     (h c _ (mem_uc main_arg20 (by decide))).trans (W13_main_arg20 m ρ c),
     (h c _ (mem_uc main_arg21 (by decide))).trans (W13_main_arg21 m ρ c)⟩)
    (run_main m ρ)

end Cert.KernelIdeal.Hand

end
-- ==== Proof.LibBiasRows.lean ====
/-
  A vector repeated down the rows, or across the columns, of a matrix, the way the host writes it.

  A vector b of length n is first made a 1 × n row (broadcast along a new leading axis) and the row is then repeated
  M times (broadcast along that axis). Entry (r, a) of the result is b(a), whatever the row r. Likewise a vector
  v of length E made an E × 1 column and repeated across C columns has v(e) at entry (e, l).
-/
import Idealize.ShloMosaic.Lib.Pipeline.Value
import Idealize.ShloMosaic.Lib.ValueIdx

namespace Idealize.ShloMosaic.ValueIdx

open Idealize.ShloMosaic

variable {α : Type}

/-- A length-`n` vector broadcast to `[1, n]` and then to `[M, n]` reads, at `(r, a)`, the vector at `a`. -/
theorem bias_rows_apply {M n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (r : Fin M) (a : Fin n) :
    broadcastInDim ⟨2, ![M, n]⟩ (![0, 1] : Fin 2 → Fin 2) h2 (broadcastInDim ⟨2, ![1, n]⟩ (![1] : Fin 1 → Fin 2) h1 b) (ix2 r a)
      = b (ix1 a) := by
  refine (broadcastInDim_apply _ h2 _ (ix2 r a) (ix2 (0 : Fin 1) a) (fun ax => ?_)).trans
    (broadcastInDim_apply _ h1 b (ix2 (0 : Fin 1) a) (ix1 a) (fun ax => ?_))
  · match ax with
    | ⟨0, _⟩ => show 0 = if (1 : ℕ) = 1 then 0 else r.val; rw [if_pos rfl]
    | ⟨1, _⟩ =>
      show a.val = if n = 1 then 0 else a.val
      split
      · have := a.isLt; omega
      · rfl
  · match ax with
    | ⟨0, _⟩ =>
      show a.val = if n = 1 then 0 else a.val
      split
      · have := a.isLt; omega
      · rfl

/-- A length-`E` vector broadcast to one column `[E, 1]` and then across `C` columns reads, at `(e, l)`, the vector
    at `e`: one factor per row, repeated along the row. -/
theorem row_factors_apply {E C : ℕ} (v : (⟨1, ![E]⟩ : Shape).Idx → α)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2))
    (e : Fin E) (l : Fin C) :
    broadcastInDim ⟨2, ![E, C]⟩ (![0, 1] : Fin 2 → Fin 2) h2 (broadcastInDim ⟨2, ![E, 1]⟩ (![0] : Fin 1 → Fin 2) h1 v) (ix2 e l)
      = v (ix1 e) := by
  refine (broadcastInDim_apply _ h2 _ (ix2 e l) (ix2 e (0 : Fin 1)) (fun ax => ?_)).trans
    (broadcastInDim_apply _ h1 v (ix2 e (0 : Fin 1)) (ix1 e) (fun ax => ?_))
  · match ax with
    | ⟨0, _⟩ =>
      show e.val = if E = 1 then 0 else e.val
      split
      · have := e.isLt; omega
      · rfl
    | ⟨1, _⟩ => show 0 = if (1 : ℕ) = 1 then 0 else l.val; rw [if_pos rfl]
  · match ax with
    | ⟨0, _⟩ =>
      show e.val = if E = 1 then 0 else e.val
      split
      · have := e.isLt; omega
      · rfl

end Idealize.ShloMosaic.ValueIdx
-- ==== Proof.LibERealSums.lean ====
/-
  Finite sums of real numbers inside the extended reals. The inclusion of the reals into [−∞, +∞] carries a finite
  sum to the sum of the inclusions (by induction on the index set, from the two-term case), so a sum of products of
  included reals is the included sum of the real products.
-/
import Idealize.ShloMosaic.PureOps.Ideal

noncomputable section

namespace Cert.Attn

/-- The inclusion ℝ → [−∞, +∞] commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ k, f k : ℝ) : EReal) = ∑ k, ((f k : ℝ) : EReal) := coe_sum _ _

/-- A sum of products of included reals is the included sum of the products. -/
theorem sum_coe_mul_coe {ι : Type} [Fintype ι] (f g : ι → ℝ) :
    ∑ k, ((f k : ℝ) : EReal) * ((g k : ℝ) : EReal) = ((∑ k, f k * g k : ℝ) : EReal) := by
  rw [coe_sum_univ]
  exact Finset.sum_congr rfl fun k _ => (EReal.coe_mul _ _).symm

/-- The maximum, from −∞, of finitely many included reals over a nonempty index set is an included real. -/
theorem fold_max_coe_exists {ι : Type} (s : Finset ι) (hs : s.Nonempty) (f : ι → ℝ) :
    ∃ ρ : ℝ, s.fold max (⊥ : EReal) (fun k => ((f k : ℝ) : EReal)) = (ρ : EReal) := by
  classical
  induction hs using Finset.Nonempty.cons_induction with
  | singleton a => exact ⟨f a, by simp⟩
  | cons a s ha hs ih =>
    obtain ⟨ρ, hρ⟩ := ih
    refine ⟨max (f a) ρ, ?_⟩
    rw [Finset.fold_cons, hρ]
    exact (EReal.coe_strictMono.monotone.map_max).symm

end Cert.Attn

end
-- ==== Proof.LibSoftmaxShift.lean ====
/-
  The softmax of a rank-one sum, on the extended reals [−∞, +∞].

  If the logits of a row are e j = a + d j with a and every d j real numbers, then the row's maximum is a plus the
  maximum of the d j, so the shifted logits e j − max e are the shifted d j − max d: the row's softmax does not depend
  on a. Adding a real number is a monotone map of [−∞, +∞] that fixes −∞, so it commutes with a maximum folded from −∞
  (this needs no finiteness of the entries and no nonemptiness of the index set); the cancellation
  (a + x) − (a + ρ) = x − ρ is where the entries have to be real.

  Also here: the reassociation of one term of an attention product (no finiteness: the product of [−∞, +∞] is
  commutative and associative), and the two facts about a 0/1 mask m: (a · (1 − m)) · m = 0 and 1 − m ∈ {0, 1}.
-/
import Idealize.ShloMosaic.PureOps.Ideal
import proofs.«171555_j63479616635263_2_alg».proof.Proof.LibERealSums

noncomputable section

namespace Cert.GatSgc

/-- Adding a real number commutes with a binary maximum on [−∞, +∞]: x ↦ a + x is monotone. -/
theorem coe_add_max (a : ℝ) (x y : EReal) :
    (a : EReal) + max x y = max ((a : EReal) + x) ((a : EReal) + y) :=
  Monotone.map_max (f := fun z : EReal => (a : EReal) + z) (fun _ _ h => add_le_add le_rfl h)

/-- A fold of any commutative associative operation that is pointwise the maximum is the fold of the maximum. -/
theorem fold_op_eq_fold_max {ι : Type} (s : Finset ι) (op : EReal → EReal → EReal) [Std.Commutative op]
    [Std.Associative op] (hop : ∀ x y, op x y = max x y) (b : EReal) (f : ι → EReal) :
    s.fold op b f = s.fold max b f := by
  have h : op = max := funext fun x => funext fun y => hop x y
  subst h
  rfl

/-- The max-fold shift: the maximum, from −∞, of the a + f j is a plus the maximum of the f j, for a real a and ANY
    extended-real entries f j, over any finite index set (empty included: a + −∞ = −∞). -/
theorem fold_max_coe_add {ι : Type} (s : Finset ι) (a : ℝ) (f : ι → EReal) :
    s.fold max (⊥ : EReal) (fun j => (a : EReal) + f j) = (a : EReal) + s.fold max (⊥ : EReal) f := by
  classical
  induction s using Finset.induction_on with
  | empty => simp
  | insert j s hj ih => rw [Finset.fold_insert hj, Finset.fold_insert hj, ih, coe_add_max]

/-- The maximum, from −∞, of real entries over a nonempty finite type is a real number. -/
theorem fold_max_real {ι : Type} [Fintype ι] [Nonempty ι] (f : ι → EReal) (hf : ∀ j, ∃ r : ℝ, f j = (r : EReal)) :
    ∃ ρ : ℝ, Finset.univ.fold max (⊥ : EReal) f = (ρ : EReal) := by
  choose g hg using hf
  obtain ⟨ρ, hρ⟩ := Cert.Attn.fold_max_coe_exists Finset.univ Finset.univ_nonempty g
  exact ⟨ρ, by rw [show f = fun k => ((g k : ℝ) : EReal) from funext hg]; exact hρ⟩

/-- The same with the outer max(−∞, ·) both programs apply to the folded maximum. -/
theorem max_bot_fold_max_real {ι : Type} [Fintype ι] [Nonempty ι] (f : ι → EReal)
    (hf : ∀ j, ∃ r : ℝ, f j = (r : EReal)) :
    ∃ ρ : ℝ, max (⊥ : EReal) (Finset.univ.fold max (⊥ : EReal) f) = (ρ : EReal) := by
  obtain ⟨ρ, hρ⟩ := fold_max_real f hf
  exact ⟨ρ, by rw [max_bot_left, hρ]⟩

/-- The shifted logits of a rank-one row: with a and every d k real, (a + d j) − max(−∞, max_k (a + d k)) is
    d j − max(−∞, max_k d k). -/
theorem sub_max_fold_shift {ι : Type} [Fintype ι] (a : EReal) (d : ι → EReal)
    (ha : ∃ r : ℝ, a = (r : EReal)) (hd : ∀ k, ∃ r : ℝ, d k = (r : EReal)) (j : ι) :
    (a + d j) - max (⊥ : EReal) (Finset.univ.fold max (⊥ : EReal) fun k => a + d k)
      = d j - max (⊥ : EReal) (Finset.univ.fold max (⊥ : EReal) d) := by
  haveI : Nonempty ι := ⟨j⟩
  obtain ⟨a', rfl⟩ := ha
  obtain ⟨ρ, hρ⟩ := fold_max_real d hd
  obtain ⟨x, hx⟩ := hd j
  rw [fold_max_coe_add, hρ, hx, max_bot_left, max_bot_left, ← EReal.coe_add, ← EReal.coe_add, ← EReal.coe_sub,
    ← EReal.coe_sub, add_sub_add_left_eq_sub]

/-- The same when the outer maximum is taken against any b below the folded maximum (b = −∞ in the programs). -/
theorem sub_max_fold_shift_of_le {ι : Type} [Fintype ι] (a : EReal) (d : ι → EReal) (b b' : EReal)
    (ha : ∃ r : ℝ, a = (r : EReal)) (hd : ∀ k, ∃ r : ℝ, d k = (r : EReal))
    (hb : b ≤ Finset.univ.fold max (⊥ : EReal) fun k => a + d k) (hb' : b' ≤ Finset.univ.fold max (⊥ : EReal) d)
    (j : ι) :
    (a + d j) - max b (Finset.univ.fold max (⊥ : EReal) fun k => a + d k)
      = d j - max b' (Finset.univ.fold max (⊥ : EReal) d) := by
  have h := sub_max_fold_shift a d ha hd j
  rw [max_bot_left, max_bot_left] at h
  rw [max_eq_right hb, max_eq_right hb', h]

/-- The row softmax collapse. Let e k = a + d k with a and every d k real, M the row maximum max(−∞, max_k e k) and
    M' the maximum max(−∞, max_k d k). Then for ANY φ (the exponential in the programs), ψ (the quotient) and z (the
    sum's initial value): ψ (φ (e j − M)) (z + Σ_k φ (e k − M)) = ψ (φ (d j − M')) (z + Σ_k φ (d k − M')). -/
theorem softmax_row_collapse {ι : Type} [Fintype ι] (φ : EReal → EReal) (ψ : EReal → EReal → EReal) (z : EReal)
    (a : EReal) (d e : ι → EReal) (M M' : EReal)
    (ha : ∃ r : ℝ, a = (r : EReal)) (hd : ∀ k, ∃ r : ℝ, d k = (r : EReal)) (he : ∀ k, e k = a + d k)
    (hM : M = max (⊥ : EReal) (Finset.univ.fold max (⊥ : EReal) e))
    (hM' : M' = max (⊥ : EReal) (Finset.univ.fold max (⊥ : EReal) d)) (j : ι) :
    ψ (φ (e j - M)) (z + ∑ k, φ (e k - M)) = ψ (φ (d j - M')) (z + ∑ k, φ (d k - M')) := by
  have key : ∀ k, e k - M = d k - M' := by
    intro k
    rw [hM, hM', show e = fun k => a + d k from funext he]
    exact sub_max_fold_shift a d ha hd k
  simp only [key]

/-- One row of the attention product, reassociated: Σ_j (s j · adj i j) · h j f = Σ_j adj i j · (h j f · s j).
    No finiteness: the product of [−∞, +∞] is commutative and associative. -/
theorem attention_sum_comm {ι κ μ : Type} [Fintype ι] (s : ι → EReal) (adj : κ → ι → EReal) (h : ι → μ → EReal)
    (i : κ) (f : μ) :
    ∑ j, (s j * adj i j) * h j f = ∑ j, adj i j * (h j f * s j) :=
  Finset.sum_congr rfl fun j _ => by rw [mul_comm (s j) (adj i j), mul_assoc, mul_comm (s j) (h j f)]

/-- One entry of a dense attention layer with rank-one logits. The row's weights are the softmax of e i k = src i + d k
    (shifted by the row maximum M i = max(−∞, max_k e i k), written with ANY φ, ψ, z as in `softmax_row_collapse`),
    multiplied by adj i j and contracted with h; the result is adj contracted with h scaled by the ONE softmax of d:
    Σ_j (ψ (φ (e i j − M i)) (z + Σ_k φ (e i k − M i)) · adj i j) · h j f = Σ_j adj i j · (h j f · s j),
    s j = ψ (φ (d j − M')) (z + Σ_k φ (d k − M')), M' = max(−∞, max_k d k); src i and every d k real. -/
theorem attention_row_collapse {ι μ : Type} [Fintype ι] (φ : EReal → EReal) (ψ : EReal → EReal → EReal) (z : EReal)
    (src d : ι → EReal) (adj : ι → ι → EReal) (h : ι → μ → EReal)
    (hsrc : ∀ i, ∃ r : ℝ, src i = (r : EReal)) (hd : ∀ k, ∃ r : ℝ, d k = (r : EReal)) (i : ι) (f : μ) :
    ∑ j, (ψ (φ ((src i + d j) - max (⊥ : EReal) (Finset.univ.fold max (⊥ : EReal) fun k => src i + d k)))
            (z + ∑ k, φ ((src i + d k) - max (⊥ : EReal) (Finset.univ.fold max (⊥ : EReal) fun k => src i + d k)))
          * adj i j) * h j f
      = ∑ j, adj i j * (h j f * ψ (φ (d j - max (⊥ : EReal) (Finset.univ.fold max (⊥ : EReal) d)))
            (z + ∑ k, φ (d k - max (⊥ : EReal) (Finset.univ.fold max (⊥ : EReal) d)))) := by
  rw [← attention_sum_comm (fun j => ψ (φ (d j - max (⊥ : EReal) (Finset.univ.fold max (⊥ : EReal) d)))
    (z + ∑ k, φ (d k - max (⊥ : EReal) (Finset.univ.fold max (⊥ : EReal) d)))) adj h i f]
  refine Finset.sum_congr rfl fun j _ => ?_
  rw [softmax_row_collapse φ ψ z (src i) d (fun k => src i + d k) _ _ (hsrc i) hd (fun _ => rfl) rfl rfl j]

/-- 1 − 1 = 0 on [−∞, +∞]. -/
theorem one_sub_one : (1 : EReal) - 1 = 0 := by
  rw [← EReal.coe_one, ← EReal.coe_sub, sub_self, EReal.coe_zero]

/-- A 0/1 mask kills what was multiplied by its complement: (a · (1 − m)) · m = 0, for every a in [−∞, +∞]. -/
theorem mask_cancel (a m : EReal) (hm : m = 0 ∨ m = 1) : (a * (1 - m)) * m = 0 := by
  rcases hm with rfl | rfl
  · exact mul_zero _
  · rw [one_sub_one, mul_zero, zero_mul]

/-- The complement of a 0/1 mask is a 0/1 mask. -/
theorem one_sub_mask (m : EReal) (hm : m = 0 ∨ m = 1) : 1 - m = 0 ∨ 1 - m = 1 := by
  rcases hm with rfl | rfl
  · exact Or.inr (sub_zero _)
  · exact Or.inl one_sub_one

/-- A 0/1 mask and its complement are real numbers. -/
theorem mask_real (m : EReal) (hm : m = 0 ∨ m = 1) : ∃ r : ℝ, m = (r : EReal) := by
  rcases hm with rfl | rfl
  · exact ⟨0, EReal.coe_zero.symm⟩
  · exact ⟨1, EReal.coe_one.symm⟩

end Cert.GatSgc

end
-- ==== Proof.LibRealClosure.lean ====
/-
  "Every entry is a real number" propagates through the operations of a dense graph attention layer, read on the
  extended reals [−∞, +∞].

  A real number is an element of [−∞, +∞] of the form (r : ℝ). Sums, differences and products of real numbers are
  real, hence finite sums of products are; the exponential of a real number is a positive real number; a nonempty
  finite sum of positive real numbers is a positive real number; the quotient of a real number by a positive (or just
  nonzero) real number is real; the maximum of finitely many real numbers over a nonempty index set is real. So every
  entry of a softmax of real logits is real. The exponential linear unit maps a real number r to r when r > 0 and to
  exp r − 1 otherwise, a real number either way. The unsigned reading of a one-bit word is 0 or 1.
-/
import Idealize.ShloMosaic.PureOps.Ideal
import Idealize.ShloMosaic.PureOps.Ideal.Laws
import proofs.«171555_j63479616635263_2_alg».proof.Proof.LibERealSums
import proofs.«171555_j63479616635263_2_alg».proof.Proof.LibSoftmaxShift

noncomputable section

namespace Cert.GatSgc

open Idealize.ShloMosaic

/-! ### The patterns of −∞, +∞ and 1 -/

/-- The f32 pattern of −∞ denotes −∞. -/
theorem ofBits_neg_inf_f32 : Ideal.ofBits .f32 0xFF800000#32 = ⊥ := by simp [Ideal.ofBits, Ideal.ieee]

/-- The f32 pattern of +∞ denotes +∞. -/
theorem ofBits_inf_f32 : Ideal.ofBits .f32 0x7F800000#32 = ⊤ := by simp [Ideal.ofBits, Ideal.ieee]

/-- The f32 pattern of 1.0 denotes 1. -/
theorem ofBits_one_f32 : Ideal.ofBits .f32 0x3F800000#32 = 1 := by
  simp [Ideal.ofBits, Ideal.ieee, -EReal.coe_mul]; norm_num

/-- A fold of the idealized `maximumf` is the fold of the maximum of [−∞, +∞]. -/
theorem fold_maximumf_eq_fold_max {ι : Type} (s : Finset ι) (φ : FTy) (b : EReal) (f : ι → EReal) :
    s.fold (FloatOps.maximumf (F := Ideal) (φ := φ)) b f = s.fold max b f :=
  fold_op_eq_fold_max s (FloatOps.maximumf (F := Ideal) (φ := φ)) (fun _ _ => rfl) b f

/-! ### Real numbers inside [−∞, +∞] -/

/-- x is real exactly when it is neither infinity. -/
theorem real_iff_ne (x : EReal) : (∃ r : ℝ, x = (r : EReal)) ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

/-- x is real exactly when |x| = max x (−x) is below +∞ (the form a finiteness precondition takes). -/
theorem real_iff_abs_lt_top (x : EReal) : (∃ r : ℝ, x = (r : EReal)) ↔ max x (-x) < ⊤ := by
  rw [real_iff_ne]
  induction x using EReal.rec with
  | bot => simp
  | top => simp
  | coe r =>
    refine iff_of_true ⟨EReal.coe_ne_bot r, EReal.coe_ne_top r⟩ ?_
    rw [← EReal.coe_neg, max_lt_iff]
    exact ⟨EReal.coe_lt_top _, EReal.coe_lt_top _⟩

theorem real_zero : ∃ r : ℝ, (0 : EReal) = (r : EReal) := ⟨0, EReal.coe_zero.symm⟩

theorem real_one : ∃ r : ℝ, (1 : EReal) = (r : EReal) := ⟨1, EReal.coe_one.symm⟩

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- A finite sum of real numbers is real. -/
theorem real_sum {ι : Type} [Fintype ι] (f : ι → EReal) (hf : ∀ k, ∃ r : ℝ, f k = (r : EReal)) :
    ∃ r : ℝ, ∑ k, f k = (r : EReal) := by
  choose g hg using hf
  exact ⟨∑ k, g k, by rw [Cert.Attn.coe_sum_univ]; exact Finset.sum_congr rfl fun k _ => hg k⟩

/-- A finite sum of products of real numbers is real. -/
theorem real_sum_mul {ι : Type} [Fintype ι] (f g : ι → EReal) (hf : ∀ k, ∃ r : ℝ, f k = (r : EReal))
    (hg : ∀ k, ∃ r : ℝ, g k = (r : EReal)) : ∃ r : ℝ, ∑ k, f k * g k = (r : EReal) :=
  real_sum _ fun k => real_mul (hf k) (hg k)

/-- The same from a zero accumulator, the form of a host product's entry. -/
theorem real_zero_add_sum_mul {ι : Type} [Fintype ι] (f g : ι → EReal) (hf : ∀ k, ∃ r : ℝ, f k = (r : EReal))
    (hg : ∀ k, ∃ r : ℝ, g k = (r : EReal)) : ∃ r : ℝ, 0 + ∑ k, f k * g k = (r : EReal) := by
  rw [zero_add]; exact real_sum_mul f g hf hg

/-! ### Exponential, positive sums, quotient: a softmax entry is real -/

/-- The exponential of a real number is a positive real number. -/
theorem exp_real_pos {x : EReal} (hx : ∃ r : ℝ, x = (r : EReal)) :
    ∃ r : ℝ, 0 < r ∧ Ideal.exp x = (r : EReal) := by
  obtain ⟨a, rfl⟩ := hx; exact ⟨Real.exp a, Real.exp_pos a, rfl⟩

/-- A finite sum of positive real numbers over a nonempty index set is a positive real number. -/
theorem sum_pos_real {ι : Type} [Fintype ι] [Nonempty ι] (f : ι → EReal)
    (hf : ∀ k, ∃ r : ℝ, 0 < r ∧ f k = (r : EReal)) : ∃ r : ℝ, 0 < r ∧ ∑ k, f k = (r : EReal) := by
  choose g hg using hf
  exact ⟨∑ k, g k, Finset.sum_pos (fun k _ => (hg k).1) Finset.univ_nonempty,
    by rw [Cert.Attn.coe_sum_univ]; exact Finset.sum_congr rfl fun k _ => (hg k).2⟩

/-- The quotient of a real number by a nonzero real number is real. -/
theorem div_real_of_ne_zero {x y : EReal} (hx : ∃ r : ℝ, x = (r : EReal)) (hy : ∃ r : ℝ, r ≠ 0 ∧ y = (r : EReal)) :
    ∃ r : ℝ, Ideal.div x y = (r : EReal) := by
  obtain ⟨a, rfl⟩ := hx; obtain ⟨b, hb, rfl⟩ := hy
  exact ⟨a * (1 / b), by rw [Ideal.div_coe hb, EReal.coe_mul]⟩

/-- The quotient of a real number by a positive real number is real. -/
theorem div_real_pos {x y : EReal} (hx : ∃ r : ℝ, x = (r : EReal)) (hy : ∃ r : ℝ, 0 < r ∧ y = (r : EReal)) :
    ∃ r : ℝ, Ideal.div x y = (r : EReal) := by
  obtain ⟨b, hb, hyb⟩ := hy; exact div_real_of_ne_zero hx ⟨b, hb.ne', hyb⟩

/-- An entry of the softmax of real logits d, shifted by a real M, the sum taken from a zero accumulator:
    exp (d j − M) / (0 + Σ_k exp (d k − M)) is real. -/
theorem softmax_entry_real {ι : Type} [Fintype ι] (d : ι → EReal) (M : EReal)
    (hd : ∀ k, ∃ r : ℝ, d k = (r : EReal)) (hM : ∃ r : ℝ, M = (r : EReal)) (j : ι) :
    ∃ r : ℝ, Ideal.div (Ideal.exp (d j - M)) (0 + ∑ k, Ideal.exp (d k - M)) = (r : EReal) := by
  haveI : Nonempty ι := ⟨j⟩
  have hpos : ∀ k, ∃ r : ℝ, 0 < r ∧ Ideal.exp (d k - M) = (r : EReal) := fun k => exp_real_pos (real_sub (hd k) hM)
  obtain ⟨e, _, he⟩ := hpos j
  refine div_real_pos ⟨e, he⟩ ?_
  rw [zero_add]; exact sum_pos_real _ hpos

/-- The same with M the maximum the programs compute, max(−∞, max_k d k). -/
theorem softmax_entry_real_max {ι : Type} [Fintype ι] (d : ι → EReal) (hd : ∀ k, ∃ r : ℝ, d k = (r : EReal))
    (j : ι) :
    ∃ r : ℝ, Ideal.div (Ideal.exp (d j - max (⊥ : EReal) (Finset.univ.fold max (⊥ : EReal) d)))
        (0 + ∑ k, Ideal.exp (d k - max (⊥ : EReal) (Finset.univ.fold max (⊥ : EReal) d))) = (r : EReal) := by
  haveI : Nonempty ι := ⟨j⟩
  exact softmax_entry_real d _ hd (max_bot_fold_max_real d hd) j

/-! ### The exponential linear unit -/

/-- The exponential linear unit as the programs compute it at one entry: v if v > 0, else 1 · (exp w − 1) with
    w = 0 if v > 0, else v. -/
def elu (v : EReal) : EReal :=
  Scalar.select (Ideal.cmp .ogt v 0) v (1 * (Ideal.exp (Scalar.select (Ideal.cmp .ogt v 0) 0 v) - 1))

/-- At a real number r the unit is r for r > 0 and exp r − 1 otherwise. -/
theorem elu_coe (r : ℝ) : elu (r : EReal) = ((if 0 < r then r else Real.exp r - 1 : ℝ) : EReal) := by
  unfold elu Scalar.select
  by_cases h : 0 < r
  · have hc : Ideal.cmp .ogt (r : EReal) 0 = 1 := by
      show BitVec.ofBool (decide ((0 : EReal) < (r : EReal))) = 1
      rw [decide_eq_true (by exact_mod_cast h)]; rfl
    rw [if_pos hc, if_pos h]
  · have hc : ¬ Ideal.cmp .ogt (r : EReal) 0 = 1 := by
      show ¬ BitVec.ofBool (decide ((0 : EReal) < (r : EReal))) = 1
      rw [decide_eq_false (by exact_mod_cast h)]; decide
    rw [if_neg hc, if_neg hc, if_neg h, one_mul, EReal.coe_sub, EReal.coe_one]
    rfl

/-- The exponential linear unit maps real numbers to real numbers. -/
theorem elu_real {v : EReal} (hv : ∃ r : ℝ, v = (r : EReal)) : ∃ r : ℝ, elu v = (r : EReal) := by
  obtain ⟨r, rfl⟩ := hv; exact ⟨_, elu_coe r⟩

/-! ### The mask -/

/-- The unsigned reading of a one-bit word is 0 or 1. -/
theorem uitofp_bit (b : BitVec 1) : ((b.toNat : ℝ) : EReal) = 0 ∨ ((b.toNat : ℝ) : EReal) = 1 := by
  have hlt : b.toNat < 2 := b.isLt
  rcases (by omega : b.toNat = 0 ∨ b.toNat = 1) with h | h
  · left; rw [h]; simp
  · right; rw [h]; simp

/-- The same for the conversion as the programs spell it. -/
theorem uitofp_i1 (φ : FTy) (b : BitVec 1) :
    FloatOps.uitofp (F := Ideal) φ b = 0 ∨ FloatOps.uitofp (F := Ideal) φ b = 1 := uitofp_bit b

end Cert.GatSgc

end
-- ==== Proof.LibRealArrays.lean ====
/-
  Arrays all of whose entries are real numbers, over the extended reals.

  The extended reals carry ±∞, at which cancellation and distributivity fail; an argument that uses them needs every
  entry involved to be a real. This module propagates "every entry is a real" through the operations a graph network's
  host code is made of: a gather reads entries of its operand, an accumulating scatter adds finitely many update entries
  to an operand entry, the pointwise sum, difference, product and maximum of real entries are real, and the reciprocal
  of a count clamped below by one is a positive real.
-/
import Idealize.ShloMosaic.PureOps.Ideal.Laws
import Idealize.ShloMosaic.Lib.ValueIdx
import Idealize.ShloMosaic.Lib.Pipeline.Value
import proofs.«171555_j63479616635263_2_alg».proof.Proof.LibRealClosure

noncomputable section

open Idealize.ShloMosaic

namespace Cert.RealArrays

/-- Every entry of the array is a real number. -/
def AllReal {ι : Type*} (v : ι → EReal) : Prop := ∀ i, ∃ r : ℝ, v i = (r : EReal)

/-- A finite sum of reals is a real. -/
theorem real_finset_sum {ι : Type*} (s : Finset ι) (f : ι → EReal) (hf : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    rw [Finset.sum_insert ha]
    obtain ⟨r1, h1⟩ := hf a (Finset.mem_insert_self _ _)
    obtain ⟨r2, h2⟩ := ih (fun k hk => hf k (Finset.mem_insert_of_mem hk))
    exact ⟨r1 + r2, by rw [h1, h2, EReal.coe_add]⟩

/-- The maximum of two reals is a real. -/
theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  rcases le_total a b with h | h
  · exact ⟨b, max_eq_right (EReal.coe_le_coe_iff.mpr h)⟩
  · exact ⟨a, max_eq_left (EReal.coe_le_coe_iff.mpr h)⟩

/-- A gather reads entries of its operand. -/
theorem allReal_gather {s si t : Shape} {w : ℕ} (d : GatherDims s si t) (x : s.Idx → EReal) (idx : IVec si w)
    (hx : AllReal x) : AllReal (Host.gather d x idx) := fun _ => hx _

/-- An accumulating scatter adds finitely many update entries to an operand entry. -/
theorem allReal_scatterAdd {s si u : Shape} {w : ℕ} {φ : FTy} (d : ScatterDims s si u) (x : FVec Ideal s φ) (idx : IVec si w)
    (upd : FVec Ideal u φ) (hx : AllReal x) (hu : AllReal upd) : AllReal (Host.scatterAdd d x idx upd) := fun i => by
  show ∃ r : ℝ, x i + ∑ j ∈ Finset.univ.filter (fun j => d.resultIdx? j idx = some i), upd j = (r : EReal)
  obtain ⟨r1, h1⟩ := hx i
  obtain ⟨r2, h2⟩ := real_finset_sum _ upd (fun k _ => hu k)
  exact ⟨r1 + r2, by rw [h1, h2, EReal.coe_add]⟩

theorem allReal_mulf {s : Shape} {φ : FTy} (a b : FVec Ideal s φ) (ha : AllReal a) (hb : AllReal b) : AllReal (mulf a b) :=
  fun i => Cert.GatSgc.real_mul (ha i) (hb i)

theorem allReal_addf {s : Shape} {φ : FTy} (a b : FVec Ideal s φ) (ha : AllReal a) (hb : AllReal b) : AllReal (addf a b) :=
  fun i => Cert.GatSgc.real_add (ha i) (hb i)

theorem allReal_subf {s : Shape} {φ : FTy} (a b : FVec Ideal s φ) (ha : AllReal a) (hb : AllReal b) : AllReal (subf a b) :=
  fun i => Cert.GatSgc.real_sub (ha i) (hb i)

theorem allReal_maximumf {s : Shape} {φ : FTy} (a b : FVec Ideal s φ) (ha : AllReal a) (hb : AllReal b) :
    AllReal (maximumf a b) := fun i => real_max (ha i) (hb i)

/-- A broadcast reads entries of its operand. -/
theorem allReal_broadcastInDim {s t : Shape} (dims : Fin s.rank → Fin t.rank) (h : s.BroadcastsInDim t dims) (x : s.Idx → EReal)
    (hx : AllReal x) : AllReal (broadcastInDim t dims h x) := fun j => by
  unfold broadcastInDim
  exact hx _

/-- The zero word read anywhere is the real 0. -/
theorem allReal_zero (s : Shape) : AllReal (constant (F := Ideal) s .f32 0x00000000#32) := fun _ =>
  ⟨0, by show Ideal.ofBits .f32 0x00000000#32 = _; rw [Ideal.ofBits_zero_f32]; rfl⟩

/-- The word of 1.0 read anywhere is the real 1. -/
theorem allReal_one (s : Shape) : AllReal (constant (F := Ideal) s .f32 0x3F800000#32) := fun _ =>
  ⟨1, by show Ideal.ofBits .f32 0x3F800000#32 = _; rw [Cert.GatSgc.ofBits_one_f32]; rfl⟩

/-- The reciprocal of a count clamped below by one: ones scattered into zeros give a real count at every entry, its
    maximum with one is a positive real, and one over that is a real. -/
theorem allReal_inv_count {s si su : Shape} {w : ℕ} (d : ScatterDims s si su) (idx : IVec si w)
    (b1 b0 b1' : (⟨0, ![]⟩ : Shape).BroadcastsInDim s (![] : Fin 0 → Fin s.rank))
    (bu : (⟨0, ![]⟩ : Shape).BroadcastsInDim su (![] : Fin 0 → Fin su.rank)) :
    AllReal (Host.divf (broadcastInDim s (![] : Fin 0 → Fin s.rank) b1 (constant (F := Ideal) ⟨0, ![]⟩ .f32 0x3F800000#32))
      (maximumf (Host.scatterAdd d (broadcastInDim s (![] : Fin 0 → Fin s.rank) b0 (constant (F := Ideal) ⟨0, ![]⟩ .f32 0x00000000#32)) idx
          (broadcastInDim su (![] : Fin 0 → Fin su.rank) bu (constant (F := Ideal) ⟨0, ![]⟩ .f32 0x3F800000#32)))
        (broadcastInDim s (![] : Fin 0 → Fin s.rank) b1' (constant (F := Ideal) ⟨0, ![]⟩ .f32 0x3F800000#32)))) := fun i => by
  have hone : ∀ (b : (⟨0, ![]⟩ : Shape).BroadcastsInDim s (![] : Fin 0 → Fin s.rank)),
      broadcastInDim s (![] : Fin 0 → Fin s.rank) b (constant (F := Ideal) ⟨0, ![]⟩ .f32 0x3F800000#32) i = (1 : EReal) := fun b => by
    unfold broadcastInDim
    show Ideal.ofBits .f32 0x3F800000#32 = _
    exact Cert.GatSgc.ofBits_one_f32
  obtain ⟨r, hr⟩ := allReal_scatterAdd d _ idx _ (allReal_broadcastInDim _ b0 _ (allReal_zero _))
    (allReal_broadcastInDim _ bu _ (allReal_one _)) i
  show ∃ q : ℝ, Ideal.div (broadcastInDim s (![] : Fin 0 → Fin s.rank) b1 (constant (F := Ideal) ⟨0, ![]⟩ .f32 0x3F800000#32) i)
    (max (Host.scatterAdd d (broadcastInDim s (![] : Fin 0 → Fin s.rank) b0 (constant (F := Ideal) ⟨0, ![]⟩ .f32 0x00000000#32)) idx
        (broadcastInDim su (![] : Fin 0 → Fin su.rank) bu (constant (F := Ideal) ⟨0, ![]⟩ .f32 0x3F800000#32)) i)
      (broadcastInDim s (![] : Fin 0 → Fin s.rank) b1' (constant (F := Ideal) ⟨0, ![]⟩ .f32 0x3F800000#32) i)) = (q : EReal)
  rw [hone b1, hr]
  refine Cert.GatSgc.div_real_pos Cert.GatSgc.real_one ⟨max r 1, lt_max_of_lt_right one_pos, ?_⟩
  rcases le_total r 1 with h | h
  · rw [max_eq_right h, max_eq_right (by exact_mod_cast h)]; rfl
  · rw [max_eq_left h, max_eq_left (by exact_mod_cast h)]

end Cert.RealArrays

end
-- ==== Proof.Ref.HostForms.lean ====
/-
  The host's spelling of one layer, of the last layer before scaling, and of the scaling, as the whole-array functions
  of the specification.

  * One layer: (A·Wrel + bias rows) + X·Wroot, then the maximum with an array of zeros, is
    max(A·Wrel + X·Wroot + b, 0) entry by entry: addition of extended reals is commutative and associative.
  * The scaling: (v / d) · 10 = (v · 10) / d whenever d ≠ 0, since a quotient by a nonzero d is the product with d⁻¹ and
    multiplication of extended reals is commutative and associative; here d = max(√(Σ v²), ε) ≥ ε > 0.
  * "Every entry is a real number" passes through a layer: finite sums of products of reals, sums and maxima of reals
    are real.
-/
import proofs.«171555_j63479616635263_2_alg».proof.Proof.KernelSpec
import proofs.«171555_j63479616635263_2_alg».proof.Proof.LibBiasRows
import proofs.«171555_j63479616635263_2_alg».proof.Proof.LibLaneSum
import proofs.«171555_j63479616635263_2_alg».proof.Proof.LibRealArrays
import Idealize.ShloMosaic.Lib.ValueLayout

noncomputable section

open scoped BigOperators

namespace Cert.ReferenceIdeal.RefValue

open Idealize.ShloMosaic Idealize.ShloMosaic.ValueIdx Cert.MatrixProduct Cert.KernelIdeal.Spec Cert.RealArrays

variable [Cert.KernelIdeal.Facts₀]

/-- A scalar broadcast everywhere reads the scalar. -/
theorem bcast_scalar_apply {s : Shape} (h : (⟨0, ![]⟩ : Shape).BroadcastsInDim s (![] : Fin 0 → Fin s.rank))
    (b : BitVec 32) (i : s.Idx) :
    broadcastInDim s (![] : Fin 0 → Fin s.rank) h (constant (F := Ideal) ⟨0, ![]⟩ .f32 b) i = Ideal.ofBits .f32 b := rfl

/-- An array of zeros reads 0. -/
theorem zeros_apply {s : Shape} (h : (⟨0, ![]⟩ : Shape).BroadcastsInDim s (![] : Fin 0 → Fin s.rank)) (i : s.Idx) :
    broadcastInDim s (![] : Fin 0 → Fin s.rank) h (constant (F := Ideal) ⟨0, ![]⟩ .f32 0x00000000#32) i = 0 :=
  (bcast_scalar_apply h _ i).trans Ideal.ofBits_zero_f32

/-- A vector made one column reads, at `(r, u)`, the vector at `r`. -/
theorem bcast_vec_col_apply {α : Type} {n : ℕ} (v : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ (![0] : Fin 1 → Fin 2) h v (ix2 r u) = v (ix1 r) := by
  refine broadcastInDim_apply _ h v (ix2 r u) (ix1 r) (fun ax => ?_)
  match ax with
  | ⟨0, _⟩ =>
    show r.val = if n = 1 then 0 else r.val
    split
    · have := r.isLt; omega
    · rfl

/-- One column repeated across `C` columns reads, at `(r, l)`, the column at `r`. -/
theorem bcast_col_apply {α : Type} {n C : ℕ} (v : (⟨2, ![n, 1]⟩ : Shape).Idx → α)
    (h : (⟨2, ![n, 1]⟩ : Shape).BroadcastsInDim ⟨2, ![n, C]⟩ (![0, 1] : Fin 2 → Fin 2)) (r : Fin n) (l : Fin C) :
    broadcastInDim ⟨2, ![n, C]⟩ (![0, 1] : Fin 2 → Fin 2) h v (ix2 r l) = v (ix2 r (0 : Fin 1)) := by
  refine broadcastInDim_apply _ h v (ix2 r l) (ix2 r (0 : Fin 1)) (fun ax => ?_)
  match ax with
  | ⟨0, _⟩ =>
    show r.val = if n = 1 then 0 else r.val
    split
    · have := r.isLt; omega
    · rfl
  | ⟨1, _⟩ => show 0 = if (1 : ℕ) = 1 then 0 else l.val; rw [if_pos rfl]

/-! ## One layer -/

/-- The host's layer is `conv`. -/
theorem conv_host {n k h : ℕ}
    (w : DotDims.WF ⟨2, ![n, k]⟩ ⟨2, ![k, h]⟩ ⟨2, ![n, h]⟩ [1] [0] [0] [1] [] [])
    (A X : FVec Ideal ⟨2, ![n, k]⟩ .f32) (Wrel Wroot : FVec Ideal ⟨2, ![k, h]⟩ .f32) (b : FVec Ideal ⟨1, ![h]⟩ .f32)
    (h1 : (⟨1, ![h]⟩ : Shape).BroadcastsInDim ⟨2, ![1, h]⟩ (![1] : Fin 1 → Fin 2))
    (h2 : (⟨2, ![1, h]⟩ : Shape).BroadcastsInDim ⟨2, ![n, h]⟩ (![0, 1] : Fin 2 → Fin 2))
    (hz : (⟨0, ![]⟩ : Shape).BroadcastsInDim ⟨2, ![n, h]⟩ (![] : Fin 0 → Fin 2))
    (hc : (⟨1, ![h]⟩ : Shape).ShapeCasts ⟨2, ![1, h]⟩) :
    maximumf (addf (addf (Host.dotGeneral (⟨[1], [0], [0], [1], [], [], w⟩ : DotDims ⟨2, ![n, k]⟩ ⟨2, ![k, h]⟩ ⟨2, ![n, h]⟩) none A Wrel)
          (broadcastInDim ⟨2, ![n, h]⟩ (![0, 1] : Fin 2 → Fin 2) h2 (broadcastInDim ⟨2, ![1, h]⟩ (![1] : Fin 1 → Fin 2) h1 b)))
        (Host.dotGeneral (⟨[1], [0], [0], [1], [], [], w⟩ : DotDims ⟨2, ![n, k]⟩ ⟨2, ![k, h]⟩ ⟨2, ![n, h]⟩) none X Wroot))
      (broadcastInDim ⟨2, ![n, h]⟩ (![] : Fin 0 → Fin 2) hz (constant (F := Ideal) ⟨0, ![]⟩ .f32 0x00000000#32))
      = conv A X Wrel Wroot (shapeCast ⟨2, ![1, h]⟩ b hc) := by
  funext i
  obtain ⟨r, a, rfl⟩ : ∃ (r : Fin n) (a : Fin h), i = ix2 r a := ⟨i 0, i 1, eq_ix2 i⟩
  rw [dotGeneral_eq_mm, dotGeneral_eq_mm]
  show max (mm A Wrel (ix2 r a) + broadcastInDim ⟨2, ![n, h]⟩ (![0, 1] : Fin 2 → Fin 2) h2
        (broadcastInDim ⟨2, ![1, h]⟩ (![1] : Fin 1 → Fin 2) h1 b) (ix2 r a) + mm X Wroot (ix2 r a))
      (broadcastInDim ⟨2, ![n, h]⟩ (![] : Fin 0 → Fin 2) hz (constant (F := Ideal) ⟨0, ![]⟩ .f32 0x00000000#32) (ix2 r a))
    = max (mm A Wrel (ix2 r a) + mm X Wroot (ix2 r a) + shapeCast ⟨2, ![1, h]⟩ b hc (ix2 (0 : Fin 1) a)) 0
  rw [bias_rows_apply b h1 h2 r a, shapeCast_a_1a_apply b hc 0 a, zeros_apply hz, add_right_comm]

/-- The host's last layer before scaling, its neighbour term `Ap` already formed, is `pre3`. -/
theorem pre3_host {n k : ℕ}
    (w : DotDims.WF ⟨2, ![n, k]⟩ ⟨2, ![k, 3]⟩ ⟨2, ![n, 3]⟩ [1] [0] [0] [1] [] [])
    (Ap : FVec Ideal ⟨2, ![n, 3]⟩ .f32) (X : FVec Ideal ⟨2, ![n, k]⟩ .f32) (Wroot : FVec Ideal ⟨2, ![k, 3]⟩ .f32)
    (b : FVec Ideal ⟨1, ![3]⟩ .f32)
    (h1 : (⟨1, ![3]⟩ : Shape).BroadcastsInDim ⟨2, ![1, 3]⟩ (![1] : Fin 1 → Fin 2))
    (h2 : (⟨2, ![1, 3]⟩ : Shape).BroadcastsInDim ⟨2, ![n, 3]⟩ (![0, 1] : Fin 2 → Fin 2))
    (hc : (⟨1, ![3]⟩ : Shape).ShapeCasts ⟨2, ![1, 3]⟩) :
    addf (addf Ap
          (broadcastInDim ⟨2, ![n, 3]⟩ (![0, 1] : Fin 2 → Fin 2) h2 (broadcastInDim ⟨2, ![1, 3]⟩ (![1] : Fin 1 → Fin 2) h1 b)))
        (Host.dotGeneral (⟨[1], [0], [0], [1], [], [], w⟩ : DotDims ⟨2, ![n, k]⟩ ⟨2, ![k, 3]⟩ ⟨2, ![n, 3]⟩) none X Wroot)
      = pre3 Ap X Wroot (shapeCast ⟨2, ![1, 3]⟩ b hc) := by
  funext i
  obtain ⟨r, a, rfl⟩ : ∃ (r : Fin n) (a : Fin 3), i = ix2 r a := ⟨i 0, i 1, eq_ix2 i⟩
  rw [dotGeneral_eq_mm]
  show Ap (ix2 r a) + broadcastInDim ⟨2, ![n, 3]⟩ (![0, 1] : Fin 2 → Fin 2) h2
        (broadcastInDim ⟨2, ![1, 3]⟩ (![1] : Fin 1 → Fin 2) h1 b) (ix2 r a) + mm X Wroot (ix2 r a)
    = Ap (ix2 r a) + mm X Wroot (ix2 r a) + shapeCast ⟨2, ![1, 3]⟩ b hc (ix2 (0 : Fin 1) a)
  rw [bias_rows_apply b h1 h2 r a, shapeCast_a_1a_apply b hc 0 a, add_right_comm]

/-! ## The scaling -/

/-- The float word of the floor under the norm is a positive real. -/
theorem eps_pos : ∃ e : ℝ, 0 < e ∧ Ideal.ofBits .f32 0x2B8CBCCC#32 = (e : EReal) := by
  refine ⟨_, ?_, by simp [Ideal.ofBits, Ideal.ieee, -EReal.coe_mul]; rfl⟩
  positivity

/-- A quotient by a nonzero divisor, then a factor, is the quotient of the product. -/
theorem div_mul_of_ne_zero (v d t : EReal) (hd : d ≠ 0) : Ideal.div v d * t = Ideal.div (v * t) d := by
  unfold Ideal.div
  rw [if_neg hd, if_neg hd]
  exact mul_right_comm _ _ _

/-- The host's scaling of the rows of `v` to length 10 with the floor under the norm, minus `K`, is `scaled`. -/
theorem scaled_host {n : ℕ} (v K : FVec Ideal ⟨2, ![n, 3]⟩ .f32)
    (hr' : (⟨2, ![n, 3]⟩ : Shape).ReducesTo [1] ⟨1, ![n]⟩) (hr : (⟨2, ![n, 3]⟩ : Shape).Reduces [1] ⟨1, ![n]⟩)
    (hu : 0 < (⟨0, ![]⟩ : Shape).numel)
    (b1 : (⟨1, ![n]⟩ : Shape).BroadcastsInDim ⟨2, ![n, 1]⟩ (![0] : Fin 1 → Fin 2))
    (be : (⟨0, ![]⟩ : Shape).BroadcastsInDim ⟨2, ![n, 1]⟩ (![] : Fin 0 → Fin 2))
    (b3 : (⟨2, ![n, 1]⟩ : Shape).BroadcastsInDim ⟨2, ![n, 3]⟩ (![0, 1] : Fin 2 → Fin 2))
    (bt : (⟨0, ![]⟩ : Shape).BroadcastsInDim ⟨2, ![n, 3]⟩ (![] : Fin 0 → Fin 2)) :
    subf (mulf (Host.divf v (broadcastInDim ⟨2, ![n, 3]⟩ (![0, 1] : Fin 2 → Fin 2) b3
            (maximumf (Host.sqrt (broadcastInDim ⟨2, ![n, 1]⟩ (![0] : Fin 1 → Fin 2) b1
                (Host.reduceAdd (mulf v v) (constant (F := Ideal) ⟨0, ![]⟩ .f32 0x00000000#32) hr' hu)))
              (broadcastInDim ⟨2, ![n, 1]⟩ (![] : Fin 0 → Fin 2) be (constant (F := Ideal) ⟨0, ![]⟩ .f32 0x2B8CBCCC#32)))))
        (broadcastInDim ⟨2, ![n, 3]⟩ (![] : Fin 0 → Fin 2) bt (constant (F := Ideal) ⟨0, ![]⟩ .f32 0x41200000#32))) K
      = scaled v K := by
  funext i
  obtain ⟨r, j, rfl⟩ : ∃ (r : Fin n) (j : Fin 3), i = ix2 r j := ⟨i 0, i 1, eq_ix2 i⟩
  have hsum : Host.reduceAdd (mulf v v) (constant (F := Ideal) ⟨0, ![]⟩ .f32 0x00000000#32) hr' hu (ix1 r)
      = ∑ l : Fin 3, v (ix2 r l) * v (ix2 r l) := by
    show Ideal.hostReduceAdd hr' (mulf v v) (Ideal.ofBits .f32 0x00000000#32) (ix1 r) = _
    rw [Ideal.hostReduceAdd_single hr' hr, Ideal.ofBits_zero_f32, zero_add]
    exact Finset.sum_congr rfl fun l _ => by rw [reduces_rows_lift hr r l]; rfl
  have hd : broadcastInDim ⟨2, ![n, 3]⟩ (![0, 1] : Fin 2 → Fin 2) b3
        (maximumf (Host.sqrt (broadcastInDim ⟨2, ![n, 1]⟩ (![0] : Fin 1 → Fin 2) b1
            (Host.reduceAdd (mulf v v) (constant (F := Ideal) ⟨0, ![]⟩ .f32 0x00000000#32) hr' hu)))
          (broadcastInDim ⟨2, ![n, 1]⟩ (![] : Fin 0 → Fin 2) be (constant (F := Ideal) ⟨0, ![]⟩ .f32 0x2B8CBCCC#32))) (ix2 r j)
      = max (Ideal.sqrt (∑ l : Fin 3, v (ix2 r l) * v (ix2 r l))) (Ideal.ofBits .f32 0x2B8CBCCC#32) := by
    rw [bcast_col_apply _ b3 r j]
    show max (Ideal.sqrt (broadcastInDim ⟨2, ![n, 1]⟩ (![0] : Fin 1 → Fin 2) b1
        (Host.reduceAdd (mulf v v) (constant (F := Ideal) ⟨0, ![]⟩ .f32 0x00000000#32) hr' hu) (ix2 r (0 : Fin 1))))
      (Ideal.ofBits .f32 0x2B8CBCCC#32) = _
    rw [bcast_vec_col_apply _ b1 r 0, hsum]
  show Ideal.div (v (ix2 r j)) (broadcastInDim ⟨2, ![n, 3]⟩ (![0, 1] : Fin 2 → Fin 2) b3
        (maximumf (Host.sqrt (broadcastInDim ⟨2, ![n, 1]⟩ (![0] : Fin 1 → Fin 2) b1
            (Host.reduceAdd (mulf v v) (constant (F := Ideal) ⟨0, ![]⟩ .f32 0x00000000#32) hr' hu)))
          (broadcastInDim ⟨2, ![n, 1]⟩ (![] : Fin 0 → Fin 2) be (constant (F := Ideal) ⟨0, ![]⟩ .f32 0x2B8CBCCC#32))) (ix2 r j))
      * Ideal.ofBits .f32 0x41200000#32 - K (ix2 r j)
    = Ideal.div (v (ix2 r j) * Ideal.ofBits .f32 0x41200000#32)
        (max (Ideal.sqrt (∑ l : Fin 3, v (ix2 r l) * v (ix2 r l))) (Ideal.ofBits .f32 0x2B8CBCCC#32)) - K (ix2 r j)
  rw [hd]
  obtain ⟨e, he, hee⟩ := eps_pos
  rw [div_mul_of_ne_zero _ _ _ (by
    rw [hee]
    exact (lt_of_lt_of_le (EReal.coe_pos.mpr he) (le_max_right _ _)).ne')]

/-! ## Real entries through a layer -/

theorem allReal_mm {m k n : ℕ} (A : (⟨2, ![m, k]⟩ : Shape).Idx → EReal) (B : (⟨2, ![k, n]⟩ : Shape).Idx → EReal)
    (hA : AllReal A) (hB : AllReal B) : AllReal (mm A B) :=
  fun _ => Cert.GatSgc.real_sum_mul _ _ (fun _ => hA _) (fun _ => hB _)

theorem allReal_conv {n k h : ℕ} (A X : (⟨2, ![n, k]⟩ : Shape).Idx → EReal) (Wrel Wroot : (⟨2, ![k, h]⟩ : Shape).Idx → EReal)
    (b : (⟨2, ![1, h]⟩ : Shape).Idx → EReal) (hA : AllReal A) (hX : AllReal X) (hWrel : AllReal Wrel) (hWroot : AllReal Wroot)
    (hb : AllReal b) : AllReal (conv A X Wrel Wroot b) :=
  fun i => real_max (Cert.GatSgc.real_add (Cert.GatSgc.real_add (allReal_mm A Wrel hA hWrel i) (allReal_mm X Wroot hX hWroot i)) (hb _))
    Cert.GatSgc.real_zero

theorem allReal_shapeCast {s t : Shape} (x : s.Idx → EReal) (h : s.ShapeCasts t) (hx : AllReal x) : AllReal (shapeCast t x h) :=
  fun _ => hx _

/-- The neighbour sum (gather, then scatter-add into zeros) of an array of reals is an array of reals. -/
theorem allReal_neighbourSum {s si t u : Shape} {w : ℕ} (dg : GatherDims s si u) (ds : ScatterDims t si u)
    (hz : (⟨0, ![]⟩ : Shape).BroadcastsInDim t (![] : Fin 0 → Fin t.rank))
    (x : FVec Ideal s .f32) (iS iD : IVec si w) (hx : AllReal x) :
    AllReal (Host.scatterAdd (F := Ideal) ds (broadcastInDim t (![] : Fin 0 → Fin t.rank) hz (constant (F := Ideal) ⟨0, ![]⟩ .f32 0x00000000#32))
      iD (Host.gather dg x iS)) :=
  allReal_scatterAdd ds _ iD _ (allReal_broadcastInDim _ hz _ (allReal_zero _)) (allReal_gather dg x iS hx)

end Cert.ReferenceIdeal.RefValue

end
-- ==== Proof.LibRowGather.lean ====
/-
  A gather of whole rows, a gather of vector entries, and a scatter of whole rows, each driven by ONE column of
  row numbers, read at an index.

  The start indices are an E × 1 array of integers, one per result row e.
  * Gathering rows of an N × C matrix: result entry (e, l) is the matrix entry (r, l), where r is the integer of
    row e read as a signed number and clamped into [0, N − 1].
  * Gathering entries of a vector of length N: result entry e is the vector's entry r, the same clamped number.
  * Scattering the rows of an E × C array into an N × C matrix: update entry (e, l) lands on entry (r, l) of the
    matrix exactly when the integer of row e, read as a signed number WITHOUT clamping, is a row number r of the
    matrix; otherwise the update is dropped. In particular a landing update has a nonnegative integer, equal to
    the row it lands on, and keeps its column.
-/
import Idealize.ShloMosaic.Lib.ValueIdx
import Idealize.ShloMosaic.PureOps.Ideal

namespace Idealize.ShloMosaic.ValueIdx

open Idealize.ShloMosaic

section
variable {α : Type}

/-- The dimension numbers of a gather of rows: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of vector entries: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a scatter of rows: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The entry of the one column of row numbers that belongs to result row `e`. -/
abbrev colEntry {E : Nat} (e : Fin E) : (⟨2, ![E, 1]⟩ : Shape).Idx := ix2 e ⟨0, Nat.one_pos⟩

/-- The row a gather reads for result row `e`: the integer, signed, clamped into `[0, N − 1]`. -/
abbrev clampRow {N E w : Nat} (hN : 0 < N) (idx : IVec ⟨2, ![E, 1]⟩ w) (e : Fin E) : Fin N :=
  ⟨min (idx (colEntry e)).toInt.toNat (N - 1), by omega⟩

/-- A GATHER OF ROWS read at `(e, l)`: the operand at the clamped row, same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (l : Fin C) :
    Host.gather (rowGatherDims N E C wf) x idx (ix2 e l) = x (ix2 (clampRow hN idx e) l) := by
  have h0 : (rowGatherDims N E C wf).start (ix2 e l) idx (0 : Fin 2) + (rowGatherDims N E C wf).batchCoord (ix2 e l) (0 : Fin 2)
      + (rowGatherDims N E C wf).offCoord (ix2 e l) (0 : Fin 2) = min (idx (colEntry e)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e l) ⟨List.idxOf (0 : Fin 2) (rowGatherDims N E C wf).startIndexMap,
        List.idxOf_lt_length_iff.2 (List.mem_singleton.mpr rfl)⟩ = colEntry e := by
      funext b; refine Fin.ext ?_
      match b with
      | ⟨0, _⟩ => rfl
      | ⟨1, _⟩ => rfl
    rw [hsi]
    rfl
  have h1 : (rowGatherDims N E C wf).start (ix2 e l) idx (1 : Fin 2) + (rowGatherDims N E C wf).batchCoord (ix2 e l) (1 : Fin 2)
      + (rowGatherDims N E C wf).offCoord (ix2 e l) (1 : Fin 2) = l.val := by
    rw [GatherDims.batchCoord_eq_zero _ _ _ List.not_mem_nil]
    have hs : (rowGatherDims N E C wf).start (ix2 e l) idx (1 : Fin 2) = 0 := by
      unfold GatherDims.start
      rw [dif_neg (show (1 : Fin 2) ∉ ([0] : List (Fin 2)) by decide)]
    rw [hs]
    simp only [Nat.zero_add, Nat.add_zero]
    rfl
  unfold Host.gather
  congr 1
  funext a
  refine Fin.ext ?_
  match a with
  | ⟨0, _⟩ => exact h0
  | ⟨1, _⟩ => exact h1

/-- A GATHER OF VECTOR ENTRIES read at `e`: the operand at the clamped number. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN idx e)) := by
  have h0 : (vecGatherDims N E wf).start (ix1 e) idx (0 : Fin 1) + (vecGatherDims N E wf).batchCoord (ix1 e) (0 : Fin 1)
      + (vecGatherDims N E wf).offCoord (ix1 e) (0 : Fin 1) = min (idx (colEntry e)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = colEntry e := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

/-- WHERE A SCATTERED ROW LANDS: if update entry `(e, l)` lands on entry `i` of the matrix, then the integer of row
    `e`, read signed, is the row number of `i` (so it is not negative and below `N`), and `i` is in column `l`. -/
theorem scatter_rows_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (l : Fin C) (i : (⟨2, ![N, C]⟩ : Shape).Idx)
    (h : (rowScatterDims N E C wf).resultIdx? (ix2 e l) idx = some i) :
    (idx (colEntry e)).toInt = ((i 0).val : Int) ∧ (i 1).val = l.val := by
  have hs0 : (rowScatterDims N E C wf).start (ix2 e l) idx (0 : Fin 2) = (idx (colEntry e)).toInt := by
    unfold ScatterDims.start
    rw [dif_pos (show (0 : Fin 2) ∈ (rowScatterDims N E C wf).scatterDimsToOperandDims from List.mem_singleton.mpr rfl)]
    have hsi : (rowScatterDims N E C wf).siIdx (ix2 e l) ⟨List.idxOf (0 : Fin 2) (rowScatterDims N E C wf).scatterDimsToOperandDims,
        List.idxOf_lt_length_iff.2 (List.mem_singleton.mpr rfl)⟩ = colEntry e := by
      funext b; refine Fin.ext ?_
      match b with
      | ⟨0, _⟩ => rfl
      | ⟨1, _⟩ => rfl
    rw [hsi]
  have hw0 : (rowScatterDims N E C wf).window (ix2 e l) (0 : Fin 2) = 0 := by
    unfold ScatterDims.window
    rw [dif_neg (show (0 : Fin 2) ∉ (rowScatterDims N E C wf).sKept from (by decide : (0 : Fin 2) ∉ (List.finRange 2).filter (· ∉ ([0] : List (Fin 2)))))]
  have hs1 : (rowScatterDims N E C wf).start (ix2 e l) idx (1 : Fin 2) = 0 := by
    unfold ScatterDims.start
    rw [dif_neg (show (1 : Fin 2) ∉ ([0] : List (Fin 2)) by decide)]
  have hw1 : (rowScatterDims N E C wf).window (ix2 e l) (1 : Fin 2) = l.val := by
    unfold ScatterDims.window
    rw [dif_pos (show (1 : Fin 2) ∈ (rowScatterDims N E C wf).sKept from (by decide : (1 : Fin 2) ∈ (List.finRange 2).filter (· ∉ ([0] : List (Fin 2)))))]
    rfl
  unfold ScatterDims.resultIdx? at h
  split at h
  · rename_i hin
    have hi := Option.some.inj h
    have h0 := hin (0 : Fin 2)
    rw [hs0, hw0] at h0
    have e0 : (i 0).val = ((rowScatterDims N E C wf).start (ix2 e l) idx (0 : Fin 2) + ((rowScatterDims N E C wf).window (ix2 e l) (0 : Fin 2) : Int)).toNat := by
      rw [← hi]
    have e1 : (i 1).val = ((rowScatterDims N E C wf).start (ix2 e l) idx (1 : Fin 2) + ((rowScatterDims N E C wf).window (ix2 e l) (1 : Fin 2) : Int)).toNat := by
      rw [← hi]
    rw [hs0, hw0] at e0
    rw [hs1, hw1] at e1
    constructor
    · omega
    · omega
  · exact absurd h (by simp)

end

end Idealize.ShloMosaic.ValueIdx
-- ==== Proof.LibScatterRead.lean ====
/-
  Reading the result of a scatter at one index.

  A scatter is a left fold over the update indices, in row-major order: the step for update index j replaces the element
  at the operand index j lands on (its start plus its window coordinate, axis by axis) by the combining function applied
  to that element and the update's, and does nothing when j lands outside the operand.  Three facts follow from the fold
  alone, for any dimension numbers, operand, scatter indices and update:

    * an operand index no update index lands on keeps the operand's value;
    * when the combining function returns the update, an operand index exactly one update index lands on holds that
      update's element;
    * update index j lands on operand index i exactly when, on every axis, i's coordinate is the start plus the window
      coordinate.

  From the third, an operand index differing from every landing on ONE axis is an index nothing lands on.
-/
import Idealize.ShloMosaic.PureOps.ShapeOps

namespace Cert.ScatterRead

open Idealize.ShloMosaic

variable {s si u : Shape} {α : Type} {w : Nat}

/-- One step of the fold a scatter is: update position n (row-major) overwrites the element it lands on. -/
def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- A scatter is the fold of its steps over the update positions in order. -/
theorem scatter_eq_foldl (d : ScatterDims s si u) (f : α → α → α) (x : s.Idx → α) (idx : IVec si w) (upd : u.Idx → α) :
    Host.scatter d f x idx upd = (List.finRange u.numel).foldl (step d f idx upd) x := rfl

/-- A step leaves every index other than the one it lands on as it was. -/
theorem step_of_ne (d : ScatterDims s si u) (f : α → α → α) (idx : IVec si w) (upd : u.Idx → α) (r : s.Idx → α)
    (n : Fin u.numel) (i : s.Idx) (h : d.resultIdx? (u.rowMajor.symm n) idx ≠ some i) :
    step d f idx upd r n i = r i := by
  unfold step
  cases hres : d.resultIdx? (u.rowMajor.symm n) idx with
  | none => rfl
  | some i0 =>
    have hne : i ≠ i0 := fun e => h (e ▸ hres)
    exact if_neg hne

/-- A step combines the element it lands on with the update's. -/
theorem step_of_eq (d : ScatterDims s si u) (f : α → α → α) (idx : IVec si w) (upd : u.Idx → α) (r : s.Idx → α)
    (n : Fin u.numel) (i : s.Idx) (h : d.resultIdx? (u.rowMajor.symm n) idx = some i) :
    step d f idx upd r n i = f (r i) (upd (u.rowMajor.symm n)) := by
  unfold step
  rw [h]
  exact if_pos rfl

/-- Folding steps none of which lands on i leaves the value at i. -/
theorem foldl_keep (d : ScatterDims s si u) (f : α → α → α) (idx : IVec si w) (upd : u.Idx → α)
    (l : List (Fin u.numel)) (x : s.Idx → α) (i : s.Idx)
    (h : ∀ n ∈ l, d.resultIdx? (u.rowMajor.symm n) idx ≠ some i) :
    l.foldl (step d f idx upd) x i = x i := by
  induction l generalizing x with
  | nil => rfl
  | cons n l ih =>
    rw [List.foldl_cons, ih _ (fun m hm => h m (List.mem_cons_of_mem _ hm)),
      step_of_ne d f idx upd x n i (h n List.mem_cons_self)]

/-- Folding overwriting steps over positions without repeats, exactly one of which lands on i, leaves that position's
    update at i. -/
theorem foldl_unique (d : ScatterDims s si u) (idx : IVec si w) (upd : u.Idx → α)
    (l : List (Fin u.numel)) (hl : l.Nodup) (x : s.Idx → α) (i : s.Idx) (n0 : Fin u.numel) (h0 : n0 ∈ l)
    (hland : d.resultIdx? (u.rowMajor.symm n0) idx = some i)
    (huniq : ∀ n ∈ l, d.resultIdx? (u.rowMajor.symm n) idx = some i → n = n0) :
    l.foldl (step d (fun _ b => b) idx upd) x i = upd (u.rowMajor.symm n0) := by
  induction l generalizing x with
  | nil => cases h0
  | cons n l ih =>
    rw [List.foldl_cons]
    rw [List.nodup_cons] at hl
    by_cases hn : n = n0
    · subst hn
      rw [foldl_keep d _ idx upd l _ i
        (fun m hm hm' => hl.1 ((huniq m (List.mem_cons_of_mem _ hm) hm') ▸ hm)),
        step_of_eq d _ idx upd x n i hland]
    · have h0' : n0 ∈ l := (List.mem_cons.1 h0).resolve_left (fun e => hn e.symm)
      exact ih hl.2 _ h0' (fun m hm => huniq m (List.mem_cons_of_mem _ hm))

/-- An operand index no update index lands on keeps the operand's value. -/
theorem scatter_apply_of_no_landing (d : ScatterDims s si u) (f : α → α → α) (x : s.Idx → α) (idx : IVec si w)
    (upd : u.Idx → α) (i : s.Idx) (h : ∀ j, d.resultIdx? j idx ≠ some i) :
    Host.scatter d f x idx upd i = x i :=
  foldl_keep d f idx upd _ x i (fun n _ => h _)

/-- When the combining function returns the update, an operand index that update index j0 lands on and no other does
    holds the update's element at j0. -/
theorem scatter_set_apply_of_unique (d : ScatterDims s si u) (x : s.Idx → α) (idx : IVec si w) (upd : u.Idx → α)
    (i : s.Idx) (j0 : u.Idx) (hland : d.resultIdx? j0 idx = some i)
    (huniq : ∀ j, d.resultIdx? j idx = some i → j = j0) :
    Host.scatter d (fun _ b => b) x idx upd i = upd j0 := by
  have key := foldl_unique d idx upd (List.finRange u.numel) (List.nodup_finRange _) x i (u.rowMajor j0)
    (List.mem_finRange _) (by rw [Equiv.symm_apply_apply]; exact hland)
    (fun n _ hn => by rw [← huniq _ hn, Equiv.apply_symm_apply])
  rw [Equiv.symm_apply_apply] at key
  exact key

/-- Update index j lands on operand index i exactly when, on every axis, i's coordinate is the start plus the window
    coordinate. -/
theorem resultIdx?_eq_some_iff (d : ScatterDims s si u) (idx : IVec si w) (j : u.Idx) (i : s.Idx) :
    d.resultIdx? j idx = some i ↔ ∀ a, d.start j idx a + (d.window j a : ℤ) = ((i a).val : ℤ) := by
  unfold ScatterDims.resultIdx?
  constructor
  · intro h a
    split at h
    · next hb =>
      have e := Option.some.inj h
      rw [← e]
      exact (Int.toNat_of_nonneg (hb a).1).symm
    · cases h
  · intro h
    have hb : ∀ a, 0 ≤ d.start j idx a + (d.window j a : ℤ) ∧ d.start j idx a + (d.window j a : ℤ) < s.size a :=
      fun a => by rw [h a]; exact ⟨Int.natCast_nonneg _, by exact_mod_cast (i a).isLt⟩
    rw [dif_pos hb]
    congr 1
    funext a
    apply Fin.ext
    show Int.toNat _ = (i a).val
    rw [h a]
    exact Int.toNat_natCast _

/-- An operand index whose coordinate on one axis differs from every landing's coordinate on that axis keeps the
    operand's value. -/
theorem scatter_apply_of_axis_ne (d : ScatterDims s si u) (f : α → α → α) (x : s.Idx → α) (idx : IVec si w)
    (upd : u.Idx → α) (i : s.Idx) (a : Fin s.rank)
    (h : ∀ j, d.start j idx a + (d.window j a : ℤ) ≠ ((i a).val : ℤ)) :
    Host.scatter d f x idx upd i = x i :=
  scatter_apply_of_no_landing d f x idx upd i
    (fun j hj => h j ((resultIdx?_eq_some_iff d idx j i).1 hj a))

end Cert.ScatterRead
-- ==== Proof.LibScatterSplit.lean ====
/-
  A scatter-add of rows, split at a row of the updates.

  A scatter-add of the E rows of an E × C array into an N × C matrix, driven by one E × 1 column of row numbers, adds
  to matrix entry (r, c) every update entry (e, c) whose row number, read as a signed integer without clamping, is r.
  Hence the sum of the updates landing on (r, c) is a sum over the update rows e alone, and when E = E0 + E1 that sum
  splits at E0 into the sum over the first E0 rows and the sum over the last E1 rows. Addition of extended reals is
  commutative and associative, so the split needs no finiteness assumption.
-/
import Idealize.ShloMosaic.Lib.ValueIdx
import Idealize.ShloMosaic.PureOps.Ideal
import proofs.«171555_j63479616635263_2_alg».proof.Proof.LibRowGather
import proofs.«171555_j63479616635263_2_alg».proof.Proof.LibScatterRead

noncomputable section

open scoped BigOperators

namespace Idealize.ShloMosaic.ValueIdx

open Idealize.ShloMosaic

/-- Along the row axis, the start of update entry `(e, l)` of a scatter of rows is the integer of row `e`, read signed. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (l : Fin C) :
    (rowScatterDims N E C wf).start (ix2 e l) idx (0 : Fin 2) = (idx (colEntry e)).toInt := by
  unfold ScatterDims.start
  rw [dif_pos (show (0 : Fin 2) ∈ (rowScatterDims N E C wf).scatterDimsToOperandDims from List.mem_singleton.mpr rfl)]
  have hsi : (rowScatterDims N E C wf).siIdx (ix2 e l) ⟨List.idxOf (0 : Fin 2) (rowScatterDims N E C wf).scatterDimsToOperandDims,
      List.idxOf_lt_length_iff.2 (List.mem_singleton.mpr rfl)⟩ = colEntry e := by
    funext b; refine Fin.ext ?_
    match b with
    | ⟨0, _⟩ => rfl
    | ⟨1, _⟩ => rfl
  rw [hsi]

/-- Along the row axis, the window coordinate of an update entry of a scatter of rows is zero. -/
theorem rowScatter_window0 {N E C : Nat}
    (wf : ScatterDims.WF ⟨2, ![N, C]⟩ ⟨2, ![E, 1]⟩ ⟨2, ![E, C]⟩ [1] [0] [0] 1) (e : Fin E) (l : Fin C) :
    (rowScatterDims N E C wf).window (ix2 e l) (0 : Fin 2) = 0 := by
  unfold ScatterDims.window
  rw [dif_neg (show (0 : Fin 2) ∉ (rowScatterDims N E C wf).sKept from (by decide : (0 : Fin 2) ∉ (List.finRange 2).filter (· ∉ ([0] : List (Fin 2)))))]

/-- Along the column axis, the start of an update entry of a scatter of rows is zero. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (l : Fin C) :
    (rowScatterDims N E C wf).start (ix2 e l) idx (1 : Fin 2) = 0 := by
  unfold ScatterDims.start
  rw [dif_neg (show (1 : Fin 2) ∉ ([0] : List (Fin 2)) by decide)]

/-- Along the column axis, the window coordinate of update entry `(e, l)` of a scatter of rows is `l`. -/
theorem rowScatter_window1 {N E C : Nat}
    (wf : ScatterDims.WF ⟨2, ![N, C]⟩ ⟨2, ![E, 1]⟩ ⟨2, ![E, C]⟩ [1] [0] [0] 1) (e : Fin E) (l : Fin C) :
    (rowScatterDims N E C wf).window (ix2 e l) (1 : Fin 2) = l.val := by
  unfold ScatterDims.window
  rw [dif_pos (show (1 : Fin 2) ∈ (rowScatterDims N E C wf).sKept from (by decide : (1 : Fin 2) ∈ (List.finRange 2).filter (· ∉ ([0] : List (Fin 2)))))]
  rfl

/-- WHERE A SCATTERED ROW LANDS, both ways: update entry `(e, l)` lands on matrix entry `i` exactly when the integer of
    row `e`, read signed, is the row number of `i` and `i` is in column `l`. -/
theorem scatter_rows_lands_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (l : Fin C) (i : (⟨2, ![N, C]⟩ : Shape).Idx) :
    (rowScatterDims N E C wf).resultIdx? (ix2 e l) idx = some i ↔
      (idx (colEntry e)).toInt = ((i 0).val : Int) ∧ (i 1).val = l.val := by
  constructor
  · exact scatter_rows_lands wf idx e l i
  · rintro ⟨h0, h1⟩
    rw [Cert.ScatterRead.resultIdx?_eq_some_iff]
    intro a
    match a with
    | ⟨0, _⟩ =>
      show (rowScatterDims N E C wf).start (ix2 e l) idx (0 : Fin 2)
        + (((rowScatterDims N E C wf).window (ix2 e l) (0 : Fin 2) : Nat) : Int) = ((i 0).val : Int)
      rw [rowScatter_start0, rowScatter_window0, h0]
      simp
    | ⟨1, _⟩ =>
      show (rowScatterDims N E C wf).start (ix2 e l) idx (1 : Fin 2)
        + (((rowScatterDims N E C wf).window (ix2 e l) (1 : Fin 2) : Nat) : Int) = ((i 1).val : Int)
      rw [rowScatter_start1, rowScatter_window1, h1]
      simp

/-- The updates of a scatter of rows that land on matrix entry `i`, summed: the sum over the update rows `e` whose
    integer, read signed, is the row number of `i`, of the update entry of row `e` in the column of `i`. -/
theorem scatter_rows_sum {N E C w : Nat}
    (wf : ScatterDims.WF ⟨2, ![N, C]⟩ ⟨2, ![E, 1]⟩ ⟨2, ![E, C]⟩ [1] [0] [0] 1)
    (idx : IVec ⟨2, ![E, 1]⟩ w) (upd : (⟨2, ![E, C]⟩ : Shape).Idx → EReal) (i : (⟨2, ![N, C]⟩ : Shape).Idx)
    [DecidablePred (fun j => (rowScatterDims N E C wf).resultIdx? j idx = some i)] :
    (∑ j ∈ Finset.univ.filter (fun j => (rowScatterDims N E C wf).resultIdx? j idx = some i), upd j)
      = ∑ e : Fin E, if (idx (colEntry e)).toInt = ((i 0).val : Int) then upd (ix2 e ⟨(i 1).val, idx2_lt1 i⟩) else 0 := by
  rw [Finset.sum_filter, sum_idx2]
  refine Finset.sum_congr rfl (fun e _ => ?_)
  by_cases h : (idx (colEntry e)).toInt = ((i 0).val : Int)
  · rw [if_pos h, Finset.sum_eq_single (⟨(i 1).val, idx2_lt1 i⟩ : Fin C)]
    · rw [if_pos ((scatter_rows_lands_iff wf idx e ⟨(i 1).val, idx2_lt1 i⟩ i).2 ⟨h, rfl⟩)]
    · intro l _ hl
      rw [if_neg]
      intro hh
      exact hl (Fin.ext ((scatter_rows_lands_iff wf idx e l i).1 hh).2.symm)
    · intro hh
      exact absurd (Finset.mem_univ _) hh
  · rw [if_neg h]
    refine Finset.sum_eq_zero (fun l _ => ?_)
    rw [if_neg]
    intro hh
    exact h ((scatter_rows_lands_iff wf idx e l i).1 hh).1

/-- A SCATTER-ADD OF ROWS SPLITS AT A ROW OF THE UPDATES. Let `E = E0 + E1`. Scatter-adding the `E` rows of an `E × C`
    array into an `N × C` matrix `x`, by one column of `E` row numbers, gives entry by entry the sum of two
    scatter-adds into `N × C` matrices `x0` and `x1` with `x = x0 + x1` entrywise: that of the first `E0` update rows with
    the first `E0` row numbers into `x0`, and that of the last `E1` update rows with the last `E1` row numbers into `x1`. -/
theorem scatterAdd_rows_split {N C E0 E1 E w : ℕ} (hE : E = E0 + E1)
    (wf : ScatterDims.WF ⟨2, ![N, C]⟩ ⟨2, ![E, 1]⟩ ⟨2, ![E, C]⟩ [1] [0] [0] 1)
    (wf0 : ScatterDims.WF ⟨2, ![N, C]⟩ ⟨2, ![E0, 1]⟩ ⟨2, ![E0, C]⟩ [1] [0] [0] 1)
    (wf1 : ScatterDims.WF ⟨2, ![N, C]⟩ ⟨2, ![E1, 1]⟩ ⟨2, ![E1, C]⟩ [1] [0] [0] 1)
    (x x0 x1 : (⟨2, ![N, C]⟩ : Shape).Idx → EReal) (hx : ∀ i, x i = x0 i + x1 i)
    (idx : IVec ⟨2, ![E, 1]⟩ w) (idx0 : IVec ⟨2, ![E0, 1]⟩ w) (idx1 : IVec ⟨2, ![E1, 1]⟩ w)
    (hi0 : ∀ e : Fin E0, idx0 (colEntry e) = idx (colEntry ⟨e.val, by omega⟩))
    (hi1 : ∀ e : Fin E1, idx1 (colEntry e) = idx (colEntry ⟨E0 + e.val, by omega⟩))
    (upd : (⟨2, ![E, C]⟩ : Shape).Idx → EReal) (upd0 : (⟨2, ![E0, C]⟩ : Shape).Idx → EReal)
    (upd1 : (⟨2, ![E1, C]⟩ : Shape).Idx → EReal)
    (hu0 : ∀ (e : Fin E0) (l : Fin C), upd0 (ix2 e l) = upd (ix2 ⟨e.val, by omega⟩ l))
    (hu1 : ∀ (e : Fin E1) (l : Fin C), upd1 (ix2 e l) = upd (ix2 ⟨E0 + e.val, by omega⟩ l)) :
    Ideal.hostScatterAdd (rowScatterDims N E C wf) x idx upd
      = fun i => Ideal.hostScatterAdd (rowScatterDims N E0 C wf0) x0 idx0 upd0 i
          + Ideal.hostScatterAdd (rowScatterDims N E1 C wf1) x1 idx1 upd1 i := by
  subst hE
  funext i
  unfold Ideal.hostScatterAdd
  rw [scatter_rows_sum wf idx upd i, scatter_rows_sum wf0 idx0 upd0 i, scatter_rows_sum wf1 idx1 upd1 i,
    Fin.sum_univ_add, hx i]
  have hA : (∑ e : Fin E0, if (idx (colEntry (Fin.castAdd E1 e))).toInt = ((i 0).val : Int)
        then upd (ix2 (Fin.castAdd E1 e) ⟨(i 1).val, idx2_lt1 i⟩) else 0)
      = ∑ e : Fin E0, if (idx0 (colEntry e)).toInt = ((i 0).val : Int) then upd0 (ix2 e ⟨(i 1).val, idx2_lt1 i⟩) else 0 :=
    Finset.sum_congr rfl (fun e _ => by rw [hi0 e, hu0 e ⟨(i 1).val, idx2_lt1 i⟩]; rfl)
  have hB : (∑ e : Fin E1, if (idx (colEntry (Fin.natAdd E0 e))).toInt = ((i 0).val : Int)
        then upd (ix2 (Fin.natAdd E0 e) ⟨(i 1).val, idx2_lt1 i⟩) else 0)
      = ∑ e : Fin E1, if (idx1 (colEntry e)).toInt = ((i 0).val : Int) then upd1 (ix2 e ⟨(i 1).val, idx2_lt1 i⟩) else 0 :=
    Finset.sum_congr rfl (fun e _ => by rw [hi1 e, hu1 e ⟨(i 1).val, idx2_lt1 i⟩]; rfl)
  rw [hA, hB]
  exact add_add_add_comm _ _ _ _

end Idealize.ShloMosaic.ValueIdx
-- ==== Proof.Ref.Linearity.lean ====
/-
  The sum of the neighbours' rows commutes with a matrix product.

  Fix two columns of E row numbers: one says, for each edge e, which row of an M-row matrix X the edge reads (the number
  clamped into the matrix), the other on which row of an N-row result the edge's row is added (an edge whose number is
  not a row of the result is dropped). The array "row r = sum of the rows X(src e) over the edges e with dst e = r"
  is linear in X row by row: for a matrix W it does not matter whether every row of X is multiplied by W first (and the
  sums then run over rows of W's width) or the summed rows are multiplied by W afterwards,

      Σ_k ( Σ_{e : dst e = r} X(src e, k) ) · W(k, j)  =  Σ_{e : dst e = r} Σ_k X(src e, k) · W(k, j).

  Over the extended reals this needs the entries of X and W to be real numbers: the two sides are then the same finite
  sum of real products, taken in two orders.
-/
import Idealize.ShloMosaic.PureOps.Ideal.Laws
import Idealize.ShloMosaic.Lib.ValueIdx
import proofs.«171555_j63479616635263_2_alg».proof.Proof.LibMatrixProduct
import proofs.«171555_j63479616635263_2_alg».proof.Proof.LibScatterSplit
import proofs.«171555_j63479616635263_2_alg».proof.Proof.LibERealSums

noncomputable section

open scoped BigOperators

namespace Cert.NeighbourSum

open Idealize.ShloMosaic Idealize.ShloMosaic.ValueIdx Cert.MatrixProduct

/-- Over the reals: a selected sum of rows, times a column, is the selected sum of the rows times the column. -/
theorem sum_ite_mul_real {E K : ℕ} (P : Fin E → Prop) [DecidablePred P] (x : Fin E → Fin K → ℝ) (w : Fin K → ℝ) :
    ∑ c, (∑ e, if P e then x e c else 0) * w c = ∑ e, if P e then ∑ c, x e c * w c else 0 := by
  simp only [Finset.sum_mul]
  rw [Finset.sum_comm]
  refine Finset.sum_congr rfl fun e _ => ?_
  by_cases h : P e
  · simp only [if_pos h]
  · simp only [if_neg h, zero_mul, Finset.sum_const_zero]

/-- The same over the extended reals, for real entries. -/
theorem sum_ite_mul_ereal {E K : ℕ} (P : Fin E → Prop) [DecidablePred P] (X : Fin E → Fin K → EReal) (W : Fin K → EReal)
    (hX : ∀ e c, ∃ r : ℝ, X e c = (r : EReal)) (hW : ∀ c, ∃ r : ℝ, W c = (r : EReal)) :
    ∑ c, (∑ e, if P e then X e c else 0) * W c = ∑ e, if P e then ∑ c, X e c * W c else 0 := by
  choose x hx using hX
  choose w hw using hW
  have h1 : ∀ c, (∑ e, if P e then X e c else 0) = ((∑ e, if P e then x e c else 0 : ℝ) : EReal) := fun c => by
    rw [Cert.Attn.coe_sum_univ]
    refine Finset.sum_congr rfl fun e _ => ?_
    by_cases h : P e
    · rw [if_pos h, if_pos h, hx]
    · rw [if_neg h, if_neg h, EReal.coe_zero]
  have h2 : ∀ e, (if P e then ∑ c, X e c * W c else 0) = ((if P e then ∑ c, x e c * w c else 0 : ℝ) : EReal) := fun e => by
    by_cases h : P e
    · rw [if_pos h, if_pos h, ← Cert.Attn.sum_coe_mul_coe]
      exact Finset.sum_congr rfl fun c _ => by rw [hx, hw]
    · rw [if_neg h, if_neg h, EReal.coe_zero]
  calc ∑ c, (∑ e, if P e then X e c else 0) * W c
      = ∑ c, ((∑ e, if P e then x e c else 0 : ℝ) : EReal) * ((w c : ℝ) : EReal) :=
        Finset.sum_congr rfl fun c _ => by rw [h1 c, hw c]
    _ = ((∑ c, (∑ e, if P e then x e c else 0) * w c : ℝ) : EReal) := Cert.Attn.sum_coe_mul_coe _ _
    _ = ((∑ e, if P e then ∑ c, x e c * w c else 0 : ℝ) : EReal) := by rw [sum_ite_mul_real P x w]
    _ = ∑ e, ((if P e then ∑ c, x e c * w c else 0 : ℝ) : EReal) := Cert.Attn.coe_sum_univ _
    _ = ∑ e, if P e then ∑ c, X e c * W c else 0 := Finset.sum_congr rfl fun e _ => (h2 e).symm

/-- THE SUM OF THE NEIGHBOURS' ROWS, READ AT AN ENTRY. Gathering rows of X by one column of row numbers and
    scatter-adding them into an array of zeros by another: entry (r, l) is the sum, over the edges whose second number
    is r, of X at (the first number clamped into X, l). -/
theorem neighbourSum_apply {N M E C w : ℕ} (hM : 0 < M)
    (gwf : GatherDims.WF ⟨2, ![M, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (z : FVec Ideal ⟨2, ![N, C]⟩ .f32) (hz : ∀ i, z i = 0) (X : FVec Ideal ⟨2, ![M, C]⟩ .f32)
    (iS iD : IVec ⟨2, ![E, 1]⟩ w) (r : Fin N) (l : Fin C) :
    Host.scatterAdd (F := Ideal) (rowScatterDims N E C swf) z iD (Host.gather (rowGatherDims M E C gwf) X iS) (ix2 r l)
      = ∑ e : Fin E, if (iD (colEntry e)).toInt = ((r.val : ℕ) : Int) then X (ix2 (clampRow hM iS e) l) else 0 := by
  show z (ix2 r l) + ∑ j ∈ Finset.univ.filter (fun j => (rowScatterDims N E C swf).resultIdx? j iD = some (ix2 r l)),
      Host.gather (rowGatherDims M E C gwf) X iS j = _
  rw [hz, zero_add, scatter_rows_sum swf iD _ (ix2 r l)]
  refine Finset.sum_congr rfl fun e _ => ?_
  show (if (iD (colEntry e)).toInt = ((r.val : ℕ) : Int) then Host.gather (rowGatherDims M E C gwf) X iS (ix2 e l) else 0) = _
  rw [gather_rows_apply hM gwf X iS e l]

/-- THE NEIGHBOUR SUM COMMUTES WITH A MATRIX PRODUCT, for real entries. -/
theorem mm_neighbourSum {N M E K H w : ℕ} (hM : 0 < M)
    (gK : GatherDims.WF ⟨2, ![M, K]⟩ ⟨2, ![E, 1]⟩ ⟨2, ![E, K]⟩ [1] [0] [] [0] [] 1 ![1, K])
    (sK : ScatterDims.WF ⟨2, ![N, K]⟩ ⟨2, ![E, 1]⟩ ⟨2, ![E, K]⟩ [1] [0] [0] 1)
    (gH : GatherDims.WF ⟨2, ![M, H]⟩ ⟨2, ![E, 1]⟩ ⟨2, ![E, H]⟩ [1] [0] [] [0] [] 1 ![1, H])
    (sH : ScatterDims.WF ⟨2, ![N, H]⟩ ⟨2, ![E, 1]⟩ ⟨2, ![E, H]⟩ [1] [0] [0] 1)
    (zK : FVec Ideal ⟨2, ![N, K]⟩ .f32) (hzK : ∀ i, zK i = 0) (zH : FVec Ideal ⟨2, ![N, H]⟩ .f32) (hzH : ∀ i, zH i = 0)
    (X : FVec Ideal ⟨2, ![M, K]⟩ .f32) (W : FVec Ideal ⟨2, ![K, H]⟩ .f32)
    (hX : ∀ i, ∃ r : ℝ, X i = (r : EReal)) (hW : ∀ i, ∃ r : ℝ, W i = (r : EReal))
    (iS iD : IVec ⟨2, ![E, 1]⟩ w) :
    mm (Host.scatterAdd (F := Ideal) (rowScatterDims N E K sK) zK iD (Host.gather (rowGatherDims M E K gK) X iS)) W
      = Host.scatterAdd (F := Ideal) (rowScatterDims N E H sH) zH iD (Host.gather (rowGatherDims M E H gH) (mm X W) iS) := by
  funext i
  obtain ⟨r, j, rfl⟩ : ∃ (r : Fin N) (j : Fin H), i = ix2 r j := ⟨i 0, i 1, eq_ix2 i⟩
  rw [mm_apply, neighbourSum_apply hM gH sH zH hzH (mm X W) iS iD r j]
  simp only [neighbourSum_apply hM gK sK zK hzK X iS iD r, mm_apply]
  exact sum_ite_mul_ereal (fun e => (iD (colEntry e)).toInt = ((r.val : ℕ) : Int))
    (fun e c => X (ix2 (clampRow hM iS e) c)) (fun c => W (ix2 c j)) (fun e c => hX _) (fun c => hW _)

end Cert.NeighbourSum

end
-- ==== Proof.Ref.Stages.lean ====
/-
  The reference program, stage by stage, is the specification's chain of whole-array functions.

  Its neighbour sums are the same host lines as the specification's (a gather along one column of edge endpoints, a
  scatter-add into zeros along the other): they are identified as whole terms, never opened. Each layer is then the
  specification's `conv`; the last layer's neighbour term, a product of summed rows, is the sum of the projected rows
  (linearity of the neighbour sum over real entries); the scaling is `scaled`; the indicator arrays are again the same
  host lines.
-/
import proofs.«171555_j63479616635263_2_alg».proof.Proof.Ref.HostForms
import proofs.«171555_j63479616635263_2_alg».proof.Proof.Ref.Linearity
import proofs.«171555_j63479616635263_2_alg».proof.Proof.Gen.ReferenceIdeal.Read

noncomputable section

open scoped BigOperators

namespace Cert.ReferenceIdeal.RefValue

open Idealize.ShloMosaic Idealize.ShloMosaic.ValueIdx Cert.MatrixProduct Cert.KernelIdeal.Spec Cert.RealArrays Cert.ReferenceIdeal.Read

variable [Cert.KernelIdeal.Facts₀] [Cert.ReferenceIdeal.Facts]

/-! ## The two programs' dimension records are the same data -/

theorem rec_g64L : Cert.ReferenceIdeal.gather_S50000x64_S800000x1_S800000x64_1_0_n_n_0_1_164 = Cert.KernelIdeal.gather_S50000x64_S800000x1_S800000x64_1_0_n_n_0_1_164 := rfl
theorem rec_g64R : Cert.ReferenceIdeal.gather_S100000x64_S800000x1_S800000x64_1_0_n_n_0_1_164 = Cert.KernelIdeal.gather_S100000x64_S800000x1_S800000x64_1_0_n_n_0_1_164 := rfl
theorem rec_g128L : Cert.ReferenceIdeal.gather_S50000x128_S800000x1_S800000x128_1_0_n_n_0_1_1128 = Cert.KernelIdeal.gather_S50000x128_S800000x1_S800000x128_1_0_n_n_0_1_1128 := rfl
theorem rec_g128R : Cert.ReferenceIdeal.gather_S100000x128_S800000x1_S800000x128_1_0_n_n_0_1_1128 = Cert.KernelIdeal.gather_S100000x128_S800000x1_S800000x128_1_0_n_n_0_1_1128 := rfl
theorem rec_s64R : Cert.ReferenceIdeal.scatter_S100000x64_S800000x1_S800000x64_1_0_0_1 = Cert.KernelIdeal.scatter_S100000x64_S800000x1_S800000x64_1_0_0_1 := rfl
theorem rec_s64L : Cert.ReferenceIdeal.scatter_S50000x64_S800000x1_S800000x64_1_0_0_1 = Cert.KernelIdeal.scatter_S50000x64_S800000x1_S800000x64_1_0_0_1 := rfl
theorem rec_s128R : Cert.ReferenceIdeal.scatter_S100000x128_S800000x1_S800000x128_1_0_0_1 = Cert.KernelIdeal.scatter_S100000x128_S800000x1_S800000x128_1_0_0_1 := rfl
theorem rec_s128L : Cert.ReferenceIdeal.scatter_S50000x128_S800000x1_S800000x128_1_0_0_1 = Cert.KernelIdeal.scatter_S50000x128_S800000x1_S800000x128_1_0_0_1 := rfl

/-! ## The columns of row numbers -/

theorem wrap_v5 (e : C Cert.KernelIdeal.S800000 .i32) : val_main_v5 (F := Ideal) e = wrap 50000#32 e := rfl
theorem wrap_v39 (e : C Cert.KernelIdeal.S800000 .i32) : val_main_v39 (F := Ideal) e = wrap 50000#32 e := rfl
theorem wrap_v73 (e : C Cert.KernelIdeal.S800000 .i32) : val_main_v73 (F := Ideal) e = wrap 50000#32 e := rfl
theorem wrap_v21 (e : C Cert.KernelIdeal.S800000 .i32) : val_main_v21 (F := Ideal) e = wrap 100000#32 e := rfl
theorem wrap_v55 (e : C Cert.KernelIdeal.S800000 .i32) : val_main_v55 (F := Ideal) e = wrap 100000#32 e := rfl
theorem wrap_v89 (e : C Cert.KernelIdeal.S800000 .i32) : val_main_v89 (F := Ideal) e = wrap 100000#32 e := rfl
theorem col_v8 (e : C Cert.KernelIdeal.S800000 .i32) : val_main_v8 (F := Ideal) e = col e := rfl
theorem col_v42 (e : C Cert.KernelIdeal.S800000 .i32) : val_main_v42 (F := Ideal) e = col e := rfl
theorem col_v76 (e : C Cert.KernelIdeal.S800000 .i32) : val_main_v76 (F := Ideal) e = col e := rfl
theorem col_v24 (e : C Cert.KernelIdeal.S800000 .i32) : val_main_v24 (F := Ideal) e = col e := rfl
theorem col_v58 (e : C Cert.KernelIdeal.S800000 .i32) : val_main_v58 (F := Ideal) e = col e := rfl
theorem col_v92 (e : C Cert.KernelIdeal.S800000 .i32) : val_main_v92 (F := Ideal) e = col e := rfl

/-! ## Layer 1 -/

theorem st_v9 (a : Args) : Cert.ReferenceIdeal.Read.val_main_v9 (F := Ideal) a.x_s a.eL a.eR = toR64 a.x_s a.eL a.eR := by
  unfold val_main_v9 val_main_v6 val_main_v7 val_main_cst toR64
  rw [wrap_v5, col_v8, rec_g64L, rec_s64R]

theorem st_v25 (a : Args) : Cert.ReferenceIdeal.Read.val_main_v25 (F := Ideal) a.x_t a.eL a.eR = toL64 a.x_t a.eL a.eR := by
  unfold val_main_v25 val_main_v22 val_main_v23 val_main_cst_3 toL64
  rw [wrap_v21, col_v24, rec_g64R, rec_s64L]

theorem st_r1 (a : Args) : Cert.ReferenceIdeal.Read.val_main_v33 (F := Ideal) a.x_s a.x_t a.eL a.eR a.w1lr_rel a.b1lr a.w1lr_root = r1 a := by
  unfold val_main_v33 val_main_v15 val_main_v13 val_main_v14 val_main_v12 val_main_v11 val_main_v10 val_main_call1_v0 val_main_call1_cst
  rw [st_v9]
  exact conv_host _ _ _ _ _ _ _ _ _ _

theorem st_l1 (a : Args) : Cert.ReferenceIdeal.Read.val_main_v32 (F := Ideal) a.x_s a.x_t a.eL a.eR a.w1rl_rel a.b1rl a.w1rl_root = l1 a := by
  unfold val_main_v32 val_main_v31 val_main_v29 val_main_v30 val_main_v28 val_main_v27 val_main_v26 val_main_call0_v0 val_main_call0_cst
  rw [st_v25]
  exact conv_host _ _ _ _ _ _ _ _ _ _

/-! ## Layer 2 -/

theorem st_v43 (a : Args) : Cert.ReferenceIdeal.Read.val_main_v43 (F := Ideal) a.x_s a.x_t a.eL a.eR a.w1rl_rel a.b1rl a.w1rl_root = toR128 (l1 a) a.eL a.eR := by
  unfold val_main_v43 val_main_v40 val_main_v41 val_main_cst_6 toR128
  rw [wrap_v39, col_v42, rec_g128L, rec_s128R, st_l1]

theorem st_v59 (a : Args) : Cert.ReferenceIdeal.Read.val_main_v59 (F := Ideal) a.x_s a.x_t a.eL a.eR a.w1lr_rel a.b1lr a.w1lr_root = toL128 (r1 a) a.eL a.eR := by
  unfold val_main_v59 val_main_v56 val_main_v57 val_main_cst_9 toL128
  rw [wrap_v55, col_v58, rec_g128R, rec_s128L, st_r1]

theorem st_r2 (a : Args) : Cert.ReferenceIdeal.Read.val_main_v67 (F := Ideal) a.x_s a.x_t a.eL a.eR a.w1lr_rel a.b1lr a.w1lr_root a.w1rl_rel a.b1rl a.w1rl_root a.w2lr_rel a.b2lr a.w2lr_root = r2 a := by
  unfold val_main_v67 val_main_v49 val_main_v47 val_main_v48 val_main_v46 val_main_v45 val_main_v44 val_main_call3_v0 val_main_call3_cst
  rw [st_v43, st_r1]
  exact conv_host _ _ _ _ _ _ _ _ _ _

theorem st_l2 (a : Args) : Cert.ReferenceIdeal.Read.val_main_v66 (F := Ideal) a.x_s a.x_t a.eL a.eR a.w1lr_rel a.b1lr a.w1lr_root a.w1rl_rel a.b1rl a.w1rl_root a.w2rl_rel a.b2rl a.w2rl_root = l2 a := by
  unfold val_main_v66 val_main_v65 val_main_v63 val_main_v64 val_main_v62 val_main_v61 val_main_v60 val_main_call2_v0 val_main_call2_cst
  rw [st_v59, st_l1]
  exact conv_host _ _ _ _ _ _ _ _ _ _

/-! ## Real entries through layers 1 and 2 -/

theorem real_toR64 (x : C Cert.KernelIdeal.S50000x64 .f32) (eL eR : C Cert.KernelIdeal.S800000 .i32) (hx : AllReal x) : AllReal (toR64 x eL eR) :=
  allReal_neighbourSum _ _ _ x _ _ hx
theorem real_toL64 (x : C Cert.KernelIdeal.S100000x64 .f32) (eL eR : C Cert.KernelIdeal.S800000 .i32) (hx : AllReal x) : AllReal (toL64 x eL eR) :=
  allReal_neighbourSum _ _ _ x _ _ hx
theorem real_toR128 (x : C Cert.KernelIdeal.S50000x128 .f32) (eL eR : C Cert.KernelIdeal.S800000 .i32) (hx : AllReal x) : AllReal (toR128 x eL eR) :=
  allReal_neighbourSum _ _ _ x _ _ hx
theorem real_toL128 (x : C Cert.KernelIdeal.S100000x128 .f32) (eL eR : C Cert.KernelIdeal.S800000 .i32) (hx : AllReal x) : AllReal (toL128 x eL eR) :=
  allReal_neighbourSum _ _ _ x _ _ hx

theorem real_r1 (a : Args) (hfin : a.Finite) : AllReal (r1 a) :=
  allReal_conv _ _ _ _ _ (real_toR64 _ _ _ hfin.x_s) hfin.x_t hfin.w1lr_rel hfin.w1lr_root (allReal_shapeCast _ _ hfin.b1lr)
theorem real_l1 (a : Args) (hfin : a.Finite) : AllReal (l1 a) :=
  allReal_conv _ _ _ _ _ (real_toL64 _ _ _ hfin.x_t) hfin.x_s hfin.w1rl_rel hfin.w1rl_root (allReal_shapeCast _ _ hfin.b1rl)
theorem real_r2 (a : Args) (hfin : a.Finite) : AllReal (r2 a) :=
  allReal_conv _ _ _ _ _ (real_toR128 _ _ _ (real_l1 a hfin)) (real_r1 a hfin) hfin.w2lr_rel hfin.w2lr_root (allReal_shapeCast _ _ hfin.b2lr)
theorem real_l2 (a : Args) (hfin : a.Finite) : AllReal (l2 a) :=
  allReal_conv _ _ _ _ _ (real_toL128 _ _ _ (real_r1 a hfin)) (real_l1 a hfin) hfin.w2rl_rel hfin.w2rl_root (allReal_shapeCast _ _ hfin.b2rl)

/-! ## Layer 3: the neighbour sum of the projected rows -/

/-- The specification's dimension records are the records of a gather / scatter of whole rows by one column. -/
theorem kg128L : Cert.KernelIdeal.gather_S50000x128_S800000x1_S800000x128_1_0_n_n_0_1_1128 = rowGatherDims 50000 800000 128 Cert.KernelIdeal.Facts₀.gather_S50000x128_S800000x1_S800000x128_1_0_n_n_0_1_1128_wf := rfl
theorem ks128R : Cert.KernelIdeal.scatter_S100000x128_S800000x1_S800000x128_1_0_0_1 = rowScatterDims 100000 800000 128 Cert.KernelIdeal.Facts₀.scatter_S100000x128_S800000x1_S800000x128_1_0_0_1_wf := rfl
theorem kg3L : Cert.KernelIdeal.gather_S50000x3_S800000x1_S800000x3_1_0_n_n_0_1_13 = rowGatherDims 50000 800000 3 Cert.KernelIdeal.Facts₀.gather_S50000x3_S800000x1_S800000x3_1_0_n_n_0_1_13_wf := rfl
theorem ks3R : Cert.KernelIdeal.scatter_S100000x3_S800000x1_S800000x3_1_0_0_1 = rowScatterDims 100000 800000 3 Cert.KernelIdeal.Facts₀.scatter_S100000x3_S800000x1_S800000x3_1_0_0_1_wf := rfl
theorem kg128R : Cert.KernelIdeal.gather_S100000x128_S800000x1_S800000x128_1_0_n_n_0_1_1128 = rowGatherDims 100000 800000 128 Cert.KernelIdeal.Facts₀.gather_S100000x128_S800000x1_S800000x128_1_0_n_n_0_1_1128_wf := rfl
theorem ks128L : Cert.KernelIdeal.scatter_S50000x128_S800000x1_S800000x128_1_0_0_1 = rowScatterDims 50000 800000 128 Cert.KernelIdeal.Facts₀.scatter_S50000x128_S800000x1_S800000x128_1_0_0_1_wf := rfl
theorem kg3R : Cert.KernelIdeal.gather_S100000x3_S800000x1_S800000x3_1_0_n_n_0_1_13 = rowGatherDims 100000 800000 3 Cert.KernelIdeal.Facts₀.gather_S100000x3_S800000x1_S800000x3_1_0_n_n_0_1_13_wf := rfl
theorem ks3L : Cert.KernelIdeal.scatter_S50000x3_S800000x1_S800000x3_1_0_0_1 = rowScatterDims 50000 800000 3 Cert.KernelIdeal.Facts₀.scatter_S50000x3_S800000x1_S800000x3_1_0_0_1_wf := rfl

theorem lin_R (X : C Cert.KernelIdeal.S50000x128 .f32) (W : C Cert.KernelIdeal.S128x3 .f32) (eL eR : C Cert.KernelIdeal.S800000 .i32) (hX : AllReal X) (hW : AllReal W) :
    mm (toR128 X eL eR) W = toR3 (mm X W) eL eR := by
  unfold toR128 toR3
  rw [kg128L, ks128R, kg3L, ks3R]
  exact Cert.NeighbourSum.mm_neighbourSum (N := 100000) (M := 50000) (E := 800000) (K := 128) (H := 3) (w := 32)
    (Nat.succ_pos _) Cert.KernelIdeal.Facts₀.gather_S50000x128_S800000x1_S800000x128_1_0_n_n_0_1_1128_wf Cert.KernelIdeal.Facts₀.scatter_S100000x128_S800000x1_S800000x128_1_0_0_1_wf Cert.KernelIdeal.Facts₀.gather_S50000x3_S800000x1_S800000x3_1_0_n_n_0_1_13_wf Cert.KernelIdeal.Facts₀.scatter_S100000x3_S800000x1_S800000x3_1_0_0_1_wf
    _ (zeros_apply _) _ (zeros_apply _) X W hX hW _ _

theorem lin_L (X : C Cert.KernelIdeal.S100000x128 .f32) (W : C Cert.KernelIdeal.S128x3 .f32) (eL eR : C Cert.KernelIdeal.S800000 .i32) (hX : AllReal X) (hW : AllReal W) :
    mm (toL128 X eL eR) W = toL3 (mm X W) eL eR := by
  unfold toL128 toL3
  rw [kg128R, ks128L, kg3R, ks3L]
  exact Cert.NeighbourSum.mm_neighbourSum (N := 50000) (M := 100000) (E := 800000) (K := 128) (H := 3) (w := 32)
    (Nat.succ_pos _) Cert.KernelIdeal.Facts₀.gather_S100000x128_S800000x1_S800000x128_1_0_n_n_0_1_1128_wf Cert.KernelIdeal.Facts₀.scatter_S50000x128_S800000x1_S800000x128_1_0_0_1_wf Cert.KernelIdeal.Facts₀.gather_S100000x3_S800000x1_S800000x3_1_0_n_n_0_1_13_wf Cert.KernelIdeal.Facts₀.scatter_S50000x3_S800000x1_S800000x3_1_0_0_1_wf
    _ (zeros_apply _) _ (zeros_apply _) X W hX hW _ _

theorem st_v77 (a : Args) : Cert.ReferenceIdeal.Read.val_main_v77 (F := Ideal) a.x_s a.x_t a.eL a.eR a.w1lr_rel a.b1lr a.w1lr_root a.w1rl_rel a.b1rl a.w1rl_root a.w2rl_rel a.b2rl a.w2rl_root = toR128 (l2 a) a.eL a.eR := by
  unfold val_main_v77 val_main_v74 val_main_v75 val_main_cst_12 toR128
  rw [wrap_v73, col_v76, rec_g128L, rec_s128R, st_l2]

theorem st_v93 (a : Args) : Cert.ReferenceIdeal.Read.val_main_v93 (F := Ideal) a.x_s a.x_t a.eL a.eR a.w1lr_rel a.b1lr a.w1lr_root a.w1rl_rel a.b1rl a.w1rl_root a.w2lr_rel a.b2lr a.w2lr_root = toL128 (r2 a) a.eL a.eR := by
  unfold val_main_v93 val_main_v90 val_main_v91 val_main_cst_15 toL128
  rw [wrap_v89, col_v92, rec_g128R, rec_s128L, st_r2]

theorem st_v83 (a : Args) (hfin : a.Finite) :
    Cert.ReferenceIdeal.Read.val_main_v83 (F := Ideal) a.x_s a.x_t a.eL a.eR a.w1lr_rel a.b1lr a.w1lr_root a.w1rl_rel a.b1rl a.w1rl_root a.w2lr_rel a.b2lr a.w2lr_root a.w2rl_rel a.b2rl a.w2rl_root a.w3lr_rel a.b3lr a.w3lr_root = pre3 (toR3 (pl2 a) a.eL a.eR) (r2 a) a.w3lr_root (row3 a.b3lr) := by
  unfold val_main_v83 val_main_v81 val_main_v82 val_main_v80 val_main_v79 val_main_v78
  rw [st_v77, st_r2]
  have h1 : Host.dotGeneral (F := Ideal) (φ₁ := .f32) (φ₂ := .f32) Cert.ReferenceIdeal.dot_S100000x128_S128x3_S100000x3_1_0_0_1_n_n none (toR128 (l2 a) a.eL a.eR) a.w3lr_rel
      = mm (toR128 (l2 a) a.eL a.eR) a.w3lr_rel := dotGeneral_eq_mm _ none _ _
  have h2 : mm (toR128 (l2 a) a.eL a.eR) a.w3lr_rel = toR3 (pl2 a) a.eL a.eR :=
    lin_R (l2 a) a.w3lr_rel a.eL a.eR (real_l2 a hfin) hfin.w3lr_rel
  rw [h1, h2]
  exact pre3_host _ _ _ _ _ _ _ _

theorem st_v99 (a : Args) (hfin : a.Finite) :
    Cert.ReferenceIdeal.Read.val_main_v99 (F := Ideal) a.x_s a.x_t a.eL a.eR a.w1lr_rel a.b1lr a.w1lr_root a.w1rl_rel a.b1rl a.w1rl_root a.w2lr_rel a.b2lr a.w2lr_root a.w2rl_rel a.b2rl a.w2rl_root a.w3rl_rel a.b3rl a.w3rl_root = pre3 (toL3 (pr2 a) a.eL a.eR) (l2 a) a.w3rl_root (row3 a.b3rl) := by
  unfold val_main_v99 val_main_v97 val_main_v98 val_main_v96 val_main_v95 val_main_v94
  rw [st_v93, st_l2]
  have h1 : Host.dotGeneral (F := Ideal) (φ₁ := .f32) (φ₂ := .f32) Cert.ReferenceIdeal.dot_S50000x128_S128x3_S50000x3_1_0_0_1_n_n none (toL128 (r2 a) a.eL a.eR) a.w3rl_rel
      = mm (toL128 (r2 a) a.eL a.eR) a.w3rl_rel := dotGeneral_eq_mm _ none _ _
  have h2 : mm (toL128 (r2 a) a.eL a.eR) a.w3rl_rel = toL3 (pr2 a) a.eL a.eR :=
    lin_L (r2 a) a.w3rl_rel a.eL a.eR (real_r2 a hfin) hfin.w3rl_rel
  rw [h1, h2]
  exact pre3_host _ _ _ _ _ _ _ _

/-! ## The indicator arrays: the same host lines -/

theorem st_knowL (x : C Cert.KernelIdeal.S50000x64 .f32) : val_main_v148 (F := Ideal) x = knowL x := by
  unfold val_main_v148 val_main_v147 val_main_cst_28 val_main_v146 val_main_v145 val_main_v142 val_main_v143 val_main_v144 val_main_v104 val_main_v109 val_main_v102 val_main_v107 val_main_v101 val_main_v106 val_main_v100 val_main_v105 val_main_v103 val_main_v108 val_main_cst_16 val_main_cst_17 val_main_v140 val_main_c_26 knowL
  with_reducible rfl

theorem st_knowR (x : C Cert.KernelIdeal.S100000x64 .f32) : val_main_v156 (F := Ideal) x = knowR x := by
  unfold val_main_v156 val_main_v155 val_main_cst_29 val_main_v154 val_main_v153 val_main_v150 val_main_v151 val_main_v152 val_main_v114 val_main_v119 val_main_v112 val_main_v117 val_main_v111 val_main_v116 val_main_v110 val_main_v115 val_main_v113 val_main_v118 val_main_cst_18 val_main_cst_19 val_main_v141 val_main_c_27 knowR
  with_reducible rfl

/-! ## The results -/

theorem st_left (a : Args) (hfin : a.Finite) : Cert.ReferenceIdeal.Read.val_main_v149 (F := Ideal) a.x_s a.x_t a.eL a.eR a.w1lr_rel a.b1lr a.w1lr_root a.w1rl_rel a.b1rl a.w1rl_root a.w2lr_rel a.b2lr a.w2lr_root a.w2rl_rel a.b2rl a.w2rl_root a.w3rl_rel a.b3rl a.w3rl_root = left a := by
  unfold val_main_v149 val_main_v129 val_main_v127 val_main_v126 val_main_v125 val_main_v123 val_main_v122 val_main_v121 val_main_v120 val_main_v124 val_main_cst_21 val_main_cst_20 val_main_v128 val_main_cst_22
  rw [st_v99 a hfin, st_knowL]
  exact scaled_host _ _ _ (by decide) _ _ _ _ _

theorem st_right (a : Args) (hfin : a.Finite) : Cert.ReferenceIdeal.Read.val_main_v157 (F := Ideal) a.x_s a.x_t a.eL a.eR a.w1lr_rel a.b1lr a.w1lr_root a.w1rl_rel a.b1rl a.w1rl_root a.w2lr_rel a.b2lr a.w2lr_root a.w2rl_rel a.b2rl a.w2rl_root a.w3lr_rel a.b3lr a.w3lr_root = right a := by
  unfold val_main_v157 val_main_v139 val_main_v137 val_main_v136 val_main_v135 val_main_v133 val_main_v132 val_main_v131 val_main_v130 val_main_v134 val_main_cst_24 val_main_cst_23 val_main_v138 val_main_cst_25
  rw [st_v83 a hfin, st_knowR]
  exact scaled_host _ _ _ (by decide) _ _ _ _ _

end Cert.ReferenceIdeal.RefValue

end
-- ==== Proof.Ref.RefRun.lean ====
/-
  The reference program's run, stated through the specification.

  Every weakly fair execution of the reference terminates with its two results at the specification's `left` and
  `right` of its own argument arrays, and the arguments unchanged — provided every entry of the float arguments is a
  real number (the last layer's neighbour sum is moved across a matrix product, which needs real entries).
-/
import proofs.«171555_j63479616635263_2_alg».proof.Proof.Ref.Stages

noncomputable section

namespace Cert.ReferenceIdeal.RefValue

open Cert.ReferenceIdeal Idealize.ShloMosaic Idealize.ShloMosaic.TcCoe Idealize.SL.Sem Cert.KernelIdeal.Spec

variable [Cert.KernelIdeal.Facts₀] [Cert.ReferenceIdeal.Facts]

/-- The reference's twenty-two argument arrays on one core, in the program's order. -/
def argsOf (m' : (ℓ : Loc nD τ sig) → Buf (Elt Ideal) ℓ) (c : Dev nD) : Args where
  x_s := m' ((c.tc : Thread nD τ).loc main_arg0)
  x_t := m' ((c.tc : Thread nD τ).loc main_arg1)
  eL := m' ((c.tc : Thread nD τ).loc main_arg2)
  eR := m' ((c.tc : Thread nD τ).loc main_arg3)
  w1lr_rel := m' ((c.tc : Thread nD τ).loc main_arg4)
  b1lr := m' ((c.tc : Thread nD τ).loc main_arg5)
  w1lr_root := m' ((c.tc : Thread nD τ).loc main_arg6)
  w1rl_rel := m' ((c.tc : Thread nD τ).loc main_arg7)
  b1rl := m' ((c.tc : Thread nD τ).loc main_arg8)
  w1rl_root := m' ((c.tc : Thread nD τ).loc main_arg9)
  w2lr_rel := m' ((c.tc : Thread nD τ).loc main_arg10)
  b2lr := m' ((c.tc : Thread nD τ).loc main_arg11)
  w2lr_root := m' ((c.tc : Thread nD τ).loc main_arg12)
  w2rl_rel := m' ((c.tc : Thread nD τ).loc main_arg13)
  b2rl := m' ((c.tc : Thread nD τ).loc main_arg14)
  w2rl_root := m' ((c.tc : Thread nD τ).loc main_arg15)
  w3lr_rel := m' ((c.tc : Thread nD τ).loc main_arg16)
  b3lr := m' ((c.tc : Thread nD τ).loc main_arg17)
  w3lr_root := m' ((c.tc : Thread nD τ).loc main_arg18)
  w3rl_rel := m' ((c.tc : Thread nD τ).loc main_arg19)
  b3rl := m' ((c.tc : Thread nD τ).loc main_arg20)
  w3rl_root := m' ((c.tc : Thread nD τ).loc main_arg21)

/-- The reference's run: results at the specification's values of the arguments, arguments unchanged. -/
theorem run_spec (m' : (ℓ : Loc nD τ sig) → Buf (Elt Ideal) ℓ) (ρ' : Dev nD → PrngReg) (hfin : ∀ c, (argsOf m' c).Finite) :
    θ_run (defs (F := Ideal)) (onTc (τ := τ) (main (F := Ideal))) ⟨m', fun _ => 0, ρ'⟩ (fun r => ∀ c : Dev nD,
      r.2.mem ((c.tc : Thread nD τ).loc main_v149) = left (argsOf m' c)
      ∧ r.2.mem ((c.tc : Thread nD τ).loc main_v157) = right (argsOf m' c)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)) :=
  (θ_run (defs (F := Ideal)) _ _).mono (fun _ h c =>
    ⟨(h c).1.trans ((Cert.ReferenceIdeal.Read.val_main_v149_eq m' c).trans (st_left (argsOf m' c) (hfin c))),
     (h c).2.1.trans ((Cert.ReferenceIdeal.Read.val_main_v157_eq m' c).trans (st_right (argsOf m' c) (hfin c))),
     (h c).2.2⟩)
    (Cert.ReferenceIdeal.Value.run (F := Ideal) m' ρ')

end Cert.ReferenceIdeal.RefValue

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.Ref.Finite.lean ====
/-
  The finiteness precondition says every entry of every float argument is a real number.

  The precondition is one bit: the conjunction, over the twenty float arguments, of "every entry x of the argument has
  |x| below the float word of +∞". A conjunction of bits is 1 only if both are; a conjunction over all entries of an
  array is 1 only if the bit of every entry is; and |x| < +∞ on the extended reals means x is a real number.
-/
import proofs.«171555_j63479616635263_2_alg».proof.Proof.KernelSpec
import proofs.«171555_j63479616635263_2_alg».proof.Pre_finite_inputs
import proofs.«171555_j63479616635263_2_alg».proof.Proof.LibFiniteEntry
import Idealize.ShloMosaic.Lib.ReduceAll
import Idealize.ShloMosaic.Lib.Affine

noncomputable section

namespace Cert.KernelIdeal.Spec

open Idealize.ShloMosaic

variable [Cert.KernelIdeal.Facts₀] [Cert.Pre_finite_inputs.Facts]

instance : Subsingleton (⟨0, ![]⟩ : Shape).Idx := ⟨fun _ _ => funext fun d => d.elim0⟩

/-- If the conjunction over all entries of "|x| is below the word of +∞" is 1, every entry of `x` is a real. -/
theorem real_of_all {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (init : IVec ⟨0, ![]⟩ 1) (j : (⟨0, ![]⟩ : Shape).Idx)
    (e : Host.reduce IntOp.andi (cmpf (F := Ideal) .olt (Host.absf x)
        (broadcastInDim s (![] : Fin 0 → Fin s.rank) hb (constant (F := Ideal) ⟨0, ![]⟩ .f32 0x7F800000#32))) init hr hu j = 1#1)
    (i : s.Idx) : ∃ r : ℝ, x i = (r : EReal) :=
  Ideal.real_of_abs_lt_inf (x i) (Host.reduce_andi_all _ init hr hu j e i)

/-- The finiteness precondition gives real entries in every float argument. -/
theorem finite_of_pre (a : Args)
    (h : Cert.Pre_finite_inputs.fn (F := Ideal) a.x_s a.x_t a.eL a.eR a.w1lr_rel a.b1lr a.w1lr_root a.w1rl_rel a.b1rl a.w1rl_root
        a.w2lr_rel a.b2lr a.w2lr_root a.w2rl_rel a.b2rl a.w2rl_root a.w3lr_rel a.b3lr a.w3lr_root a.w3rl_rel a.b3rl a.w3rl_root
      = (fun _ => 1#1)) : a.Finite := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  obtain ⟨h0, e21⟩ := IntOp.andi_eq_one.1 h0
  obtain ⟨h0, e20⟩ := IntOp.andi_eq_one.1 h0
  obtain ⟨h0, e19⟩ := IntOp.andi_eq_one.1 h0
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e1⟩ := IntOp.andi_eq_one.1 h0
  exact
    { x_s := real_of_all _ _ _ _ _ _ e0
      x_t := real_of_all _ _ _ _ _ _ e1
      w1lr_rel := real_of_all _ _ _ _ _ _ e4
      b1lr := real_of_all _ _ _ _ _ _ e5
      w1lr_root := real_of_all _ _ _ _ _ _ e6
      w1rl_rel := real_of_all _ _ _ _ _ _ e7
      b1rl := real_of_all _ _ _ _ _ _ e8
      w1rl_root := real_of_all _ _ _ _ _ _ e9
      w2lr_rel := real_of_all _ _ _ _ _ _ e10
      b2lr := real_of_all _ _ _ _ _ _ e11
      w2lr_root := real_of_all _ _ _ _ _ _ e12
      w2rl_rel := real_of_all _ _ _ _ _ _ e13
      b2rl := real_of_all _ _ _ _ _ _ e14
      w2rl_root := real_of_all _ _ _ _ _ _ e15
      w3lr_rel := real_of_all _ _ _ _ _ _ e16
      b3lr := real_of_all _ _ _ _ _ _ e17
      w3lr_root := real_of_all _ _ _ _ _ _ e18
      w3rl_rel := real_of_all _ _ _ _ _ _ e19
      b3rl := real_of_all _ _ _ _ _ _ e20
      w3rl_root := real_of_all _ _ _ _ _ _ e21 }

end Cert.KernelIdeal.Spec

end
-- ==== Proof.Ref.Pre.lean ====
/-
  From the certificate's precondition to "every entry of the reference's float arguments is a real number".

  The precondition is stated of a memory, core by core; the reference's argument record on a core holds that memory's
  argument buffers, so the precondition at a core is the precondition of the record. When it is stated of the kernel's
  memory and the two memories agree on the arguments, the agreement carries it over.
-/
import proofs.«171555_j63479616635263_2_alg».proof.Defs
import proofs.«171555_j63479616635263_2_alg».proof.Proof.Ref.RefRun
import proofs.«171555_j63479616635263_2_alg».proof.Proof.Ref.Finite

noncomputable section

namespace Cert.ReferenceIdeal.RefValue

open Idealize.ShloMosaic Idealize.ShloMosaic.TcCoe Idealize.SL.Sem Cert.KernelIdeal.Spec

variable [Cert.KernelIdeal.Facts₀] [Cert.Pre_finite_inputs.Facts]

/-- The precondition of the reference's memory gives real entries in its argument record on every core. -/
theorem finite_of_Pre_ReferenceIdeal
    (m' : (ℓ : Loc Cert.ReferenceIdeal.nD Cert.ReferenceIdeal.τ Cert.ReferenceIdeal.sig) → Buf (Elt Ideal) ℓ)
    (h : Cert.Pre_ReferenceIdeal m') : ∀ c, (argsOf m' c).Finite :=
  fun c => finite_of_pre (argsOf m' c) (h c)

/-- The precondition of the kernel's memory, and agreement of the two memories on the arguments, give the same. -/
theorem finite_of_Pre_KernelIdeal
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    ∀ c, (argsOf m' c).Finite := fun c => by
  obtain ⟨h0, h1, h2, h3, h4, h5, h6, h7, h8, h9, h10, h11, h12, h13, h14, h15, h16, h17, h18, h19, h20, h21⟩ := hagree c
  have h := hpre c
  rw [← h0, ← h1, ← h2, ← h3, ← h4, ← h5, ← h6, ← h7, ← h8, ← h9, ← h10, ← h11, ← h12, ← h13, ← h14, ← h15, ← h16, ← h17, ← h18, ← h19, ← h20, ← h21] at h
  exact finite_of_pre (argsOf m' c) h

end Cert.ReferenceIdeal.RefValue

end
-- ==== Proof.RefRead.lean ====
import proofs.«171555_j63479616635263_2_alg».proof.Proof.Gen.ReferenceIdeal.Read

/-! The reference's run, read one operation at a time (generated modules imported here). -/
-- ==== Proof.lean ====
/-
  A three-layer bipartite graph convolution (GraphConv in both directions, the positive part after layers 1 and 2,
  then rows scaled to length 10 minus a 0/10 indicator array), as six kernel launches among host gathers and
  segment sums, against its plain array reference, at the exact extended reals.

  What differs between the two programs is the ORDER of operations only. Each launch computes, for a block of 5000
  nodes, max(A·Wrel + X·Wroot + b, 0) of the neighbour sums A and the nodes' own rows X — the reference computes
  (A·Wrel + b) + X·Wroot: addition on the extended reals is commutative and associative. In layer 3 the kernel program
  multiplies by the neighbour weight BEFORE gathering and summing over the edges (rows of width 3 instead of 128):
  the neighbour sum is linear, Σ_{e lands on n} Σ_k X(src e, k)·W(k, j) = Σ_k (Σ_{e lands on n} X(src e, k))·W(k, j),
  which on the extended reals needs every entry real — the precondition, carried through two layers. The scaling
  v·10 / max(‖v‖, ε) against (v / max(‖v‖, ε))·10 is an identity for a non-zero divisor.

  The three frames: the two kernel programs' runs are composed segment by segment (seven stretches of host operations,
  six launches; Proof/K/Run.lean and Proof/KI/Run.lean); the reference's frame is its run with the results dropped.
  The algebraic claim: the idealized kernel program's results, read boundary by boundary, are Spec.left / Spec.right of
  the arguments (Proof/KI/KernelRun.lean), and so are the reference's (Proof/Ref/RefRun.lean).
-/
import proofs.«171555_j63479616635263_2_alg».proof.Defs
import proofs.«171555_j63479616635263_2_alg».proof.Proof.Gen.Kernel
import proofs.«171555_j63479616635263_2_alg».proof.Proof.Gen.KernelIdeal
import proofs.«171555_j63479616635263_2_alg».proof.Proof.Gen.ReferenceIdeal
import proofs.«171555_j63479616635263_2_alg».proof.Proof.Gen.Pre_finite_inputs
import proofs.«171555_j63479616635263_2_alg».proof.Proof.K.Run
import proofs.«171555_j63479616635263_2_alg».proof.Proof.KI.Run
import proofs.«171555_j63479616635263_2_alg».proof.Proof.KI.KernelRun
import proofs.«171555_j63479616635263_2_alg».proof.Proof.Ref.RefRun
import proofs.«171555_j63479616635263_2_alg».proof.Proof.Ref.Pre
import proofs.«171555_j63479616635263_2_alg».proof.Proof.RefRead
import Idealize.ShloMosaic.Adequacy
import Idealize.ShloMosaic.Init

noncomputable section

namespace Cert.Proof

open Idealize.ShloMosaic Idealize.SL.Sem

/-- The word-level program runs to the end and keeps its arguments. -/
theorem frame_k : Cert.frame_Kernel := fun m g _ => Cert.Kernel.Hand.frame m g
/-- So does the idealized one. -/
theorem frame_ki : Cert.frame_KernelIdeal := fun m g _ => Cert.KernelIdeal.Hand.frame m g
/-- The reference's frame is its run with the two results dropped. -/
theorem frame_ri : Cert.frame_ReferenceIdeal := fun m g hpre =>
  (θ_run Cert.ReferenceIdeal.defs _ _).mono (fun _ h c => (h c).2.2)
    (Cert.ReferenceIdeal.RefValue.run_spec m g (Cert.ReferenceIdeal.RefValue.finite_of_Pre_ReferenceIdeal m hpre))

/-- From memories that agree on the arguments the two idealized programs end with the same two results. -/
theorem algebraic : Cert.algebraic_KernelIdeal_ReferenceIdeal := by
  intro m g m' g' hpre hagree
  have hargs : ∀ c, Cert.ReferenceIdeal.RefValue.argsOf m' c = Cert.KernelIdeal.Hand.argsOf m c := fun c => by
    obtain ⟨h0, h1, h2, h3, h4, h5, h6, h7, h8, h9, h10, h11, h12, h13, h14, h15, h16, h17, h18, h19, h20, h21⟩ := hagree c
    unfold Cert.ReferenceIdeal.RefValue.argsOf Cert.KernelIdeal.Hand.argsOf
    rw [h0, h1, h2, h3, h4, h5, h6, h7, h8, h9, h10, h11, h12, h13, h14, h15, h16, h17, h18, h19, h20, h21]
  refine ⟨fun c => Cert.KernelIdeal.Spec.left (Cert.KernelIdeal.Hand.argsOf m c),
    fun c => Cert.KernelIdeal.Spec.right (Cert.KernelIdeal.Hand.argsOf m c),
    Cert.KernelIdeal.Hand.run_values m g, ?_⟩
  refine (θ_run Cert.ReferenceIdeal.defs _ _).mono (fun r h c => ⟨(h c).1.trans (by rw [hargs c]), (h c).2.1.trans (by rw [hargs c]), (h c).2.2⟩)
    (Cert.ReferenceIdeal.RefValue.run_spec m' g' (Cert.ReferenceIdeal.RefValue.finite_of_Pre_KernelIdeal m m' hpre hagree))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
